-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 2048]⟩ ⟨2, ![512, 2048]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S2048x512 : Shape := ⟨2, ![2048, 512]⟩
abbrev S2048x2048 : Shape := ⟨2, ![2048, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x512 .f32) (main_arg1 : FVec F S2048x2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S128x2048 : Shape := ⟨2, ![128, 2048]⟩
abbrev S512x256 : Shape := ⟨2, ![512, 256]⟩
abbrev S3x128x256 : Shape := ⟨3, ![3, 128, 256]⟩
abbrev S8x128x256 : Shape := ⟨3, ![8, 128, 256]⟩
abbrev S3 : Shape := ⟨1, ![3]⟩
abbrev S7 : Shape := ⟨1, ![7]⟩
abbrev S_ : Shape := ⟨0, ![]⟩
abbrev S1 : Shape := ⟨1, ![1]⟩
abbrev S1x128x256 : Shape := ⟨3, ![1, 128, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S128x2048, .f32⟩
  | .local _ .vmem, ⟨0, _⟩ => ⟨S512x512, .f32⟩
  | .local _ .vmem, ⟨1, _⟩ => ⟨S512x2048, .f32⟩
  | .local _ .vmem, ⟨2, _⟩ => ⟨S128x2048, .f32⟩
  | .local _ .vmem, ⟨3, _⟩ => ⟨S512x256, .bf16⟩
  | .local _ .vmem, ⟨4, _⟩ => ⟨S3x128x256, .bf16⟩
  | .local _ .vmem, ⟨5, _⟩ => ⟨S8x128x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  { ofTc nBuf bufTy 1 23 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v14 : BitVec 32 := Scalar.muli v2 c16_i32_6
  let v15 : BitVec 32 := Scalar.addi c0_i32 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v12 : BitVec 32 := Scalar.addi v5 c1_i32_3
  let c4_i32_4 : BitVec 32 := 4#32
  let v13 : BitVec 32 := Scalar.remsi v12 c4_i32_4
  let c4_i32_7 : BitVec 32 := 4#32
  let v16 : BitVec 32 := Scalar.muli v13 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v22 : BitVec 32 := Scalar.muli v2 c16_i32_12
  let v23 : BitVec 32 := Scalar.addi c0_i32_13 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_9 : BitVec 32 := 2#32
  let v20 : BitVec 32 := Scalar.addi v5 c2_i32_9
  let c4_i32_10 : BitVec 32 := 4#32
  let v21 : BitVec 32 := Scalar.remsi v20 c4_i32_10
  let c4_i32_14 : BitVec 32 := 4#32
  let v24 : BitVec 32 := Scalar.muli v21 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v30 : BitVec 32 := Scalar.muli v2 c16_i32_18
  let v31 : BitVec 32 := Scalar.addi c0_i32_19 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v28 : BitVec 32 := Scalar.addi v5 c3_i32
  let c4_i32_16 : BitVec 32 := 4#32
  let v29 : BitVec 32 := Scalar.remsi v28 c4_i32_16
  let c4_i32_20 : BitVec 32 := 4#32
  let v32 : BitVec 32 := Scalar.muli v29 c4_i32_20
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v34 : BitVec 32 := Scalar.muli v8 c1_i32_21
  let v35 : BitVec 32 := Scalar.addi v33 v34
  v35.toNat
def k0_dev4 (d0 : Dev nD) : Nat :=
  let c0_i32_33 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c1_i32_22 : BitVec 32 := 1#32
  let v36 : BitVec 32 := Scalar.addi v10 c1_i32_22
  let c8_i32 : BitVec 32 := 8#32
  let v37 : BitVec 32 := Scalar.remsi v36 c8_i32
  let c2_i32_23 : BitVec 32 := 2#32
  let v38 : BitVec 32 := Scalar.remsi v37 c2_i32_23
  let c16_i32_32 : BitVec 32 := 16#32
  let v56 : BitVec 32 := Scalar.muli v38 c16_i32_32
  let v57 : BitVec 32 := Scalar.addi c0_i32_33 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v58 : BitVec 32 := Scalar.muli v5 c4_i32_34
  let v59 : BitVec 32 := Scalar.addi v57 v58
  let c0_i32_25 : BitVec 32 := 0#32
  let v40 : BitVec 1 := Scalar.cmpi .sgt v37 c0_i32_25
  let v41 : BitVec 32 := Scalar.extui v40
  let c0_i32_26 : BitVec 32 := 0#32
  let v42 : BitVec 1 := Scalar.cmpi .slt v37 c0_i32_26
  let v43 : BitVec 32 := Scalar.extui v42
  let v44 : BitVec 32 := Scalar.subi v41 v43
  let c2_i32_24 : BitVec 32 := 2#32
  let c0_i32_27 : BitVec 32 := 0#32
  let v45 : BitVec 1 := Scalar.cmpi .sgt c2_i32_24 c0_i32_27
  let v46 : BitVec 32 := Scalar.extui v45
  let c0_i32_28 : BitVec 32 := 0#32
  let v47 : BitVec 1 := Scalar.cmpi .slt c2_i32_24 c0_i32_28
  let v48 : BitVec 32 := Scalar.extui v47
  let v49 : BitVec 32 := Scalar.subi v46 v48
  let v50 : BitVec 1 := Scalar.cmpi .ne v44 v49
  let v51 : BitVec 32 := Scalar.remsi v37 c2_i32_24
  let c0_i32_29 : BitVec 32 := 0#32
  let v52 : BitVec 1 := Scalar.cmpi .ne v51 c0_i32_29
  let v53 : BitVec 1 := Scalar.andi v50 v52
  let v39 : BitVec 32 := Scalar.divsi v37 c2_i32_24
  let c1_i32_30 : BitVec 32 := 1#32
  let v54 : BitVec 32 := Scalar.subi v39 c1_i32_30
  let v55 : BitVec 32 := Scalar.select v53 v54 v39
  let c1_i32_35 : BitVec 32 := 1#32
  let v60 : BitVec 32 := Scalar.muli v55 c1_i32_35
  let v61 : BitVec 32 := Scalar.addi v59 v60
  v61.toNat
def k0_dev5 (d0 : Dev nD) : Nat :=
  let c0_i32_48 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c2_i32_36 : BitVec 32 := 2#32
  let v62 : BitVec 32 := Scalar.addi v10 c2_i32_36
  let c8_i32_37 : BitVec 32 := 8#32
  let v63 : BitVec 32 := Scalar.remsi v62 c8_i32_37
  let c2_i32_38 : BitVec 32 := 2#32
  let v64 : BitVec 32 := Scalar.remsi v63 c2_i32_38
  let c16_i32_47 : BitVec 32 := 16#32
  let v82 : BitVec 32 := Scalar.muli v64 c16_i32_47
  let v83 : BitVec 32 := Scalar.addi c0_i32_48 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v84 : BitVec 32 := Scalar.muli v5 c4_i32_49
  let v85 : BitVec 32 := Scalar.addi v83 v84
  let c0_i32_40 : BitVec 32 := 0#32
  let v66 : BitVec 1 := Scalar.cmpi .sgt v63 c0_i32_40
  let v67 : BitVec 32 := Scalar.extui v66
  let c0_i32_41 : BitVec 32 := 0#32
  let v68 : BitVec 1 := Scalar.cmpi .slt v63 c0_i32_41
  let v69 : BitVec 32 := Scalar.extui v68
  let v70 : BitVec 32 := Scalar.subi v67 v69
  let c2_i32_39 : BitVec 32 := 2#32
  let c0_i32_42 : BitVec 32 := 0#32
  let v71 : BitVec 1 := Scalar.cmpi .sgt c2_i32_39 c0_i32_42
  let v72 : BitVec 32 := Scalar.extui v71
  let c0_i32_43 : BitVec 32 := 0#32
  let v73 : BitVec 1 := Scalar.cmpi .slt c2_i32_39 c0_i32_43
  let v74 : BitVec 32 := Scalar.extui v73
  let v75 : BitVec 32 := Scalar.subi v72 v74
  let v76 : BitVec 1 := Scalar.cmpi .ne v70 v75
  let v77 : BitVec 32 := Scalar.remsi v63 c2_i32_39
  let c0_i32_44 : BitVec 32 := 0#32
  let v78 : BitVec 1 := Scalar.cmpi .ne v77 c0_i32_44
  let v79 : BitVec 1 := Scalar.andi v76 v78
  let v65 : BitVec 32 := Scalar.divsi v63 c2_i32_39
  let c1_i32_45 : BitVec 32 := 1#32
  let v80 : BitVec 32 := Scalar.subi v65 c1_i32_45
  let v81 : BitVec 32 := Scalar.select v79 v80 v65
  let c1_i32_50 : BitVec 32 := 1#32
  let v86 : BitVec 32 := Scalar.muli v81 c1_i32_50
  let v87 : BitVec 32 := Scalar.addi v85 v86
  v87.toNat
def k0_dev6 (d0 : Dev nD) : Nat :=
  let c0_i32_63 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c3_i32_51 : BitVec 32 := 3#32
  let v88 : BitVec 32 := Scalar.addi v10 c3_i32_51
  let c8_i32_52 : BitVec 32 := 8#32
  let v89 : BitVec 32 := Scalar.remsi v88 c8_i32_52
  let c2_i32_53 : BitVec 32 := 2#32
  let v90 : BitVec 32 := Scalar.remsi v89 c2_i32_53
  let c16_i32_62 : BitVec 32 := 16#32
  let v108 : BitVec 32 := Scalar.muli v90 c16_i32_62
  let v109 : BitVec 32 := Scalar.addi c0_i32_63 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v110 : BitVec 32 := Scalar.muli v5 c4_i32_64
  let v111 : BitVec 32 := Scalar.addi v109 v110
  let c0_i32_55 : BitVec 32 := 0#32
  let v92 : BitVec 1 := Scalar.cmpi .sgt v89 c0_i32_55
  let v93 : BitVec 32 := Scalar.extui v92
  let c0_i32_56 : BitVec 32 := 0#32
  let v94 : BitVec 1 := Scalar.cmpi .slt v89 c0_i32_56
  let v95 : BitVec 32 := Scalar.extui v94
  let v96 : BitVec 32 := Scalar.subi v93 v95
  let c2_i32_54 : BitVec 32 := 2#32
  let c0_i32_57 : BitVec 32 := 0#32
  let v97 : BitVec 1 := Scalar.cmpi .sgt c2_i32_54 c0_i32_57
  let v98 : BitVec 32 := Scalar.extui v97
  let c0_i32_58 : BitVec 32 := 0#32
  let v99 : BitVec 1 := Scalar.cmpi .slt c2_i32_54 c0_i32_58
  let v100 : BitVec 32 := Scalar.extui v99
  let v101 : BitVec 32 := Scalar.subi v98 v100
  let v102 : BitVec 1 := Scalar.cmpi .ne v96 v101
  let v103 : BitVec 32 := Scalar.remsi v89 c2_i32_54
  let c0_i32_59 : BitVec 32 := 0#32
  let v104 : BitVec 1 := Scalar.cmpi .ne v103 c0_i32_59
  let v105 : BitVec 1 := Scalar.andi v102 v104
  let v91 : BitVec 32 := Scalar.divsi v89 c2_i32_54
  let c1_i32_60 : BitVec 32 := 1#32
  let v106 : BitVec 32 := Scalar.subi v91 c1_i32_60
  let v107 : BitVec 32 := Scalar.select v105 v106 v91
  let c1_i32_65 : BitVec 32 := 1#32
  let v112 : BitVec 32 := Scalar.muli v107 c1_i32_65
  let v113 : BitVec 32 := Scalar.addi v111 v112
  v113.toNat
def k0_dev7 (d0 : Dev nD) : Nat :=
  let c0_i32_78 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c4_i32_66 : BitVec 32 := 4#32
  let v114 : BitVec 32 := Scalar.addi v10 c4_i32_66
  let c8_i32_67 : BitVec 32 := 8#32
  let v115 : BitVec 32 := Scalar.remsi v114 c8_i32_67
  let c2_i32_68 : BitVec 32 := 2#32
  let v116 : BitVec 32 := Scalar.remsi v115 c2_i32_68
  let c16_i32_77 : BitVec 32 := 16#32
  let v134 : BitVec 32 := Scalar.muli v116 c16_i32_77
  let v135 : BitVec 32 := Scalar.addi c0_i32_78 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v136 : BitVec 32 := Scalar.muli v5 c4_i32_79
  let v137 : BitVec 32 := Scalar.addi v135 v136
  let c0_i32_70 : BitVec 32 := 0#32
  let v118 : BitVec 1 := Scalar.cmpi .sgt v115 c0_i32_70
  let v119 : BitVec 32 := Scalar.extui v118
  let c0_i32_71 : BitVec 32 := 0#32
  let v120 : BitVec 1 := Scalar.cmpi .slt v115 c0_i32_71
  let v121 : BitVec 32 := Scalar.extui v120
  let v122 : BitVec 32 := Scalar.subi v119 v121
  let c2_i32_69 : BitVec 32 := 2#32
  let c0_i32_72 : BitVec 32 := 0#32
  let v123 : BitVec 1 := Scalar.cmpi .sgt c2_i32_69 c0_i32_72
  let v124 : BitVec 32 := Scalar.extui v123
  let c0_i32_73 : BitVec 32 := 0#32
  let v125 : BitVec 1 := Scalar.cmpi .slt c2_i32_69 c0_i32_73
  let v126 : BitVec 32 := Scalar.extui v125
  let v127 : BitVec 32 := Scalar.subi v124 v126
  let v128 : BitVec 1 := Scalar.cmpi .ne v122 v127
  let v129 : BitVec 32 := Scalar.remsi v115 c2_i32_69
  let c0_i32_74 : BitVec 32 := 0#32
  let v130 : BitVec 1 := Scalar.cmpi .ne v129 c0_i32_74
  let v131 : BitVec 1 := Scalar.andi v128 v130
  let v117 : BitVec 32 := Scalar.divsi v115 c2_i32_69
  let c1_i32_75 : BitVec 32 := 1#32
  let v132 : BitVec 32 := Scalar.subi v117 c1_i32_75
  let v133 : BitVec 32 := Scalar.select v131 v132 v117
  let c1_i32_80 : BitVec 32 := 1#32
  let v138 : BitVec 32 := Scalar.muli v133 c1_i32_80
  let v139 : BitVec 32 := Scalar.addi v137 v138
  v139.toNat
def k0_dev8 (d0 : Dev nD) : Nat :=
  let c0_i32_92 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c5_i32 : BitVec 32 := 5#32
  let v140 : BitVec 32 := Scalar.addi v10 c5_i32
  let c8_i32_81 : BitVec 32 := 8#32
  let v141 : BitVec 32 := Scalar.remsi v140 c8_i32_81
  let c2_i32_82 : BitVec 32 := 2#32
  let v142 : BitVec 32 := Scalar.remsi v141 c2_i32_82
  let c16_i32_91 : BitVec 32 := 16#32
  let v160 : BitVec 32 := Scalar.muli v142 c16_i32_91
  let v161 : BitVec 32 := Scalar.addi c0_i32_92 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v162 : BitVec 32 := Scalar.muli v5 c4_i32_93
  let v163 : BitVec 32 := Scalar.addi v161 v162
  let c0_i32_84 : BitVec 32 := 0#32
  let v144 : BitVec 1 := Scalar.cmpi .sgt v141 c0_i32_84
  let v145 : BitVec 32 := Scalar.extui v144
  let c0_i32_85 : BitVec 32 := 0#32
  let v146 : BitVec 1 := Scalar.cmpi .slt v141 c0_i32_85
  let v147 : BitVec 32 := Scalar.extui v146
  let v148 : BitVec 32 := Scalar.subi v145 v147
  let c2_i32_83 : BitVec 32 := 2#32
  let c0_i32_86 : BitVec 32 := 0#32
  let v149 : BitVec 1 := Scalar.cmpi .sgt c2_i32_83 c0_i32_86
  let v150 : BitVec 32 := Scalar.extui v149
  let c0_i32_87 : BitVec 32 := 0#32
  let v151 : BitVec 1 := Scalar.cmpi .slt c2_i32_83 c0_i32_87
  let v152 : BitVec 32 := Scalar.extui v151
  let v153 : BitVec 32 := Scalar.subi v150 v152
  let v154 : BitVec 1 := Scalar.cmpi .ne v148 v153
  let v155 : BitVec 32 := Scalar.remsi v141 c2_i32_83
  let c0_i32_88 : BitVec 32 := 0#32
  let v156 : BitVec 1 := Scalar.cmpi .ne v155 c0_i32_88
  let v157 : BitVec 1 := Scalar.andi v154 v156
  let v143 : BitVec 32 := Scalar.divsi v141 c2_i32_83
  let c1_i32_89 : BitVec 32 := 1#32
  let v158 : BitVec 32 := Scalar.subi v143 c1_i32_89
  let v159 : BitVec 32 := Scalar.select v157 v158 v143
  let c1_i32_94 : BitVec 32 := 1#32
  let v164 : BitVec 32 := Scalar.muli v159 c1_i32_94
  let v165 : BitVec 32 := Scalar.addi v163 v164
  v165.toNat
def k0_dev9 (d0 : Dev nD) : Nat :=
  let c0_i32_106 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c6_i32 : BitVec 32 := 6#32
  let v166 : BitVec 32 := Scalar.addi v10 c6_i32
  let c8_i32_95 : BitVec 32 := 8#32
  let v167 : BitVec 32 := Scalar.remsi v166 c8_i32_95
  let c2_i32_96 : BitVec 32 := 2#32
  let v168 : BitVec 32 := Scalar.remsi v167 c2_i32_96
  let c16_i32_105 : BitVec 32 := 16#32
  let v186 : BitVec 32 := Scalar.muli v168 c16_i32_105
  let v187 : BitVec 32 := Scalar.addi c0_i32_106 v186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v188 : BitVec 32 := Scalar.muli v5 c4_i32_107
  let v189 : BitVec 32 := Scalar.addi v187 v188
  let c0_i32_98 : BitVec 32 := 0#32
  let v170 : BitVec 1 := Scalar.cmpi .sgt v167 c0_i32_98
  let v171 : BitVec 32 := Scalar.extui v170
  let c0_i32_99 : BitVec 32 := 0#32
  let v172 : BitVec 1 := Scalar.cmpi .slt v167 c0_i32_99
  let v173 : BitVec 32 := Scalar.extui v172
  let v174 : BitVec 32 := Scalar.subi v171 v173
  let c2_i32_97 : BitVec 32 := 2#32
  let c0_i32_100 : BitVec 32 := 0#32
  let v175 : BitVec 1 := Scalar.cmpi .sgt c2_i32_97 c0_i32_100
  let v176 : BitVec 32 := Scalar.extui v175
  let c0_i32_101 : BitVec 32 := 0#32
  let v177 : BitVec 1 := Scalar.cmpi .slt c2_i32_97 c0_i32_101
  let v178 : BitVec 32 := Scalar.extui v177
  let v179 : BitVec 32 := Scalar.subi v176 v178
  let v180 : BitVec 1 := Scalar.cmpi .ne v174 v179
  let v181 : BitVec 32 := Scalar.remsi v167 c2_i32_97
  let c0_i32_102 : BitVec 32 := 0#32
  let v182 : BitVec 1 := Scalar.cmpi .ne v181 c0_i32_102
  let v183 : BitVec 1 := Scalar.andi v180 v182
  let v169 : BitVec 32 := Scalar.divsi v167 c2_i32_97
  let c1_i32_103 : BitVec 32 := 1#32
  let v184 : BitVec 32 := Scalar.subi v169 c1_i32_103
  let v185 : BitVec 32 := Scalar.select v183 v184 v169
  let c1_i32_108 : BitVec 32 := 1#32
  let v190 : BitVec 32 := Scalar.muli v185 c1_i32_108
  let v191 : BitVec 32 := Scalar.addi v189 v190
  v191.toNat
def k0_dev10 (d0 : Dev nD) : Nat :=
  let c0_i32_120 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c7_i32 : BitVec 32 := 7#32
  let v192 : BitVec 32 := Scalar.addi v10 c7_i32
  let c8_i32_109 : BitVec 32 := 8#32
  let v193 : BitVec 32 := Scalar.remsi v192 c8_i32_109
  let c2_i32_110 : BitVec 32 := 2#32
  let v194 : BitVec 32 := Scalar.remsi v193 c2_i32_110
  let c16_i32_119 : BitVec 32 := 16#32
  let v212 : BitVec 32 := Scalar.muli v194 c16_i32_119
  let v213 : BitVec 32 := Scalar.addi c0_i32_120 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_121 : BitVec 32 := 4#32
  let v214 : BitVec 32 := Scalar.muli v5 c4_i32_121
  let v215 : BitVec 32 := Scalar.addi v213 v214
  let c0_i32_112 : BitVec 32 := 0#32
  let v196 : BitVec 1 := Scalar.cmpi .sgt v193 c0_i32_112
  let v197 : BitVec 32 := Scalar.extui v196
  let c0_i32_113 : BitVec 32 := 0#32
  let v198 : BitVec 1 := Scalar.cmpi .slt v193 c0_i32_113
  let v199 : BitVec 32 := Scalar.extui v198
  let v200 : BitVec 32 := Scalar.subi v197 v199
  let c2_i32_111 : BitVec 32 := 2#32
  let c0_i32_114 : BitVec 32 := 0#32
  let v201 : BitVec 1 := Scalar.cmpi .sgt c2_i32_111 c0_i32_114
  let v202 : BitVec 32 := Scalar.extui v201
  let c0_i32_115 : BitVec 32 := 0#32
  let v203 : BitVec 1 := Scalar.cmpi .slt c2_i32_111 c0_i32_115
  let v204 : BitVec 32 := Scalar.extui v203
  let v205 : BitVec 32 := Scalar.subi v202 v204
  let v206 : BitVec 1 := Scalar.cmpi .ne v200 v205
  let v207 : BitVec 32 := Scalar.remsi v193 c2_i32_111
  let c0_i32_116 : BitVec 32 := 0#32
  let v208 : BitVec 1 := Scalar.cmpi .ne v207 c0_i32_116
  let v209 : BitVec 1 := Scalar.andi v206 v208
  let v195 : BitVec 32 := Scalar.divsi v193 c2_i32_111
  let c1_i32_117 : BitVec 32 := 1#32
  let v210 : BitVec 32 := Scalar.subi v195 c1_i32_117
  let v211 : BitVec 32 := Scalar.select v209 v210 v195
  let c1_i32_122 : BitVec 32 := 1#32
  let v216 : BitVec 32 := Scalar.muli v211 c1_i32_122
  let v217 : BitVec 32 := Scalar.addi v215 v216
  v217.toNat
def k0_off1 (d0 : Dev nD) : Fin 2 → Nat :=
  let c0_124 : Index := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c256_i32 : BitVec 32 := 256#32
  let v221 : BitVec 32 := Scalar.muli v10 c256_i32
  let v222 : Index := Scalar.indexCast v221
  ![0, v222.toNat]
def k0_off2 (d0 : Dev nD) (c3_i32_127 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v231 : BitVec 32 := Scalar.addi v5 c3_i32_127
  let c4_i32_128 : BitVec 32 := 4#32
  let v232 : BitVec 32 := Scalar.remsi v231 c4_i32_128
  let c128_i32 : BitVec 32 := 128#32
  let v233 : BitVec 32 := Scalar.muli v232 c128_i32
  let c0_i32_138 : BitVec 32 := 0#32
  ![v233.toNat, 0]
def k0_dev11 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v234 : BitVec 32 := Scalar.muli v2 c16_i32_132
  let v235 : BitVec 32 := Scalar.addi c0_i32_133 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_127 : BitVec 32 := 3#32
  let v231 : BitVec 32 := Scalar.addi v5 c3_i32_127
  let c4_i32_128 : BitVec 32 := 4#32
  let v232 : BitVec 32 := Scalar.remsi v231 c4_i32_128
  let c4_i32_134 : BitVec 32 := 4#32
  let v236 : BitVec 32 := Scalar.muli v232 c4_i32_134
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v238 : BitVec 32 := Scalar.muli v8 c1_i32_135
  let v239 : BitVec 32 := Scalar.addi v237 v238
  v239.toNat
def k0_dev12 (d0 : Dev nD) : Nat :=
  let c0_i32_146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_145 : BitVec 32 := 16#32
  let v250 : BitVec 32 := Scalar.muli v2 c16_i32_145
  let v251 : BitVec 32 := Scalar.addi c0_i32_146 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_139 : BitVec 32 := 2#32
  let v247 : BitVec 32 := Scalar.addi v5 c2_i32_139
  let c4_i32_140 : BitVec 32 := 4#32
  let v248 : BitVec 32 := Scalar.remsi v247 c4_i32_140
  let c4_i32_147 : BitVec 32 := 4#32
  let v252 : BitVec 32 := Scalar.muli v248 c4_i32_147
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v254 : BitVec 32 := Scalar.muli v8 c1_i32_148
  let v255 : BitVec 32 := Scalar.addi v253 v254
  v255.toNat
def k0_dev13 (d0 : Dev nD) : Nat :=
  let c0_i32_159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_158 : BitVec 32 := 16#32
  let v266 : BitVec 32 := Scalar.muli v2 c16_i32_158
  let v267 : BitVec 32 := Scalar.addi c0_i32_159 v266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_152 : BitVec 32 := 1#32
  let v263 : BitVec 32 := Scalar.addi v5 c1_i32_152
  let c4_i32_153 : BitVec 32 := 4#32
  let v264 : BitVec 32 := Scalar.remsi v263 c4_i32_153
  let c4_i32_160 : BitVec 32 := 4#32
  let v268 : BitVec 32 := Scalar.muli v264 c4_i32_160
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v270 : BitVec 32 := Scalar.muli v8 c1_i32_161
  let v271 : BitVec 32 := Scalar.addi v269 v270
  v271.toNat
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_195 : BitVec 32 := 128#32
  let v312 : BitVec 32 := Scalar.muli v5 c128_i32_195
  let v313 : Index := Scalar.indexCast v312
  let c0_196 : Index := 0#32
  ![v313.toNat, 0]
def k0_off4 (d0 : Dev nD) : Fin 2 → Nat :=
  let c0_205 : Index := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c256_i32_204 : BitVec 32 := 256#32
  let v328 : BitVec 32 := Scalar.muli v10 c256_i32_204
  let v329 : Index := Scalar.indexCast v328
  ![0, v329.toNat]
def k0_dev14 (d0 : Dev nD) : Nat :=
  let c0_i32_223 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c7_i32_208 : BitVec 32 := 7#32
  let v335 : BitVec 32 := Scalar.addi v10 c7_i32_208
  let c8_i32_209 : BitVec 32 := 8#32
  let v336 : BitVec 32 := Scalar.remsi v335 c8_i32_209
  let c2_i32_210 : BitVec 32 := 2#32
  let v337 : BitVec 32 := Scalar.remsi v336 c2_i32_210
  let c16_i32_222 : BitVec 32 := 16#32
  let v355 : BitVec 32 := Scalar.muli v337 c16_i32_222
  let v356 : BitVec 32 := Scalar.addi c0_i32_223 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v357 : BitVec 32 := Scalar.muli v5 c4_i32_224
  let v358 : BitVec 32 := Scalar.addi v356 v357
  let c0_i32_212 : BitVec 32 := 0#32
  let v339 : BitVec 1 := Scalar.cmpi .sgt v336 c0_i32_212
  let v340 : BitVec 32 := Scalar.extui v339
  let c0_i32_213 : BitVec 32 := 0#32
  let v341 : BitVec 1 := Scalar.cmpi .slt v336 c0_i32_213
  let v342 : BitVec 32 := Scalar.extui v341
  let v343 : BitVec 32 := Scalar.subi v340 v342
  let c2_i32_211 : BitVec 32 := 2#32
  let c0_i32_214 : BitVec 32 := 0#32
  let v344 : BitVec 1 := Scalar.cmpi .sgt c2_i32_211 c0_i32_214
  let v345 : BitVec 32 := Scalar.extui v344
  let c0_i32_215 : BitVec 32 := 0#32
  let v346 : BitVec 1 := Scalar.cmpi .slt c2_i32_211 c0_i32_215
  let v347 : BitVec 32 := Scalar.extui v346
  let v348 : BitVec 32 := Scalar.subi v345 v347
  let v349 : BitVec 1 := Scalar.cmpi .ne v343 v348
  let v350 : BitVec 32 := Scalar.remsi v336 c2_i32_211
  let c0_i32_216 : BitVec 32 := 0#32
  let v351 : BitVec 1 := Scalar.cmpi .ne v350 c0_i32_216
  let v352 : BitVec 1 := Scalar.andi v349 v351
  let v338 : BitVec 32 := Scalar.divsi v336 c2_i32_211
  let c1_i32_217 : BitVec 32 := 1#32
  let v353 : BitVec 32 := Scalar.subi v338 c1_i32_217
  let v354 : BitVec 32 := Scalar.select v352 v353 v338
  let c1_i32_225 : BitVec 32 := 1#32
  let v359 : BitVec 32 := Scalar.muli v354 c1_i32_225
  let v360 : BitVec 32 := Scalar.addi v358 v359
  v360.toNat
def k0_dev15 (d0 : Dev nD) : Nat :=
  let c0_i32_245 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c6_i32_230 : BitVec 32 := 6#32
  let v369 : BitVec 32 := Scalar.addi v10 c6_i32_230
  let c8_i32_231 : BitVec 32 := 8#32
  let v370 : BitVec 32 := Scalar.remsi v369 c8_i32_231
  let c2_i32_232 : BitVec 32 := 2#32
  let v371 : BitVec 32 := Scalar.remsi v370 c2_i32_232
  let c16_i32_244 : BitVec 32 := 16#32
  let v389 : BitVec 32 := Scalar.muli v371 c16_i32_244
  let v390 : BitVec 32 := Scalar.addi c0_i32_245 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_246 : BitVec 32 := 4#32
  let v391 : BitVec 32 := Scalar.muli v5 c4_i32_246
  let v392 : BitVec 32 := Scalar.addi v390 v391
  let c0_i32_234 : BitVec 32 := 0#32
  let v373 : BitVec 1 := Scalar.cmpi .sgt v370 c0_i32_234
  let v374 : BitVec 32 := Scalar.extui v373
  let c0_i32_235 : BitVec 32 := 0#32
  let v375 : BitVec 1 := Scalar.cmpi .slt v370 c0_i32_235
  let v376 : BitVec 32 := Scalar.extui v375
  let v377 : BitVec 32 := Scalar.subi v374 v376
  let c2_i32_233 : BitVec 32 := 2#32
  let c0_i32_236 : BitVec 32 := 0#32
  let v378 : BitVec 1 := Scalar.cmpi .sgt c2_i32_233 c0_i32_236
  let v379 : BitVec 32 := Scalar.extui v378
  let c0_i32_237 : BitVec 32 := 0#32
  let v380 : BitVec 1 := Scalar.cmpi .slt c2_i32_233 c0_i32_237
  let v381 : BitVec 32 := Scalar.extui v380
  let v382 : BitVec 32 := Scalar.subi v379 v381
  let v383 : BitVec 1 := Scalar.cmpi .ne v377 v382
  let v384 : BitVec 32 := Scalar.remsi v370 c2_i32_233
  let c0_i32_238 : BitVec 32 := 0#32
  let v385 : BitVec 1 := Scalar.cmpi .ne v384 c0_i32_238
  let v386 : BitVec 1 := Scalar.andi v383 v385
  let v372 : BitVec 32 := Scalar.divsi v370 c2_i32_233
  let c1_i32_239 : BitVec 32 := 1#32
  let v387 : BitVec 32 := Scalar.subi v372 c1_i32_239
  let v388 : BitVec 32 := Scalar.select v386 v387 v372
  let c1_i32_247 : BitVec 32 := 1#32
  let v393 : BitVec 32 := Scalar.muli v388 c1_i32_247
  let v394 : BitVec 32 := Scalar.addi v392 v393
  v394.toNat
def k0_dev16 (d0 : Dev nD) : Nat :=
  let c0_i32_267 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c5_i32_252 : BitVec 32 := 5#32
  let v403 : BitVec 32 := Scalar.addi v10 c5_i32_252
  let c8_i32_253 : BitVec 32 := 8#32
  let v404 : BitVec 32 := Scalar.remsi v403 c8_i32_253
  let c2_i32_254 : BitVec 32 := 2#32
  let v405 : BitVec 32 := Scalar.remsi v404 c2_i32_254
  let c16_i32_266 : BitVec 32 := 16#32
  let v423 : BitVec 32 := Scalar.muli v405 c16_i32_266
  let v424 : BitVec 32 := Scalar.addi c0_i32_267 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_268 : BitVec 32 := 4#32
  let v425 : BitVec 32 := Scalar.muli v5 c4_i32_268
  let v426 : BitVec 32 := Scalar.addi v424 v425
  let c0_i32_256 : BitVec 32 := 0#32
  let v407 : BitVec 1 := Scalar.cmpi .sgt v404 c0_i32_256
  let v408 : BitVec 32 := Scalar.extui v407
  let c0_i32_257 : BitVec 32 := 0#32
  let v409 : BitVec 1 := Scalar.cmpi .slt v404 c0_i32_257
  let v410 : BitVec 32 := Scalar.extui v409
  let v411 : BitVec 32 := Scalar.subi v408 v410
  let c2_i32_255 : BitVec 32 := 2#32
  let c0_i32_258 : BitVec 32 := 0#32
  let v412 : BitVec 1 := Scalar.cmpi .sgt c2_i32_255 c0_i32_258
  let v413 : BitVec 32 := Scalar.extui v412
  let c0_i32_259 : BitVec 32 := 0#32
  let v414 : BitVec 1 := Scalar.cmpi .slt c2_i32_255 c0_i32_259
  let v415 : BitVec 32 := Scalar.extui v414
  let v416 : BitVec 32 := Scalar.subi v413 v415
  let v417 : BitVec 1 := Scalar.cmpi .ne v411 v416
  let v418 : BitVec 32 := Scalar.remsi v404 c2_i32_255
  let c0_i32_260 : BitVec 32 := 0#32
  let v419 : BitVec 1 := Scalar.cmpi .ne v418 c0_i32_260
  let v420 : BitVec 1 := Scalar.andi v417 v419
  let v406 : BitVec 32 := Scalar.divsi v404 c2_i32_255
  let c1_i32_261 : BitVec 32 := 1#32
  let v421 : BitVec 32 := Scalar.subi v406 c1_i32_261
  let v422 : BitVec 32 := Scalar.select v420 v421 v406
  let c1_i32_269 : BitVec 32 := 1#32
  let v427 : BitVec 32 := Scalar.muli v422 c1_i32_269
  let v428 : BitVec 32 := Scalar.addi v426 v427
  v428.toNat
def k0_dev17 (d0 : Dev nD) : Nat :=
  let c0_i32_289 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c4_i32_274 : BitVec 32 := 4#32
  let v437 : BitVec 32 := Scalar.addi v10 c4_i32_274
  let c8_i32_275 : BitVec 32 := 8#32
  let v438 : BitVec 32 := Scalar.remsi v437 c8_i32_275
  let c2_i32_276 : BitVec 32 := 2#32
  let v439 : BitVec 32 := Scalar.remsi v438 c2_i32_276
  let c16_i32_288 : BitVec 32 := 16#32
  let v457 : BitVec 32 := Scalar.muli v439 c16_i32_288
  let v458 : BitVec 32 := Scalar.addi c0_i32_289 v457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_290 : BitVec 32 := 4#32
  let v459 : BitVec 32 := Scalar.muli v5 c4_i32_290
  let v460 : BitVec 32 := Scalar.addi v458 v459
  let c0_i32_278 : BitVec 32 := 0#32
  let v441 : BitVec 1 := Scalar.cmpi .sgt v438 c0_i32_278
  let v442 : BitVec 32 := Scalar.extui v441
  let c0_i32_279 : BitVec 32 := 0#32
  let v443 : BitVec 1 := Scalar.cmpi .slt v438 c0_i32_279
  let v444 : BitVec 32 := Scalar.extui v443
  let v445 : BitVec 32 := Scalar.subi v442 v444
  let c2_i32_277 : BitVec 32 := 2#32
  let c0_i32_280 : BitVec 32 := 0#32
  let v446 : BitVec 1 := Scalar.cmpi .sgt c2_i32_277 c0_i32_280
  let v447 : BitVec 32 := Scalar.extui v446
  let c0_i32_281 : BitVec 32 := 0#32
  let v448 : BitVec 1 := Scalar.cmpi .slt c2_i32_277 c0_i32_281
  let v449 : BitVec 32 := Scalar.extui v448
  let v450 : BitVec 32 := Scalar.subi v447 v449
  let v451 : BitVec 1 := Scalar.cmpi .ne v445 v450
  let v452 : BitVec 32 := Scalar.remsi v438 c2_i32_277
  let c0_i32_282 : BitVec 32 := 0#32
  let v453 : BitVec 1 := Scalar.cmpi .ne v452 c0_i32_282
  let v454 : BitVec 1 := Scalar.andi v451 v453
  let v440 : BitVec 32 := Scalar.divsi v438 c2_i32_277
  let c1_i32_283 : BitVec 32 := 1#32
  let v455 : BitVec 32 := Scalar.subi v440 c1_i32_283
  let v456 : BitVec 32 := Scalar.select v454 v455 v440
  let c1_i32_291 : BitVec 32 := 1#32
  let v461 : BitVec 32 := Scalar.muli v456 c1_i32_291
  let v462 : BitVec 32 := Scalar.addi v460 v461
  v462.toNat
def k0_dev18 (d0 : Dev nD) : Nat :=
  let c0_i32_311 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c3_i32_296 : BitVec 32 := 3#32
  let v471 : BitVec 32 := Scalar.addi v10 c3_i32_296
  let c8_i32_297 : BitVec 32 := 8#32
  let v472 : BitVec 32 := Scalar.remsi v471 c8_i32_297
  let c2_i32_298 : BitVec 32 := 2#32
  let v473 : BitVec 32 := Scalar.remsi v472 c2_i32_298
  let c16_i32_310 : BitVec 32 := 16#32
  let v491 : BitVec 32 := Scalar.muli v473 c16_i32_310
  let v492 : BitVec 32 := Scalar.addi c0_i32_311 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312 : BitVec 32 := 4#32
  let v493 : BitVec 32 := Scalar.muli v5 c4_i32_312
  let v494 : BitVec 32 := Scalar.addi v492 v493
  let c0_i32_300 : BitVec 32 := 0#32
  let v475 : BitVec 1 := Scalar.cmpi .sgt v472 c0_i32_300
  let v476 : BitVec 32 := Scalar.extui v475
  let c0_i32_301 : BitVec 32 := 0#32
  let v477 : BitVec 1 := Scalar.cmpi .slt v472 c0_i32_301
  let v478 : BitVec 32 := Scalar.extui v477
  let v479 : BitVec 32 := Scalar.subi v476 v478
  let c2_i32_299 : BitVec 32 := 2#32
  let c0_i32_302 : BitVec 32 := 0#32
  let v480 : BitVec 1 := Scalar.cmpi .sgt c2_i32_299 c0_i32_302
  let v481 : BitVec 32 := Scalar.extui v480
  let c0_i32_303 : BitVec 32 := 0#32
  let v482 : BitVec 1 := Scalar.cmpi .slt c2_i32_299 c0_i32_303
  let v483 : BitVec 32 := Scalar.extui v482
  let v484 : BitVec 32 := Scalar.subi v481 v483
  let v485 : BitVec 1 := Scalar.cmpi .ne v479 v484
  let v486 : BitVec 32 := Scalar.remsi v472 c2_i32_299
  let c0_i32_304 : BitVec 32 := 0#32
  let v487 : BitVec 1 := Scalar.cmpi .ne v486 c0_i32_304
  let v488 : BitVec 1 := Scalar.andi v485 v487
  let v474 : BitVec 32 := Scalar.divsi v472 c2_i32_299
  let c1_i32_305 : BitVec 32 := 1#32
  let v489 : BitVec 32 := Scalar.subi v474 c1_i32_305
  let v490 : BitVec 32 := Scalar.select v488 v489 v474
  let c1_i32_313 : BitVec 32 := 1#32
  let v495 : BitVec 32 := Scalar.muli v490 c1_i32_313
  let v496 : BitVec 32 := Scalar.addi v494 v495
  v496.toNat
def k0_dev19 (d0 : Dev nD) : Nat :=
  let c0_i32_333 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c2_i32_318 : BitVec 32 := 2#32
  let v505 : BitVec 32 := Scalar.addi v10 c2_i32_318
  let c8_i32_319 : BitVec 32 := 8#32
  let v506 : BitVec 32 := Scalar.remsi v505 c8_i32_319
  let c2_i32_320 : BitVec 32 := 2#32
  let v507 : BitVec 32 := Scalar.remsi v506 c2_i32_320
  let c16_i32_332 : BitVec 32 := 16#32
  let v525 : BitVec 32 := Scalar.muli v507 c16_i32_332
  let v526 : BitVec 32 := Scalar.addi c0_i32_333 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_334 : BitVec 32 := 4#32
  let v527 : BitVec 32 := Scalar.muli v5 c4_i32_334
  let v528 : BitVec 32 := Scalar.addi v526 v527
  let c0_i32_322 : BitVec 32 := 0#32
  let v509 : BitVec 1 := Scalar.cmpi .sgt v506 c0_i32_322
  let v510 : BitVec 32 := Scalar.extui v509
  let c0_i32_323 : BitVec 32 := 0#32
  let v511 : BitVec 1 := Scalar.cmpi .slt v506 c0_i32_323
  let v512 : BitVec 32 := Scalar.extui v511
  let v513 : BitVec 32 := Scalar.subi v510 v512
  let c2_i32_321 : BitVec 32 := 2#32
  let c0_i32_324 : BitVec 32 := 0#32
  let v514 : BitVec 1 := Scalar.cmpi .sgt c2_i32_321 c0_i32_324
  let v515 : BitVec 32 := Scalar.extui v514
  let c0_i32_325 : BitVec 32 := 0#32
  let v516 : BitVec 1 := Scalar.cmpi .slt c2_i32_321 c0_i32_325
  let v517 : BitVec 32 := Scalar.extui v516
  let v518 : BitVec 32 := Scalar.subi v515 v517
  let v519 : BitVec 1 := Scalar.cmpi .ne v513 v518
  let v520 : BitVec 32 := Scalar.remsi v506 c2_i32_321
  let c0_i32_326 : BitVec 32 := 0#32
  let v521 : BitVec 1 := Scalar.cmpi .ne v520 c0_i32_326
  let v522 : BitVec 1 := Scalar.andi v519 v521
  let v508 : BitVec 32 := Scalar.divsi v506 c2_i32_321
  let c1_i32_327 : BitVec 32 := 1#32
  let v523 : BitVec 32 := Scalar.subi v508 c1_i32_327
  let v524 : BitVec 32 := Scalar.select v522 v523 v508
  let c1_i32_335 : BitVec 32 := 1#32
  let v529 : BitVec 32 := Scalar.muli v524 c1_i32_335
  let v530 : BitVec 32 := Scalar.addi v528 v529
  v530.toNat
def k0_dev20 (d0 : Dev nD) : Nat :=
  let c0_i32_355 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c1_i32_340 : BitVec 32 := 1#32
  let v539 : BitVec 32 := Scalar.addi v10 c1_i32_340
  let c8_i32_341 : BitVec 32 := 8#32
  let v540 : BitVec 32 := Scalar.remsi v539 c8_i32_341
  let c2_i32_342 : BitVec 32 := 2#32
  let v541 : BitVec 32 := Scalar.remsi v540 c2_i32_342
  let c16_i32_354 : BitVec 32 := 16#32
  let v559 : BitVec 32 := Scalar.muli v541 c16_i32_354
  let v560 : BitVec 32 := Scalar.addi c0_i32_355 v559
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_356 : BitVec 32 := 4#32
  let v561 : BitVec 32 := Scalar.muli v5 c4_i32_356
  let v562 : BitVec 32 := Scalar.addi v560 v561
  let c0_i32_344 : BitVec 32 := 0#32
  let v543 : BitVec 1 := Scalar.cmpi .sgt v540 c0_i32_344
  let v544 : BitVec 32 := Scalar.extui v543
  let c0_i32_345 : BitVec 32 := 0#32
  let v545 : BitVec 1 := Scalar.cmpi .slt v540 c0_i32_345
  let v546 : BitVec 32 := Scalar.extui v545
  let v547 : BitVec 32 := Scalar.subi v544 v546
  let c2_i32_343 : BitVec 32 := 2#32
  let c0_i32_346 : BitVec 32 := 0#32
  let v548 : BitVec 1 := Scalar.cmpi .sgt c2_i32_343 c0_i32_346
  let v549 : BitVec 32 := Scalar.extui v548
  let c0_i32_347 : BitVec 32 := 0#32
  let v550 : BitVec 1 := Scalar.cmpi .slt c2_i32_343 c0_i32_347
  let v551 : BitVec 32 := Scalar.extui v550
  let v552 : BitVec 32 := Scalar.subi v549 v551
  let v553 : BitVec 1 := Scalar.cmpi .ne v547 v552
  let v554 : BitVec 32 := Scalar.remsi v540 c2_i32_343
  let c0_i32_348 : BitVec 32 := 0#32
  let v555 : BitVec 1 := Scalar.cmpi .ne v554 c0_i32_348
  let v556 : BitVec 1 := Scalar.andi v553 v555
  let v542 : BitVec 32 := Scalar.divsi v540 c2_i32_343
  let c1_i32_349 : BitVec 32 := 1#32
  let v557 : BitVec 32 := Scalar.subi v542 c1_i32_349
  let v558 : BitVec 32 := Scalar.select v556 v557 v542
  let c1_i32_357 : BitVec 32 := 1#32
  let v563 : BitVec 32 := Scalar.muli v558 c1_i32_357
  let v564 : BitVec 32 := Scalar.addi v562 v563
  v564.toNat
def k0_off5 (d0 : Dev nD) (c1_i32_375 : BitVec 32) : Fin 2 → Nat :=
  let c0_381 : Index := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.addi v9 v2
  let c8_i32_374 : BitVec 32 := 8#32
  let v585 : BitVec 32 := Scalar.addi v10 c8_i32_374
  let v586 : BitVec 32 := Scalar.subi v585 c1_i32_375
  let c8_i32_376 : BitVec 32 := 8#32
  let v587 : BitVec 32 := Scalar.remsi v586 c8_i32_376
  let c256_i32_380 : BitVec 32 := 256#32
  let v591 : BitVec 32 := Scalar.muli v587 c256_i32_380
  let v592 : Index := Scalar.indexCast v591
  ![0, v592.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_10 : (10#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  h_S512x256 : 0 < S512x256.numel
  shapeCasts_S512x256_S512x256 : S512x256.ShapeCasts S512x256
  inb_S512x256_S512x256_0_0 : ∀ a, (![0, 0] : Fin 2 → Nat) a + S512x256.size a ≤ S512x256.size a
  packedbf16_S512x256_S512x256_0_0 : (Rect.unit (s := S512x256) ![0, 0] S512x256.size inb_S512x256_S512x256_0_0).PackedRows (EltTy.packing .bf16)
  inb_S3_S1_2 : ∀ a, (![2] : Fin 1 → Nat) a + S1.size a ≤ S3.size a
  squeezes_S1_S_ : S1.Squeezes S_
  inb_S3x128x256_S1x128x256_2_0_0 : ∀ a, (![2, 0, 0] : Fin 3 → Nat) a + S1x128x256.size a ≤ S3x128x256.size a
  squeezes_S1x128x256_S128x256 : S1x128x256.Squeezes S128x256
  wordsbf16_S3x128x256_S1x128x256_2_0_0 : (Rect.unit (s := S3x128x256) ![2, 0, 0] S1x128x256.size inb_S3x128x256_S1x128x256_2_0_0).WholeWords (EltTy.packing .bf16)
  inb_S3_S1_1 : ∀ a, (![1] : Fin 1 → Nat) a + S1.size a ≤ S3.size a
  inb_S3x128x256_S1x128x256_1_0_0 : ∀ a, (![1, 0, 0] : Fin 3 → Nat) a + S1x128x256.size a ≤ S3x128x256.size a
  wordsbf16_S3x128x256_S1x128x256_1_0_0 : (Rect.unit (s := S3x128x256) ![1, 0, 0] S1x128x256.size inb_S3x128x256_S1x128x256_1_0_0).WholeWords (EltTy.packing .bf16)
  inb_S3_S1_0 : ∀ a, (![0] : Fin 1 → Nat) a + S1.size a ≤ S3.size a
  inb_S3x128x256_S1x128x256_0_0_0 : ∀ a, (![0, 0, 0] : Fin 3 → Nat) a + S1x128x256.size a ≤ S3x128x256.size a
  wordsbf16_S3x128x256_S1x128x256_0_0_0 : (Rect.unit (s := S3x128x256) ![0, 0, 0] S1x128x256.size inb_S3x128x256_S1x128x256_0_0_0).WholeWords (EltTy.packing .bf16)
  h_S128x256 : 0 < S128x256.numel
  h_S1x128x256 : 0 < S1x128x256.numel
  shapeCasts_S1x128x256_S128x256 : S1x128x256.ShapeCasts S128x256
  inb_S8x128x256_S1x128x256_7_0_0 : ∀ a, (![7, 0, 0] : Fin 3 → Nat) a + S1x128x256.size a ≤ S8x128x256.size a
  shapeCasts_S128x256_S1x128x256 : S128x256.ShapeCasts S1x128x256
  packedbf16_S8x128x256_S1x128x256_7_0_0 : (Rect.unit (s := S8x128x256) ![7, 0, 0] S1x128x256.size inb_S8x128x256_S1x128x256_7_0_0).PackedRows (EltTy.packing .bf16)
  inb_S7_S1_6 : ∀ a, (![6] : Fin 1 → Nat) a + S1.size a ≤ S7.size a
  inb_S8x128x256_S1x128x256_6_0_0 : ∀ a, (![6, 0, 0] : Fin 3 → Nat) a + S1x128x256.size a ≤ S8x128x256.size a
  wordsbf16_S8x128x256_S1x128x256_7_0_0 : (Rect.unit (s := S8x128x256) ![7, 0, 0] S1x128x256.size inb_S8x128x256_S1x128x256_7_0_0).WholeWords (EltTy.packing .bf16)
  wordsbf16_S8x128x256_S1x128x256_6_0_0 : (Rect.unit (s := S8x128x256) ![6, 0, 0] S1x128x256.size inb_S8x128x256_S1x128x256_6_0_0).WholeWords (EltTy.packing .bf16)
  inb_S7_S1_5 : ∀ a, (![5] : Fin 1 → Nat) a + S1.size a ≤ S7.size a
  inb_S8x128x256_S1x128x256_5_0_0 : ∀ a, (![5, 0, 0] : Fin 3 → Nat) a + S1x128x256.size a ≤ S8x128x256.size a
  wordsbf16_S8x128x256_S1x128x256_5_0_0 : (Rect.unit (s := S8x128x256) ![5, 0, 0] S1x128x256.size inb_S8x128x256_S1x128x256_5_0_0).WholeWords (EltTy.packing .bf16)
  inb_S7_S1_4 : ∀ a, (![4] : Fin 1 → Nat) a + S1.size a ≤ S7.size a
  inb_S8x128x256_S1x128x256_4_0_0 : ∀ a, (![4, 0, 0] : Fin 3 → Nat) a + S1x128x256.size a ≤ S8x128x256.size a
  wordsbf16_S8x128x256_S1x128x256_4_0_0 : (Rect.unit (s := S8x128x256) ![4, 0, 0] S1x128x256.size inb_S8x128x256_S1x128x256_4_0_0).WholeWords (EltTy.packing .bf16)
  inb_S7_S1_3 : ∀ a, (![3] : Fin 1 → Nat) a + S1.size a ≤ S7.size a
  inb_S8x128x256_S1x128x256_3_0_0 : ∀ a, (![3, 0, 0] : Fin 3 → Nat) a + S1x128x256.size a ≤ S8x128x256.size a
  wordsbf16_S8x128x256_S1x128x256_3_0_0 : (Rect.unit (s := S8x128x256) ![3, 0, 0] S1x128x256.size inb_S8x128x256_S1x128x256_3_0_0).WholeWords (EltTy.packing .bf16)
  inb_S7_S1_2 : ∀ a, (![2] : Fin 1 → Nat) a + S1.size a ≤ S7.size a
  inb_S8x128x256_S1x128x256_2_0_0 : ∀ a, (![2, 0, 0] : Fin 3 → Nat) a + S1x128x256.size a ≤ S8x128x256.size a
  wordsbf16_S8x128x256_S1x128x256_2_0_0 : (Rect.unit (s := S8x128x256) ![2, 0, 0] S1x128x256.size inb_S8x128x256_S1x128x256_2_0_0).WholeWords (EltTy.packing .bf16)
  inb_S7_S1_1 : ∀ a, (![1] : Fin 1 → Nat) a + S1.size a ≤ S7.size a
  inb_S8x128x256_S1x128x256_1_0_0 : ∀ a, (![1, 0, 0] : Fin 3 → Nat) a + S1x128x256.size a ≤ S8x128x256.size a
  wordsbf16_S8x128x256_S1x128x256_1_0_0 : (Rect.unit (s := S8x128x256) ![1, 0, 0] S1x128x256.size inb_S8x128x256_S1x128x256_1_0_0).WholeWords (EltTy.packing .bf16)
  inb_S7_S1_0 : ∀ a, (![0] : Fin 1 → Nat) a + S1.size a ≤ S7.size a
  inb_S8x128x256_S1x128x256_0_0_0 : ∀ a, (![0, 0, 0] : Fin 3 → Nat) a + S1x128x256.size a ≤ S8x128x256.size a
  wordsbf16_S8x128x256_S1x128x256_0_0_0 : (Rect.unit (s := S8x128x256) ![0, 0, 0] S1x128x256.size inb_S8x128x256_S1x128x256_0_0_0).WholeWords (EltTy.packing .bf16)
  dot_S512x512_S512x256_S512x256_0_0_1_1_n_n_wf : DotDims.WF S512x512 S512x256 S512x256 [0] [0] [1] [1] [] []
  hcc0_scratch3 : 3 + S3.numel ≤ 23
  hcc0_scratch4 : 6 + S3.numel ≤ 23
  hcc0_scratch5 : 9 + S7.numel ≤ 23
  hcc0_scratch6 : 16 + S7.numel ≤ 23
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off1_inb : ∀ d0 : Dev nD, ∀ a, (k0_off1 d0) a + S512x256.size a ≤ S512x2048.size a
  k0_off2_inb : ∀ d0 : Dev nD, ∀ (r : Fin 3), ∀ a, (k0_off2 d0 (BitVec.ofNat 32 (1 + r.val))) a + S128x256.size a ≤ S512x256.size a
  k0_off2_wordsbf16 : ∀ d0 : Dev nD, ∀ (r : Fin 3), (Rect.unit (s := S512x256) (k0_off2 d0 (BitVec.ofNat 32 (1 + r.val))) S128x256.size (k0_off2_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off3_inb : ∀ d0 : Dev nD, ∀ a, (k0_off3 d0) a + S128x256.size a ≤ S512x256.size a
  k0_off4_inb : ∀ d0 : Dev nD, ∀ a, (k0_off4 d0) a + S128x256.size a ≤ S128x2048.size a
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_off5_inb : ∀ d0 : Dev nD, ∀ (r : Fin 7), ∀ a, (k0_off5 d0 (BitVec.ofNat 32 (1 + r.val))) a + S128x256.size a ≤ S128x2048.size a
  hstage0_0 : ∀ j, (stage0_0 j).IsWhole
  hstage0_1 : ∀ j, (stage0_1 j).IsWhole
  hstage0_2 : ∀ j, (stage0_2 j).IsWhole

variable [Facts₀]

abbrev cc0_scratch3 : DmaSems sig S3 := SemArray.consecutive 3 S3 hcc0_scratch3
abbrev cc0_scratch4 : DmaSems sig S3 := SemArray.consecutive 6 S3 hcc0_scratch4
abbrev cc0_scratch5 : DmaSems sig S7 := SemArray.consecutive 9 S7 hcc0_scratch5
abbrev cc0_scratch6 : DmaSems sig S7 := SemArray.consecutive 16 S7 hcc0_scratch6
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S2048x512_S512x2048_1_0 : S2048x512.Transposes [1, 0] S512x2048
  dot_S512x2048_S2048x2048_S512x2048_1_0_0_1_n_n_wf : DotDims.WF S512x2048 S2048x2048 S512x2048 [1] [0] [0] [1] [] []

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

class Facts : Prop extends Facts₀ where

variable [Facts]
-- ==== Proof.KernelTopo.lean ====
/-
  The mesh of 32 devices as the kernel addresses it: device d = 16·x + 4·y + z with x < 2, y < 4, z < 4; its
  reduce-scatter group is the four devices that differ from it in y only, its all-gather group the eight that
  share its y, numbered g = 2·z + x. Peer i of a device: for i < 3 the device i + 1 steps up in y, for
  3 ≤ i < 10 the device i − 2 steps up in g. The printed device chains in closed form over this numbering.
-/
import proofs.«900392_g7700000000000393_dist_rsdw_v7x_xyz2x4x4_y_m512_d512_f2048_bf16_1_alg».proof.Proof.Gen.Kernel

namespace Cert.KernelProof

open Cert.Kernel Cert.Kernel.Gen
open Idealize.ShloMosaic

/-- Peer i of device c, as a number. -/
def peerN (c i : Nat) : Nat :=
  if i < 3 then 16 * (c / 16) + 4 * (((c / 4) % 4 + (i + 1)) % 4) + c % 4
  else 16 * (((2 * (c % 4) + c / 16 + (i - 2)) % 8) % 2) + 4 * ((c / 4) % 4) + ((2 * (c % 4) + c / 16 + (i - 2)) % 8) / 2

/-- Peer i of device c. -/
def peer (c : Dev nD) (i : Fin 10) : Dev nD := ⟨peerN c.val i.val % 32, Nat.mod_lt _ (by decide)⟩

/-- The index under which peer i of c finds c among its own peers. -/
def rev (i : Fin 10) : Fin 10 := ⟨if i.val < 3 then 2 - i.val else 12 - i.val, by split <;> omega⟩

theorem peer_rev : ∀ (c : Dev nD) (i : Fin 10), peer (peer c i) (rev i) = c := by decide +kernel
theorem rev_rev : ∀ i : Fin 10, rev (rev i) = i := by decide
theorem peer_ne : ∀ (c : Dev nD) (i : Fin 10), peer c i ≠ c := by decide +kernel
theorem peer_inj : ∀ (c : Dev nD) (i j : Fin 10), peer c i = peer c j → i = j := by decide +kernel

/-- The barrier signals go to peers 0 … 9 in order. -/
theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 7 := by decide +kernel
theorem dev9_eq : ∀ c : Dev nD, (⟨k0_dev9 c, k0_dev9_lt c⟩ : Dev nD) = peer c 8 := by decide +kernel
theorem dev10_eq : ∀ c : Dev nD, (⟨k0_dev10 c, k0_dev10_lt c⟩ : Dev nD) = peer c 9 := by decide +kernel
/-- The reduce-scatter copies go to peers 2, 1, 0, -/
theorem dev11_eq : ∀ c : Dev nD, (⟨k0_dev11 c, k0_dev11_lt c⟩ : Dev nD) = peer c 2 := by decide +kernel
theorem dev12_eq : ∀ c : Dev nD, (⟨k0_dev12 c, k0_dev12_lt c⟩ : Dev nD) = peer c 1 := by decide +kernel
theorem dev13_eq : ∀ c : Dev nD, (⟨k0_dev13 c, k0_dev13_lt c⟩ : Dev nD) = peer c 0 := by decide +kernel
/-- the all-gather copies to peers 9, 8, …, 3. -/
theorem dev14_eq : ∀ c : Dev nD, (⟨k0_dev14 c, k0_dev14_lt c⟩ : Dev nD) = peer c 9 := by decide +kernel
theorem dev15_eq : ∀ c : Dev nD, (⟨k0_dev15 c, k0_dev15_lt c⟩ : Dev nD) = peer c 8 := by decide +kernel
theorem dev16_eq : ∀ c : Dev nD, (⟨k0_dev16 c, k0_dev16_lt c⟩ : Dev nD) = peer c 7 := by decide +kernel
theorem dev17_eq : ∀ c : Dev nD, (⟨k0_dev17 c, k0_dev17_lt c⟩ : Dev nD) = peer c 6 := by decide +kernel
theorem dev18_eq : ∀ c : Dev nD, (⟨k0_dev18 c, k0_dev18_lt c⟩ : Dev nD) = peer c 5 := by decide +kernel
theorem dev19_eq : ∀ c : Dev nD, (⟨k0_dev19 c, k0_dev19_lt c⟩ : Dev nD) = peer c 4 := by decide +kernel
theorem dev20_eq : ∀ c : Dev nD, (⟨k0_dev20 c, k0_dev20_lt c⟩ : Dev nD) = peer c 3 := by decide +kernel

end Cert.KernelProof
-- ==== Proof.KernelSched.lean ====
/-
  The protocol of the kernel on the 32-device mesh, as a schedule of rounds.

  Each device owns 21 semaphore cells: the barrier cell, and for each of its ten peers i one departure cell (its copy
  to peer i has been read out of its source) and one arrival cell (the copy from the peer that counts it as peer i
  has been written into landing slot i). Every cell has ONE round. The barrier cell's round has ten duties, duty j
  paid by peer j with one signal; that signal hands over the landing slot on peer j into which this device will copy. A departure cell's only duty returns the source rows to
  the sender; an arrival cell's only duty hands the owner its landing slot holding the sender's rows.

  The values: device c's partial product P(c) (512 × 256, the local contraction over its 512 rows of x and dy's
  column block g(c)); landing slot i < 3 holds rows 128·y(c) … of P(p) for the peer p that is i + 1 steps DOWN in y;
  A(c) is the sum of the own row block and the three landed ones; landing slot 3 + j holds A(p) for the peer p that is
  j + 1 steps down in g.
-/
import proofs.«900392_g7700000000000393_dist_rsdw_v7x_xyz2x4x4_y_m512_d512_f2048_bf16_1_alg».proof.Proof.KernelTopo
import proofs.«900392_g7700000000000393_dist_rsdw_v7x_xyz2x4x4_y_m512_d512_f2048_bf16_1_alg».proof.Proof.Gen.Kernel.Skeleton
import proofs.«900392_g7700000000000393_dist_rsdw_v7x_xyz2x4x4_y_m512_d512_f2048_bf16_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties named by a peer index) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barS : Sem sig := (SemArray.scalar (sig.barrier 0 rfl) : Sems sig S_).sem

/-- The departure semaphore of the copy to peer i, -/
def sndQ : Fin 10 → DmaSem sig
  | 0 => 3 | 1 => 4 | 2 => 5 | 3 => 9 | 4 => 10 | 5 => 11 | 6 => 12 | 7 => 13 | 8 => 14 | 9 => 15
/-- and the arrival semaphore of landing slot i. -/
def rcvQ : Fin 10 → DmaSem sig
  | 0 => 6 | 1 => 7 | 2 => 8 | 3 => 16 | 4 => 17 | 5 => 18 | 6 => 19 | 7 => 20 | 8 => 21 | 9 => 22

abbrev barCell (c : Dev nD) : GSem nD τ sig := ((c : Thread nD τ), .reg barS)
abbrev sndCell (c : Dev nD) (i : Fin 10) : GSem nD τ sig := ((c : Thread nD τ), .dma (sndQ i))
abbrev rcvCell (c : Dev nD) (i : Fin 10) : GSem nD τ sig := ((c : Thread nD τ), .dma (rcvQ i))

/-! ## Memrefs -/

abbrev xM : Memref sig .tc .vmem S512x512 .f32 := Memref.whole cc0_stg0_0
abbrev dyM : Memref sig .tc .vmem S512x2048 .f32 := Memref.whole cc0_stg1_0
abbrev oM : Memref sig .tc .vmem S128x2048 .f32 := Memref.whole cc0_stg2_0
abbrev pM : Memref sig .tc .vmem S512x256 .bf16 := Memref.whole cc0_scratch0
abbrev rM : Memref sig .tc .vmem S3x128x256 .bf16 := Memref.whole cc0_scratch1
abbrev gM : Memref sig .tc .vmem S8x128x256 .bf16 := Memref.whole cc0_scratch2

/-- Landing slot i: for i < 3 plane i of the reduce-scatter buffer, for i ≥ 3 plane i − 3 of the gather buffer. -/
def slot : Fin 10 → Memref sig .tc .vmem S128x256 .bf16
  | 0 => (rM.slice (Rect.unit (s := S3x128x256) ![0, 0, 0] S1x128x256.size inb_S3x128x256_S1x128x256_0_0_0) (fun _ => rfl)).squeeze S128x256 squeezes_S1x128x256_S128x256
  | 1 => (rM.slice (Rect.unit (s := S3x128x256) ![1, 0, 0] S1x128x256.size inb_S3x128x256_S1x128x256_1_0_0) (fun _ => rfl)).squeeze S128x256 squeezes_S1x128x256_S128x256
  | 2 => (rM.slice (Rect.unit (s := S3x128x256) ![2, 0, 0] S1x128x256.size inb_S3x128x256_S1x128x256_2_0_0) (fun _ => rfl)).squeeze S128x256 squeezes_S1x128x256_S128x256
  | 3 => (gM.slice (Rect.unit (s := S8x128x256) ![0, 0, 0] S1x128x256.size inb_S8x128x256_S1x128x256_0_0_0) (fun _ => rfl)).squeeze S128x256 squeezes_S1x128x256_S128x256
  | 4 => (gM.slice (Rect.unit (s := S8x128x256) ![1, 0, 0] S1x128x256.size inb_S8x128x256_S1x128x256_1_0_0) (fun _ => rfl)).squeeze S128x256 squeezes_S1x128x256_S128x256
  | 5 => (gM.slice (Rect.unit (s := S8x128x256) ![2, 0, 0] S1x128x256.size inb_S8x128x256_S1x128x256_2_0_0) (fun _ => rfl)).squeeze S128x256 squeezes_S1x128x256_S128x256
  | 6 => (gM.slice (Rect.unit (s := S8x128x256) ![3, 0, 0] S1x128x256.size inb_S8x128x256_S1x128x256_3_0_0) (fun _ => rfl)).squeeze S128x256 squeezes_S1x128x256_S128x256
  | 7 => (gM.slice (Rect.unit (s := S8x128x256) ![4, 0, 0] S1x128x256.size inb_S8x128x256_S1x128x256_4_0_0) (fun _ => rfl)).squeeze S128x256 squeezes_S1x128x256_S128x256
  | 8 => (gM.slice (Rect.unit (s := S8x128x256) ![5, 0, 0] S1x128x256.size inb_S8x128x256_S1x128x256_5_0_0) (fun _ => rfl)).squeeze S128x256 squeezes_S1x128x256_S128x256
  | 9 => (gM.slice (Rect.unit (s := S8x128x256) ![6, 0, 0] S1x128x256.size inb_S8x128x256_S1x128x256_6_0_0) (fun _ => rfl)).squeeze S128x256 squeezes_S1x128x256_S128x256

/-- Plane 7 of the gather buffer: the device's own block A(c), the source of its seven gather copies. -/
abbrev ownG : Memref sig .tc .vmem S128x256 .bf16 :=
  (gM.slice (Rect.unit (s := S8x128x256) ![7, 0, 0] S1x128x256.size inb_S8x128x256_S1x128x256_7_0_0) (fun _ => rfl)).squeeze S128x256 squeezes_S1x128x256_S128x256

/-- The rows of the partial product that go to the peer r + 1 steps up in y. -/
abbrev pRows (c : Dev nD) (r : Fin 3) : Memref sig .tc .vmem S128x256 .bf16 :=
  pM.slice (Rect.unit (s := S512x256) (k0_off2 c (BitVec.ofNat 32 (1 + r.val))) S128x256.size (k0_off2_inb c r)) (fun _ => rfl)

/-- The source of the copy to peer i. -/
def src (c : Dev nD) : Fin 10 → Memref sig .tc .vmem S128x256 .bf16
  | 0 => pRows c 0 | 1 => pRows c 1 | 2 => pRows c 2
  | 3 => ownG | 4 => ownG | 5 => ownG | 6 => ownG | 7 => ownG | 8 => ownG | 9 => ownG

/-- The units one copy of a 128 × 256 block credits. -/
abbrev N : ℕ := (ownG : Memref sig .tc .vmem S128x256 .bf16).view.dmaCredit

/-! ## Contents -/

section Vals
variable [∀ e, Nonempty (Elt F e)]

/-- Device c's block of x and of dy, as the pipeline stages them. -/
def xC (c : Dev nD) : (cc0_stg0_0 : Ref sig .tc).ty.Contents (Elt F) :=
  (win0_0.blk t0_0).view.read (Elt F) (m ((c : Thread nD τ).loc main_arg0))
def dyC (c : Dev nD) : (cc0_stg1_0 : Ref sig .tc).ty.Contents (Elt F) :=
  (win0_1.blk t0_0).view.read (Elt F) (m ((c : Thread nD τ).loc main_arg1))

abbrev rX : Rect S512x512 := Rect.unit (s := S512x512) ![0, 0] S512x512.size inb_S512x512_S512x512_0_0
abbrev rDy (c : Dev nD) : Rect S512x2048 := Rect.unit (s := S512x2048) (k0_off1 c) S512x256.size (k0_off1_inb c)
abbrev rP : Rect S512x256 := Rect.unit (s := S512x256) ![0, 0] S512x256.size inb_S512x256_S512x256_0_0
abbrev rOwn (c : Dev nD) : Rect S512x256 := Rect.unit (s := S512x256) (k0_off3 c) S128x256.size (k0_off3_inb c)
abbrev rR0 : Rect S3x128x256 := Rect.unit (s := S3x128x256) ![0, 0, 0] S1x128x256.size inb_S3x128x256_S1x128x256_0_0_0
abbrev rR1 : Rect S3x128x256 := Rect.unit (s := S3x128x256) ![1, 0, 0] S1x128x256.size inb_S3x128x256_S1x128x256_1_0_0
abbrev rR2 : Rect S3x128x256 := Rect.unit (s := S3x128x256) ![2, 0, 0] S1x128x256.size inb_S3x128x256_S1x128x256_2_0_0
abbrev rG0 : Rect S8x128x256 := Rect.unit (s := S8x128x256) ![0, 0, 0] S1x128x256.size inb_S8x128x256_S1x128x256_0_0_0
abbrev rG1 : Rect S8x128x256 := Rect.unit (s := S8x128x256) ![1, 0, 0] S1x128x256.size inb_S8x128x256_S1x128x256_1_0_0
abbrev rG2 : Rect S8x128x256 := Rect.unit (s := S8x128x256) ![2, 0, 0] S1x128x256.size inb_S8x128x256_S1x128x256_2_0_0
abbrev rG3 : Rect S8x128x256 := Rect.unit (s := S8x128x256) ![3, 0, 0] S1x128x256.size inb_S8x128x256_S1x128x256_3_0_0
abbrev rG4 : Rect S8x128x256 := Rect.unit (s := S8x128x256) ![4, 0, 0] S1x128x256.size inb_S8x128x256_S1x128x256_4_0_0
abbrev rG5 : Rect S8x128x256 := Rect.unit (s := S8x128x256) ![5, 0, 0] S1x128x256.size inb_S8x128x256_S1x128x256_5_0_0
abbrev rG6 : Rect S8x128x256 := Rect.unit (s := S8x128x256) ![6, 0, 0] S1x128x256.size inb_S8x128x256_S1x128x256_6_0_0
abbrev rG7 : Rect S8x128x256 := Rect.unit (s := S8x128x256) ![7, 0, 0] S1x128x256.size inb_S8x128x256_S1x128x256_7_0_0
abbrev rOutOwn (c : Dev nD) : Rect S128x2048 := Rect.unit (s := S128x2048) (k0_off4 c) S128x256.size (k0_off4_inb c)
abbrev rOut (c : Dev nD) (r : Fin 7) : Rect S128x2048 := Rect.unit (s := S128x2048) (k0_off5 c (BitVec.ofNat 32 (1 + r.val))) S128x256.size (k0_off5_inb c r)

/-- P(c): the local partial product, as the body stores it (in bf16 format). -/
def partV (c : Dev nD) : FVec F S512x256 .bf16 :=
  k0_pay1 (xM.view.readAt (Elt F) rX.toLoadRect (xC m c)) (dyM.view.readAt (Elt F) (rDy c).toLoadRect (dyC m c))
/-- The partial-product buffer after the store (the store covers it). -/
def pC (c : Dev nD) : (cc0_scratch0 : Ref sig .tc).ty.Contents (Elt F) := partV m c

/-- What lands in reduce-scatter slot k of c: the rows of P(p) addressed to c, p the peer that counts c as its peer k. -/
def rsVec (c : Dev nD) (k : Fin 3) : S128x256.Idx → Elt F .bf16 :=
  (pRows (peer c (rev ⟨k.val, by omega⟩)) k).view.read (Elt F) (pC m (peer c (rev ⟨k.val, by omega⟩)))
def rsBuf (c : Dev nD) : Fin 3 → (cc0_scratch1 : Ref sig .tc).ty.Contents (Elt F)
  | 0 => (slot 0).view.write (Elt F) (View.junk (Val := Elt F) (View.whole cc0_scratch1)) (rsVec m c 0) Finset.univ
  | 1 => (slot 1).view.write (Elt F) (View.junk (Val := Elt F) (View.whole cc0_scratch1)) (rsVec m c 1) Finset.univ
  | 2 => (slot 2).view.write (Elt F) (View.junk (Val := Elt F) (View.whole cc0_scratch1)) (rsVec m c 2) Finset.univ

/-- A(c): the own row block of P(c) plus the three landed ones; -/
def accV (c : Dev nD) : FVec F S128x256 .f32 :=
  k0_pay2 (pM.view.readAt (Elt F) (rOwn c).toLoadRect (pC m c)) (rM.view.readAt (Elt F) rR0.toLoadRect (rsBuf m c 0))
    (rM.view.readAt (Elt F) rR1.toLoadRect (rsBuf m c 1)) (rM.view.readAt (Elt F) rR2.toLoadRect (rsBuf m c 2))
/-- and as the body stores it into plane 7 of the gather buffer. -/
def ownV (c : Dev nD) : FVec F S1x128x256 .bf16 :=
  k0_pay3 (pM.view.readAt (Elt F) (rOwn c).toLoadRect (pC m c)) (rM.view.readAt (Elt F) rR0.toLoadRect (rsBuf m c 0))
    (rM.view.readAt (Elt F) rR1.toLoadRect (rsBuf m c 1)) (rM.view.readAt (Elt F) rR2.toLoadRect (rsBuf m c 2))
def ownC (c : Dev nD) : (cc0_scratch2 : Ref sig .tc).ty.Contents (Elt F) :=
  ((gM.access rG7 : View sig .tc _ _ _)).write (Elt F) (View.junk (Val := Elt F) (View.whole cc0_scratch2)) (ownV m c) Finset.univ

/-- What lands in gather slot 3 + j of c: A(p), p the peer that counts c as its peer 3 + j. -/
def gVec (c : Dev nD) (j : Fin 7) : S128x256.Idx → Elt F .bf16 :=
  (ownG : Memref sig .tc .vmem S128x256 .bf16).view.read (Elt F) (ownC m (peer c (rev ⟨3 + j.val, by omega⟩)))
def gBuf (c : Dev nD) : Fin 7 → (cc0_scratch2 : Ref sig .tc).ty.Contents (Elt F)
  | 0 => (slot 3).view.write (Elt F) (View.junk (Val := Elt F) (View.whole cc0_scratch2)) (gVec m c 0) Finset.univ
  | 1 => (slot 4).view.write (Elt F) (View.junk (Val := Elt F) (View.whole cc0_scratch2)) (gVec m c 1) Finset.univ
  | 2 => (slot 5).view.write (Elt F) (View.junk (Val := Elt F) (View.whole cc0_scratch2)) (gVec m c 2) Finset.univ
  | 3 => (slot 6).view.write (Elt F) (View.junk (Val := Elt F) (View.whole cc0_scratch2)) (gVec m c 3) Finset.univ
  | 4 => (slot 7).view.write (Elt F) (View.junk (Val := Elt F) (View.whole cc0_scratch2)) (gVec m c 4) Finset.univ
  | 5 => (slot 8).view.write (Elt F) (View.junk (Val := Elt F) (View.whole cc0_scratch2)) (gVec m c 5) Finset.univ
  | 6 => (slot 9).view.write (Elt F) (View.junk (Val := Elt F) (View.whole cc0_scratch2)) (gVec m c 6) Finset.univ

end Vals

/-! ## Payloads -/

section Pay
variable [∀ e, Nonempty (Elt F e)]

/-- The share of its source a copy lends: the three reduce-scatter sources are disjoint rows, lent whole; the seven
    gather copies read ONE plane, an eighth of its share each (the last eighth stays with the device). -/
def shr : Fin 10 → PosShare TreeShare
  | 0 => fullShare | 1 => fullShare | 2 => fullShare
  | 3 => fullShare.left.left.left | 4 => fullShare.left.left.right | 5 => fullShare.left.right.left | 6 => fullShare.left.right.right
  | 7 => fullShare.right.left.left | 8 => fullShare.right.left.right | 9 => fullShare.right.right.left

def slotPts (c : Dev nD) (i : Fin 10) (f : Buf (Elt F) ((slot i).view.loc (c : Thread nD τ))) : sProp 𝕄 :=
  (slot i).view.loc (c : Thread nD τ) ↦[(slot i).view.set]{fullShare} f

/-- Landing slot i of device c once the copy into it has landed. -/
def landed (c : Dev nD) : (i : Fin 10) → Buf (Elt F) ((slot i).view.loc (c : Thread nD τ))
  | 0 => rsBuf m c 0 | 1 => rsBuf m c 1 | 2 => rsBuf m c 2
  | 3 => gBuf m c 0 | 4 => gBuf m c 1 | 5 => gBuf m c 2 | 6 => gBuf m c 3 | 7 => gBuf m c 4 | 8 => gBuf m c 5 | 9 => gBuf m c 6

/-- The buffer the source of copy i is a part of, when the copy is issued. -/
def srcC (c : Dev nD) : (i : Fin 10) → Buf (Elt F) ((src c i).view.loc (c : Thread nD τ))
  | 0 => pC m c | 1 => pC m c | 2 => pC m c
  | 3 => ownC m c | 4 => ownC m c | 5 => ownC m c | 6 => ownC m c | 7 => ownC m c | 8 => ownC m c | 9 => ownC m c

/-- Peer j's signal hands c the landing slot j ON PEER j (over whatever it holds). -/
def barPay (c : Dev nD) (j : Fin 10) : sProp 𝕄 := iprop(∃ f, slotPts (peer c j) j f)
def rcvPay (c : Dev nD) (i : Fin 10) : sProp 𝕄 := slotPts c i (landed m c i)
def sndPay (c : Dev nD) (i : Fin 10) : sProp 𝕄 :=
  (src c i).view.loc (c : Thread nD τ) ↦[(src c i).view.set]{shr i} srcC m c i

/-- The payload of a DMA cell's one duty, by the semaphore's number. -/
def dmaPay (c : Dev nD) : ℕ → sProp 𝕄
  | 3 => sndPay m c 0 | 4 => sndPay m c 1 | 5 => sndPay m c 2
  | 6 => rcvPay m c 0 | 7 => rcvPay m c 1 | 8 => rcvPay m c 2
  | 9 => sndPay m c 3 | 10 => sndPay m c 4 | 11 => sndPay m c 5 | 12 => sndPay m c 6 | 13 => sndPay m c 7 | 14 => sndPay m c 8 | 15 => sndPay m c 9
  | 16 => rcvPay m c 3 | 17 => rcvPay m c 4 | 18 => rcvPay m c 5 | 19 => rcvPay m c 6 | 20 => rcvPay m c 7 | 21 => rcvPay m c 8 | 22 => rcvPay m c 9
  | _ => iprop(emp)

omit [FloatOps F] in
theorem slotPts_eq (c : Dev nD) (i : Fin 10) (f : Buf (Elt F) ((slot i).view.loc (c : Thread nD τ))) :
    slotPts c i f = ((slot i).view.loc (c : Thread nD τ) ↦[(slot i).view.set]{fullShare} f : sProp 𝕄) := rfl
omit [FloatOps F] in
instance slotPts_storable (c : Dev nD) (i : Fin 10) (f) : BI.Storable (upEmb : UEmb _ 𝕄) (slotPts (F := F) c i f) := by unfold slotPts; infer_instance
omit [FloatOps F] in
instance barPay_storable (c : Dev nD) (j : Fin 10) : BI.Storable (upEmb : UEmb _ 𝕄) (barPay (F := F) c j) := by unfold barPay; infer_instance
instance rcvPay_storable (c : Dev nD) (i : Fin 10) : BI.Storable (upEmb : UEmb _ 𝕄) (rcvPay (F := F) m c i) := by unfold rcvPay; infer_instance
instance sndPay_storable (c : Dev nD) (i : Fin 10) : BI.Storable (upEmb : UEmb _ 𝕄) (sndPay (F := F) m c i) := by unfold sndPay; infer_instance
instance dmaPay_storable (c : Dev nD) (q : ℕ) : BI.Storable (upEmb : UEmb _ 𝕄) (dmaPay (F := F) m c q) := by
  unfold dmaPay; (repeat' split) <;> infer_instance

/-! ## The schedule: one round per cell -/

def sched : Rounds.Schedule (GSem nD τ sig) (Fin 10) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with | .reg _ => barPay g.1.1 d | .dma q => dmaPay m g.1.1 q.val
  amount_pos g _ _ _ := by
    cases g.2
    · exact Nat.one_pos
    · exact View.dmaCredit_pos _ (by decide)

instance sched_payload_storable (g : GSem nD τ sig) (r : ℕ) (d : Fin 10) :
    BI.Storable (upEmb : UEmb _ 𝕄) ((sched (F := F) m).payload g r d) := by
  show BI.Storable upEmb (match g.2 with | .reg _ => barPay g.1.1 d | .dma q => dmaPay m g.1.1 q.val)
  split <;> infer_instance

section Tables
variable (c : Dev nD) (i : Fin 10)

theorem duties_bar : (sched (F := F) m).duties (barCell c) 0 = Finset.univ := by dsimp only [sched]; exact if_pos ⟨rfl, rfl⟩
theorem duties_snd : (sched (F := F) m).duties (sndCell c i) 0 = {0} := by
  dsimp only [sched]; rw [if_pos ⟨rfl, rfl⟩]; exact if_pos (by revert i; decide)
theorem duties_rcv : (sched (F := F) m).duties (rcvCell c i) 0 = {0} := by
  dsimp only [sched]; rw [if_pos ⟨rfl, rfl⟩]; exact if_pos (by revert i; decide)
theorem duties_later (g : GSem nD τ sig) : ∀ r, 1 ≤ r → (sched (F := F) m).duties g r = ∅ :=
  fun r hr => by dsimp only [sched]; rw [if_neg fun h => by omega]

theorem amount_bar (d : Fin 10) : (sched (F := F) m).amount (barCell c) 0 d = 1 := rfl
theorem amount_snd (d : Fin 10) : (sched (F := F) m).amount (sndCell c i) 0 d = N := rfl
theorem amount_rcv (d : Fin 10) : (sched (F := F) m).amount (rcvCell c i) 0 d = N := rfl

theorem expect_bar : (sched (F := F) m).expect (barCell c) 0 = 10 := by
  unfold Schedule.expect Schedule.amountOf
  rw [duties_bar, Finset.sum_congr rfl fun d _ => amount_bar m c d, Finset.sum_const, Finset.card_univ, Fintype.card_fin, smul_eq_mul]
theorem expect_snd : (sched (F := F) m).expect (sndCell c i) 0 = N := by
  unfold Schedule.expect Schedule.amountOf; rw [duties_snd, Finset.sum_singleton, amount_snd]
theorem expect_rcv : (sched (F := F) m).expect (rcvCell c i) 0 = N := by
  unfold Schedule.expect Schedule.amountOf; rw [duties_rcv, Finset.sum_singleton, amount_rcv]

theorem payload_bar (j : Fin 10) : (sched (F := F) m).payload (barCell c) 0 j = barPay c j := rfl
theorem payload_snd (d : Fin 10) : (sched (F := F) m).payload (sndCell c i) 0 d = sndPay m c i := by
  revert i; intro i; fin_cases i <;> rfl
theorem payload_rcv (d : Fin 10) : (sched (F := F) m).payload (rcvCell c i) 0 d = rcvPay m c i := by
  revert i; intro i; fin_cases i <;> rfl

end Tables

end Pay

/-! ### What a device hands over with its signal to peer i: its own landing slot rev i -/

section SigTables
variable [∀ e, Nonempty (Elt F e)] (c : Dev nD)
theorem payload_sig0 : (sched (F := F) m).payload (barCell (peer c 0)) 0 2
    = iprop(∃ f : Buf (Elt F) ((slot 2).view.loc (c : Thread nD τ)), ((slot 2).view.loc (c : Thread nD τ) ↦[(slot 2).view.set]{fullShare} f : sProp 𝕄)) := by
  show barPay (peer c 0) 2 = _; unfold barPay slotPts; rw [show peer (peer c 0) 2 = c from peer_rev c 0]
theorem payload_sig1 : (sched (F := F) m).payload (barCell (peer c 1)) 0 1
    = iprop(∃ f : Buf (Elt F) ((slot 1).view.loc (c : Thread nD τ)), ((slot 1).view.loc (c : Thread nD τ) ↦[(slot 1).view.set]{fullShare} f : sProp 𝕄)) := by
  show barPay (peer c 1) 1 = _; unfold barPay slotPts; rw [show peer (peer c 1) 1 = c from peer_rev c 1]
theorem payload_sig2 : (sched (F := F) m).payload (barCell (peer c 2)) 0 0
    = iprop(∃ f : Buf (Elt F) ((slot 0).view.loc (c : Thread nD τ)), ((slot 0).view.loc (c : Thread nD τ) ↦[(slot 0).view.set]{fullShare} f : sProp 𝕄)) := by
  show barPay (peer c 2) 0 = _; unfold barPay slotPts; rw [show peer (peer c 2) 0 = c from peer_rev c 2]
theorem payload_sig3 : (sched (F := F) m).payload (barCell (peer c 3)) 0 9
    = iprop(∃ f : Buf (Elt F) ((slot 9).view.loc (c : Thread nD τ)), ((slot 9).view.loc (c : Thread nD τ) ↦[(slot 9).view.set]{fullShare} f : sProp 𝕄)) := by
  show barPay (peer c 3) 9 = _; unfold barPay slotPts; rw [show peer (peer c 3) 9 = c from peer_rev c 3]
theorem payload_sig4 : (sched (F := F) m).payload (barCell (peer c 4)) 0 8
    = iprop(∃ f : Buf (Elt F) ((slot 8).view.loc (c : Thread nD τ)), ((slot 8).view.loc (c : Thread nD τ) ↦[(slot 8).view.set]{fullShare} f : sProp 𝕄)) := by
  show barPay (peer c 4) 8 = _; unfold barPay slotPts; rw [show peer (peer c 4) 8 = c from peer_rev c 4]
theorem payload_sig5 : (sched (F := F) m).payload (barCell (peer c 5)) 0 7
    = iprop(∃ f : Buf (Elt F) ((slot 7).view.loc (c : Thread nD τ)), ((slot 7).view.loc (c : Thread nD τ) ↦[(slot 7).view.set]{fullShare} f : sProp 𝕄)) := by
  show barPay (peer c 5) 7 = _; unfold barPay slotPts; rw [show peer (peer c 5) 7 = c from peer_rev c 5]
theorem payload_sig6 : (sched (F := F) m).payload (barCell (peer c 6)) 0 6
    = iprop(∃ f : Buf (Elt F) ((slot 6).view.loc (c : Thread nD τ)), ((slot 6).view.loc (c : Thread nD τ) ↦[(slot 6).view.set]{fullShare} f : sProp 𝕄)) := by
  show barPay (peer c 6) 6 = _; unfold barPay slotPts; rw [show peer (peer c 6) 6 = c from peer_rev c 6]
theorem payload_sig7 : (sched (F := F) m).payload (barCell (peer c 7)) 0 5
    = iprop(∃ f : Buf (Elt F) ((slot 5).view.loc (c : Thread nD τ)), ((slot 5).view.loc (c : Thread nD τ) ↦[(slot 5).view.set]{fullShare} f : sProp 𝕄)) := by
  show barPay (peer c 7) 5 = _; unfold barPay slotPts; rw [show peer (peer c 7) 5 = c from peer_rev c 7]
theorem payload_sig8 : (sched (F := F) m).payload (barCell (peer c 8)) 0 4
    = iprop(∃ f : Buf (Elt F) ((slot 4).view.loc (c : Thread nD τ)), ((slot 4).view.loc (c : Thread nD τ) ↦[(slot 4).view.set]{fullShare} f : sProp 𝕄)) := by
  show barPay (peer c 8) 4 = _; unfold barPay slotPts; rw [show peer (peer c 8) 4 = c from peer_rev c 8]
theorem payload_sig9 : (sched (F := F) m).payload (barCell (peer c 9)) 0 3
    = iprop(∃ f : Buf (Elt F) ((slot 3).view.loc (c : Thread nD τ)), ((slot 3).view.loc (c : Thread nD τ) ↦[(slot 3).view.set]{fullShare} f : sProp 𝕄)) := by
  show barPay (peer c 9) 3 = _; unfold barPay slotPts; rw [show peer (peer c 9) 3 = c from peer_rev c 9]
end SigTables

/-! ### The payloads spelt out, and a device as its peer's peer -/

section Spelt
variable [∀ e, Nonempty (Elt F e)] (c : Dev nD)
omit [FloatOps F] in
theorem barPay_eq (j : Fin 10) : barPay (F := F) c j
    = iprop(∃ f : Buf (Elt F) ((slot j).view.loc (peer c j : Thread nD τ)), ((slot j).view.loc (peer c j : Thread nD τ) ↦[(slot j).view.set]{fullShare} f : sProp 𝕄)) := rfl
theorem sndPay_eq (i : Fin 10) : sndPay m c i = ((src c i).view.loc (c : Thread nD τ) ↦[(src c i).view.set]{shr i} srcC m c i : sProp 𝕄) := rfl
theorem rcvPay_eq (i : Fin 10) : rcvPay m c i = ((slot i).view.loc (c : Thread nD τ) ↦[(slot i).view.set]{fullShare} landed m c i : sProp 𝕄) := rfl
theorem peer_peer0 : peer (peer c 0) 2 = c := peer_rev c 0
theorem peer_peer1 : peer (peer c 1) 1 = c := peer_rev c 1
theorem peer_peer2 : peer (peer c 2) 0 = c := peer_rev c 2
theorem peer_peer3 : peer (peer c 3) 9 = c := peer_rev c 3
theorem peer_peer4 : peer (peer c 4) 8 = c := peer_rev c 4
theorem peer_peer5 : peer (peer c 5) 7 = c := peer_rev c 5
theorem peer_peer6 : peer (peer c 6) 6 = c := peer_rev c 6
theorem peer_peer7 : peer (peer c 7) 5 = c := peer_rev c 7
theorem peer_peer8 : peer (peer c 8) 4 = c := peer_rev c 8
theorem peer_peer9 : peer (peer c 9) 3 = c := peer_rev c 9
omit [FloatOps F] in
theorem barPay_sig0 : barPay (F := F) (peer c 0) 2
    = iprop(∃ f : Buf (Elt F) ((slot 2).view.loc (c : Thread nD τ)), ((slot 2).view.loc (c : Thread nD τ) ↦[(slot 2).view.set]{fullShare} f : sProp 𝕄)) := by
  unfold barPay slotPts; rw [peer_peer0]
omit [FloatOps F] in
theorem barPay_sig1 : barPay (F := F) (peer c 1) 1
    = iprop(∃ f : Buf (Elt F) ((slot 1).view.loc (c : Thread nD τ)), ((slot 1).view.loc (c : Thread nD τ) ↦[(slot 1).view.set]{fullShare} f : sProp 𝕄)) := by
  unfold barPay slotPts; rw [peer_peer1]
omit [FloatOps F] in
theorem barPay_sig2 : barPay (F := F) (peer c 2) 0
    = iprop(∃ f : Buf (Elt F) ((slot 0).view.loc (c : Thread nD τ)), ((slot 0).view.loc (c : Thread nD τ) ↦[(slot 0).view.set]{fullShare} f : sProp 𝕄)) := by
  unfold barPay slotPts; rw [peer_peer2]
omit [FloatOps F] in
theorem barPay_sig3 : barPay (F := F) (peer c 3) 9
    = iprop(∃ f : Buf (Elt F) ((slot 9).view.loc (c : Thread nD τ)), ((slot 9).view.loc (c : Thread nD τ) ↦[(slot 9).view.set]{fullShare} f : sProp 𝕄)) := by
  unfold barPay slotPts; rw [peer_peer3]
omit [FloatOps F] in
theorem barPay_sig4 : barPay (F := F) (peer c 4) 8
    = iprop(∃ f : Buf (Elt F) ((slot 8).view.loc (c : Thread nD τ)), ((slot 8).view.loc (c : Thread nD τ) ↦[(slot 8).view.set]{fullShare} f : sProp 𝕄)) := by
  unfold barPay slotPts; rw [peer_peer4]
omit [FloatOps F] in
theorem barPay_sig5 : barPay (F := F) (peer c 5) 7
    = iprop(∃ f : Buf (Elt F) ((slot 7).view.loc (c : Thread nD τ)), ((slot 7).view.loc (c : Thread nD τ) ↦[(slot 7).view.set]{fullShare} f : sProp 𝕄)) := by
  unfold barPay slotPts; rw [peer_peer5]
omit [FloatOps F] in
theorem barPay_sig6 : barPay (F := F) (peer c 6) 6
    = iprop(∃ f : Buf (Elt F) ((slot 6).view.loc (c : Thread nD τ)), ((slot 6).view.loc (c : Thread nD τ) ↦[(slot 6).view.set]{fullShare} f : sProp 𝕄)) := by
  unfold barPay slotPts; rw [peer_peer6]
omit [FloatOps F] in
theorem barPay_sig7 : barPay (F := F) (peer c 7) 5
    = iprop(∃ f : Buf (Elt F) ((slot 5).view.loc (c : Thread nD τ)), ((slot 5).view.loc (c : Thread nD τ) ↦[(slot 5).view.set]{fullShare} f : sProp 𝕄)) := by
  unfold barPay slotPts; rw [peer_peer7]
omit [FloatOps F] in
theorem barPay_sig8 : barPay (F := F) (peer c 8) 4
    = iprop(∃ f : Buf (Elt F) ((slot 4).view.loc (c : Thread nD τ)), ((slot 4).view.loc (c : Thread nD τ) ↦[(slot 4).view.set]{fullShare} f : sProp 𝕄)) := by
  unfold barPay slotPts; rw [peer_peer8]
omit [FloatOps F] in
theorem barPay_sig9 : barPay (F := F) (peer c 9) 3
    = iprop(∃ f : Buf (Elt F) ((slot 3).view.loc (c : Thread nD τ)), ((slot 3).view.loc (c : Thread nD τ) ↦[(slot 3).view.set]{fullShare} f : sProp 𝕄)) := by
  unfold barPay slotPts; rw [peer_peer9]
end Spelt

end Cert.KernelProof

end
-- ==== Proof.KernelDues.lean ====
/-
  What each device owes at launch, and why no wait can deadlock.

  Device c owes, from launch: one unit to the barrier cell of each of its ten peers (its entry signals), and the
  credit of one 128 × 256 block to arrival cell i of peer i (its copy to that peer). The cells carry levels: staging
  and departure cells 0, barrier cells 1, reduce-scatter arrival cells 2, gather arrival cells 3. A device waits on
  its barrier cell while it owes arrival credits only (levels 2 and 3), on its reduce-scatter arrival cells while it
  owes gather arrival credits only (level 3), and on everything else owing nothing: every wait sits strictly below
  all the waiter still owes.
-/
import proofs.«900392_g7700000000000393_dist_rsdw_v7x_xyz2x4x4_y_m512_d512_f2048_bf16_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The arrival credit c owes peer i, and the barrier unit. -/
def owedRcv (c : Dev nD) (i : Fin 10) : CellTallies nD τ sig Unit := tallyAt (rcvCell (peer c i) i) () N
def owedBar (c : Dev nD) (i : Fin 10) : CellTallies nD τ sig Unit := tallyAt (barCell (peer c i)) () 1

/-- The gather arrivals (paid last, 9 first), the reduce-scatter arrivals before them (2 first), the barrier units
    first of all (0 first): each payment takes the LAST summand. -/
def OG (c : Dev nD) : CellTallies nD τ sig Unit :=
  owedRcv c 3 + owedRcv c 4 + owedRcv c 5 + owedRcv c 6 + owedRcv c 7 + owedRcv c 8 + owedRcv c 9
def OR (c : Dev nD) : CellTallies nD τ sig Unit := OG c + owedRcv c 0 + owedRcv c 1 + owedRcv c 2
def O₀ (c : Dev nD) : CellTallies nD τ sig Unit :=
  OR c + owedBar c 9 + owedBar c 8 + owedBar c 7 + owedBar c 6 + owedBar c 5 + owedBar c 4 + owedBar c 3 + owedBar c 2 + owedBar c 1 + owedBar c 0

def L (g : GSem nD τ sig) : Finset Unit := if g.1.2 = .tc then {()} else ∅
def lvQ (q : DmaSem sig) : ℕ := if 16 ≤ q.val then 3 else if 6 ≤ q.val ∧ q.val ≤ 8 then 2 else 0
def lv (g : GSem nD τ sig) (_ : Unit) : ℕ := match g.2 with | .reg _ => 1 | .dma q => lvQ q

theorem L_of_ne (g : GSem nD τ sig) (h : g.1.2 ≠ .tc) : L g = ∅ := if_neg h
theorem L_tc (c : Dev nD) (sm : SemLoc sig) : L ((c : Thread nD τ), sm) = {()} := if_pos rfl

theorem lvQ_rcv : ∀ i : Fin 10, 2 ≤ lvQ (rcvQ i) := by decide
theorem lvQ_rcv_g : ∀ i : Fin 10, 3 ≤ i.val → lvQ (rcvQ i) = 3 := by decide
theorem lvQ_rcv_r : ∀ i : Fin 10, i.val < 3 → lvQ (rcvQ i) = 2 := by decide

theorem owedRcv_pos {c : Dev nD} {i : Fin 10} {g : GSem nD τ sig} {u : Unit} (h : 0 < owedRcv c i g u) : g = rcvCell (peer c i) i :=
  (Pipeline.tallyAt_pos h).1
theorem owedBar_pos {c : Dev nD} {i : Fin 10} {g : GSem nD τ sig} {u : Unit} (h : 0 < owedBar c i g u) : g = barCell (peer c i) :=
  (Pipeline.tallyAt_pos h).1

theorem OG_pos {c : Dev nD} {g : GSem nD τ sig} {u : Unit} (h : 0 < OG c g u) : ∃ (p : Dev nD) (i : Fin 10), 3 ≤ i.val ∧ g = rcvCell p i := by
  unfold OG at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, _, by decide, owedRcv_pos h⟩

theorem OR_pos {c : Dev nD} {g : GSem nD τ sig} {u : Unit} (h : 0 < OR c g u) : ∃ (p : Dev nD) (i : Fin 10), g = rcvCell p i := by
  unfold OR at h
  rcases Pipeline.add_pos_cases h with h | h
  rcases Pipeline.add_pos_cases h with h | h
  rcases Pipeline.add_pos_cases h with h | h
  · obtain ⟨p, i, _, hg⟩ := OG_pos h; exact ⟨p, i, hg⟩
  all_goals exact ⟨_, _, owedRcv_pos h⟩

theorem O₀_pos {c : Dev nD} {g : GSem nD τ sig} {u : Unit} (h : 0 < O₀ c g u) :
    (∃ (p : Dev nD) (i : Fin 10), g = rcvCell p i) ∨ ∃ p : Dev nD, g = barCell p := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inl (OR_pos h)
  all_goals exact Or.inr ⟨_, owedBar_pos h⟩

omit [FloatOps F] in
/-- At its barrier wait a device owes arrival credits only. -/
theorem mayWait_bar (c : Dev nD) : (levAts L lv : sProp 𝕄) ⊢ MayWait (c : Thread nD τ) (.reg barS) () (OR c) :=
  Pipeline.mayWait_of_levAts (by rw [L_tc]; exact Finset.mem_singleton_self _) fun g i h => by
    obtain ⟨p, j, rfl⟩ := OR_pos h
    exact ⟨by rw [L_tc]; exact Finset.mem_singleton_self _, by show 1 < lvQ (rcvQ j); have := lvQ_rcv j; omega⟩

omit [FloatOps F] in
/-- At a reduce-scatter arrival wait it owes gather arrival credits only. -/
theorem mayWait_rs (c : Dev nD) (k : Fin 10) (hk : k.val < 3) : (levAts L lv : sProp 𝕄) ⊢ MayWait (c : Thread nD τ) (.dma (rcvQ k)) () (OG c) :=
  Pipeline.mayWait_of_levAts (by rw [L_tc]; exact Finset.mem_singleton_self _) fun g i h => by
    obtain ⟨p, j, hj, rfl⟩ := OG_pos h
    exact ⟨by rw [L_tc]; exact Finset.mem_singleton_self _, by show lvQ (rcvQ k) < lvQ (rcvQ j); rw [lvQ_rcv_r k hk, lvQ_rcv_g j hj]; decide⟩

omit [FloatOps F] in
/-- The pipeline's own staging waits happen owing everything (before the body) or nothing (after it): level 0. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i h => ?_
    have h0 : lv ((c : Thread nD τ), SemLoc.dma q) () = 0 := by
      show lvQ q = 0; unfold lvQ; rw [if_neg (by omega), if_neg (by omega)]
    rcases O₀_pos h with ⟨p, j, rfl⟩ | ⟨p, rfl⟩
    · exact ⟨by rw [L_tc]; exact Finset.mem_singleton_self _, by rw [h0]; show 0 < lvQ (rcvQ j); have := lvQ_rcv j; omega⟩
    · exact ⟨by rw [L_tc]; exact Finset.mem_singleton_self _, by rw [h0]; exact Nat.one_pos⟩
  · rw [MayWait_zero]; iintro -; iempintro

end Cert.KernelProof

end
-- ==== Proof.KernelCuts.lean ====
/-
  Cutting the scratch buffers as the protocol uses them: the reduce-scatter buffer into its three planes, the gather
  buffer into its eight, the partial-product buffer into the four row blocks (three sent, one kept). Two planes or two
  row blocks never share an element; a buffer cut into pieces and a remainder is put back from pieces holding anything.
-/
import proofs.«900392_g7700000000000393_dist_rsdw_v7x_xyz2x4x4_y_m512_d512_f2048_bf16_1_alg».proof.Proof.KernelDues

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Carving a piece out of a points-to, and putting one back -/

omit [FloatOps F] [∀ e, Nonempty (Elt F e)] in
theorem carve {ℓ : Loc nD τ sig} {S I : Finset (Idx ℓ)} (h : I ⊆ S) (q : PosShare TreeShare) (f : Buf (Elt F) ℓ) :
    (ℓ ↦[S]{q} f : sProp 𝕄) ⊢ iprop((ℓ ↦[I]{q} f) ∗ ℓ ↦[S \ I]{q} f) := (pointsTo_split_subset h).1

omit [FloatOps F] [∀ e, Nonempty (Elt F e)] in
theorem uncarve {ℓ : Loc nD τ sig} {S I : Finset (Idx ℓ)} (h : I ⊆ S) (q : PosShare TreeShare) (f g : Buf (Elt F) ℓ) :
    iprop((ℓ ↦[I]{q} g) ∗ ℓ ↦[S \ I]{q} f) ⊢ (∃ f', (ℓ ↦[S]{q} f') : sProp 𝕄) := by
  iintro ⟨H1, H2⟩
  iexists (I.piecewise g f)
  ihave H := (BI.Region.is_join (Finset.sdiff_disjoint (s := I) (t := S))) $$ [H1 H2]
  · isplitl [H2] <;> iassumption
  rw [Finset.sdiff_union_of_subset h]
  iexact H

omit [FloatOps F] [∀ e, Nonempty (Elt F e)] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## Planes -/

omit [FloatOps F] in
theorem mem_gplane0 {i : (cc0_scratch2 : Ref sig .tc).ty.Idx}
    (h : i ∈ ((gM.slice (Rect.unit (s := S8x128x256) ![0, 0, 0] S1x128x256.size inb_S8x128x256_S1x128x256_0_0_0) (fun _ => rfl)).squeeze S128x256 squeezes_S1x128x256_S128x256 : Memref sig .tc .vmem S128x256 .bf16).view.set) :
    (i 0 : ℕ) = 0 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane1 {i : (cc0_scratch2 : Ref sig .tc).ty.Idx}
    (h : i ∈ ((gM.slice (Rect.unit (s := S8x128x256) ![1, 0, 0] S1x128x256.size inb_S8x128x256_S1x128x256_1_0_0) (fun _ => rfl)).squeeze S128x256 squeezes_S1x128x256_S128x256 : Memref sig .tc .vmem S128x256 .bf16).view.set) :
    (i 0 : ℕ) = 1 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane2 {i : (cc0_scratch2 : Ref sig .tc).ty.Idx}
    (h : i ∈ ((gM.slice (Rect.unit (s := S8x128x256) ![2, 0, 0] S1x128x256.size inb_S8x128x256_S1x128x256_2_0_0) (fun _ => rfl)).squeeze S128x256 squeezes_S1x128x256_S128x256 : Memref sig .tc .vmem S128x256 .bf16).view.set) :
    (i 0 : ℕ) = 2 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane3 {i : (cc0_scratch2 : Ref sig .tc).ty.Idx}
    (h : i ∈ ((gM.slice (Rect.unit (s := S8x128x256) ![3, 0, 0] S1x128x256.size inb_S8x128x256_S1x128x256_3_0_0) (fun _ => rfl)).squeeze S128x256 squeezes_S1x128x256_S128x256 : Memref sig .tc .vmem S128x256 .bf16).view.set) :
    (i 0 : ℕ) = 3 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane4 {i : (cc0_scratch2 : Ref sig .tc).ty.Idx}
    (h : i ∈ ((gM.slice (Rect.unit (s := S8x128x256) ![4, 0, 0] S1x128x256.size inb_S8x128x256_S1x128x256_4_0_0) (fun _ => rfl)).squeeze S128x256 squeezes_S1x128x256_S128x256 : Memref sig .tc .vmem S128x256 .bf16).view.set) :
    (i 0 : ℕ) = 4 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane5 {i : (cc0_scratch2 : Ref sig .tc).ty.Idx}
    (h : i ∈ ((gM.slice (Rect.unit (s := S8x128x256) ![5, 0, 0] S1x128x256.size inb_S8x128x256_S1x128x256_5_0_0) (fun _ => rfl)).squeeze S128x256 squeezes_S1x128x256_S128x256 : Memref sig .tc .vmem S128x256 .bf16).view.set) :
    (i 0 : ℕ) = 5 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane6 {i : (cc0_scratch2 : Ref sig .tc).ty.Idx}
    (h : i ∈ ((gM.slice (Rect.unit (s := S8x128x256) ![6, 0, 0] S1x128x256.size inb_S8x128x256_S1x128x256_6_0_0) (fun _ => rfl)).squeeze S128x256 squeezes_S1x128x256_S128x256 : Memref sig .tc .vmem S128x256 .bf16).view.set) :
    (i 0 : ℕ) = 6 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane7 {i : (cc0_scratch2 : Ref sig .tc).ty.Idx}
    (h : i ∈ ((gM.slice (Rect.unit (s := S8x128x256) ![7, 0, 0] S1x128x256.size inb_S8x128x256_S1x128x256_7_0_0) (fun _ => rfl)).squeeze S128x256 squeezes_S1x128x256_S128x256 : Memref sig .tc .vmem S128x256 .bf16).view.set) :
    (i 0 : ℕ) = 7 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane0 {i : (cc0_scratch1 : Ref sig .tc).ty.Idx}
    (h : i ∈ ((rM.slice (Rect.unit (s := S3x128x256) ![0, 0, 0] S1x128x256.size inb_S3x128x256_S1x128x256_0_0_0) (fun _ => rfl)).squeeze S128x256 squeezes_S1x128x256_S128x256 : Memref sig .tc .vmem S128x256 .bf16).view.set) :
    (i 0 : ℕ) = 0 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane1 {i : (cc0_scratch1 : Ref sig .tc).ty.Idx}
    (h : i ∈ ((rM.slice (Rect.unit (s := S3x128x256) ![1, 0, 0] S1x128x256.size inb_S3x128x256_S1x128x256_1_0_0) (fun _ => rfl)).squeeze S128x256 squeezes_S1x128x256_S128x256 : Memref sig .tc .vmem S128x256 .bf16).view.set) :
    (i 0 : ℕ) = 1 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane2 {i : (cc0_scratch1 : Ref sig .tc).ty.Idx}
    (h : i ∈ ((rM.slice (Rect.unit (s := S3x128x256) ![2, 0, 0] S1x128x256.size inb_S3x128x256_S1x128x256_2_0_0) (fun _ => rfl)).squeeze S128x256 squeezes_S1x128x256_S128x256 : Memref sig .tc .vmem S128x256 .bf16).view.set) :
    (i 0 : ℕ) = 2 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega

/-! ## The two landing buffers cut into planes -/

def ownPts (c : Dev nD) (q : PosShare TreeShare) (f : Buf (Elt F) ((ownG : Memref sig .tc .vmem S128x256 .bf16).view.loc (c : Thread nD τ))) : sProp 𝕄 :=
  (ownG : Memref sig .tc .vmem S128x256 .bf16).view.loc (c : Thread nD τ) ↦[(ownG : Memref sig .tc .vmem S128x256 .bf16).view.set]{q} f

omit [FloatOps F] [∀ e, Nonempty (Elt F e)] in
theorem rs_sub0 : (slot 0).view.set ⊆ (Finset.univ : Finset (cc0_scratch1 : Ref sig .tc).ty.Idx) := Finset.subset_univ _
omit [FloatOps F] [∀ e, Nonempty (Elt F e)] in
theorem rs_sub1 : (slot 1).view.set ⊆ (Finset.univ \ (slot 0).view.set : Finset (cc0_scratch1 : Ref sig .tc).ty.Idx) := fun i hi => by
  have hn := mem_rplane1 hi
  refine Finset.mem_sdiff.mpr ⟨?_, fun h0 => by have := mem_rplane0 h0; omega⟩
  exact Finset.mem_univ _
omit [FloatOps F] [∀ e, Nonempty (Elt F e)] in
theorem rs_sub2 : (slot 2).view.set ⊆ ((Finset.univ \ (slot 0).view.set) \ (slot 1).view.set : Finset (cc0_scratch1 : Ref sig .tc).ty.Idx) := fun i hi => by
  have hn := mem_rplane2 hi
  refine Finset.mem_sdiff.mpr ⟨?_, fun h0 => by have := mem_rplane1 h0; omega⟩
  refine Finset.mem_sdiff.mpr ⟨?_, fun h0 => by have := mem_rplane0 h0; omega⟩
  exact Finset.mem_univ _
omit [FloatOps F] [∀ e, Nonempty (Elt F e)] in
theorem g_sub0 : (slot 3).view.set ⊆ (Finset.univ : Finset (cc0_scratch2 : Ref sig .tc).ty.Idx) := Finset.subset_univ _
omit [FloatOps F] [∀ e, Nonempty (Elt F e)] in
theorem g_sub1 : (slot 4).view.set ⊆ (Finset.univ \ (slot 3).view.set : Finset (cc0_scratch2 : Ref sig .tc).ty.Idx) := fun i hi => by
  have hn := mem_gplane1 hi
  refine Finset.mem_sdiff.mpr ⟨?_, fun h0 => by have := mem_gplane0 h0; omega⟩
  exact Finset.mem_univ _
omit [FloatOps F] [∀ e, Nonempty (Elt F e)] in
theorem g_sub2 : (slot 5).view.set ⊆ ((Finset.univ \ (slot 3).view.set) \ (slot 4).view.set : Finset (cc0_scratch2 : Ref sig .tc).ty.Idx) := fun i hi => by
  have hn := mem_gplane2 hi
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub3 : (slot 6).view.set ⊆ (((Finset.univ \ (slot 3).view.set) \ (slot 4).view.set) \ (slot 5).view.set : Finset (cc0_scratch2 : Ref sig .tc).ty.Idx) := fun i hi => by
  have hn := mem_gplane3 hi
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub4 : (slot 7).view.set ⊆ ((((Finset.univ \ (slot 3).view.set) \ (slot 4).view.set) \ (slot 5).view.set) \ (slot 6).view.set : Finset (cc0_scratch2 : Ref sig .tc).ty.Idx) := fun i hi => by
  have hn := mem_gplane4 hi
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub5 : (slot 8).view.set ⊆ (((((Finset.univ \ (slot 3).view.set) \ (slot 4).view.set) \ (slot 5).view.set) \ (slot 6).view.set) \ (slot 7).view.set : Finset (cc0_scratch2 : Ref sig .tc).ty.Idx) := fun i hi => by
  have hn := mem_gplane5 hi
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub6 : (slot 9).view.set ⊆ ((((((Finset.univ \ (slot 3).view.set) \ (slot 4).view.set) \ (slot 5).view.set) \ (slot 6).view.set) \ (slot 7).view.set) \ (slot 8).view.set : Finset (cc0_scratch2 : Ref sig .tc).ty.Idx) := fun i hi => by
  have hn := mem_gplane6 hi
  refine Finset.mem_sdiff.mpr ⟨?_, fun h0 => by have := mem_gplane5 h0; omega⟩
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub7 : (ownG : Memref sig .tc .vmem S128x256 .bf16).view.set ⊆ (((((((Finset.univ \ (slot 3).view.set) \ (slot 4).view.set) \ (slot 5).view.set) \ (slot 6).view.set) \ (slot 7).view.set) \ (slot 8).view.set) \ (slot 9).view.set : Finset (cc0_scratch2 : Ref sig .tc).ty.Idx) := fun i hi => by
  have hn := mem_gplane7 hi
  refine Finset.mem_sdiff.mpr ⟨?_, fun h0 => by have := mem_gplane6 h0; omega⟩
  refine Finset.mem_sdiff.mpr ⟨?_, fun h0 => by have := mem_gplane5 h0; omega⟩
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _

/-- What is left of each landing buffer beside its planes (nothing, but nobody needs to know). -/
abbrev rsRest : Finset (cc0_scratch1 : Ref sig .tc).ty.Idx := ((Finset.univ \ (slot 0).view.set) \ (slot 1).view.set) \ (slot 2).view.set
abbrev gRest : Finset (cc0_scratch2 : Ref sig .tc).ty.Idx := (((((((Finset.univ \ (slot 3).view.set) \ (slot 4).view.set) \ (slot 5).view.set) \ (slot 6).view.set) \ (slot 7).view.set) \ (slot 8).view.set) \ (slot 9).view.set) \ (ownG : Memref sig .tc .vmem S128x256 .bf16).view.set

/-- The remainders, kept behind a name (nothing ever reads them). -/
def rsRestPts (c : Dev nD) (f : Buf (Elt F) ((rM : Memref sig .tc .vmem S3x128x256 .bf16).view.loc (c : Thread nD τ))) : sProp 𝕄 :=
  (rM : Memref sig .tc .vmem S3x128x256 .bf16).view.loc (c : Thread nD τ) ↦[rsRest]{fullShare} f
def gRestPts (c : Dev nD) (f : Buf (Elt F) ((gM : Memref sig .tc .vmem S8x128x256 .bf16).view.loc (c : Thread nD τ))) : sProp 𝕄 :=
  (gM : Memref sig .tc .vmem S8x128x256 .bf16).view.loc (c : Thread nD τ) ↦[gRest]{fullShare} f

omit [FloatOps F] [∀ e, Nonempty (Elt F e)] in
theorem rs_split (c : Dev nD) (f : Buf (Elt F) ((rM : Memref sig .tc .vmem S3x128x256 .bf16).view.loc (c : Thread nD τ))) :
    ((rM : Memref sig .tc .vmem S3x128x256 .bf16).view.loc (c : Thread nD τ) ↦{fullShare} f : sProp 𝕄)
      ⊢ iprop(slotPts c 0 f ∗ slotPts c 1 f ∗ slotPts c 2 f ∗ rsRestPts c f) := by
  show _ ⊢ iprop(((rM : Memref sig .tc .vmem S3x128x256 .bf16).view.loc (c : Thread nD τ) ↦[(slot 0).view.set]{fullShare} f) ∗ ((rM : Memref sig .tc .vmem S3x128x256 .bf16).view.loc (c : Thread nD τ) ↦[(slot 1).view.set]{fullShare} f) ∗ ((rM : Memref sig .tc .vmem S3x128x256 .bf16).view.loc (c : Thread nD τ) ↦[(slot 2).view.set]{fullShare} f) ∗ ((rM : Memref sig .tc .vmem S3x128x256 .bf16).view.loc (c : Thread nD τ) ↦[rsRest]{fullShare} f))
  iintro H
  ihave H := (carve rs_sub0 fullShare f) $$ H; icases H with ⟨H0, H⟩
  ihave H := (carve rs_sub1 fullShare f) $$ H; icases H with ⟨H1, H⟩
  ihave H := (carve rs_sub2 fullShare f) $$ H; icases H with ⟨H2, H⟩
  isplitl [H0]; · iexact H0
  isplitl [H1]; · iexact H1
  isplitl [H2]; · iexact H2
  iexact H

omit [FloatOps F] [∀ e, Nonempty (Elt F e)] in
theorem rs_join (c : Dev nD) (g0 g1 g2 f : Buf (Elt F) ((rM : Memref sig .tc .vmem S3x128x256 .bf16).view.loc (c : Thread nD τ))) :
    iprop(slotPts c 0 g0 ∗ slotPts c 1 g1 ∗ slotPts c 2 g2 ∗ rsRestPts c f)
      ⊢ (∃ f', ((rM : Memref sig .tc .vmem S3x128x256 .bf16).view.loc (c : Thread nD τ) ↦{fullShare} f') : sProp 𝕄) := by
  show iprop(((rM : Memref sig .tc .vmem S3x128x256 .bf16).view.loc (c : Thread nD τ) ↦[(slot 0).view.set]{fullShare} g0) ∗ ((rM : Memref sig .tc .vmem S3x128x256 .bf16).view.loc (c : Thread nD τ) ↦[(slot 1).view.set]{fullShare} g1) ∗ ((rM : Memref sig .tc .vmem S3x128x256 .bf16).view.loc (c : Thread nD τ) ↦[(slot 2).view.set]{fullShare} g2) ∗ ((rM : Memref sig .tc .vmem S3x128x256 .bf16).view.loc (c : Thread nD τ) ↦[rsRest]{fullShare} f)) ⊢ _
  iintro ⟨H0, H1, H2, H⟩
  ihave H := (uncarve rs_sub2 fullShare f g2) $$ [H2 H]
  · isplitl [H2] <;> iassumption
  icases H with ⟨%f2, H⟩
  ihave H := (uncarve rs_sub1 fullShare f2 g1) $$ [H1 H]
  · isplitl [H1] <;> iassumption
  icases H with ⟨%f1, H⟩
  ihave H := (uncarve rs_sub0 fullShare f1 g0) $$ [H0 H]
  · isplitl [H0] <;> iassumption
  iexact H

omit [FloatOps F] [∀ e, Nonempty (Elt F e)] in
theorem g_split (c : Dev nD) (f : Buf (Elt F) ((gM : Memref sig .tc .vmem S8x128x256 .bf16).view.loc (c : Thread nD τ))) :
    ((gM : Memref sig .tc .vmem S8x128x256 .bf16).view.loc (c : Thread nD τ) ↦{fullShare} f : sProp 𝕄)
      ⊢ iprop(slotPts c 3 f ∗ slotPts c 4 f ∗ slotPts c 5 f ∗ slotPts c 6 f ∗ slotPts c 7 f ∗ slotPts c 8 f ∗ slotPts c 9 f ∗ ownPts c fullShare f
          ∗ gRestPts c f) := by
  show _ ⊢ iprop(((gM : Memref sig .tc .vmem S8x128x256 .bf16).view.loc (c : Thread nD τ) ↦[(slot 3).view.set]{fullShare} f) ∗ ((gM : Memref sig .tc .vmem S8x128x256 .bf16).view.loc (c : Thread nD τ) ↦[(slot 4).view.set]{fullShare} f) ∗ ((gM : Memref sig .tc .vmem S8x128x256 .bf16).view.loc (c : Thread nD τ) ↦[(slot 5).view.set]{fullShare} f) ∗ ((gM : Memref sig .tc .vmem S8x128x256 .bf16).view.loc (c : Thread nD τ) ↦[(slot 6).view.set]{fullShare} f) ∗ ((gM : Memref sig .tc .vmem S8x128x256 .bf16).view.loc (c : Thread nD τ) ↦[(slot 7).view.set]{fullShare} f) ∗ ((gM : Memref sig .tc .vmem S8x128x256 .bf16).view.loc (c : Thread nD τ) ↦[(slot 8).view.set]{fullShare} f) ∗ ((gM : Memref sig .tc .vmem S8x128x256 .bf16).view.loc (c : Thread nD τ) ↦[(slot 9).view.set]{fullShare} f) ∗ ((gM : Memref sig .tc .vmem S8x128x256 .bf16).view.loc (c : Thread nD τ) ↦[(ownG : Memref sig .tc .vmem S128x256 .bf16).view.set]{fullShare} f) ∗ ((gM : Memref sig .tc .vmem S8x128x256 .bf16).view.loc (c : Thread nD τ) ↦[gRest]{fullShare} f))
  iintro H
  ihave H := (carve g_sub0 fullShare f) $$ H; icases H with ⟨H0, H⟩
  ihave H := (carve g_sub1 fullShare f) $$ H; icases H with ⟨H1, H⟩
  ihave H := (carve g_sub2 fullShare f) $$ H; icases H with ⟨H2, H⟩
  ihave H := (carve g_sub3 fullShare f) $$ H; icases H with ⟨H3, H⟩
  ihave H := (carve g_sub4 fullShare f) $$ H; icases H with ⟨H4, H⟩
  ihave H := (carve g_sub5 fullShare f) $$ H; icases H with ⟨H5, H⟩
  ihave H := (carve g_sub6 fullShare f) $$ H; icases H with ⟨H6, H⟩
  ihave H := (carve g_sub7 fullShare f) $$ H; icases H with ⟨H7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

omit [FloatOps F] [∀ e, Nonempty (Elt F e)] in
theorem g_join (c : Dev nD) (g0 g1 g2 g3 g4 g5 g6 g7 f : Buf (Elt F) ((gM : Memref sig .tc .vmem S8x128x256 .bf16).view.loc (c : Thread nD τ))) :
    iprop(slotPts c 3 g0 ∗ slotPts c 4 g1 ∗ slotPts c 5 g2 ∗ slotPts c 6 g3 ∗ slotPts c 7 g4 ∗ slotPts c 8 g5 ∗ slotPts c 9 g6 ∗ ownPts c fullShare g7
          ∗ gRestPts c f)
      ⊢ (∃ f', ((gM : Memref sig .tc .vmem S8x128x256 .bf16).view.loc (c : Thread nD τ) ↦{fullShare} f') : sProp 𝕄) := by
  show iprop(((gM : Memref sig .tc .vmem S8x128x256 .bf16).view.loc (c : Thread nD τ) ↦[(slot 3).view.set]{fullShare} g0) ∗ ((gM : Memref sig .tc .vmem S8x128x256 .bf16).view.loc (c : Thread nD τ) ↦[(slot 4).view.set]{fullShare} g1) ∗ ((gM : Memref sig .tc .vmem S8x128x256 .bf16).view.loc (c : Thread nD τ) ↦[(slot 5).view.set]{fullShare} g2) ∗ ((gM : Memref sig .tc .vmem S8x128x256 .bf16).view.loc (c : Thread nD τ) ↦[(slot 6).view.set]{fullShare} g3) ∗ ((gM : Memref sig .tc .vmem S8x128x256 .bf16).view.loc (c : Thread nD τ) ↦[(slot 7).view.set]{fullShare} g4) ∗ ((gM : Memref sig .tc .vmem S8x128x256 .bf16).view.loc (c : Thread nD τ) ↦[(slot 8).view.set]{fullShare} g5) ∗ ((gM : Memref sig .tc .vmem S8x128x256 .bf16).view.loc (c : Thread nD τ) ↦[(slot 9).view.set]{fullShare} g6) ∗ ((gM : Memref sig .tc .vmem S8x128x256 .bf16).view.loc (c : Thread nD τ) ↦[(ownG : Memref sig .tc .vmem S128x256 .bf16).view.set]{fullShare} g7) ∗ ((gM : Memref sig .tc .vmem S8x128x256 .bf16).view.loc (c : Thread nD τ) ↦[gRest]{fullShare} f)) ⊢ _
  iintro ⟨H0, H1, H2, H3, H4, H5, H6, H7, H⟩
  ihave H := (uncarve g_sub7 fullShare f g7) $$ [H7 H]
  · isplitl [H7] <;> iassumption
  icases H with ⟨%f7, H⟩
  ihave H := (uncarve g_sub6 fullShare f7 g6) $$ [H6 H]
  · isplitl [H6] <;> iassumption
  icases H with ⟨%f6, H⟩
  ihave H := (uncarve g_sub5 fullShare f6 g5) $$ [H5 H]
  · isplitl [H5] <;> iassumption
  icases H with ⟨%f5, H⟩
  ihave H := (uncarve g_sub4 fullShare f5 g4) $$ [H4 H]
  · isplitl [H4] <;> iassumption
  icases H with ⟨%f4, H⟩
  ihave H := (uncarve g_sub3 fullShare f4 g3) $$ [H3 H]
  · isplitl [H3] <;> iassumption
  icases H with ⟨%f3, H⟩
  ihave H := (uncarve g_sub2 fullShare f3 g2) $$ [H2 H]
  · isplitl [H2] <;> iassumption
  icases H with ⟨%f2, H⟩
  ihave H := (uncarve g_sub1 fullShare f2 g1) $$ [H1 H]
  · isplitl [H1] <;> iassumption
  icases H with ⟨%f1, H⟩
  ihave H := (uncarve g_sub0 fullShare f1 g0) $$ [H0 H]
  · isplitl [H0] <;> iassumption
  iexact H

/-! ## The partial-product buffer cut into the three row blocks sent and the one kept -/

/-- The row block of P(c) the device keeps (rows 128·y(c) …). -/
abbrev pOwn (c : Dev nD) : Memref sig .tc .vmem S128x256 .bf16 := pM.slice (rOwn c) (fun _ => rfl)

omit [FloatOps F] [∀ e, Nonempty (Elt F e)] in
theorem mem_rows (c : Dev nD) (r : Fin 3) {i : (cc0_scratch0 : Ref sig .tc).ty.Idx} (h : i ∈ (pRows c r).view.set) :
    128 * ((((c.val / 4) % 4) + r.val + 1) % 4) ≤ (i 0 : ℕ) ∧ (i 0 : ℕ) < 128 * ((((c.val / 4) % 4) + r.val + 1) % 4) + 128 := by
  simp only [Memref.view_slice, Memref.view_whole, View.set_slice_whole, Rect.mem_set_unit] at h
  have h0 := h 0
  rw [k0_off2_eq c r] at h0
  simp only [Matrix.cons_val_zero] at h0
  have : S128x256.size 0 = 128 := rfl
  omega

omit [FloatOps F] [∀ e, Nonempty (Elt F e)] in
theorem mem_own (c : Dev nD) {i : (cc0_scratch0 : Ref sig .tc).ty.Idx} (h : i ∈ (pOwn c).view.set) :
    128 * ((c.val / 4) % 4) ≤ (i 0 : ℕ) ∧ (i 0 : ℕ) < 128 * ((c.val / 4) % 4) + 128 := by
  simp only [Memref.view_slice, Memref.view_whole, View.set_slice_whole, Rect.mem_set_unit] at h
  have h0 := h 0
  rw [k0_off3_eq c] at h0
  simp only [Matrix.cons_val_zero] at h0
  have : S128x256.size 0 = 128 := rfl
  omega

omit [FloatOps F] [∀ e, Nonempty (Elt F e)] in
theorem p_sub0 (c : Dev nD) : (pRows c 0).view.set ⊆ (Finset.univ : Finset (cc0_scratch0 : Ref sig .tc).ty.Idx) := Finset.subset_univ _
omit [FloatOps F] [∀ e, Nonempty (Elt F e)] in
theorem p_sub1 (c : Dev nD) : (pRows c 1).view.set ⊆ (Finset.univ \ (pRows c 0).view.set : Finset (cc0_scratch0 : Ref sig .tc).ty.Idx) := fun i hi => by
  have hn := mem_rows c 1 hi
  refine Finset.mem_sdiff.mpr ⟨Finset.mem_univ _, fun h0 => by have := mem_rows c 0 h0; simp only [Fin.val_zero, Fin.val_one] at *; omega⟩
omit [FloatOps F] [∀ e, Nonempty (Elt F e)] in
theorem p_sub2 (c : Dev nD) : (pRows c 2).view.set ⊆ ((Finset.univ \ (pRows c 0).view.set) \ (pRows c 1).view.set : Finset (cc0_scratch0 : Ref sig .tc).ty.Idx) := fun i hi => by
  have hn := mem_rows c 2 hi
  refine Finset.mem_sdiff.mpr ⟨?_, fun h0 => by have := mem_rows c 1 h0; simp only [Fin.val_one, Fin.val_two] at *; omega⟩
  refine Finset.mem_sdiff.mpr ⟨Finset.mem_univ _, fun h0 => by have := mem_rows c 0 h0; simp only [Fin.val_zero, Fin.val_two] at *; omega⟩
omit [FloatOps F] [∀ e, Nonempty (Elt F e)] in
theorem p_sub3 (c : Dev nD) : (pOwn c).view.set ⊆ (((Finset.univ \ (pRows c 0).view.set) \ (pRows c 1).view.set) \ (pRows c 2).view.set : Finset (cc0_scratch0 : Ref sig .tc).ty.Idx) := fun i hi => by
  have hn := mem_own c hi
  refine Finset.mem_sdiff.mpr ⟨?_, fun h0 => by have := mem_rows c 2 h0; simp only [Fin.val_two] at *; omega⟩
  refine Finset.mem_sdiff.mpr ⟨?_, fun h0 => by have := mem_rows c 1 h0; simp only [Fin.val_one] at *; omega⟩
  refine Finset.mem_sdiff.mpr ⟨Finset.mem_univ _, fun h0 => by have := mem_rows c 0 h0; simp only [Fin.val_zero] at *; omega⟩

abbrev pRest (c : Dev nD) : Finset (cc0_scratch0 : Ref sig .tc).ty.Idx := (((Finset.univ \ (pRows c 0).view.set) \ (pRows c 1).view.set) \ (pRows c 2).view.set) \ (pOwn c).view.set

omit [FloatOps F] [∀ e, Nonempty (Elt F e)] in
theorem p_split (c : Dev nD) (f : Buf (Elt F) ((pM : Memref sig .tc .vmem S512x256 .bf16).view.loc (c : Thread nD τ))) :
    ((pM : Memref sig .tc .vmem S512x256 .bf16).view.loc (c : Thread nD τ) ↦{fullShare} f : sProp 𝕄)
      ⊢ iprop(((pM : Memref sig .tc .vmem S512x256 .bf16).view.loc (c : Thread nD τ) ↦[(pRows c 0).view.set]{fullShare} f) ∗ ((pM : Memref sig .tc .vmem S512x256 .bf16).view.loc (c : Thread nD τ) ↦[(pRows c 1).view.set]{fullShare} f) ∗ ((pM : Memref sig .tc .vmem S512x256 .bf16).view.loc (c : Thread nD τ) ↦[(pRows c 2).view.set]{fullShare} f)
          ∗ ((pM : Memref sig .tc .vmem S512x256 .bf16).view.loc (c : Thread nD τ) ↦[(pOwn c).view.set]{fullShare} f) ∗ ((pM : Memref sig .tc .vmem S512x256 .bf16).view.loc (c : Thread nD τ) ↦[pRest c]{fullShare} f)) := by
  iintro H
  ihave H := (carve (p_sub0 c) fullShare f) $$ H; icases H with ⟨H0, H⟩
  ihave H := (carve (p_sub1 c) fullShare f) $$ H; icases H with ⟨H1, H⟩
  ihave H := (carve (p_sub2 c) fullShare f) $$ H; icases H with ⟨H2, H⟩
  ihave H := (carve (p_sub3 c) fullShare f) $$ H; icases H with ⟨H3, H⟩
  isplitl [H0]; · iexact H0
  isplitl [H1]; · iexact H1
  isplitl [H2]; · iexact H2
  isplitl [H3]; · iexact H3
  iexact H

omit [FloatOps F] [∀ e, Nonempty (Elt F e)] in
theorem p_join (c : Dev nD) (g0 g1 g2 g3 f : Buf (Elt F) ((pM : Memref sig .tc .vmem S512x256 .bf16).view.loc (c : Thread nD τ))) :
    iprop(((pM : Memref sig .tc .vmem S512x256 .bf16).view.loc (c : Thread nD τ) ↦[(pRows c 0).view.set]{fullShare} g0) ∗ ((pM : Memref sig .tc .vmem S512x256 .bf16).view.loc (c : Thread nD τ) ↦[(pRows c 1).view.set]{fullShare} g1) ∗ ((pM : Memref sig .tc .vmem S512x256 .bf16).view.loc (c : Thread nD τ) ↦[(pRows c 2).view.set]{fullShare} g2)
          ∗ ((pM : Memref sig .tc .vmem S512x256 .bf16).view.loc (c : Thread nD τ) ↦[(pOwn c).view.set]{fullShare} g3) ∗ ((pM : Memref sig .tc .vmem S512x256 .bf16).view.loc (c : Thread nD τ) ↦[pRest c]{fullShare} f))
      ⊢ (∃ f', ((pM : Memref sig .tc .vmem S512x256 .bf16).view.loc (c : Thread nD τ) ↦{fullShare} f') : sProp 𝕄) := by
  iintro ⟨H0, H1, H2, H3, H⟩
  ihave H := (uncarve (p_sub3 c) fullShare f g3) $$ [H3 H]
  · isplitl [H3] <;> iassumption
  icases H with ⟨%f3, H⟩
  ihave H := (uncarve (p_sub2 c) fullShare f3 g2) $$ [H2 H]
  · isplitl [H2] <;> iassumption
  icases H with ⟨%f2, H⟩
  ihave H := (uncarve (p_sub1 c) fullShare f2 g1) $$ [H1 H]
  · isplitl [H1] <;> iassumption
  icases H with ⟨%f1, H⟩
  ihave H := (uncarve (p_sub0 c) fullShare f1 g0) $$ [H0 H]
  · isplitl [H0] <;> iassumption
  iexact H

/-! ## Plane 7 of the gather buffer, read by seven copies at once: an eighth of its share each -/

omit [FloatOps F] [∀ e, Nonempty (Elt F e)] in
theorem ownPts_eq (c : Dev nD) (q : PosShare TreeShare) (f : Buf (Elt F) ((ownG : Memref sig .tc .vmem S128x256 .bf16).view.loc (c : Thread nD τ))) :
    ownPts c q f = ((ownG : Memref sig .tc .vmem S128x256 .bf16).view.loc (c : Thread nD τ) ↦[(ownG : Memref sig .tc .vmem S128x256 .bf16).view.set]{q} f : sProp 𝕄) := rfl

omit [FloatOps F] [∀ e, Nonempty (Elt F e)] in
theorem own_half (c : Dev nD) (q : PosShare TreeShare) (f : Buf (Elt F) ((ownG : Memref sig .tc .vmem S128x256 .bf16).view.loc (c : Thread nD τ))) :
    (ownPts c q f : sProp 𝕄) ⊣⊢ iprop(ownPts c q.left f ∗ ownPts c q.right f) := by
  unfold ownPts; exact pointsTo_share (PosShare.mem_left_op_right q)

omit [FloatOps F] [∀ e, Nonempty (Elt F e)] in
theorem own_shares (c : Dev nD) (f : Buf (Elt F) ((ownG : Memref sig .tc .vmem S128x256 .bf16).view.loc (c : Thread nD τ))) :
    (ownPts c fullShare f : sProp 𝕄)
      ⊢ iprop(ownPts c (shr 3) f ∗ ownPts c (shr 4) f ∗ ownPts c (shr 5) f ∗ ownPts c (shr 6) f ∗ ownPts c (shr 7) f ∗ ownPts c (shr 8) f ∗ ownPts c (shr 9) f ∗ ownPts c (fullShare.right.right.right) f) := by
  iintro H
  ihave H := (own_half c fullShare f).1 $$ H; icases H with ⟨HL, HR⟩
  ihave HL := (own_half c fullShare.left f).1 $$ HL; icases HL with ⟨HLL, HLR⟩
  ihave HR := (own_half c fullShare.right f).1 $$ HR; icases HR with ⟨HRL, HRR⟩
  ihave HLL := (own_half c fullShare.left.left f).1 $$ HLL; icases HLL with ⟨H3, H4⟩
  ihave HLR := (own_half c fullShare.left.right f).1 $$ HLR; icases HLR with ⟨H5, H6⟩
  ihave HRL := (own_half c fullShare.right.left f).1 $$ HRL; icases HRL with ⟨H7, H8⟩
  ihave HRR := (own_half c fullShare.right.right f).1 $$ HRR; icases HRR with ⟨H9, H10⟩
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

omit [FloatOps F] [∀ e, Nonempty (Elt F e)] in
theorem own_unshare (c : Dev nD) (f : Buf (Elt F) ((ownG : Memref sig .tc .vmem S128x256 .bf16).view.loc (c : Thread nD τ))) :
    iprop(ownPts c (shr 3) f ∗ ownPts c (shr 4) f ∗ ownPts c (shr 5) f ∗ ownPts c (shr 6) f ∗ ownPts c (shr 7) f ∗ ownPts c (shr 8) f ∗ ownPts c (shr 9) f ∗ ownPts c (fullShare.right.right.right) f)
      ⊢ (ownPts c fullShare f : sProp 𝕄) := by
  iintro ⟨H3, H4, H5, H6, H7, H8, H9, H10⟩
  ihave HLL := (own_half c fullShare.left.left f).2 $$ [H3 H4]
  · isplitl [H3]; · iexact H3
    iexact H4
  ihave HLR := (own_half c fullShare.left.right f).2 $$ [H5 H6]
  · isplitl [H5]; · iexact H5
    iexact H6
  ihave HRL := (own_half c fullShare.right.left f).2 $$ [H7 H8]
  · isplitl [H7]; · iexact H7
    iexact H8
  ihave HRR := (own_half c fullShare.right.right f).2 $$ [H9 H10]
  · isplitl [H9]; · iexact H9
    iexact H10
  ihave HL := (own_half c fullShare.left f).2 $$ [HLL HLR]
  · isplitl [HLL] <;> iassumption
  ihave HR := (own_half c fullShare.right f).2 $$ [HRL HRR]
  · isplitl [HRL] <;> iassumption
  iapply (own_half c fullShare f).2
  isplitl [HL] <;> iassumption

omit [FloatOps F] [∀ e, Nonempty (Elt F e)] in
/-- Plane 7 through its squeezed view and through the rectangle the body stores it by: the same elements. -/
theorem ownG_set : (ownG : Memref sig .tc .vmem S128x256 .bf16).view.set = ((gM.access rG7 : View sig .tc _ _ _)).set := by
  simp only [Memref.view_squeeze, View.set_reshape]

end Cert.KernelProof

end
-- ==== Proof.KernelOut.lean ====
/-
  The result block of one device: eight column blocks of 256 written one after the other — the own block g(c) first,
  then the block of each gather peer — and that they cover the 2048 columns, so that what the buffer held before the
  body does not matter.
-/
import proofs.«900392_g7700000000000393_dist_rsdw_v7x_xyz2x4x4_y_m512_d512_f2048_bf16_1_alg».proof.Proof.KernelCuts

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- The result block of device c over what the staging buffer held before: the own column block g(c) set to A(c), then
    the column block of each gather peer set to that peer's A (widened back from its stored format). -/
def outW (c : Dev nD) (f0 : (cc0_stg2_0 : Ref sig .tc).ty.Contents (Elt F)) : (cc0_stg2_0 : Ref sig .tc).ty.Contents (Elt F) :=
  ((oM.access (rOut c 6) : View sig .tc _ _ _)).write (Elt F)
    (((oM.access (rOut c 5) : View sig .tc _ _ _)).write (Elt F)
    (((oM.access (rOut c 4) : View sig .tc _ _ _)).write (Elt F)
    (((oM.access (rOut c 3) : View sig .tc _ _ _)).write (Elt F)
    (((oM.access (rOut c 2) : View sig .tc _ _ _)).write (Elt F)
    (((oM.access (rOut c 1) : View sig .tc _ _ _)).write (Elt F)
    (((oM.access (rOut c 0) : View sig .tc _ _ _)).write (Elt F)
    (((oM.access (rOutOwn c) : View sig .tc _ _ _)).write (Elt F) f0 (accV m c) Finset.univ)
    (k0_pay4 (gM.view.readAt (Elt F) rG0.toLoadRect (gBuf m c 0))) Finset.univ)
    (k0_pay5 (gM.view.readAt (Elt F) rG1.toLoadRect (gBuf m c 1))) Finset.univ)
    (k0_pay6 (gM.view.readAt (Elt F) rG2.toLoadRect (gBuf m c 2))) Finset.univ)
    (k0_pay7 (gM.view.readAt (Elt F) rG3.toLoadRect (gBuf m c 3))) Finset.univ)
    (k0_pay8 (gM.view.readAt (Elt F) rG4.toLoadRect (gBuf m c 4))) Finset.univ)
    (k0_pay9 (gM.view.readAt (Elt F) rG5.toLoadRect (gBuf m c 5))) Finset.univ)
    (k0_pay10 (gM.view.readAt (Elt F) rG6.toLoadRect (gBuf m c 6))) Finset.univ
def outAt (c : Dev nD) : (cc0_stg2_0 : Ref sig .tc).ty.Contents (Elt F) := outW m c (View.junk (Val := Elt F) (View.whole cc0_stg2_0))

omit [FloatOps F] [∀ e, Nonempty (Elt F e)] in
/-- The elements of the column block written for gather offset r + 1: columns 256·((g + 7 − r) mod 8) …; -/
theorem mem_out (c : Dev nD) (r : Fin 7) (i : (cc0_stg2_0 : Ref sig .tc).ty.Idx) :
    Iff (i ∈ ((oM.access (rOut c r) : View sig .tc _ _ _)).set)
      (256 * (((2 * (c.val % 4) + c.val / 16) + 7 - r.val) % 8) ≤ (i 1 : ℕ) ∧ (i 1 : ℕ) < 256 * (((2 * (c.val % 4) + c.val / 16) + 7 - r.val) % 8) + 256) := by
  simp only [Memref.access, Memref.view_whole, View.set_slice_whole, Rect.mem_set_unit]
  rw [k0_off5_eq c r]
  constructor
  · intro h; have h1 := h 1; simp only [Matrix.cons_val_one, Matrix.cons_val_zero] at h1
    have : S128x256.size 1 = 256 := rfl
    omega
  · intro h a
    fin_cases a
    · have := (i 0).isLt
      have h128 : (cc0_stg2_0 : Ref sig .tc).ty.shape.size 0 = 128 := rfl
      have : S128x256.size 0 = 128 := rfl
      simp only [Fin.zero_eta, Matrix.cons_val_zero]; omega
    · have : S128x256.size 1 = 256 := rfl
      simp only [Fin.mk_one, Matrix.cons_val_one, Matrix.cons_val_zero]; omega

omit [FloatOps F] [∀ e, Nonempty (Elt F e)] in
/-- of the own block: columns 256·g …. -/
theorem mem_outOwn (c : Dev nD) (i : (cc0_stg2_0 : Ref sig .tc).ty.Idx) :
    Iff (i ∈ ((oM.access (rOutOwn c) : View sig .tc _ _ _)).set)
      (256 * (2 * (c.val % 4) + c.val / 16) ≤ (i 1 : ℕ) ∧ (i 1 : ℕ) < 256 * (2 * (c.val % 4) + c.val / 16) + 256) := by
  simp only [Memref.access, Memref.view_whole, View.set_slice_whole, Rect.mem_set_unit]
  rw [k0_off4_eq c]
  constructor
  · intro h; have h1 := h 1; simp only [Matrix.cons_val_one, Matrix.cons_val_zero] at h1
    have : S128x256.size 1 = 256 := rfl
    omega
  · intro h a
    fin_cases a
    · have := (i 0).isLt
      have h128 : (cc0_stg2_0 : Ref sig .tc).ty.shape.size 0 = 128 := rfl
      have : S128x256.size 0 = 128 := rfl
      simp only [Fin.zero_eta, Matrix.cons_val_zero]; omega
    · have : S128x256.size 1 = 256 := rfl
      simp only [Fin.mk_one, Matrix.cons_val_one, Matrix.cons_val_zero]; omega

omit [FloatOps F] [∀ e, Nonempty (Elt F e)] in
/-- A whole write through a view over two buffers that agree off the view: the results agree everywhere. -/
theorem write_congr_off {κ : Kind} {sp : Space} {s : Shape} {e : EltTy} (v : View sig κ sp s e) (f g : v.ty.Contents (Elt F)) (w : s.Idx → Elt F e)
    (i : v.ty.Idx) (h : i ∉ v.set → f i = g i) : v.write (Elt F) f w Finset.univ i = v.write (Elt F) g w Finset.univ i := by
  by_cases hi : i ∈ v.set
  · unfold View.set at hi
    obtain ⟨y, -, rfl⟩ := Finset.mem_map.mp hi
    rw [View.write_emb_of_mem _ _ (Finset.mem_univ y), View.write_emb_of_mem _ _ (Finset.mem_univ y)]
  · rw [View.write_of_not_mem _ _ _ (show i ∉ v.setOn Finset.univ from hi), View.write_of_not_mem _ _ _ (show i ∉ v.setOn Finset.univ from hi)]
    exact h hi

set_option maxHeartbeats 1600000 in
/-- The eight column blocks cover the buffer: the result does not depend on what it held. -/
theorem outW_indep (c : Dev nD) (f0 f0' : (cc0_stg2_0 : Ref sig .tc).ty.Contents (Elt F)) : outW m c f0 = outW m c f0' := by
  funext i
  unfold outW
  refine write_congr_off (oM.access (rOut c 6) : View sig .tc _ _ _) _ _ _ i fun h6 => ?_
  refine write_congr_off (oM.access (rOut c 5) : View sig .tc _ _ _) _ _ _ i fun h5 => ?_
  refine write_congr_off (oM.access (rOut c 4) : View sig .tc _ _ _) _ _ _ i fun h4 => ?_
  refine write_congr_off (oM.access (rOut c 3) : View sig .tc _ _ _) _ _ _ i fun h3 => ?_
  refine write_congr_off (oM.access (rOut c 2) : View sig .tc _ _ _) _ _ _ i fun h2 => ?_
  refine write_congr_off (oM.access (rOut c 1) : View sig .tc _ _ _) _ _ _ i fun h1 => ?_
  refine write_congr_off (oM.access (rOut c 0) : View sig .tc _ _ _) _ _ _ i fun h0 => ?_
  refine write_congr_off (oM.access (rOutOwn c) : View sig .tc _ _ _) _ _ _ i fun ho => ?_
  exfalso
  rw [mem_out c 6 i] at h6; rw [mem_out c 5 i] at h5; rw [mem_out c 4 i] at h4; rw [mem_out c 3 i] at h3
  rw [mem_out c 2 i] at h2; rw [mem_out c 1 i] at h1; rw [mem_out c 0 i] at h0; rw [mem_outOwn c i] at ho
  have hi1 := (i 1).isLt
  have h2048 : (cc0_stg2_0 : Ref sig .tc).ty.shape.size 1 = 2048 := rfl
  have hg : 2 * (c.val % 4) + c.val / 16 ≤ 7 := by have hc := c.isLt; have hnD : nD = 32 := rfl; omega
  generalize 2 * (c.val % 4) + c.val / 16 = g at h0 h1 h2 h3 h4 h5 h6 ho hg
  simp only [Fin.val_zero, Fin.val_one, Fin.val_two, show ((3 : Fin 7).val) = 3 from rfl, show ((4 : Fin 7).val) = 4 from rfl, show ((5 : Fin 7).val) = 5 from rfl, show ((6 : Fin 7).val) = 6 from rfl] at h0 h1 h2 h3 h4 h5 h6
  omega

theorem outW_eq_outAt (c : Dev nD) (f0 : (cc0_stg2_0 : Ref sig .tc).ty.Contents (Elt F)) : outW m c f0 = outAt m c := outW_indep m c f0 _

end Cert.KernelProof

end
-- ==== Proof.KernelBody.lean ====
/-
  The body of one device's kernel, stepped once at a symbolic device c: ten entry signals, the barrier wait, the
  local product, three reduce-scatter copies and their arrival waits, the sum, seven gather copies and their arrival
  waits with the stores of the gathered blocks, and the ten departure waits.
-/
import proofs.«900392_g7700000000000393_dist_rsdw_v7x_xyz2x4x4_y_m512_d512_f2048_bf16_1_alg».proof.Proof.KernelOut
import proofs.«900392_g7700000000000393_dist_rsdw_v7x_xyz2x4x4_y_m512_d512_f2048_bf16_1_alg».proof.Proof.Gen.Kernel.Points

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

abbrev 𝒱₀ : Variants := Variants.none

/-! ## Ghost state of one device -/

section Ghost
variable (K : GSem nD τ sig → ℕ) (c : Dev nD)

/-- The invariants of the cells device c touches — its own 21, the barrier cell of each peer, arrival cell i of peer i —
    and the rounds it needs reached. -/
def records : sProp 𝕄 :=
  iprop(cellInv ER (sched m) (K (barCell c)) (barCell c)
    ∗ cellInv ER (sched m) (K (sndCell c 0)) (sndCell c 0)
    ∗ cellInv ER (sched m) (K (sndCell c 1)) (sndCell c 1)
    ∗ cellInv ER (sched m) (K (sndCell c 2)) (sndCell c 2)
    ∗ cellInv ER (sched m) (K (sndCell c 3)) (sndCell c 3)
    ∗ cellInv ER (sched m) (K (sndCell c 4)) (sndCell c 4)
    ∗ cellInv ER (sched m) (K (sndCell c 5)) (sndCell c 5)
    ∗ cellInv ER (sched m) (K (sndCell c 6)) (sndCell c 6)
    ∗ cellInv ER (sched m) (K (sndCell c 7)) (sndCell c 7)
    ∗ cellInv ER (sched m) (K (sndCell c 8)) (sndCell c 8)
    ∗ cellInv ER (sched m) (K (sndCell c 9)) (sndCell c 9)
    ∗ cellInv ER (sched m) (K (rcvCell c 0)) (rcvCell c 0)
    ∗ cellInv ER (sched m) (K (rcvCell c 1)) (rcvCell c 1)
    ∗ cellInv ER (sched m) (K (rcvCell c 2)) (rcvCell c 2)
    ∗ cellInv ER (sched m) (K (rcvCell c 3)) (rcvCell c 3)
    ∗ cellInv ER (sched m) (K (rcvCell c 4)) (rcvCell c 4)
    ∗ cellInv ER (sched m) (K (rcvCell c 5)) (rcvCell c 5)
    ∗ cellInv ER (sched m) (K (rcvCell c 6)) (rcvCell c 6)
    ∗ cellInv ER (sched m) (K (rcvCell c 7)) (rcvCell c 7)
    ∗ cellInv ER (sched m) (K (rcvCell c 8)) (rcvCell c 8)
    ∗ cellInv ER (sched m) (K (rcvCell c 9)) (rcvCell c 9)
    ∗ cellInv ER (sched m) (K (barCell (peer c 0))) (barCell (peer c 0))
    ∗ cellInv ER (sched m) (K (barCell (peer c 1))) (barCell (peer c 1))
    ∗ cellInv ER (sched m) (K (barCell (peer c 2))) (barCell (peer c 2))
    ∗ cellInv ER (sched m) (K (barCell (peer c 3))) (barCell (peer c 3))
    ∗ cellInv ER (sched m) (K (barCell (peer c 4))) (barCell (peer c 4))
    ∗ cellInv ER (sched m) (K (barCell (peer c 5))) (barCell (peer c 5))
    ∗ cellInv ER (sched m) (K (barCell (peer c 6))) (barCell (peer c 6))
    ∗ cellInv ER (sched m) (K (barCell (peer c 7))) (barCell (peer c 7))
    ∗ cellInv ER (sched m) (K (barCell (peer c 8))) (barCell (peer c 8))
    ∗ cellInv ER (sched m) (K (barCell (peer c 9))) (barCell (peer c 9))
    ∗ cellInv ER (sched m) (K (rcvCell (peer c 0) 0)) (rcvCell (peer c 0) 0)
    ∗ cellInv ER (sched m) (K (rcvCell (peer c 1) 1)) (rcvCell (peer c 1) 1)
    ∗ cellInv ER (sched m) (K (rcvCell (peer c 2) 2)) (rcvCell (peer c 2) 2)
    ∗ cellInv ER (sched m) (K (rcvCell (peer c 3) 3)) (rcvCell (peer c 3) 3)
    ∗ cellInv ER (sched m) (K (rcvCell (peer c 4) 4)) (rcvCell (peer c 4) 4)
    ∗ cellInv ER (sched m) (K (rcvCell (peer c 5) 5)) (rcvCell (peer c 5) 5)
    ∗ cellInv ER (sched m) (K (rcvCell (peer c 6) 6)) (rcvCell (peer c 6) 6)
    ∗ cellInv ER (sched m) (K (rcvCell (peer c 7) 7)) (rcvCell (peer c 7) 7)
    ∗ cellInv ER (sched m) (K (rcvCell (peer c 8) 8)) (rcvCell (peer c 8) 8)
    ∗ cellInv ER (sched m) (K (rcvCell (peer c 9) 9)) (rcvCell (peer c 9) 9)
    ∗ reached ER (sndCell c 0) 0
    ∗ reached ER (sndCell c 1) 0
    ∗ reached ER (sndCell c 2) 0
    ∗ reached ER (sndCell c 3) 0
    ∗ reached ER (sndCell c 4) 0
    ∗ reached ER (sndCell c 5) 0
    ∗ reached ER (sndCell c 6) 0
    ∗ reached ER (sndCell c 7) 0
    ∗ reached ER (sndCell c 8) 0
    ∗ reached ER (sndCell c 9) 0
    ∗ reached ER (barCell (peer c 0)) 0
    ∗ reached ER (barCell (peer c 1)) 0
    ∗ reached ER (barCell (peer c 2)) 0
    ∗ reached ER (barCell (peer c 3)) 0
    ∗ reached ER (barCell (peer c 4)) 0
    ∗ reached ER (barCell (peer c 5)) 0
    ∗ reached ER (barCell (peer c 6)) 0
    ∗ reached ER (barCell (peer c 7)) 0
    ∗ reached ER (barCell (peer c 8)) 0
    ∗ reached ER (barCell (peer c 9)) 0
    ∗ reached ER (rcvCell (peer c 0) 0) 0
    ∗ reached ER (rcvCell (peer c 1) 1) 0
    ∗ reached ER (rcvCell (peer c 2) 2) 0
    ∗ reached ER (rcvCell (peer c 3) 3) 0
    ∗ reached ER (rcvCell (peer c 4) 4) 0
    ∗ reached ER (rcvCell (peer c 5) 5) 0
    ∗ reached ER (rcvCell (peer c 6) 6) 0
    ∗ reached ER (rcvCell (peer c 7) 7) 0
    ∗ reached ER (rcvCell (peer c 8) 8) 0
    ∗ reached ER (rcvCell (peer c 9) 9) 0)

set_option synthInstance.maxSize 4096 in
set_option synthInstance.maxHeartbeats 400000 in
instance records_persistent : BI.Persistent (records m K c) := by unfold records; infer_instance

/-- Its positions in its own cells, and the tokens of the thirty duties IT pays: a barrier duty of each peer, the
    arrival duty of each peer's slot, its own departure duties. -/
def linear : sProp 𝕄 :=
  iprop(atPos ER (barCell c) 0 ∅ 0
    ∗ atPos ER (sndCell c 0) 0 ∅ 0
    ∗ atPos ER (sndCell c 1) 0 ∅ 0
    ∗ atPos ER (sndCell c 2) 0 ∅ 0
    ∗ atPos ER (sndCell c 3) 0 ∅ 0
    ∗ atPos ER (sndCell c 4) 0 ∅ 0
    ∗ atPos ER (sndCell c 5) 0 ∅ 0
    ∗ atPos ER (sndCell c 6) 0 ∅ 0
    ∗ atPos ER (sndCell c 7) 0 ∅ 0
    ∗ atPos ER (sndCell c 8) 0 ∅ 0
    ∗ atPos ER (sndCell c 9) 0 ∅ 0
    ∗ atPos ER (rcvCell c 0) 0 ∅ 0
    ∗ atPos ER (rcvCell c 1) 0 ∅ 0
    ∗ atPos ER (rcvCell c 2) 0 ∅ 0
    ∗ atPos ER (rcvCell c 3) 0 ∅ 0
    ∗ atPos ER (rcvCell c 4) 0 ∅ 0
    ∗ atPos ER (rcvCell c 5) 0 ∅ 0
    ∗ atPos ER (rcvCell c 6) 0 ∅ 0
    ∗ atPos ER (rcvCell c 7) 0 ∅ 0
    ∗ atPos ER (rcvCell c 8) 0 ∅ 0
    ∗ atPos ER (rcvCell c 9) 0 ∅ 0
    ∗ dutyTok ER (barCell (peer c 0)) 0 2
    ∗ dutyTok ER (barCell (peer c 1)) 0 1
    ∗ dutyTok ER (barCell (peer c 2)) 0 0
    ∗ dutyTok ER (barCell (peer c 3)) 0 9
    ∗ dutyTok ER (barCell (peer c 4)) 0 8
    ∗ dutyTok ER (barCell (peer c 5)) 0 7
    ∗ dutyTok ER (barCell (peer c 6)) 0 6
    ∗ dutyTok ER (barCell (peer c 7)) 0 5
    ∗ dutyTok ER (barCell (peer c 8)) 0 4
    ∗ dutyTok ER (barCell (peer c 9)) 0 3
    ∗ dutyTok ER (rcvCell (peer c 0) 0) 0 0
    ∗ dutyTok ER (rcvCell (peer c 1) 1) 0 0
    ∗ dutyTok ER (rcvCell (peer c 2) 2) 0 0
    ∗ dutyTok ER (rcvCell (peer c 3) 3) 0 0
    ∗ dutyTok ER (rcvCell (peer c 4) 4) 0 0
    ∗ dutyTok ER (rcvCell (peer c 5) 5) 0 0
    ∗ dutyTok ER (rcvCell (peer c 6) 6) 0 0
    ∗ dutyTok ER (rcvCell (peer c 7) 7) 0 0
    ∗ dutyTok ER (rcvCell (peer c 8) 8) 0 0
    ∗ dutyTok ER (rcvCell (peer c 9) 9) 0 0
    ∗ dutyTok ER (sndCell c 0) 0 0
    ∗ dutyTok ER (sndCell c 1) 0 0
    ∗ dutyTok ER (sndCell c 2) 0 0
    ∗ dutyTok ER (sndCell c 3) 0 0
    ∗ dutyTok ER (sndCell c 4) 0 0
    ∗ dutyTok ER (sndCell c 5) 0 0
    ∗ dutyTok ER (sndCell c 6) 0 0
    ∗ dutyTok ER (sndCell c 7) 0 0
    ∗ dutyTok ER (sndCell c 8) 0 0
    ∗ dutyTok ER (sndCell c 9) 0 0)

def creds : sProp 𝕄 :=
  iprop(cred (tallyAt (barCell c) () 10) ∗ cred (tallyAt (rcvCell c 0) () N) ∗ cred (tallyAt (rcvCell c 1) () N) ∗ cred (tallyAt (rcvCell c 2) () N) ∗ cred (tallyAt (rcvCell c 3) () N) ∗ cred (tallyAt (rcvCell c 4) () N) ∗ cred (tallyAt (rcvCell c 5) () N) ∗ cred (tallyAt (rcvCell c 6) () N) ∗ cred (tallyAt (rcvCell c 7) () N) ∗ cred (tallyAt (rcvCell c 8) () N) ∗ cred (tallyAt (rcvCell c 9) () N))
end Ghost

/-! ## The pipeline's proof data -/

section Data

/-- What device c's body starts from: its ghost state at some names, its launch credit, the level facts. -/
def start (c : Dev nD) : sProp 𝕄 := iprop((∃ K, records m K c ∗ linear (F := F) c) ∗ creds (F := F) c ∗ levAts L lv)

/-- The three scratch buffers, whole, over anything. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own twenty DMA semaphores at zero, closed. -/
def semsZero (c : Dev nD) : sProp 𝕄 :=
  iprop(semVal (sndCell c 0) 0 ∗ semVal (sndCell c 1) 0 ∗ semVal (sndCell c 2) 0 ∗ semVal (sndCell c 3) 0 ∗ semVal (sndCell c 4) 0 ∗ semVal (sndCell c 5) 0 ∗ semVal (sndCell c 6) 0 ∗ semVal (sndCell c 7) 0 ∗ semVal (sndCell c 8) 0 ∗ semVal (sndCell c 9) 0 ∗ semVal (rcvCell c 0) 0 ∗ semVal (rcvCell c 1) 0 ∗ semVal (rcvCell c 2) 0 ∗ semVal (rcvCell c 3) 0 ∗ semVal (rcvCell c 4) 0 ∗ semVal (rcvCell c 5) 0 ∗ semVal (rcvCell c 6) 0 ∗ semVal (rcvCell c 7) 0 ∗ semVal (rcvCell c 8) 0 ∗ semVal (rcvCell c 9) 0)

def Φ₀ (c : Dev nD) : sProp 𝕄 := iprop(start m c ∗ bufs (F := F) c)
def Φ₁ (c : Dev nD) : sProp 𝕄 := iprop(bufs (F := F) c ∗ semsZero (F := F) c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => dyC m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Data

/-! ## Two facts about views, and the copy step -/

section Helpers

omit [FloatOps F] [∀ e, Nonempty (Elt F e)] in
/-- Written whole through a view, the view's elements hold the payload, whatever was there. -/
theorem write_agree_on_set {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  unfold View.set at hi
  obtain ⟨y, -, rfl⟩ := Finset.mem_map.mp hi
  rw [View.write_emb_of_mem _ _ (Finset.mem_univ y), View.write_emb_of_mem _ _ (Finset.mem_univ y)]

omit [FloatOps F] [∀ e, Nonempty (Elt F e)] in
/-- A read through a view sees the view's elements only. -/
theorem read_agree_of_set {κ : Kind} {sp : Space} {s : Shape} {e : EltTy} (v : View sig κ sp s e) (f g : v.ty.Contents (Elt F))
    (h : ∀ i ∈ v.set, f i = g i) : v.read (Elt F) f = v.read (Elt F) g :=
  funext fun x => by
    rw [View.read_apply, View.read_apply, h _ (by unfold View.set; exact Finset.mem_map.mpr ⟨x, Finset.mem_univ _, rfl⟩)]

theorem landed_eq (c : Dev nD) (i : Fin 10) :
    landed m c i = (slot i).view.write (Elt F) (View.junk (Val := Elt F) (slot i).view)
      ((src (peer c (rev i)) i).view.read (Elt F) (srcC m (peer c (rev i)) i)) Finset.univ := by
  revert i; intro i; fin_cases i <;> rfl

theorem slot_amount : ∀ i : Fin 10, (slot i).view.amount (.dma (rcvQ i)) = N := by
  intro i; fin_cases i <;> rfl

omit [∀ e, Nonempty (Elt F e)] in
theorem hz2 : (![0, 0] : Fin 2 → Nat) = fun _ => 0 := funext fun a => by fin_cases a <;> rfl

/-- The store of P(c) covers the partial-product buffer. -/
theorem part_written (c : Dev nD) (fp : (cc0_scratch0 : Ref sig .tc).ty.Contents (Elt F)) :
    (pM : Memref sig .tc .vmem S512x256 .bf16).view.writes (Elt F) fp
        [⟨rP, k0_pay1 (xM.view.readAt (Elt F) rX.toLoadRect (xC m c)) (dyM.view.readAt (Elt F) (rDy c).toLoadRect (dyC m c))⟩]
      = pC m c := by
  rw [View.writes_cons, View.writes_nil]
  show ((Memref.whole cc0_scratch0).access rP : View sig .tc _ _ _).write (Elt F) fp (pC m c) Finset.univ = pC m c
  exact Memref.write_access_unit_zero_univ (Elt F) cc0_scratch0 hz2 inb_S512x256_S512x256_0_0 fp (pC m c)

variable (K : GSem nD τ sig → ℕ)

/-- The copy to peer i: the source elements (holding what the schedule says the source holds) go into the departure
    cell, the peer's landing slot rewritten into its arrival cell; the arrival credit comes off what the device owes. -/
theorem send_step (c : Dev nD) (i : Fin 10) (n : Dev nD) (hn : n = peer c i)
    {hsc : ((slot i : Memref sig (Dev.tc n : Thread nD τ).2.kind .vmem S128x256 .bf16)).view.ref.isScScratch = false}
    {hsrc : (src c i).view.WordExact} {hdst : (slot i).view.WordExact}
    {hsem : DmaTarget.Typed .vmem (.dma (rcvQ i)) (.remote (Dev.tc n : Thread nD τ) (slot i) (.dma (sndQ i)) hsc)}
    {α : Type} {Q : α → sProp 𝕄} {k : PUnit → Prog (TpuEff nD τ sig (Elt F) Λ₀ .tc) α}
    (fs : Buf (Elt F) ((src c i).view.loc (c : Thread nD τ))) (fd : Buf (Elt F) ((slot i).view.loc (peer c i : Thread nD τ)))
    (hfs : ∀ x ∈ (src c i).view.set, fs x = srcC m c i x)
    {O₁ : CellTallies nD τ sig Unit} (O : CellTallies nD τ sig Unit) (hO : O₁ = O + tallyAt (rcvCell (peer c i) i) () N) (W : Waits sig Unit) :
    iprop(cellInv ER (sched m) (K (sndCell c i)) (sndCell c i) ∗ cellInv ER (sched m) (K (rcvCell (peer c i) i)) (rcvCell (peer c i) i)
        ∗ ((src c i).view.loc (c : Thread nD τ) ↦[(src c i).view.set]{shr i} fs)
        ∗ ((slot i).view.loc (peer c i : Thread nD τ) ↦[(slot i).view.set]{fullShare} fd)
        ∗ owes (c : Thread nD τ) O₁ W
        ∗ dutyTok ER (sndCell c i) 0 0 ∗ reached ER (sndCell c i) 0
        ∗ dutyTok ER (rcvCell (peer c i) i) 0 0 ∗ reached ER (rcvCell (peer c i) i) 0)
      ⊢ iprop(((cred (tallyAt (sndCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src c i) (.remote (Dev.tc n : Thread nD τ) (slot i) (.dma (sndQ i)) hsc) (.dma (rcvQ i)) hsrc hdst hsem) k) Q) := by
  subst hn
  exact Rounds.wp_send_pointsTo 𝒱₀ ER (sched m) (c : Thread nD τ) none (κ₁ := K (sndCell c i)) (κ₂ := K (rcvCell (peer c i) i))
    (r₁ := 0) (r₂ := 0) (d₁ := 0) (d₂ := 0) (fd := fd)
    (by rw [duties_snd]; exact Finset.mem_singleton_self _) (by rw [duties_rcv]; exact Finset.mem_singleton_self _)
    () () N (slot_amount i) (amount_snd m c i 0) (amount_rcv m (peer c i) i 0) O hO (W := W)
    (by rw [payload_snd]; unfold sndPay; exact Entails.of_eq (pointsTo_congr hfs))
    (by
      rw [payload_rcv]; unfold rcvPay slotPts
      rw [landed_eq, peer_rev]
      refine Entails.of_eq (pointsTo_congr fun x hx => ?_)
      rw [read_agree_of_set (src c i).view fs (srcC m c i) hfs]
      exact write_agree_on_set (slot i).view _ _ _ x hx)

end Helpers

/-! ## Putting the buffers back together, in the forms the run leaves the pieces -/

section Rejoin
variable (c : Dev nD)

omit [FloatOps F] in
theorem whole_eq (b : Ref sig .tc) (q : PosShare TreeShare) (f : Buf (Elt F) ((c : Thread nD τ).loc b)) :
    ((((c : Thread nD τ).loc b) ↦{q} f) : sProp 𝕄) = ((Memref.whole b : Memref sig .tc _ _ _).view.loc (c : Thread nD τ) ↦{q} f) := rfl

/-- The partial-product buffer from the three row blocks the departure waits return, the kept block and the rest. -/
theorem p_rejoin (g3 f : Buf (Elt F) ((pM : Memref sig .tc .vmem S512x256 .bf16).view.loc (c : Thread nD τ))) :
    iprop(((src c 0).view.loc (c : Thread nD τ) ↦[(src c 0).view.set]{shr 0} srcC m c 0)
        ∗ ((src c 1).view.loc (c : Thread nD τ) ↦[(src c 1).view.set]{shr 1} srcC m c 1)
        ∗ ((src c 2).view.loc (c : Thread nD τ) ↦[(src c 2).view.set]{shr 2} srcC m c 2)
        ∗ ((pM.access (rOwn c) : View sig .tc _ _ _).loc (c : Thread nD τ) ↦[(pM.access (rOwn c) : View sig .tc _ _ _).set]{fullShare} g3)
        ∗ ((pM : Memref sig .tc .vmem S512x256 .bf16).view.loc (c : Thread nD τ) ↦[pRest c]{fullShare} f))
      ⊢ (∃ f' : Buf (Elt F) ((c : Thread nD τ).loc cc0_scratch0), (((c : Thread nD τ).loc cc0_scratch0) ↦{fullShare} f') : sProp 𝕄) :=
  p_join (F := F) c (pC m c) (pC m c) (pC m c) g3 f

omit [FloatOps F] in
theorem rs_rejoin (g0 g1 g2 f : Buf (Elt F) ((rM : Memref sig .tc .vmem S3x128x256 .bf16).view.loc (c : Thread nD τ))) :
    iprop(((slot 0).view.loc (c : Thread nD τ) ↦[(slot 0).view.set]{fullShare} g0)
        ∗ ((slot 1).view.loc (c : Thread nD τ) ↦[(slot 1).view.set]{fullShare} g1)
        ∗ ((slot 2).view.loc (c : Thread nD τ) ↦[(slot 2).view.set]{fullShare} g2)
        ∗ rsRestPts c f)
      ⊢ (∃ f' : Buf (Elt F) ((c : Thread nD τ).loc cc0_scratch1), (((c : Thread nD τ).loc cc0_scratch1) ↦{fullShare} f') : sProp 𝕄) :=
  rs_join (F := F) c g0 g1 g2 f

/-- Plane 7 from the seven eighths the departure waits return and the eighth kept. -/
theorem own_rejoin :
    iprop(((src c 3).view.loc (c : Thread nD τ) ↦[(src c 3).view.set]{shr 3} srcC m c 3)
        ∗ ((src c 4).view.loc (c : Thread nD τ) ↦[(src c 4).view.set]{shr 4} srcC m c 4)
        ∗ ((src c 5).view.loc (c : Thread nD τ) ↦[(src c 5).view.set]{shr 5} srcC m c 5)
        ∗ ((src c 6).view.loc (c : Thread nD τ) ↦[(src c 6).view.set]{shr 6} srcC m c 6)
        ∗ ((src c 7).view.loc (c : Thread nD τ) ↦[(src c 7).view.set]{shr 7} srcC m c 7)
        ∗ ((src c 8).view.loc (c : Thread nD τ) ↦[(src c 8).view.set]{shr 8} srcC m c 8)
        ∗ ((src c 9).view.loc (c : Thread nD τ) ↦[(src c 9).view.set]{shr 9} srcC m c 9)
        ∗ ((ownG : Memref sig .tc .vmem S128x256 .bf16).view.loc (c : Thread nD τ) ↦[(ownG : Memref sig .tc .vmem S128x256 .bf16).view.set]{fullShare.right.right.right} ownC m c))
      ⊢ (ownPts c fullShare (ownC m c) : sProp 𝕄) :=
  own_unshare (F := F) c (ownC m c)

omit [FloatOps F] in
theorem g_rejoin (g0 g1 g2 g3 g4 g5 g6 g7 f : Buf (Elt F) ((gM : Memref sig .tc .vmem S8x128x256 .bf16).view.loc (c : Thread nD τ))) :
    iprop(((slot 3).view.loc (c : Thread nD τ) ↦[(slot 3).view.set]{fullShare} g0)
        ∗ ((slot 4).view.loc (c : Thread nD τ) ↦[(slot 4).view.set]{fullShare} g1)
        ∗ ((slot 5).view.loc (c : Thread nD τ) ↦[(slot 5).view.set]{fullShare} g2)
        ∗ ((slot 6).view.loc (c : Thread nD τ) ↦[(slot 6).view.set]{fullShare} g3)
        ∗ ((slot 7).view.loc (c : Thread nD τ) ↦[(slot 7).view.set]{fullShare} g4)
        ∗ ((slot 8).view.loc (c : Thread nD τ) ↦[(slot 8).view.set]{fullShare} g5)
        ∗ ((slot 9).view.loc (c : Thread nD τ) ↦[(slot 9).view.set]{fullShare} g6)
        ∗ ownPts c fullShare g7
        ∗ gRestPts c f)
      ⊢ (∃ f' : Buf (Elt F) ((c : Thread nD τ).loc cc0_scratch2), (((c : Thread nD τ).loc cc0_scratch2) ↦{fullShare} f') : sProp 𝕄) :=
  g_join (F := F) c g0 g1 g2 g3 g4 g5 g6 g7 f

end Rejoin

/-! ## The body -/

section Body
variable (K : GSem nD τ sig → ℕ)

attribute [local sl_rounds] duties_bar duties_snd duties_rcv amount_bar amount_snd amount_rcv expect_bar expect_snd expect_rcv payload_bar payload_snd payload_rcv barPay_eq sndPay_eq rcvPay_eq
attribute [local sl_rounds high] barPay_sig0 barPay_sig1 barPay_sig2 barPay_sig3 barPay_sig4 barPay_sig5 barPay_sig6 barPay_sig7 barPay_sig8 barPay_sig9

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K c ∗ linear (F := F) c ∗ creds (F := F) c ∗ levAts L lv ∗ bufs (F := F) c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt () t0_0.succ ∗ stg c cc0_stg0_0 (xC m c) ∗ stg c cc0_stg1_0 (dyC m c) ∗ stg c cc0_stg2_0 (outAt m c))

set_option maxHeartbeats 8000000 in
/-- One device's body from its invariant: every statement a step, the copies by `send_step`. -/
theorem run_body (c : Dev nD) (Kt : PUnit → sProp 𝕄) :
    iprop(bodyPre m K c ∗ (bodyPost m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  unfold bodyPre records linear creds bufs
  iintro ⟨⟨⟨⟨#Ib, #Is0, #Is1, #Is2, #Is3, #Is4, #Is5, #Is6, #Is7, #Is8, #Is9, #Ir0, #Ir1, #Ir2, #Ir3, #Ir4, #Ir5, #Ir6, #Ir7, #Ir8, #Ir9, #Ipb0, #Ipb1, #Ipb2, #Ipb3, #Ipb4, #Ipb5, #Ipb6, #Ipb7, #Ipb8, #Ipb9, #Ipr0, #Ipr1, #Ipr2, #Ipr3, #Ipr4, #Ipr5, #Ipr6, #Ipr7, #Ipr8, #Ipr9, #Rs0, #Rs1, #Rs2, #Rs3, #Rs4, #Rs5, #Rs6, #Rs7, #Rs8, #Rs9, #Rpb0, #Rpb1, #Rpb2, #Rpb3, #Rpb4, #Rpb5, #Rpb6, #Rpb7, #Rpb8, #Rpb9, #Rpr0, #Rpr1, #Rpr2, #Rpr3, #Rpr4, #Rpr5, #Rpr6, #Rpr7, #Rpr8, #Rpr9⟩, ⟨Ab, As0, As1, As2, As3, As4, As5, As6, As7, As8, As9, Ar0, Ar1, Ar2, Ar3, Ar4, Ar5, Ar6, Ar7, Ar8, Ar9, Tb0, Tb1, Tb2, Tb3, Tb4, Tb5, Tb6, Tb7, Tb8, Tb9, Ta0, Ta1, Ta2, Ta3, Ta4, Ta5, Ta6, Ta7, Ta8, Ta9, Td0, Td1, Td2, Td3, Td4, Td5, Td6, Td7, Td8, Td9⟩, ⟨Cb, Cr0, Cr1, Cr2, Cr3, Cr4, Cr5, Cr6, Cr7, Cr8, Cr9⟩, #Hlev, ⟨%fp, Hp0⟩, ⟨%fr, Hr0⟩, ⟨%fg, Hg0⟩⟩, Ho, ⟨%d0, %g0, %hg0, Hx0⟩, ⟨%d1, %g1, %hg1, Hdy0⟩, ⟨%d2, %fo, %hg2, Hout0⟩⟩, Hk⟩
  have hx : g0 = xC m c := by rw [hg0]; unfold Dat.before; rw [if_pos (fetch0_0 t0_0)]; rfl
  have hdy : g1 = dyC m c := by rw [hg1]; unfold Dat.before; rw [if_pos (fetch0_1 t0_0)]; rfl
  subst hx hdy
  unfold Dat.owesAt Pipeline.owesWithin
  icases Ho with ⟨%W, %hW, HO⟩
  rw [show (dats m 0 c).owed t0_0.castSucc = O₀ c from rfl]
  unfold O₀ OR OG owedRcv owedBar
  -- the buffers, through their memrefs; the two landing buffers cut into planes
  ihave Hp := (Entails.of_eq (whole_eq (F := F) c cc0_scratch0 fullShare fp)) $$ Hp0
  ihave Hr1 := (Entails.of_eq (whole_eq (F := F) c cc0_scratch1 fullShare fr)) $$ Hr0
  ihave Hg1 := (Entails.of_eq (whole_eq (F := F) c cc0_scratch2 fullShare fg)) $$ Hg0
  ihave Hx := (Entails.of_eq (whole_eq (F := F) c cc0_stg0_0 fullShare (xC m c))) $$ Hx0
  ihave Hdy := (Entails.of_eq (whole_eq (F := F) c cc0_stg1_0 fullShare (dyC m c))) $$ Hdy0
  ihave Hout := (Entails.of_eq (whole_eq (F := F) c cc0_stg2_0 fullShare fo)) $$ Hout0
  ihave Hr2 := (rs_split (F := F) c fr) $$ Hr1
  icases Hr2 with ⟨Hsl0, Hsl1, Hsl2, HrsRest⟩
  ihave Hg2 := (g_split (F := F) c fg) $$ Hg1
  icases Hg2 with ⟨Hsl3, Hsl4, Hsl5, Hsl6, Hsl7, Hsl8, Hsl9, Hown, HgRest⟩
  have hmw_bar := mayWait_bar (F := F) c
  unfold OR OG owedRcv at hmw_bar
  have hmw_rs0 := mayWait_rs (F := F) c 0 (by decide)
  have hmw_rs1 := mayWait_rs (F := F) c 1 (by decide)
  have hmw_rs2 := mayWait_rs (F := F) c 2 (by decide)
  unfold OG owedRcv at hmw_rs0 hmw_rs1 hmw_rs2
  -- the ten entry signals: each hands the peer one landing slot of this device
  have hd1 := dev1_eq c
  ihave Hs2' := (Entails.of_eq (slotPts_eq (F := F) c 2 fr)) $$ Hsl2
  sl_exec
  clear hd1
  have hd2 := dev2_eq c
  ihave Hs1' := (Entails.of_eq (slotPts_eq (F := F) c 1 fr)) $$ Hsl1
  sl_exec
  clear hd2
  have hd3 := dev3_eq c
  ihave Hs0' := (Entails.of_eq (slotPts_eq (F := F) c 0 fr)) $$ Hsl0
  sl_exec
  clear hd3
  have hd4 := dev4_eq c
  ihave Hs9' := (Entails.of_eq (slotPts_eq (F := F) c 9 fg)) $$ Hsl9
  sl_exec
  clear hd4
  have hd5 := dev5_eq c
  ihave Hs8' := (Entails.of_eq (slotPts_eq (F := F) c 8 fg)) $$ Hsl8
  sl_exec
  clear hd5
  have hd6 := dev6_eq c
  ihave Hs7' := (Entails.of_eq (slotPts_eq (F := F) c 7 fg)) $$ Hsl7
  sl_exec
  clear hd6
  have hd7 := dev7_eq c
  ihave Hs6' := (Entails.of_eq (slotPts_eq (F := F) c 6 fg)) $$ Hsl6
  sl_exec
  clear hd7
  have hd8 := dev8_eq c
  ihave Hs5' := (Entails.of_eq (slotPts_eq (F := F) c 5 fg)) $$ Hsl5
  sl_exec
  clear hd8
  have hd9 := dev9_eq c
  ihave Hs4' := (Entails.of_eq (slotPts_eq (F := F) c 4 fg)) $$ Hsl4
  sl_exec
  clear hd9
  have hd10 := dev10_eq c
  ihave Hs3' := (Entails.of_eq (slotPts_eq (F := F) c 3 fg)) $$ Hsl3
  sl_exec
  clear hd10
  -- the ten landing slots the peers handed over
  ihave Hps := (Entails.of_eq (bigSep_fin10 _)) $$ Ab_pay1
  icases Hps with ⟨⟨%q0, Hq0⟩, ⟨%q1, Hq1⟩, ⟨%q2, Hq2⟩, ⟨%q3, Hq3⟩, ⟨%q4, Hq4⟩, ⟨%q5, Hq5⟩, ⟨%q6, Hq6⟩, ⟨%q7, Hq7⟩, ⟨%q8, Hq8⟩, ⟨%q9, Hq9⟩⟩
  -- the partial-product buffer holds P(c): cut it into the three row blocks to send and the one to keep
  ihave Hp1 := (Entails.of_eq (congrArg (fun f => ((pM : Memref sig .tc .vmem S512x256 .bf16).view.loc (c : Thread nD τ) ↦{fullShare} f : sProp 𝕄)) (part_written m c fp))) $$ Hp
  ihave Hp2 := (p_split (F := F) c (pC m c)) $$ Hp1
  icases Hp2 with ⟨Hr0', Hr1', Hr2', Hro, Hrr⟩
  have hd11 := dev11_eq c
  iapply (send_step m K c 2 _ hd11 _ q2 (fun _ _ => rfl) _ rfl _) $$ [Hr2' Hq2 HO Td2 Ta2]
  · isplitr; · iexact Is2
    isplitr; · iexact Ipr2
    isplitl [Hr2']; · iexact Hr2'
    isplitl [Hq2]; · iexact Hq2
    isplitl [HO]; · iexact HO
    isplitl [Td2]; · iexact Td2
    isplitr; · iexact Rs2
    isplitl [Ta2]; · iexact Ta2
    iexact Rpr2
  iintro ⟨Cs2, HO⟩
  clear hd11
  sl_exec
  have hd12 := dev12_eq c
  iapply (send_step m K c 1 _ hd12 _ q1 (fun _ _ => rfl) _ rfl _) $$ [Hr1' Hq1 HO Td1 Ta1]
  · isplitr; · iexact Is1
    isplitr; · iexact Ipr1
    isplitl [Hr1']; · iexact Hr1'
    isplitl [Hq1]; · iexact Hq1
    isplitl [HO]; · iexact HO
    isplitl [Td1]; · iexact Td1
    isplitr; · iexact Rs1
    isplitl [Ta1]; · iexact Ta1
    iexact Rpr1
  iintro ⟨Cs1, HO⟩
  clear hd12
  sl_exec
  have hd13 := dev13_eq c
  iapply (send_step m K c 0 _ hd13 _ q0 (fun _ _ => rfl) _ rfl _) $$ [Hr0' Hq0 HO Td0 Ta0]
  · isplitr; · iexact Is0
    isplitr; · iexact Ipr0
    isplitl [Hr0']; · iexact Hr0'
    isplitl [Hq0]; · iexact Hq0
    isplitl [HO]; · iexact HO
    isplitl [Td0]; · iexact Td0
    isplitr; · iexact Rs0
    isplitl [Ta0]; · iexact Ta0
    iexact Rpr0
  iintro ⟨Cs0, HO⟩
  clear hd13
  unfold ownPts
  sl_exec
  -- the own row block of P(c), from the quarter of the buffer the device kept
  iapply (wp_load_rect 𝒱₀ (c : Thread nD τ) none Set.univ (m := pM) (r := rOwn c) (fun _ h => h)) $$ Hro; iintro Hro
  sl_exec
  -- plane 7 holds A(c): seven eighths of its share go out with the seven gather copies
  have hown : ∀ x ∈ (ownG : Memref sig .tc .vmem S128x256 .bf16).view.set, run_body.sl.Hown_w1 m c fg x = ownC m c x :=
    fun x hx => write_agree_on_set (gM.access rG7 : View sig .tc _ _ _) fg _ _ x (ownG_set ▸ hx)
  ihave Hown' := (Entails.of_eq (ownPts_eq (F := F) c fullShare (run_body.sl.Hown_w1 m c fg)).symm) $$ Hown
  ihave Hsh := (own_shares (F := F) c _) $$ Hown'
  icases Hsh with ⟨Ho3, Ho4, Ho5, Ho6, Ho7, Ho8, Ho9, HoK⟩
  unfold ownPts
  have hd14 := dev14_eq c
  iapply (send_step m K c 9 _ hd14 _ q9 hown _ rfl _) $$ [Ho9 Hq9 HO Td9 Ta9]
  · isplitr; · iexact Is9
    isplitr; · iexact Ipr9
    isplitl [Ho9]; · iexact Ho9
    isplitl [Hq9]; · iexact Hq9
    isplitl [HO]; · iexact HO
    isplitl [Td9]; · iexact Td9
    isplitr; · iexact Rs9
    isplitl [Ta9]; · iexact Ta9
    iexact Rpr9
  iintro ⟨Cs9, HO⟩
  clear hd14
  sl_exec
  have hd15 := dev15_eq c
  iapply (send_step m K c 8 _ hd15 _ q8 hown _ rfl _) $$ [Ho8 Hq8 HO Td8 Ta8]
  · isplitr; · iexact Is8
    isplitr; · iexact Ipr8
    isplitl [Ho8]; · iexact Ho8
    isplitl [Hq8]; · iexact Hq8
    isplitl [HO]; · iexact HO
    isplitl [Td8]; · iexact Td8
    isplitr; · iexact Rs8
    isplitl [Ta8]; · iexact Ta8
    iexact Rpr8
  iintro ⟨Cs8, HO⟩
  clear hd15
  sl_exec
  have hd16 := dev16_eq c
  iapply (send_step m K c 7 _ hd16 _ q7 hown _ rfl _) $$ [Ho7 Hq7 HO Td7 Ta7]
  · isplitr; · iexact Is7
    isplitr; · iexact Ipr7
    isplitl [Ho7]; · iexact Ho7
    isplitl [Hq7]; · iexact Hq7
    isplitl [HO]; · iexact HO
    isplitl [Td7]; · iexact Td7
    isplitr; · iexact Rs7
    isplitl [Ta7]; · iexact Ta7
    iexact Rpr7
  iintro ⟨Cs7, HO⟩
  clear hd16
  sl_exec
  have hd17 := dev17_eq c
  iapply (send_step m K c 6 _ hd17 _ q6 hown _ rfl _) $$ [Ho6 Hq6 HO Td6 Ta6]
  · isplitr; · iexact Is6
    isplitr; · iexact Ipr6
    isplitl [Ho6]; · iexact Ho6
    isplitl [Hq6]; · iexact Hq6
    isplitl [HO]; · iexact HO
    isplitl [Td6]; · iexact Td6
    isplitr; · iexact Rs6
    isplitl [Ta6]; · iexact Ta6
    iexact Rpr6
  iintro ⟨Cs6, HO⟩
  clear hd17
  sl_exec
  have hd18 := dev18_eq c
  iapply (send_step m K c 5 _ hd18 _ q5 hown _ rfl _) $$ [Ho5 Hq5 HO Td5 Ta5]
  · isplitr; · iexact Is5
    isplitr; · iexact Ipr5
    isplitl [Ho5]; · iexact Ho5
    isplitl [Hq5]; · iexact Hq5
    isplitl [HO]; · iexact HO
    isplitl [Td5]; · iexact Td5
    isplitr; · iexact Rs5
    isplitl [Ta5]; · iexact Ta5
    iexact Rpr5
  iintro ⟨Cs5, HO⟩
  clear hd18
  sl_exec
  have hd19 := dev19_eq c
  iapply (send_step m K c 4 _ hd19 _ q4 hown _ rfl _) $$ [Ho4 Hq4 HO Td4 Ta4]
  · isplitr; · iexact Is4
    isplitr; · iexact Ipr4
    isplitl [Ho4]; · iexact Ho4
    isplitl [Hq4]; · iexact Hq4
    isplitl [HO]; · iexact HO
    isplitl [Td4]; · iexact Td4
    isplitr; · iexact Rs4
    isplitl [Ta4]; · iexact Ta4
    iexact Rpr4
  iintro ⟨Cs4, HO⟩
  clear hd19
  sl_exec
  have hd20 := dev20_eq c
  iapply (send_step m K c 3 _ hd20 _ q3 hown 0 (zero_add _).symm _) $$ [Ho3 Hq3 HO Td3 Ta3]
  · isplitr; · iexact Is3
    isplitr; · iexact Ipr3
    isplitl [Ho3]; · iexact Ho3
    isplitl [Hq3]; · iexact Hq3
    isplitl [HO]; · iexact HO
    isplitl [Td3]; · iexact Td3
    isplitr; · iexact Rs3
    isplitl [Ta3]; · iexact Ta3
    iexact Rpr3
  iintro ⟨Cs3, HO⟩
  clear hd20
  sl_exec
  -- the kernel's own twenty cells close: their counters at zero are the device's again
  imod (Rounds.cell_close ER (sched m) (Set.mem_univ (K (sndCell c 0))) (fun h => h) (R := 0 + 1) (duties_later m (sndCell c 0))) $$ [As0] with Zs0
  · isplitr; · iexact Is0
    iexact As0
  imod (Rounds.cell_close ER (sched m) (Set.mem_univ (K (sndCell c 1))) (fun h => h) (R := 0 + 1) (duties_later m (sndCell c 1))) $$ [As1] with Zs1
  · isplitr; · iexact Is1
    iexact As1
  imod (Rounds.cell_close ER (sched m) (Set.mem_univ (K (sndCell c 2))) (fun h => h) (R := 0 + 1) (duties_later m (sndCell c 2))) $$ [As2] with Zs2
  · isplitr; · iexact Is2
    iexact As2
  imod (Rounds.cell_close ER (sched m) (Set.mem_univ (K (sndCell c 3))) (fun h => h) (R := 0 + 1) (duties_later m (sndCell c 3))) $$ [As3] with Zs3
  · isplitr; · iexact Is3
    iexact As3
  imod (Rounds.cell_close ER (sched m) (Set.mem_univ (K (sndCell c 4))) (fun h => h) (R := 0 + 1) (duties_later m (sndCell c 4))) $$ [As4] with Zs4
  · isplitr; · iexact Is4
    iexact As4
  imod (Rounds.cell_close ER (sched m) (Set.mem_univ (K (sndCell c 5))) (fun h => h) (R := 0 + 1) (duties_later m (sndCell c 5))) $$ [As5] with Zs5
  · isplitr; · iexact Is5
    iexact As5
  imod (Rounds.cell_close ER (sched m) (Set.mem_univ (K (sndCell c 6))) (fun h => h) (R := 0 + 1) (duties_later m (sndCell c 6))) $$ [As6] with Zs6
  · isplitr; · iexact Is6
    iexact As6
  imod (Rounds.cell_close ER (sched m) (Set.mem_univ (K (sndCell c 7))) (fun h => h) (R := 0 + 1) (duties_later m (sndCell c 7))) $$ [As7] with Zs7
  · isplitr; · iexact Is7
    iexact As7
  imod (Rounds.cell_close ER (sched m) (Set.mem_univ (K (sndCell c 8))) (fun h => h) (R := 0 + 1) (duties_later m (sndCell c 8))) $$ [As8] with Zs8
  · isplitr; · iexact Is8
    iexact As8
  imod (Rounds.cell_close ER (sched m) (Set.mem_univ (K (sndCell c 9))) (fun h => h) (R := 0 + 1) (duties_later m (sndCell c 9))) $$ [As9] with Zs9
  · isplitr; · iexact Is9
    iexact As9
  imod (Rounds.cell_close ER (sched m) (Set.mem_univ (K (rcvCell c 0))) (fun h => h) (R := 0 + 1) (duties_later m (rcvCell c 0))) $$ [Ar0] with Zr0
  · isplitr; · iexact Ir0
    iexact Ar0
  imod (Rounds.cell_close ER (sched m) (Set.mem_univ (K (rcvCell c 1))) (fun h => h) (R := 0 + 1) (duties_later m (rcvCell c 1))) $$ [Ar1] with Zr1
  · isplitr; · iexact Ir1
    iexact Ar1
  imod (Rounds.cell_close ER (sched m) (Set.mem_univ (K (rcvCell c 2))) (fun h => h) (R := 0 + 1) (duties_later m (rcvCell c 2))) $$ [Ar2] with Zr2
  · isplitr; · iexact Ir2
    iexact Ar2
  imod (Rounds.cell_close ER (sched m) (Set.mem_univ (K (rcvCell c 3))) (fun h => h) (R := 0 + 1) (duties_later m (rcvCell c 3))) $$ [Ar3] with Zr3
  · isplitr; · iexact Ir3
    iexact Ar3
  imod (Rounds.cell_close ER (sched m) (Set.mem_univ (K (rcvCell c 4))) (fun h => h) (R := 0 + 1) (duties_later m (rcvCell c 4))) $$ [Ar4] with Zr4
  · isplitr; · iexact Ir4
    iexact Ar4
  imod (Rounds.cell_close ER (sched m) (Set.mem_univ (K (rcvCell c 5))) (fun h => h) (R := 0 + 1) (duties_later m (rcvCell c 5))) $$ [Ar5] with Zr5
  · isplitr; · iexact Ir5
    iexact Ar5
  imod (Rounds.cell_close ER (sched m) (Set.mem_univ (K (rcvCell c 6))) (fun h => h) (R := 0 + 1) (duties_later m (rcvCell c 6))) $$ [Ar6] with Zr6
  · isplitr; · iexact Ir6
    iexact Ar6
  imod (Rounds.cell_close ER (sched m) (Set.mem_univ (K (rcvCell c 7))) (fun h => h) (R := 0 + 1) (duties_later m (rcvCell c 7))) $$ [Ar7] with Zr7
  · isplitr; · iexact Ir7
    iexact Ar7
  imod (Rounds.cell_close ER (sched m) (Set.mem_univ (K (rcvCell c 8))) (fun h => h) (R := 0 + 1) (duties_later m (rcvCell c 8))) $$ [Ar8] with Zr8
  · isplitr; · iexact Ir8
    iexact Ar8
  imod (Rounds.cell_close ER (sched m) (Set.mem_univ (K (rcvCell c 9))) (fun h => h) (R := 0 + 1) (duties_later m (rcvCell c 9))) $$ [Ar9] with Zr9
  · isplitr; · iexact Ir9
    iexact Ar9
  -- the buffers whole again
  ihave Hpw := (p_rejoin m c _ _) $$ [As0_pay1 As1_pay1 As2_pay1 Hro Hrr]
  · isplitl [As0_pay1]; · iexact As0_pay1
    isplitl [As1_pay1]; · iexact As1_pay1
    isplitl [As2_pay1]; · iexact As2_pay1
    isplitl [Hro]; · iexact Hro
    iexact Hrr
  ihave Hrw := (rs_rejoin (F := F) c _ _ _ _) $$ [Ar0_pay1 Ar1_pay1 Ar2_pay1 HrsRest]
  · isplitl [Ar0_pay1]; · iexact Ar0_pay1
    isplitl [Ar1_pay1]; · iexact Ar1_pay1
    isplitl [Ar2_pay1]; · iexact Ar2_pay1
    iexact HrsRest
  ihave HoK' := (Entails.of_eq (pointsTo_congr hown)) $$ HoK
  ihave Hown2 := (own_rejoin m c) $$ [As3_pay1 As4_pay1 As5_pay1 As6_pay1 As7_pay1 As8_pay1 As9_pay1 HoK']
  · isplitl [As3_pay1]; · iexact As3_pay1
    isplitl [As4_pay1]; · iexact As4_pay1
    isplitl [As5_pay1]; · iexact As5_pay1
    isplitl [As6_pay1]; · iexact As6_pay1
    isplitl [As7_pay1]; · iexact As7_pay1
    isplitl [As8_pay1]; · iexact As8_pay1
    isplitl [As9_pay1]; · iexact As9_pay1
    iexact HoK'
  ihave Hgw := (g_rejoin (F := F) c _ _ _ _ _ _ _ _ _) $$ [Ar3_pay1 Ar4_pay1 Ar5_pay1 Ar6_pay1 Ar7_pay1 Ar8_pay1 Ar9_pay1 Hown2 HgRest]
  · isplitl [Ar3_pay1]; · iexact Ar3_pay1
    isplitl [Ar4_pay1]; · iexact Ar4_pay1
    isplitl [Ar5_pay1]; · iexact Ar5_pay1
    isplitl [Ar6_pay1]; · iexact Ar6_pay1
    isplitl [Ar7_pay1]; · iexact Ar7_pay1
    isplitl [Ar8_pay1]; · iexact Ar8_pay1
    isplitl [Ar9_pay1]; · iexact Ar9_pay1
    isplitl [Hown2]; · iexact Hown2
    iexact HgRest
  rw [wp_ret]; imodintro
  iapply Hk
  unfold bodyPost Φ₁ bufs semsZero Dat.owesAt Pipeline.owesWithin
  rw [show (dats m 0 c).owed t0_0.succ = 0 from rfl]
  isplitl [Hpw Hrw Hgw Zs0 Zs1 Zs2 Zs3 Zs4 Zs5 Zs6 Zs7 Zs8 Zs9 Zr0 Zr1 Zr2 Zr3 Zr4 Zr5 Zr6 Zr7 Zr8 Zr9]
  · isplitl [Hpw Hrw Hgw]
    · isplitl [Hpw]; · iexact Hpw
      isplitl [Hrw]; · iexact Hrw
      iexact Hgw
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zs8]; · iexact Zs8
    isplitl [Zs9]; · iexact Zs9
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zr8]; · iexact Zr8
    iexact Zr9
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _; isplitr
  · ipureintro; exact (show _ = outW m c fo from rfl).trans (outW_eq_outAt m c fo)
  iexact Hout

end Body

end Cert.KernelProof

end
-- ==== Proof.KernelLaunch.lean ====
/-
  The launch: the cells' ghost state allocated for all devices at once (the barrier cells are the runtime's, shared by
  the devices that signal them), the duty tokens dealt to the devices that pay them, the launch credit, and the run of
  @main on the 32 devices.
-/
import proofs.«900392_g7700000000000393_dist_rsdw_v7x_xyz2x4x4_y_m512_d512_f2048_bf16_1_alg».proof.Proof.KernelBody

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Cells and tokens, enumerated -/

/-- The kernel's own (scoped) semaphores as the launch indexes them: the ten departure, the ten arrival cells; -/
abbrev osem : Fin 20 → SemLoc sig
  | 0 => .dma (sndQ 0) | 1 => .dma (sndQ 1) | 2 => .dma (sndQ 2) | 3 => .dma (sndQ 3) | 4 => .dma (sndQ 4) | 5 => .dma (sndQ 5) | 6 => .dma (sndQ 6) | 7 => .dma (sndQ 7) | 8 => .dma (sndQ 8) | 9 => .dma (sndQ 9) | 10 => .dma (rcvQ 0) | 11 => .dma (rcvQ 1) | 12 => .dma (rcvQ 2) | 13 => .dma (rcvQ 3) | 14 => .dma (rcvQ 4) | 15 => .dma (rcvQ 5) | 16 => .dma (rcvQ 6) | 17 => .dma (rcvQ 7) | 18 => .dma (rcvQ 8) | 19 => .dma (rcvQ 9) | ⟨_ + 20, h⟩ => absurd h (by omega)
/-- all 21 cells of the protocol on a device: the barrier cell, then those twenty. -/
abbrev csem : Fin 21 → SemLoc sig
  | 0 => .reg barS | 1 => .dma (sndQ 0) | 2 => .dma (sndQ 1) | 3 => .dma (sndQ 2) | 4 => .dma (sndQ 3) | 5 => .dma (sndQ 4) | 6 => .dma (sndQ 5) | 7 => .dma (sndQ 6) | 8 => .dma (sndQ 7) | 9 => .dma (sndQ 8) | 10 => .dma (sndQ 9) | 11 => .dma (rcvQ 0) | 12 => .dma (rcvQ 1) | 13 => .dma (rcvQ 2) | 14 => .dma (rcvQ 3) | 15 => .dma (rcvQ 4) | 16 => .dma (rcvQ 5) | 17 => .dma (rcvQ 6) | 18 => .dma (rcvQ 7) | 19 => .dma (rcvQ 8) | 20 => .dma (rcvQ 9) | ⟨_ + 21, h⟩ => absurd h (by omega)
abbrev kcell (ck : Dev nD × Fin 21) : GSem nD τ sig := ((ck.1 : Thread nD τ), csem ck.2)

theorem csem_injective : Function.Injective csem := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def protoCells : Finset (GSem nD τ sig) := Finset.univ.map ⟨kcell, kcell_injective⟩

/-- The index of a cell's semaphore among the 21 (0 for a semaphore that is none of them). -/
def idx : SemLoc sig → Fin 21
  | .reg _ => 0
  | .dma q => if h1 : q.val < 3 then 0 else if h2 : q.val < 6 then ⟨q.val - 2, by omega⟩ else if h3 : q.val < 9 then ⟨q.val + 5, by omega⟩
      else if h4 : q.val < 16 then ⟨q.val - 5, by omega⟩ else ⟨q.val - 2, by have := q.isLt; show q.val - 2 < 21; have : sig.nDmaSem = 23 := rfl; omega⟩
theorem idx_csem : ∀ k : Fin 21, idx (csem k) = k := by decide

/-- A device's own cells' duty tokens as minted: the ten duties of its barrier cell, the one duty of each departure and
    each arrival cell. -/
abbrev tokSem : Fin 30 → SemLoc sig
  | 0 => .reg barS | 1 => .reg barS | 2 => .reg barS | 3 => .reg barS | 4 => .reg barS | 5 => .reg barS | 6 => .reg barS | 7 => .reg barS | 8 => .reg barS | 9 => .reg barS | 10 => .dma (sndQ 0) | 11 => .dma (sndQ 1) | 12 => .dma (sndQ 2) | 13 => .dma (sndQ 3) | 14 => .dma (sndQ 4) | 15 => .dma (sndQ 5) | 16 => .dma (sndQ 6) | 17 => .dma (sndQ 7) | 18 => .dma (sndQ 8) | 19 => .dma (sndQ 9) | 20 => .dma (rcvQ 0) | 21 => .dma (rcvQ 1) | 22 => .dma (rcvQ 2) | 23 => .dma (rcvQ 3) | 24 => .dma (rcvQ 4) | 25 => .dma (rcvQ 5) | 26 => .dma (rcvQ 6) | 27 => .dma (rcvQ 7) | 28 => .dma (rcvQ 8) | 29 => .dma (rcvQ 9) | ⟨_ + 30, h⟩ => absurd h (by omega)
abbrev tokDuty : Fin 30 → Fin 10
  | 0 => 0 | 1 => 1 | 2 => 2 | 3 => 3 | 4 => 4 | 5 => 5 | 6 => 6 | 7 => 7 | 8 => 8 | 9 => 9 | 10 => 0 | 11 => 0 | 12 => 0 | 13 => 0 | 14 => 0 | 15 => 0 | 16 => 0 | 17 => 0 | 18 => 0 | 19 => 0 | 20 => 0 | 21 => 0 | 22 => 0 | 23 => 0 | 24 => 0 | 25 => 0 | 26 => 0 | 27 => 0 | 28 => 0 | 29 => 0 | ⟨_ + 30, h⟩ => absurd h (by omega)
abbrev tokOf (cj : Dev nD × Fin 30) : GSem nD τ sig × ℕ × Fin 10 := (((cj.1 : Thread nD τ), tokSem cj.2), 0, tokDuty cj.2)
theorem tokKey_injective : ∀ a b : Fin 30, tokSem a = tokSem b → tokDuty a = tokDuty b → a = b := by decide
theorem tokOf_injective : Function.Injective (tokOf : Dev nD × Fin 30 → GSem nD τ sig × ℕ × Fin 10) := by
  rintro ⟨c, j⟩ ⟨c', j'⟩ h
  have h1 : c = c' := congrArg (fun x : GSem nD τ sig × ℕ × Fin 10 => x.1.1.1) h
  subst h1
  rw [tokKey_injective j j' (congrArg (fun x : GSem nD τ sig × ℕ × Fin 10 => x.1.2) h) (congrArg (fun x : GSem nD τ sig × ℕ × Fin 10 => x.2.2) h)]
def protoToks : Finset (GSem nD τ sig × ℕ × Fin 10) := Finset.univ.map ⟨tokOf, tokOf_injective⟩

def u₀ : UU :=
  (initOf (Pipeline.cells cfgs cellOf_inj) (Pipeline.launchToks cfgs cellOf_inj), initOf protoCells protoToks)

/-! ## The body obligation, in the library's form -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 4000 in
/-- The library's body obligation on device c. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m c)
  unfold bodyPre' Φ₀ start
  iintro ⟨⟨⟨⟨%K, Hrec, Hlin⟩, Hcr, Hlev⟩, Hb⟩, Ho, Hx, Hdy, Hout⟩
  iapply (run_body m K c fun _ => bodyPost m c)
  unfold bodyPre
  isplitr []
  · isplitl [Hrec Hlin Hcr Hlev Hb]
    · isplitl [Hrec]; · iexact Hrec
      isplitl [Hlin]; · iexact Hlin
      isplitl [Hcr]; · iexact Hcr
      isplitl [Hlev]; · iexact Hlev
      iexact Hb
    isplitl [Ho]; · iexact Ho
    isplitl [Hx]; · iexact Hx
    isplitl [Hdy]; · iexact Hdy
    iexact Hout
  · iintro H; iexact H

/-! ## What the launch deals a device, and what the global step makes of it -/

/-- The duty tokens of device c's own cells. -/
def toks (c : Dev nD) : sProp 𝕄 := iprop(dutyTok ER (barCell c) 0 0 ∗ dutyTok ER (barCell c) 0 1 ∗ dutyTok ER (barCell c) 0 2 ∗ dutyTok ER (barCell c) 0 3 ∗ dutyTok ER (barCell c) 0 4 ∗ dutyTok ER (barCell c) 0 5 ∗ dutyTok ER (barCell c) 0 6 ∗ dutyTok ER (barCell c) 0 7 ∗ dutyTok ER (barCell c) 0 8 ∗ dutyTok ER (barCell c) 0 9 ∗ dutyTok ER (sndCell c 0) 0 0 ∗ dutyTok ER (sndCell c 1) 0 0 ∗ dutyTok ER (sndCell c 2) 0 0 ∗ dutyTok ER (sndCell c 3) 0 0 ∗ dutyTok ER (sndCell c 4) 0 0 ∗ dutyTok ER (sndCell c 5) 0 0 ∗ dutyTok ER (sndCell c 6) 0 0 ∗ dutyTok ER (sndCell c 7) 0 0 ∗ dutyTok ER (sndCell c 8) 0 0 ∗ dutyTok ER (sndCell c 9) 0 0 ∗ dutyTok ER (rcvCell c 0) 0 0 ∗ dutyTok ER (rcvCell c 1) 0 0 ∗ dutyTok ER (rcvCell c 2) 0 0 ∗ dutyTok ER (rcvCell c 3) 0 0 ∗ dutyTok ER (rcvCell c 4) 0 0 ∗ dutyTok ER (rcvCell c 5) 0 0 ∗ dutyTok ER (rcvCell c 6) 0 0 ∗ dutyTok ER (rcvCell c 7) 0 0 ∗ dutyTok ER (rcvCell c 8) 0 0 ∗ dutyTok ER (rcvCell c 9) 0 0)
/-- The duty tokens device c pays with. -/
def payToks (c : Dev nD) : sProp 𝕄 := iprop(dutyTok ER (barCell (peer c 0)) 0 2 ∗ dutyTok ER (barCell (peer c 1)) 0 1 ∗ dutyTok ER (barCell (peer c 2)) 0 0 ∗ dutyTok ER (barCell (peer c 3)) 0 9 ∗ dutyTok ER (barCell (peer c 4)) 0 8 ∗ dutyTok ER (barCell (peer c 5)) 0 7 ∗ dutyTok ER (barCell (peer c 6)) 0 6 ∗ dutyTok ER (barCell (peer c 7)) 0 5 ∗ dutyTok ER (barCell (peer c 8)) 0 4 ∗ dutyTok ER (barCell (peer c 9)) 0 3 ∗ dutyTok ER (rcvCell (peer c 0) 0) 0 0 ∗ dutyTok ER (rcvCell (peer c 1) 1) 0 0 ∗ dutyTok ER (rcvCell (peer c 2) 2) 0 0 ∗ dutyTok ER (rcvCell (peer c 3) 3) 0 0 ∗ dutyTok ER (rcvCell (peer c 4) 4) 0 0 ∗ dutyTok ER (rcvCell (peer c 5) 5) 0 0 ∗ dutyTok ER (rcvCell (peer c 6) 6) 0 0 ∗ dutyTok ER (rcvCell (peer c 7) 7) 0 0 ∗ dutyTok ER (rcvCell (peer c 8) 8) 0 0 ∗ dutyTok ER (rcvCell (peer c 9) 9) 0 0 ∗ dutyTok ER (sndCell c 0) 0 0 ∗ dutyTok ER (sndCell c 1) 0 0 ∗ dutyTok ER (sndCell c 2) 0 0 ∗ dutyTok ER (sndCell c 3) 0 0 ∗ dutyTok ER (sndCell c 4) 0 0 ∗ dutyTok ER (sndCell c 5) 0 0 ∗ dutyTok ER (sndCell c 6) 0 0 ∗ dutyTok ER (sndCell c 7) 0 0 ∗ dutyTok ER (sndCell c 8) 0 0 ∗ dutyTok ER (sndCell c 9) 0 0)
def positions (c : Dev nD) : sProp 𝕄 := iprop(atPos ER (barCell c) 0 ∅ 0 ∗ atPos ER (sndCell c 0) 0 ∅ 0 ∗ atPos ER (sndCell c 1) 0 ∅ 0 ∗ atPos ER (sndCell c 2) 0 ∅ 0 ∗ atPos ER (sndCell c 3) 0 ∅ 0 ∗ atPos ER (sndCell c 4) 0 ∅ 0 ∗ atPos ER (sndCell c 5) 0 ∅ 0 ∗ atPos ER (sndCell c 6) 0 ∅ 0 ∗ atPos ER (sndCell c 7) 0 ∅ 0 ∗ atPos ER (sndCell c 8) 0 ∅ 0 ∗ atPos ER (sndCell c 9) 0 ∅ 0 ∗ atPos ER (rcvCell c 0) 0 ∅ 0 ∗ atPos ER (rcvCell c 1) 0 ∅ 0 ∗ atPos ER (rcvCell c 2) 0 ∅ 0 ∗ atPos ER (rcvCell c 3) 0 ∅ 0 ∗ atPos ER (rcvCell c 4) 0 ∅ 0 ∗ atPos ER (rcvCell c 5) 0 ∅ 0 ∗ atPos ER (rcvCell c 6) 0 ∅ 0 ∗ atPos ER (rcvCell c 7) 0 ∅ 0 ∗ atPos ER (rcvCell c 8) 0 ∅ 0 ∗ atPos ER (rcvCell c 9) 0 ∅ 0)

/-- What the launch element deals device c (the theorem's G). -/
def G (c : Dev nD) : sProp 𝕄 :=
  iprop((bigSep Finset.univ fun k : Fin 21 => roundState ER (sched m) (kcell (c, k)) 0)
    ∗ (bigSep Finset.univ fun k : Fin 21 => iprop(atPos ER (kcell (c, k)) 0 ∅ 0 ∗ reached ER (kcell (c, k)) 0)) ∗ toks (F := F) c)

/-- What the global step makes of it (G'). -/
def G' (c : Dev nD) : sProp 𝕄 := iprop(∃ K, records m K c ∗ linear (F := F) c)

omit [FloatOps F] [∀ e, Nonempty (Elt F e)] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] [∀ e, Nonempty (Elt F e)] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ
omit [FloatOps F] [∀ e, Nonempty (Elt F e)] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 21 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin30]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

omit [FloatOps F] [∀ e, Nonempty (Elt F e)] in
/-- The twenty own semaphores at zero, as the launch hands them over; -/
theorem ownSems0_eq (c : Dev nD) : (Pipeline.ownSems0 (Ix := Unit) (Name := ℕ) (U := UU) (Lvl := ℕ) (Val := Elt F) (τ := τ) osem c : sProp 𝕄)
    = semsZero (F := F) c := by
  rw [Pipeline.ownSems0_eq_of_list c osem [0, 1, 2, 3, 4, 5, 6, 7, 8, 9, 10, 11, 12, 13, 14, 15, 16, 17, 18, 19] (by decide) (by decide)]; rfl
omit [FloatOps F] [∀ e, Nonempty (Elt F e)] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [∀ e, Nonempty (Elt F e)] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_fin21]
  unfold semsZero
  iintro ⟨⟨H0, H1, H2, H3, H4, H5, H6, H7, H8, H9, H10, H11, H12, H13, H14, H15, H16, H17, H18, H19⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The names of all cells' invariants, as a function of the cell. -/
def Kof (K' : Dev nD × Fin 21 → ℕ) (g : GSem nD τ sig) : ℕ := K' (g.1.1, idx g.2)
theorem Kof_kcell (K' : Dev nD × Fin 21 → ℕ) (ck : Dev nD × Fin 21) : Kof K' (kcell ck) = K' ck := by
  unfold Kof; show K' (ck.1, idx (csem ck.2)) = K' ck; rw [idx_csem]

theorem inv_at (K' : Dev nD × Fin 21 → ℕ) (ck : Dev nD × Fin 21) :
    (bigSep Finset.univ fun ck : Dev nD × Fin 21 => (cellInv ER (sched m) (K' ck) (kcell ck) : sProp 𝕄)) ⊢ cellInv ER (sched m) (Kof K' (kcell ck)) (kcell ck) := by
  rw [Kof_kcell]; exact bigSep_elim (Finset.mem_univ ck)
omit [FloatOps F] [∀ e, Nonempty (Elt F e)] in
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

theorem records_intro (K' : Dev nD × Fin 21 → ℕ) (c : Dev nD) :
    iprop(□ (bigSep Finset.univ fun ck : Dev nD × Fin 21 => cellInv ER (sched m) (K' ck) (kcell ck))
        ∗ □ (bigSep Finset.univ fun ck : Dev nD × Fin 21 => (reached ER (kcell ck) 0 : sProp 𝕄)))
      ⊢ records m (Kof K' ) c := by
  unfold records
  iintro ⟨#HI, #HR⟩
  isplitr; · iapply (inv_at m K' (c, 0)); iexact HI
  isplitr; · iapply (inv_at m K' (c, 1)); iexact HI
  isplitr; · iapply (inv_at m K' (c, 2)); iexact HI
  isplitr; · iapply (inv_at m K' (c, 3)); iexact HI
  isplitr; · iapply (inv_at m K' (c, 4)); iexact HI
  isplitr; · iapply (inv_at m K' (c, 5)); iexact HI
  isplitr; · iapply (inv_at m K' (c, 6)); iexact HI
  isplitr; · iapply (inv_at m K' (c, 7)); iexact HI
  isplitr; · iapply (inv_at m K' (c, 8)); iexact HI
  isplitr; · iapply (inv_at m K' (c, 9)); iexact HI
  isplitr; · iapply (inv_at m K' (c, 10)); iexact HI
  isplitr; · iapply (inv_at m K' (c, 11)); iexact HI
  isplitr; · iapply (inv_at m K' (c, 12)); iexact HI
  isplitr; · iapply (inv_at m K' (c, 13)); iexact HI
  isplitr; · iapply (inv_at m K' (c, 14)); iexact HI
  isplitr; · iapply (inv_at m K' (c, 15)); iexact HI
  isplitr; · iapply (inv_at m K' (c, 16)); iexact HI
  isplitr; · iapply (inv_at m K' (c, 17)); iexact HI
  isplitr; · iapply (inv_at m K' (c, 18)); iexact HI
  isplitr; · iapply (inv_at m K' (c, 19)); iexact HI
  isplitr; · iapply (inv_at m K' (c, 20)); iexact HI
  isplitr; · iapply (inv_at m K' (peer c 0, 0)); iexact HI
  isplitr; · iapply (inv_at m K' (peer c 1, 0)); iexact HI
  isplitr; · iapply (inv_at m K' (peer c 2, 0)); iexact HI
  isplitr; · iapply (inv_at m K' (peer c 3, 0)); iexact HI
  isplitr; · iapply (inv_at m K' (peer c 4, 0)); iexact HI
  isplitr; · iapply (inv_at m K' (peer c 5, 0)); iexact HI
  isplitr; · iapply (inv_at m K' (peer c 6, 0)); iexact HI
  isplitr; · iapply (inv_at m K' (peer c 7, 0)); iexact HI
  isplitr; · iapply (inv_at m K' (peer c 8, 0)); iexact HI
  isplitr; · iapply (inv_at m K' (peer c 9, 0)); iexact HI
  isplitr; · iapply (inv_at m K' (peer c 0, 11)); iexact HI
  isplitr; · iapply (inv_at m K' (peer c 1, 12)); iexact HI
  isplitr; · iapply (inv_at m K' (peer c 2, 13)); iexact HI
  isplitr; · iapply (inv_at m K' (peer c 3, 14)); iexact HI
  isplitr; · iapply (inv_at m K' (peer c 4, 15)); iexact HI
  isplitr; · iapply (inv_at m K' (peer c 5, 16)); iexact HI
  isplitr; · iapply (inv_at m K' (peer c 6, 17)); iexact HI
  isplitr; · iapply (inv_at m K' (peer c 7, 18)); iexact HI
  isplitr; · iapply (inv_at m K' (peer c 8, 19)); iexact HI
  isplitr; · iapply (inv_at m K' (peer c 9, 20)); iexact HI
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (peer c 0, 0)); iexact HR
  isplitr; · iapply (reached_at (F := F) (peer c 1, 0)); iexact HR
  isplitr; · iapply (reached_at (F := F) (peer c 2, 0)); iexact HR
  isplitr; · iapply (reached_at (F := F) (peer c 3, 0)); iexact HR
  isplitr; · iapply (reached_at (F := F) (peer c 4, 0)); iexact HR
  isplitr; · iapply (reached_at (F := F) (peer c 5, 0)); iexact HR
  isplitr; · iapply (reached_at (F := F) (peer c 6, 0)); iexact HR
  isplitr; · iapply (reached_at (F := F) (peer c 7, 0)); iexact HR
  isplitr; · iapply (reached_at (F := F) (peer c 8, 0)); iexact HR
  isplitr; · iapply (reached_at (F := F) (peer c 9, 0)); iexact HR
  isplitr; · iapply (reached_at (F := F) (peer c 0, 11)); iexact HR
  isplitr; · iapply (reached_at (F := F) (peer c 1, 12)); iexact HR
  isplitr; · iapply (reached_at (F := F) (peer c 2, 13)); iexact HR
  isplitr; · iapply (reached_at (F := F) (peer c 3, 14)); iexact HR
  isplitr; · iapply (reached_at (F := F) (peer c 4, 15)); iexact HR
  isplitr; · iapply (reached_at (F := F) (peer c 5, 16)); iexact HR
  isplitr; · iapply (reached_at (F := F) (peer c 6, 17)); iexact HR
  isplitr; · iapply (reached_at (F := F) (peer c 7, 18)); iexact HR
  isplitr; · iapply (reached_at (F := F) (peer c 8, 19)); iexact HR
  iapply (reached_at (F := F) (peer c 9, 20)); iexact HR

/-- Peer i as a permutation of the devices (its inverse is peer rev i). -/
def peerE (i : Fin 10) : Dev nD ≃ Dev nD := ⟨fun c => peer c i, fun c => peer c (rev i), fun c => peer_rev c i, fun c => by
  have h := peer_rev c (rev i); rw [rev_rev] at h; exact h⟩

omit [FloatOps F] [∀ e, Nonempty (Elt F e)] in
/-- The tokens dealt around: duty j of a device's barrier cell goes to its peer j, its arrival duty i to the device that
    counts it as peer i; the departure duties stay. -/
theorem toks_around : (bigSep Finset.univ fun c : Dev nD => (toks c : sProp 𝕄)) ⊢ bigSep Finset.univ fun c : Dev nD => payToks c := by
  unfold toks payToks
  simp only [bigSep_sep']
  rw [bigSep_univ_equiv (peerE 2) (fun c : Dev nD => (dutyTok ER (barCell c) 0 0 : sProp 𝕄)),
    bigSep_univ_equiv (peerE 1) (fun c : Dev nD => (dutyTok ER (barCell c) 0 1 : sProp 𝕄)),
    bigSep_univ_equiv (peerE 0) (fun c : Dev nD => (dutyTok ER (barCell c) 0 2 : sProp 𝕄)),
    bigSep_univ_equiv (peerE 9) (fun c : Dev nD => (dutyTok ER (barCell c) 0 3 : sProp 𝕄)),
    bigSep_univ_equiv (peerE 8) (fun c : Dev nD => (dutyTok ER (barCell c) 0 4 : sProp 𝕄)),
    bigSep_univ_equiv (peerE 7) (fun c : Dev nD => (dutyTok ER (barCell c) 0 5 : sProp 𝕄)),
    bigSep_univ_equiv (peerE 6) (fun c : Dev nD => (dutyTok ER (barCell c) 0 6 : sProp 𝕄)),
    bigSep_univ_equiv (peerE 5) (fun c : Dev nD => (dutyTok ER (barCell c) 0 7 : sProp 𝕄)),
    bigSep_univ_equiv (peerE 4) (fun c : Dev nD => (dutyTok ER (barCell c) 0 8 : sProp 𝕄)),
    bigSep_univ_equiv (peerE 3) (fun c : Dev nD => (dutyTok ER (barCell c) 0 9 : sProp 𝕄)),
    bigSep_univ_equiv (peerE 0) (fun c : Dev nD => (dutyTok ER (rcvCell c 0) 0 0 : sProp 𝕄)),
    bigSep_univ_equiv (peerE 1) (fun c : Dev nD => (dutyTok ER (rcvCell c 1) 0 0 : sProp 𝕄)),
    bigSep_univ_equiv (peerE 2) (fun c : Dev nD => (dutyTok ER (rcvCell c 2) 0 0 : sProp 𝕄)),
    bigSep_univ_equiv (peerE 3) (fun c : Dev nD => (dutyTok ER (rcvCell c 3) 0 0 : sProp 𝕄)),
    bigSep_univ_equiv (peerE 4) (fun c : Dev nD => (dutyTok ER (rcvCell c 4) 0 0 : sProp 𝕄)),
    bigSep_univ_equiv (peerE 5) (fun c : Dev nD => (dutyTok ER (rcvCell c 5) 0 0 : sProp 𝕄)),
    bigSep_univ_equiv (peerE 6) (fun c : Dev nD => (dutyTok ER (rcvCell c 6) 0 0 : sProp 𝕄)),
    bigSep_univ_equiv (peerE 7) (fun c : Dev nD => (dutyTok ER (rcvCell c 7) 0 0 : sProp 𝕄)),
    bigSep_univ_equiv (peerE 8) (fun c : Dev nD => (dutyTok ER (rcvCell c 8) 0 0 : sProp 𝕄)),
    bigSep_univ_equiv (peerE 9) (fun c : Dev nD => (dutyTok ER (rcvCell c 9) 0 0 : sProp 𝕄))]
  iintro ⟨M0, M1, M2, M3, M4, M5, M6, M7, M8, M9, M10, M11, M12, M13, M14, M15, M16, M17, M18, M19, M20, M21, M22, M23, M24, M25, M26, M27, M28, M29⟩
  isplitl [M2]; · iexact M2
  isplitl [M1]; · iexact M1
  isplitl [M0]; · iexact M0
  isplitl [M9]; · iexact M9
  isplitl [M8]; · iexact M8
  isplitl [M7]; · iexact M7
  isplitl [M6]; · iexact M6
  isplitl [M5]; · iexact M5
  isplitl [M4]; · iexact M4
  isplitl [M3]; · iexact M3
  isplitl [M20]; · iexact M20
  isplitl [M21]; · iexact M21
  isplitl [M22]; · iexact M22
  isplitl [M23]; · iexact M23
  isplitl [M24]; · iexact M24
  isplitl [M25]; · iexact M25
  isplitl [M26]; · iexact M26
  isplitl [M27]; · iexact M27
  isplitl [M28]; · iexact M28
  isplitl [M29]; · iexact M29
  isplitl [M10]; · iexact M10
  isplitl [M11]; · iexact M11
  isplitl [M12]; · iexact M12
  isplitl [M13]; · iexact M13
  isplitl [M14]; · iexact M14
  isplitl [M15]; · iexact M15
  isplitl [M16]; · iexact M16
  isplitl [M17]; · iexact M17
  isplitl [M18]; · iexact M18
  iexact M19

omit [FloatOps F] [∀ e, Nonempty (Elt F e)] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The global facts every device's records are read off: all cells' invariants at their names, round 0 of all reached. -/
def globals (K' : Dev nD × Fin 21 → ℕ) : sProp 𝕄 :=
  iprop((bigSep Finset.univ fun ck : Dev nD × Fin 21 => cellInv ER (sched m) (K' ck) (kcell ck))
    ∗ bigSep Finset.univ fun ck : Dev nD × Fin 21 => reached ER (kcell ck) 0)
instance globals_persistent (K' : Dev nD × Fin 21 → ℕ) : BI.Persistent (globals m K') := by unfold globals; infer_instance

theorem ghost_intro (K' : Dev nD × Fin 21 → ℕ) (c : Dev nD) :
    iprop(globals m K' ∗ (positions (F := F) c ∗ payToks (F := F) c)) ⊢ G' m c := by
  unfold globals G'
  iintro ⟨⟨#HI, #HR⟩, Hpos, Htok⟩
  iexists (Kof K')
  isplitr
  · iapply (records_intro m K' c)
    isplitr
    · imodintro; iexact HI
    · imodintro; iexact HR
  · unfold linear positions payToks
    icases Hpos with ⟨P0, P1, P2, P3, P4, P5, P6, P7, P8, P9, P10, P11, P12, P13, P14, P15, P16, P17, P18, P19, P20⟩
    icases Htok with ⟨T0, T1, T2, T3, T4, T5, T6, T7, T8, T9, T10, T11, T12, T13, T14, T15, T16, T17, T18, T19, T20, T21, T22, T23, T24, T25, T26, T27, T28, T29⟩
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    iexact T29

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 21 => iprop(∃ κ : ℕ, cellInv ER (sched m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (sched m) κ (kcell ck) : sProp 𝕄))) $$ HI
  icases HK with ⟨%K', #HI⟩
  ihave Htk := (toks_around (F := F)) $$ Htok
  iapply (bigSep_with_persistent (R := globals m K') fun c _ => ghost_intro m K' c)
  isplitr
  · unfold globals; isplitl; · iexact HI
    iexact HR
  · iapply ((Entails.of_eq (bigSep_sep' Finset.univ (fun c : Dev nD => bigSep Finset.univ fun k : Fin 21 => (atPos ER (kcell (c, k)) 0 ∅ 0 : sProp 𝕄)) payToks).symm).trans
      (bigSep_mono fun c _ => show _ ⊢ iprop(positions c ∗ payToks c) from Entails.of_eq (by unfold positions; rw [bigSep_fin21])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem peerE_right (i : Fin 10) (c : Dev nD) : peer (peer c (rev i)) i = c := (peerE i).right_inv c

omit [FloatOps F] [∀ e, Nonempty (Elt F e)] in
theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] [∀ e, Nonempty (Elt F e)] in
/-- Every peer owes a device's barrier cell one unit, and the peer that counts it as peer i owes its arrival cell i the
    block's credit: summed over the devices that is the device's launch credit. -/
theorem creds_of_launch (c : Dev nD) : (Pipeline.launchCred O₀ c : sProp 𝕄) ⊢ creds (F := F) c := by
  have e : (O₀ : Dev nD → CellTallies nD τ sig Unit) = fun d : Dev nD => owedRcv d 3 + owedRcv d 4 + owedRcv d 5 + owedRcv d 6 + owedRcv d 7 + owedRcv d 8 + owedRcv d 9 + owedRcv d 0 + owedRcv d 1 + owedRcv d 2 + owedBar d 9 + owedBar d 8 + owedBar d 7 + owedBar d 6 + owedBar d 5 + owedBar d 4 + owedBar d 3 + owedBar d 2 + owedBar d 1 + owedBar d 0 := rfl
  rw [e]
  simp only [Pipeline.launchCred_add]
  iintro ⟨⟨⟨⟨⟨⟨⟨⟨⟨⟨⟨⟨⟨⟨⟨⟨⟨⟨⟨L0, L1⟩, L2⟩, L3⟩, L4⟩, L5⟩, L6⟩, L7⟩, L8⟩, L9⟩, L10⟩, L11⟩, L12⟩, L13⟩, L14⟩, L15⟩, L16⟩, L17⟩, L18⟩, L19⟩
  unfold owedRcv owedBar
  ihave R3 := (Pipeline.launchCred_tallyAt (.dma (rcvQ 3)) (fun d => peer d 3) (fun c => peer c 9) (fun c => peerE_right 3 c) (fun d => peer_rev d 3) () N c) $$ L0
  ihave R4 := (Pipeline.launchCred_tallyAt (.dma (rcvQ 4)) (fun d => peer d 4) (fun c => peer c 8) (fun c => peerE_right 4 c) (fun d => peer_rev d 4) () N c) $$ L1
  ihave R5 := (Pipeline.launchCred_tallyAt (.dma (rcvQ 5)) (fun d => peer d 5) (fun c => peer c 7) (fun c => peerE_right 5 c) (fun d => peer_rev d 5) () N c) $$ L2
  ihave R6 := (Pipeline.launchCred_tallyAt (.dma (rcvQ 6)) (fun d => peer d 6) (fun c => peer c 6) (fun c => peerE_right 6 c) (fun d => peer_rev d 6) () N c) $$ L3
  ihave R7 := (Pipeline.launchCred_tallyAt (.dma (rcvQ 7)) (fun d => peer d 7) (fun c => peer c 5) (fun c => peerE_right 7 c) (fun d => peer_rev d 7) () N c) $$ L4
  ihave R8 := (Pipeline.launchCred_tallyAt (.dma (rcvQ 8)) (fun d => peer d 8) (fun c => peer c 4) (fun c => peerE_right 8 c) (fun d => peer_rev d 8) () N c) $$ L5
  ihave R9 := (Pipeline.launchCred_tallyAt (.dma (rcvQ 9)) (fun d => peer d 9) (fun c => peer c 3) (fun c => peerE_right 9 c) (fun d => peer_rev d 9) () N c) $$ L6
  ihave R0 := (Pipeline.launchCred_tallyAt (.dma (rcvQ 0)) (fun d => peer d 0) (fun c => peer c 2) (fun c => peerE_right 0 c) (fun d => peer_rev d 0) () N c) $$ L7
  ihave R1 := (Pipeline.launchCred_tallyAt (.dma (rcvQ 1)) (fun d => peer d 1) (fun c => peer c 1) (fun c => peerE_right 1 c) (fun d => peer_rev d 1) () N c) $$ L8
  ihave R2 := (Pipeline.launchCred_tallyAt (.dma (rcvQ 2)) (fun d => peer d 2) (fun c => peer c 0) (fun c => peerE_right 2 c) (fun d => peer_rev d 2) () N c) $$ L9
  ihave B9 := (Pipeline.launchCred_tallyAt (.reg barS) (fun d => peer d 9) (fun c => peer c 3) (fun c => peerE_right 9 c) (fun d => peer_rev d 9) () 1 c) $$ L10
  ihave B8 := (Pipeline.launchCred_tallyAt (.reg barS) (fun d => peer d 8) (fun c => peer c 4) (fun c => peerE_right 8 c) (fun d => peer_rev d 8) () 1 c) $$ L11
  ihave B7 := (Pipeline.launchCred_tallyAt (.reg barS) (fun d => peer d 7) (fun c => peer c 5) (fun c => peerE_right 7 c) (fun d => peer_rev d 7) () 1 c) $$ L12
  ihave B6 := (Pipeline.launchCred_tallyAt (.reg barS) (fun d => peer d 6) (fun c => peer c 6) (fun c => peerE_right 6 c) (fun d => peer_rev d 6) () 1 c) $$ L13
  ihave B5 := (Pipeline.launchCred_tallyAt (.reg barS) (fun d => peer d 5) (fun c => peer c 7) (fun c => peerE_right 5 c) (fun d => peer_rev d 5) () 1 c) $$ L14
  ihave B4 := (Pipeline.launchCred_tallyAt (.reg barS) (fun d => peer d 4) (fun c => peer c 8) (fun c => peerE_right 4 c) (fun d => peer_rev d 4) () 1 c) $$ L15
  ihave B3 := (Pipeline.launchCred_tallyAt (.reg barS) (fun d => peer d 3) (fun c => peer c 9) (fun c => peerE_right 3 c) (fun d => peer_rev d 3) () 1 c) $$ L16
  ihave B2 := (Pipeline.launchCred_tallyAt (.reg barS) (fun d => peer d 2) (fun c => peer c 0) (fun c => peerE_right 2 c) (fun d => peer_rev d 2) () 1 c) $$ L17
  ihave B1 := (Pipeline.launchCred_tallyAt (.reg barS) (fun d => peer d 1) (fun c => peer c 1) (fun c => peerE_right 1 c) (fun d => peer_rev d 1) () 1 c) $$ L18
  ihave B0 := (Pipeline.launchCred_tallyAt (.reg barS) (fun d => peer d 0) (fun c => peer c 2) (fun c => peerE_right 0 c) (fun d => peer_rev d 0) () 1 c) $$ L19
  ihave BB := (cred_join (F := F) (barCell c) 1 1) $$ [B0 B1]
  · isplitl [B0] <;> iassumption
  ihave BB := (cred_join (F := F) (barCell c) 2 1) $$ [BB B2]
  · isplitl [BB] <;> iassumption
  ihave BB := (cred_join (F := F) (barCell c) 3 1) $$ [BB B3]
  · isplitl [BB] <;> iassumption
  ihave BB := (cred_join (F := F) (barCell c) 4 1) $$ [BB B4]
  · isplitl [BB] <;> iassumption
  ihave BB := (cred_join (F := F) (barCell c) 5 1) $$ [BB B5]
  · isplitl [BB] <;> iassumption
  ihave BB := (cred_join (F := F) (barCell c) 6 1) $$ [BB B6]
  · isplitl [BB] <;> iassumption
  ihave BB := (cred_join (F := F) (barCell c) 7 1) $$ [BB B7]
  · isplitl [BB] <;> iassumption
  ihave BB := (cred_join (F := F) (barCell c) 8 1) $$ [BB B8]
  · isplitl [BB] <;> iassumption
  ihave BB := (cred_join (F := F) (barCell c) 9 1) $$ [BB B9]
  · isplitl [BB] <;> iassumption
  unfold creds
  isplitl [BB]; · iexact BB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ bufs
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of 32 devices, for any float values, from any memory with zero counters: every weakly fair
    execution of @main terminates, nothing faults, and every final state has each device's three arrays at the
    proof data's final contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The arrays after the run -/

theorem finalA_x (c : Dev nD) : finalA m c (0 : Fin 3) = m (win0_0.arr.view.loc (c : Thread nD τ)) :=
  (dats (F := F) m 0 c).arrAt_in (0 : Fin 3) rfl _
theorem finalA_dy (c : Dev nD) : finalA m c (1 : Fin 3) = m (win0_1.arr.view.loc (c : Thread nD τ)) :=
  (dats (F := F) m 0 c).arrAt_in (1 : Fin 3) rfl _
/-- The result window's one block is the whole result array: after the run it holds what the body left. -/
theorem finalA_o (c : Dev nD) : finalA m c (2 : Fin 3) = outAt m c := by
  have h : (win0_2.blk t0_0).view.read (Elt F) (finalA m c (2 : Fin 3)) = outAt m c := by
    unfold finalA
    rw [show cfg0.N = (t0_0 : Fin cfg0.N).val + 1 from rfl, (dats m 0 c).arrAt_succ (2 : Fin 3) t0_0]
    rw [show (cfg0.win (2 : Fin 3)).flush t0_0 = true from flush0_2 t0_0, if_pos rfl]
    exact View.read_write_univ _ _
  have hz : (fun a => (win0_2.index t0_0) a * main_v1.ty.shape.size a) = fun _ => 0 := funext fun a => by fin_cases a <;> decide
  rw [← h]
  exact (Memref.read_access_unit_zero (Elt F) main_v1 hz (fun a => by fin_cases a <;> decide) _).symm

/-- The run with every array named: the result array at the device's result block, both argument arrays as they were. -/
theorem run_frame : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c 2).trans (finalA_o m c), (h c 0).trans (finalA_x m c), (h c 1).trans (finalA_dy m c)⟩)
    (run_main m ρ)

end Cert.KernelProof

end
-- ==== Proof.KernelIdealTopo.lean ====
/-
  The mesh of 32 devices as the kernel addresses it: device d = 16·x + 4·y + z with x < 2, y < 4, z < 4; its
  reduce-scatter group is the four devices that differ from it in y only, its all-gather group the eight that
  share its y, numbered g = 2·z + x. Peer i of a device: for i < 3 the device i + 1 steps up in y, for
  3 ≤ i < 10 the device i − 2 steps up in g. The printed device chains in closed form over this numbering.
-/
import proofs.«900392_g7700000000000393_dist_rsdw_v7x_xyz2x4x4_y_m512_d512_f2048_bf16_1_alg».proof.Proof.Gen.KernelIdeal

namespace Cert.KernelIdealProof

open Cert.KernelIdeal Cert.KernelIdeal.Gen
open Idealize.ShloMosaic

/-- Peer i of device c, as a number. -/
def peerN (c i : Nat) : Nat :=
  if i < 3 then 16 * (c / 16) + 4 * (((c / 4) % 4 + (i + 1)) % 4) + c % 4
  else 16 * (((2 * (c % 4) + c / 16 + (i - 2)) % 8) % 2) + 4 * ((c / 4) % 4) + ((2 * (c % 4) + c / 16 + (i - 2)) % 8) / 2

/-- Peer i of device c. -/
def peer (c : Dev nD) (i : Fin 10) : Dev nD := ⟨peerN c.val i.val % 32, Nat.mod_lt _ (by decide)⟩

/-- The index under which peer i of c finds c among its own peers. -/
def rev (i : Fin 10) : Fin 10 := ⟨if i.val < 3 then 2 - i.val else 12 - i.val, by split <;> omega⟩

theorem peer_rev : ∀ (c : Dev nD) (i : Fin 10), peer (peer c i) (rev i) = c := by decide +kernel
theorem rev_rev : ∀ i : Fin 10, rev (rev i) = i := by decide
theorem peer_ne : ∀ (c : Dev nD) (i : Fin 10), peer c i ≠ c := by decide +kernel
theorem peer_inj : ∀ (c : Dev nD) (i j : Fin 10), peer c i = peer c j → i = j := by decide +kernel

/-- The barrier signals go to peers 0 … 9 in order. -/
theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 7 := by decide +kernel
theorem dev9_eq : ∀ c : Dev nD, (⟨k0_dev9 c, k0_dev9_lt c⟩ : Dev nD) = peer c 8 := by decide +kernel
theorem dev10_eq : ∀ c : Dev nD, (⟨k0_dev10 c, k0_dev10_lt c⟩ : Dev nD) = peer c 9 := by decide +kernel
/-- The reduce-scatter copies go to peers 2, 1, 0, -/
theorem dev11_eq : ∀ c : Dev nD, (⟨k0_dev11 c, k0_dev11_lt c⟩ : Dev nD) = peer c 2 := by decide +kernel
theorem dev12_eq : ∀ c : Dev nD, (⟨k0_dev12 c, k0_dev12_lt c⟩ : Dev nD) = peer c 1 := by decide +kernel
theorem dev13_eq : ∀ c : Dev nD, (⟨k0_dev13 c, k0_dev13_lt c⟩ : Dev nD) = peer c 0 := by decide +kernel
/-- the all-gather copies to peers 9, 8, …, 3. -/
theorem dev14_eq : ∀ c : Dev nD, (⟨k0_dev14 c, k0_dev14_lt c⟩ : Dev nD) = peer c 9 := by decide +kernel
theorem dev15_eq : ∀ c : Dev nD, (⟨k0_dev15 c, k0_dev15_lt c⟩ : Dev nD) = peer c 8 := by decide +kernel
theorem dev16_eq : ∀ c : Dev nD, (⟨k0_dev16 c, k0_dev16_lt c⟩ : Dev nD) = peer c 7 := by decide +kernel
theorem dev17_eq : ∀ c : Dev nD, (⟨k0_dev17 c, k0_dev17_lt c⟩ : Dev nD) = peer c 6 := by decide +kernel
theorem dev18_eq : ∀ c : Dev nD, (⟨k0_dev18 c, k0_dev18_lt c⟩ : Dev nD) = peer c 5 := by decide +kernel
theorem dev19_eq : ∀ c : Dev nD, (⟨k0_dev19 c, k0_dev19_lt c⟩ : Dev nD) = peer c 4 := by decide +kernel
theorem dev20_eq : ∀ c : Dev nD, (⟨k0_dev20 c, k0_dev20_lt c⟩ : Dev nD) = peer c 3 := by decide +kernel

end Cert.KernelIdealProof
-- ==== Proof.KernelIdealSched.lean ====
/-
  The protocol of the kernel on the 32-device mesh, as a schedule of rounds.

  Each device owns 21 semaphore cells: the barrier cell, and for each of its ten peers i one departure cell (its copy
  to peer i has been read out of its source) and one arrival cell (the copy from the peer that counts it as peer i
  has been written into landing slot i). Every cell has ONE round. The barrier cell's round has ten duties, duty j
  paid by peer j with one signal; that signal hands over the landing slot on peer j into which this device will copy. A departure cell's only duty returns the source rows to
  the sender; an arrival cell's only duty hands the owner its landing slot holding the sender's rows.

  The values: device c's partial product P(c) (512 × 256, the local contraction over its 512 rows of x and dy's
  column block g(c)); landing slot i < 3 holds rows 128·y(c) … of P(p) for the peer p that is i + 1 steps DOWN in y;
  A(c) is the sum of the own row block and the three landed ones; landing slot 3 + j holds A(p) for the peer p that is
  j + 1 steps down in g.
-/
import proofs.«900392_g7700000000000393_dist_rsdw_v7x_xyz2x4x4_y_m512_d512_f2048_bf16_1_alg».proof.Proof.KernelIdealTopo
import proofs.«900392_g7700000000000393_dist_rsdw_v7x_xyz2x4x4_y_m512_d512_f2048_bf16_1_alg».proof.Proof.Gen.KernelIdeal.Skeleton
import proofs.«900392_g7700000000000393_dist_rsdw_v7x_xyz2x4x4_y_m512_d512_f2048_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties named by a peer index) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barS : Sem sig := (SemArray.scalar (sig.barrier 0 rfl) : Sems sig S_).sem

/-- The departure semaphore of the copy to peer i, -/
def sndQ : Fin 10 → DmaSem sig
  | 0 => 3 | 1 => 4 | 2 => 5 | 3 => 9 | 4 => 10 | 5 => 11 | 6 => 12 | 7 => 13 | 8 => 14 | 9 => 15
/-- and the arrival semaphore of landing slot i. -/
def rcvQ : Fin 10 → DmaSem sig
  | 0 => 6 | 1 => 7 | 2 => 8 | 3 => 16 | 4 => 17 | 5 => 18 | 6 => 19 | 7 => 20 | 8 => 21 | 9 => 22

abbrev barCell (c : Dev nD) : GSem nD τ sig := ((c : Thread nD τ), .reg barS)
abbrev sndCell (c : Dev nD) (i : Fin 10) : GSem nD τ sig := ((c : Thread nD τ), .dma (sndQ i))
abbrev rcvCell (c : Dev nD) (i : Fin 10) : GSem nD τ sig := ((c : Thread nD τ), .dma (rcvQ i))

/-! ## Memrefs -/

abbrev xM : Memref sig .tc .vmem S512x512 .f32 := Memref.whole cc0_stg0_0
abbrev dyM : Memref sig .tc .vmem S512x2048 .f32 := Memref.whole cc0_stg1_0
abbrev oM : Memref sig .tc .vmem S128x2048 .f32 := Memref.whole cc0_stg2_0
abbrev pM : Memref sig .tc .vmem S512x256 .bf16 := Memref.whole cc0_scratch0
abbrev rM : Memref sig .tc .vmem S3x128x256 .bf16 := Memref.whole cc0_scratch1
abbrev gM : Memref sig .tc .vmem S8x128x256 .bf16 := Memref.whole cc0_scratch2

/-- Landing slot i: for i < 3 plane i of the reduce-scatter buffer, for i ≥ 3 plane i − 3 of the gather buffer. -/
def slot : Fin 10 → Memref sig .tc .vmem S128x256 .bf16
  | 0 => (rM.slice (Rect.unit (s := S3x128x256) ![0, 0, 0] S1x128x256.size inb_S3x128x256_S1x128x256_0_0_0) (fun _ => rfl)).squeeze S128x256 squeezes_S1x128x256_S128x256
  | 1 => (rM.slice (Rect.unit (s := S3x128x256) ![1, 0, 0] S1x128x256.size inb_S3x128x256_S1x128x256_1_0_0) (fun _ => rfl)).squeeze S128x256 squeezes_S1x128x256_S128x256
  | 2 => (rM.slice (Rect.unit (s := S3x128x256) ![2, 0, 0] S1x128x256.size inb_S3x128x256_S1x128x256_2_0_0) (fun _ => rfl)).squeeze S128x256 squeezes_S1x128x256_S128x256
  | 3 => (gM.slice (Rect.unit (s := S8x128x256) ![0, 0, 0] S1x128x256.size inb_S8x128x256_S1x128x256_0_0_0) (fun _ => rfl)).squeeze S128x256 squeezes_S1x128x256_S128x256
  | 4 => (gM.slice (Rect.unit (s := S8x128x256) ![1, 0, 0] S1x128x256.size inb_S8x128x256_S1x128x256_1_0_0) (fun _ => rfl)).squeeze S128x256 squeezes_S1x128x256_S128x256
  | 5 => (gM.slice (Rect.unit (s := S8x128x256) ![2, 0, 0] S1x128x256.size inb_S8x128x256_S1x128x256_2_0_0) (fun _ => rfl)).squeeze S128x256 squeezes_S1x128x256_S128x256
  | 6 => (gM.slice (Rect.unit (s := S8x128x256) ![3, 0, 0] S1x128x256.size inb_S8x128x256_S1x128x256_3_0_0) (fun _ => rfl)).squeeze S128x256 squeezes_S1x128x256_S128x256
  | 7 => (gM.slice (Rect.unit (s := S8x128x256) ![4, 0, 0] S1x128x256.size inb_S8x128x256_S1x128x256_4_0_0) (fun _ => rfl)).squeeze S128x256 squeezes_S1x128x256_S128x256
  | 8 => (gM.slice (Rect.unit (s := S8x128x256) ![5, 0, 0] S1x128x256.size inb_S8x128x256_S1x128x256_5_0_0) (fun _ => rfl)).squeeze S128x256 squeezes_S1x128x256_S128x256
  | 9 => (gM.slice (Rect.unit (s := S8x128x256) ![6, 0, 0] S1x128x256.size inb_S8x128x256_S1x128x256_6_0_0) (fun _ => rfl)).squeeze S128x256 squeezes_S1x128x256_S128x256

/-- Plane 7 of the gather buffer: the device's own block A(c), the source of its seven gather copies. -/
abbrev ownG : Memref sig .tc .vmem S128x256 .bf16 :=
  (gM.slice (Rect.unit (s := S8x128x256) ![7, 0, 0] S1x128x256.size inb_S8x128x256_S1x128x256_7_0_0) (fun _ => rfl)).squeeze S128x256 squeezes_S1x128x256_S128x256

/-- The rows of the partial product that go to the peer r + 1 steps up in y. -/
abbrev pRows (c : Dev nD) (r : Fin 3) : Memref sig .tc .vmem S128x256 .bf16 :=
  pM.slice (Rect.unit (s := S512x256) (k0_off2 c (BitVec.ofNat 32 (1 + r.val))) S128x256.size (k0_off2_inb c r)) (fun _ => rfl)

/-- The source of the copy to peer i. -/
def src (c : Dev nD) : Fin 10 → Memref sig .tc .vmem S128x256 .bf16
  | 0 => pRows c 0 | 1 => pRows c 1 | 2 => pRows c 2
  | 3 => ownG | 4 => ownG | 5 => ownG | 6 => ownG | 7 => ownG | 8 => ownG | 9 => ownG

/-- The units one copy of a 128 × 256 block credits. -/
abbrev N : ℕ := (ownG : Memref sig .tc .vmem S128x256 .bf16).view.dmaCredit

/-! ## Contents -/

section Vals
variable [∀ e, Nonempty (Elt F e)]

/-- Device c's block of x and of dy, as the pipeline stages them. -/
def xC (c : Dev nD) : (cc0_stg0_0 : Ref sig .tc).ty.Contents (Elt F) :=
  (win0_0.blk t0_0).view.read (Elt F) (m ((c : Thread nD τ).loc main_arg0))
def dyC (c : Dev nD) : (cc0_stg1_0 : Ref sig .tc).ty.Contents (Elt F) :=
  (win0_1.blk t0_0).view.read (Elt F) (m ((c : Thread nD τ).loc main_arg1))

abbrev rX : Rect S512x512 := Rect.unit (s := S512x512) ![0, 0] S512x512.size inb_S512x512_S512x512_0_0
abbrev rDy (c : Dev nD) : Rect S512x2048 := Rect.unit (s := S512x2048) (k0_off1 c) S512x256.size (k0_off1_inb c)
abbrev rP : Rect S512x256 := Rect.unit (s := S512x256) ![0, 0] S512x256.size inb_S512x256_S512x256_0_0
abbrev rOwn (c : Dev nD) : Rect S512x256 := Rect.unit (s := S512x256) (k0_off3 c) S128x256.size (k0_off3_inb c)
abbrev rR0 : Rect S3x128x256 := Rect.unit (s := S3x128x256) ![0, 0, 0] S1x128x256.size inb_S3x128x256_S1x128x256_0_0_0
abbrev rR1 : Rect S3x128x256 := Rect.unit (s := S3x128x256) ![1, 0, 0] S1x128x256.size inb_S3x128x256_S1x128x256_1_0_0
abbrev rR2 : Rect S3x128x256 := Rect.unit (s := S3x128x256) ![2, 0, 0] S1x128x256.size inb_S3x128x256_S1x128x256_2_0_0
abbrev rG0 : Rect S8x128x256 := Rect.unit (s := S8x128x256) ![0, 0, 0] S1x128x256.size inb_S8x128x256_S1x128x256_0_0_0
abbrev rG1 : Rect S8x128x256 := Rect.unit (s := S8x128x256) ![1, 0, 0] S1x128x256.size inb_S8x128x256_S1x128x256_1_0_0
abbrev rG2 : Rect S8x128x256 := Rect.unit (s := S8x128x256) ![2, 0, 0] S1x128x256.size inb_S8x128x256_S1x128x256_2_0_0
abbrev rG3 : Rect S8x128x256 := Rect.unit (s := S8x128x256) ![3, 0, 0] S1x128x256.size inb_S8x128x256_S1x128x256_3_0_0
abbrev rG4 : Rect S8x128x256 := Rect.unit (s := S8x128x256) ![4, 0, 0] S1x128x256.size inb_S8x128x256_S1x128x256_4_0_0
abbrev rG5 : Rect S8x128x256 := Rect.unit (s := S8x128x256) ![5, 0, 0] S1x128x256.size inb_S8x128x256_S1x128x256_5_0_0
abbrev rG6 : Rect S8x128x256 := Rect.unit (s := S8x128x256) ![6, 0, 0] S1x128x256.size inb_S8x128x256_S1x128x256_6_0_0
abbrev rG7 : Rect S8x128x256 := Rect.unit (s := S8x128x256) ![7, 0, 0] S1x128x256.size inb_S8x128x256_S1x128x256_7_0_0
abbrev rOutOwn (c : Dev nD) : Rect S128x2048 := Rect.unit (s := S128x2048) (k0_off4 c) S128x256.size (k0_off4_inb c)
abbrev rOut (c : Dev nD) (r : Fin 7) : Rect S128x2048 := Rect.unit (s := S128x2048) (k0_off5 c (BitVec.ofNat 32 (1 + r.val))) S128x256.size (k0_off5_inb c r)

/-- P(c): the local partial product, as the body stores it (in bf16 format). -/
def partV (c : Dev nD) : FVec F S512x256 .bf16 :=
  k0_pay1 (xM.view.readAt (Elt F) rX.toLoadRect (xC m c)) (dyM.view.readAt (Elt F) (rDy c).toLoadRect (dyC m c))
/-- The partial-product buffer after the store (the store covers it). -/
def pC (c : Dev nD) : (cc0_scratch0 : Ref sig .tc).ty.Contents (Elt F) := partV m c

/-- What lands in reduce-scatter slot k of c: the rows of P(p) addressed to c, p the peer that counts c as its peer k. -/
def rsVec (c : Dev nD) (k : Fin 3) : S128x256.Idx → Elt F .bf16 :=
  (pRows (peer c (rev ⟨k.val, by omega⟩)) k).view.read (Elt F) (pC m (peer c (rev ⟨k.val, by omega⟩)))
def rsBuf (c : Dev nD) : Fin 3 → (cc0_scratch1 : Ref sig .tc).ty.Contents (Elt F)
  | 0 => (slot 0).view.write (Elt F) (View.junk (Val := Elt F) (View.whole cc0_scratch1)) (rsVec m c 0) Finset.univ
  | 1 => (slot 1).view.write (Elt F) (View.junk (Val := Elt F) (View.whole cc0_scratch1)) (rsVec m c 1) Finset.univ
  | 2 => (slot 2).view.write (Elt F) (View.junk (Val := Elt F) (View.whole cc0_scratch1)) (rsVec m c 2) Finset.univ

/-- A(c): the own row block of P(c) plus the three landed ones; -/
def accV (c : Dev nD) : FVec F S128x256 .f32 :=
  k0_pay2 (pM.view.readAt (Elt F) (rOwn c).toLoadRect (pC m c)) (rM.view.readAt (Elt F) rR0.toLoadRect (rsBuf m c 0))
    (rM.view.readAt (Elt F) rR1.toLoadRect (rsBuf m c 1)) (rM.view.readAt (Elt F) rR2.toLoadRect (rsBuf m c 2))
/-- and as the body stores it into plane 7 of the gather buffer. -/
def ownV (c : Dev nD) : FVec F S1x128x256 .bf16 :=
  k0_pay3 (pM.view.readAt (Elt F) (rOwn c).toLoadRect (pC m c)) (rM.view.readAt (Elt F) rR0.toLoadRect (rsBuf m c 0))
    (rM.view.readAt (Elt F) rR1.toLoadRect (rsBuf m c 1)) (rM.view.readAt (Elt F) rR2.toLoadRect (rsBuf m c 2))
def ownC (c : Dev nD) : (cc0_scratch2 : Ref sig .tc).ty.Contents (Elt F) :=
  ((gM.access rG7 : View sig .tc _ _ _)).write (Elt F) (View.junk (Val := Elt F) (View.whole cc0_scratch2)) (ownV m c) Finset.univ

/-- What lands in gather slot 3 + j of c: A(p), p the peer that counts c as its peer 3 + j. -/
def gVec (c : Dev nD) (j : Fin 7) : S128x256.Idx → Elt F .bf16 :=
  (ownG : Memref sig .tc .vmem S128x256 .bf16).view.read (Elt F) (ownC m (peer c (rev ⟨3 + j.val, by omega⟩)))
def gBuf (c : Dev nD) : Fin 7 → (cc0_scratch2 : Ref sig .tc).ty.Contents (Elt F)
  | 0 => (slot 3).view.write (Elt F) (View.junk (Val := Elt F) (View.whole cc0_scratch2)) (gVec m c 0) Finset.univ
  | 1 => (slot 4).view.write (Elt F) (View.junk (Val := Elt F) (View.whole cc0_scratch2)) (gVec m c 1) Finset.univ
  | 2 => (slot 5).view.write (Elt F) (View.junk (Val := Elt F) (View.whole cc0_scratch2)) (gVec m c 2) Finset.univ
  | 3 => (slot 6).view.write (Elt F) (View.junk (Val := Elt F) (View.whole cc0_scratch2)) (gVec m c 3) Finset.univ
  | 4 => (slot 7).view.write (Elt F) (View.junk (Val := Elt F) (View.whole cc0_scratch2)) (gVec m c 4) Finset.univ
  | 5 => (slot 8).view.write (Elt F) (View.junk (Val := Elt F) (View.whole cc0_scratch2)) (gVec m c 5) Finset.univ
  | 6 => (slot 9).view.write (Elt F) (View.junk (Val := Elt F) (View.whole cc0_scratch2)) (gVec m c 6) Finset.univ

end Vals

/-! ## Payloads -/

section Pay
variable [∀ e, Nonempty (Elt F e)]

/-- The share of its source a copy lends: the three reduce-scatter sources are disjoint rows, lent whole; the seven
    gather copies read ONE plane, an eighth of its share each (the last eighth stays with the device). -/
def shr : Fin 10 → PosShare TreeShare
  | 0 => fullShare | 1 => fullShare | 2 => fullShare
  | 3 => fullShare.left.left.left | 4 => fullShare.left.left.right | 5 => fullShare.left.right.left | 6 => fullShare.left.right.right
  | 7 => fullShare.right.left.left | 8 => fullShare.right.left.right | 9 => fullShare.right.right.left

def slotPts (c : Dev nD) (i : Fin 10) (f : Buf (Elt F) ((slot i).view.loc (c : Thread nD τ))) : sProp 𝕄 :=
  (slot i).view.loc (c : Thread nD τ) ↦[(slot i).view.set]{fullShare} f

/-- Landing slot i of device c once the copy into it has landed. -/
def landed (c : Dev nD) : (i : Fin 10) → Buf (Elt F) ((slot i).view.loc (c : Thread nD τ))
  | 0 => rsBuf m c 0 | 1 => rsBuf m c 1 | 2 => rsBuf m c 2
  | 3 => gBuf m c 0 | 4 => gBuf m c 1 | 5 => gBuf m c 2 | 6 => gBuf m c 3 | 7 => gBuf m c 4 | 8 => gBuf m c 5 | 9 => gBuf m c 6

/-- The buffer the source of copy i is a part of, when the copy is issued. -/
def srcC (c : Dev nD) : (i : Fin 10) → Buf (Elt F) ((src c i).view.loc (c : Thread nD τ))
  | 0 => pC m c | 1 => pC m c | 2 => pC m c
  | 3 => ownC m c | 4 => ownC m c | 5 => ownC m c | 6 => ownC m c | 7 => ownC m c | 8 => ownC m c | 9 => ownC m c

/-- Peer j's signal hands c the landing slot j ON PEER j (over whatever it holds). -/
def barPay (c : Dev nD) (j : Fin 10) : sProp 𝕄 := iprop(∃ f, slotPts (peer c j) j f)
def rcvPay (c : Dev nD) (i : Fin 10) : sProp 𝕄 := slotPts c i (landed m c i)
def sndPay (c : Dev nD) (i : Fin 10) : sProp 𝕄 :=
  (src c i).view.loc (c : Thread nD τ) ↦[(src c i).view.set]{shr i} srcC m c i

/-- The payload of a DMA cell's one duty, by the semaphore's number. -/
def dmaPay (c : Dev nD) : ℕ → sProp 𝕄
  | 3 => sndPay m c 0 | 4 => sndPay m c 1 | 5 => sndPay m c 2
  | 6 => rcvPay m c 0 | 7 => rcvPay m c 1 | 8 => rcvPay m c 2
  | 9 => sndPay m c 3 | 10 => sndPay m c 4 | 11 => sndPay m c 5 | 12 => sndPay m c 6 | 13 => sndPay m c 7 | 14 => sndPay m c 8 | 15 => sndPay m c 9
  | 16 => rcvPay m c 3 | 17 => rcvPay m c 4 | 18 => rcvPay m c 5 | 19 => rcvPay m c 6 | 20 => rcvPay m c 7 | 21 => rcvPay m c 8 | 22 => rcvPay m c 9
  | _ => iprop(emp)

omit [FloatOps F] in
theorem slotPts_eq (c : Dev nD) (i : Fin 10) (f : Buf (Elt F) ((slot i).view.loc (c : Thread nD τ))) :
    slotPts c i f = ((slot i).view.loc (c : Thread nD τ) ↦[(slot i).view.set]{fullShare} f : sProp 𝕄) := rfl
omit [FloatOps F] in
instance slotPts_storable (c : Dev nD) (i : Fin 10) (f) : BI.Storable (upEmb : UEmb _ 𝕄) (slotPts (F := F) c i f) := by unfold slotPts; infer_instance
omit [FloatOps F] in
instance barPay_storable (c : Dev nD) (j : Fin 10) : BI.Storable (upEmb : UEmb _ 𝕄) (barPay (F := F) c j) := by unfold barPay; infer_instance
instance rcvPay_storable (c : Dev nD) (i : Fin 10) : BI.Storable (upEmb : UEmb _ 𝕄) (rcvPay (F := F) m c i) := by unfold rcvPay; infer_instance
instance sndPay_storable (c : Dev nD) (i : Fin 10) : BI.Storable (upEmb : UEmb _ 𝕄) (sndPay (F := F) m c i) := by unfold sndPay; infer_instance
instance dmaPay_storable (c : Dev nD) (q : ℕ) : BI.Storable (upEmb : UEmb _ 𝕄) (dmaPay (F := F) m c q) := by
  unfold dmaPay; (repeat' split) <;> infer_instance

/-! ## The schedule: one round per cell -/

def sched : Rounds.Schedule (GSem nD τ sig) (Fin 10) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with | .reg _ => barPay g.1.1 d | .dma q => dmaPay m g.1.1 q.val
  amount_pos g _ _ _ := by
    cases g.2
    · exact Nat.one_pos
    · exact View.dmaCredit_pos _ (by decide)

instance sched_payload_storable (g : GSem nD τ sig) (r : ℕ) (d : Fin 10) :
    BI.Storable (upEmb : UEmb _ 𝕄) ((sched (F := F) m).payload g r d) := by
  show BI.Storable upEmb (match g.2 with | .reg _ => barPay g.1.1 d | .dma q => dmaPay m g.1.1 q.val)
  split <;> infer_instance

section Tables
variable (c : Dev nD) (i : Fin 10)

theorem duties_bar : (sched (F := F) m).duties (barCell c) 0 = Finset.univ := by dsimp only [sched]; exact if_pos ⟨rfl, rfl⟩
theorem duties_snd : (sched (F := F) m).duties (sndCell c i) 0 = {0} := by
  dsimp only [sched]; rw [if_pos ⟨rfl, rfl⟩]; exact if_pos (by revert i; decide)
theorem duties_rcv : (sched (F := F) m).duties (rcvCell c i) 0 = {0} := by
  dsimp only [sched]; rw [if_pos ⟨rfl, rfl⟩]; exact if_pos (by revert i; decide)
theorem duties_later (g : GSem nD τ sig) : ∀ r, 1 ≤ r → (sched (F := F) m).duties g r = ∅ :=
  fun r hr => by dsimp only [sched]; rw [if_neg fun h => by omega]

theorem amount_bar (d : Fin 10) : (sched (F := F) m).amount (barCell c) 0 d = 1 := rfl
theorem amount_snd (d : Fin 10) : (sched (F := F) m).amount (sndCell c i) 0 d = N := rfl
theorem amount_rcv (d : Fin 10) : (sched (F := F) m).amount (rcvCell c i) 0 d = N := rfl

theorem expect_bar : (sched (F := F) m).expect (barCell c) 0 = 10 := by
  unfold Schedule.expect Schedule.amountOf
  rw [duties_bar, Finset.sum_congr rfl fun d _ => amount_bar m c d, Finset.sum_const, Finset.card_univ, Fintype.card_fin, smul_eq_mul]
theorem expect_snd : (sched (F := F) m).expect (sndCell c i) 0 = N := by
  unfold Schedule.expect Schedule.amountOf; rw [duties_snd, Finset.sum_singleton, amount_snd]
theorem expect_rcv : (sched (F := F) m).expect (rcvCell c i) 0 = N := by
  unfold Schedule.expect Schedule.amountOf; rw [duties_rcv, Finset.sum_singleton, amount_rcv]

theorem payload_bar (j : Fin 10) : (sched (F := F) m).payload (barCell c) 0 j = barPay c j := rfl
theorem payload_snd (d : Fin 10) : (sched (F := F) m).payload (sndCell c i) 0 d = sndPay m c i := by
  revert i; intro i; fin_cases i <;> rfl
theorem payload_rcv (d : Fin 10) : (sched (F := F) m).payload (rcvCell c i) 0 d = rcvPay m c i := by
  revert i; intro i; fin_cases i <;> rfl

end Tables

end Pay

/-! ### What a device hands over with its signal to peer i: its own landing slot rev i -/

section SigTables
variable [∀ e, Nonempty (Elt F e)] (c : Dev nD)
theorem payload_sig0 : (sched (F := F) m).payload (barCell (peer c 0)) 0 2
    = iprop(∃ f : Buf (Elt F) ((slot 2).view.loc (c : Thread nD τ)), ((slot 2).view.loc (c : Thread nD τ) ↦[(slot 2).view.set]{fullShare} f : sProp 𝕄)) := by
  show barPay (peer c 0) 2 = _; unfold barPay slotPts; rw [show peer (peer c 0) 2 = c from peer_rev c 0]
theorem payload_sig1 : (sched (F := F) m).payload (barCell (peer c 1)) 0 1
    = iprop(∃ f : Buf (Elt F) ((slot 1).view.loc (c : Thread nD τ)), ((slot 1).view.loc (c : Thread nD τ) ↦[(slot 1).view.set]{fullShare} f : sProp 𝕄)) := by
  show barPay (peer c 1) 1 = _; unfold barPay slotPts; rw [show peer (peer c 1) 1 = c from peer_rev c 1]
theorem payload_sig2 : (sched (F := F) m).payload (barCell (peer c 2)) 0 0
    = iprop(∃ f : Buf (Elt F) ((slot 0).view.loc (c : Thread nD τ)), ((slot 0).view.loc (c : Thread nD τ) ↦[(slot 0).view.set]{fullShare} f : sProp 𝕄)) := by
  show barPay (peer c 2) 0 = _; unfold barPay slotPts; rw [show peer (peer c 2) 0 = c from peer_rev c 2]
theorem payload_sig3 : (sched (F := F) m).payload (barCell (peer c 3)) 0 9
    = iprop(∃ f : Buf (Elt F) ((slot 9).view.loc (c : Thread nD τ)), ((slot 9).view.loc (c : Thread nD τ) ↦[(slot 9).view.set]{fullShare} f : sProp 𝕄)) := by
  show barPay (peer c 3) 9 = _; unfold barPay slotPts; rw [show peer (peer c 3) 9 = c from peer_rev c 3]
theorem payload_sig4 : (sched (F := F) m).payload (barCell (peer c 4)) 0 8
    = iprop(∃ f : Buf (Elt F) ((slot 8).view.loc (c : Thread nD τ)), ((slot 8).view.loc (c : Thread nD τ) ↦[(slot 8).view.set]{fullShare} f : sProp 𝕄)) := by
  show barPay (peer c 4) 8 = _; unfold barPay slotPts; rw [show peer (peer c 4) 8 = c from peer_rev c 4]
theorem payload_sig5 : (sched (F := F) m).payload (barCell (peer c 5)) 0 7
    = iprop(∃ f : Buf (Elt F) ((slot 7).view.loc (c : Thread nD τ)), ((slot 7).view.loc (c : Thread nD τ) ↦[(slot 7).view.set]{fullShare} f : sProp 𝕄)) := by
  show barPay (peer c 5) 7 = _; unfold barPay slotPts; rw [show peer (peer c 5) 7 = c from peer_rev c 5]
theorem payload_sig6 : (sched (F := F) m).payload (barCell (peer c 6)) 0 6
    = iprop(∃ f : Buf (Elt F) ((slot 6).view.loc (c : Thread nD τ)), ((slot 6).view.loc (c : Thread nD τ) ↦[(slot 6).view.set]{fullShare} f : sProp 𝕄)) := by
  show barPay (peer c 6) 6 = _; unfold barPay slotPts; rw [show peer (peer c 6) 6 = c from peer_rev c 6]
theorem payload_sig7 : (sched (F := F) m).payload (barCell (peer c 7)) 0 5
    = iprop(∃ f : Buf (Elt F) ((slot 5).view.loc (c : Thread nD τ)), ((slot 5).view.loc (c : Thread nD τ) ↦[(slot 5).view.set]{fullShare} f : sProp 𝕄)) := by
  show barPay (peer c 7) 5 = _; unfold barPay slotPts; rw [show peer (peer c 7) 5 = c from peer_rev c 7]
theorem payload_sig8 : (sched (F := F) m).payload (barCell (peer c 8)) 0 4
    = iprop(∃ f : Buf (Elt F) ((slot 4).view.loc (c : Thread nD τ)), ((slot 4).view.loc (c : Thread nD τ) ↦[(slot 4).view.set]{fullShare} f : sProp 𝕄)) := by
  show barPay (peer c 8) 4 = _; unfold barPay slotPts; rw [show peer (peer c 8) 4 = c from peer_rev c 8]
theorem payload_sig9 : (sched (F := F) m).payload (barCell (peer c 9)) 0 3
    = iprop(∃ f : Buf (Elt F) ((slot 3).view.loc (c : Thread nD τ)), ((slot 3).view.loc (c : Thread nD τ) ↦[(slot 3).view.set]{fullShare} f : sProp 𝕄)) := by
  show barPay (peer c 9) 3 = _; unfold barPay slotPts; rw [show peer (peer c 9) 3 = c from peer_rev c 9]
end SigTables

/-! ### The payloads spelt out, and a device as its peer's peer -/

section Spelt
variable [∀ e, Nonempty (Elt F e)] (c : Dev nD)
omit [FloatOps F] in
theorem barPay_eq (j : Fin 10) : barPay (F := F) c j
    = iprop(∃ f : Buf (Elt F) ((slot j).view.loc (peer c j : Thread nD τ)), ((slot j).view.loc (peer c j : Thread nD τ) ↦[(slot j).view.set]{fullShare} f : sProp 𝕄)) := rfl
theorem sndPay_eq (i : Fin 10) : sndPay m c i = ((src c i).view.loc (c : Thread nD τ) ↦[(src c i).view.set]{shr i} srcC m c i : sProp 𝕄) := rfl
theorem rcvPay_eq (i : Fin 10) : rcvPay m c i = ((slot i).view.loc (c : Thread nD τ) ↦[(slot i).view.set]{fullShare} landed m c i : sProp 𝕄) := rfl
theorem peer_peer0 : peer (peer c 0) 2 = c := peer_rev c 0
theorem peer_peer1 : peer (peer c 1) 1 = c := peer_rev c 1
theorem peer_peer2 : peer (peer c 2) 0 = c := peer_rev c 2
theorem peer_peer3 : peer (peer c 3) 9 = c := peer_rev c 3
theorem peer_peer4 : peer (peer c 4) 8 = c := peer_rev c 4
theorem peer_peer5 : peer (peer c 5) 7 = c := peer_rev c 5
theorem peer_peer6 : peer (peer c 6) 6 = c := peer_rev c 6
theorem peer_peer7 : peer (peer c 7) 5 = c := peer_rev c 7
theorem peer_peer8 : peer (peer c 8) 4 = c := peer_rev c 8
theorem peer_peer9 : peer (peer c 9) 3 = c := peer_rev c 9
omit [FloatOps F] in
theorem barPay_sig0 : barPay (F := F) (peer c 0) 2
    = iprop(∃ f : Buf (Elt F) ((slot 2).view.loc (c : Thread nD τ)), ((slot 2).view.loc (c : Thread nD τ) ↦[(slot 2).view.set]{fullShare} f : sProp 𝕄)) := by
  unfold barPay slotPts; rw [peer_peer0]
omit [FloatOps F] in
theorem barPay_sig1 : barPay (F := F) (peer c 1) 1
    = iprop(∃ f : Buf (Elt F) ((slot 1).view.loc (c : Thread nD τ)), ((slot 1).view.loc (c : Thread nD τ) ↦[(slot 1).view.set]{fullShare} f : sProp 𝕄)) := by
  unfold barPay slotPts; rw [peer_peer1]
omit [FloatOps F] in
theorem barPay_sig2 : barPay (F := F) (peer c 2) 0
    = iprop(∃ f : Buf (Elt F) ((slot 0).view.loc (c : Thread nD τ)), ((slot 0).view.loc (c : Thread nD τ) ↦[(slot 0).view.set]{fullShare} f : sProp 𝕄)) := by
  unfold barPay slotPts; rw [peer_peer2]
omit [FloatOps F] in
theorem barPay_sig3 : barPay (F := F) (peer c 3) 9
    = iprop(∃ f : Buf (Elt F) ((slot 9).view.loc (c : Thread nD τ)), ((slot 9).view.loc (c : Thread nD τ) ↦[(slot 9).view.set]{fullShare} f : sProp 𝕄)) := by
  unfold barPay slotPts; rw [peer_peer3]
omit [FloatOps F] in
theorem barPay_sig4 : barPay (F := F) (peer c 4) 8
    = iprop(∃ f : Buf (Elt F) ((slot 8).view.loc (c : Thread nD τ)), ((slot 8).view.loc (c : Thread nD τ) ↦[(slot 8).view.set]{fullShare} f : sProp 𝕄)) := by
  unfold barPay slotPts; rw [peer_peer4]
omit [FloatOps F] in
theorem barPay_sig5 : barPay (F := F) (peer c 5) 7
    = iprop(∃ f : Buf (Elt F) ((slot 7).view.loc (c : Thread nD τ)), ((slot 7).view.loc (c : Thread nD τ) ↦[(slot 7).view.set]{fullShare} f : sProp 𝕄)) := by
  unfold barPay slotPts; rw [peer_peer5]
omit [FloatOps F] in
theorem barPay_sig6 : barPay (F := F) (peer c 6) 6
    = iprop(∃ f : Buf (Elt F) ((slot 6).view.loc (c : Thread nD τ)), ((slot 6).view.loc (c : Thread nD τ) ↦[(slot 6).view.set]{fullShare} f : sProp 𝕄)) := by
  unfold barPay slotPts; rw [peer_peer6]
omit [FloatOps F] in
theorem barPay_sig7 : barPay (F := F) (peer c 7) 5
    = iprop(∃ f : Buf (Elt F) ((slot 5).view.loc (c : Thread nD τ)), ((slot 5).view.loc (c : Thread nD τ) ↦[(slot 5).view.set]{fullShare} f : sProp 𝕄)) := by
  unfold barPay slotPts; rw [peer_peer7]
omit [FloatOps F] in
theorem barPay_sig8 : barPay (F := F) (peer c 8) 4
    = iprop(∃ f : Buf (Elt F) ((slot 4).view.loc (c : Thread nD τ)), ((slot 4).view.loc (c : Thread nD τ) ↦[(slot 4).view.set]{fullShare} f : sProp 𝕄)) := by
  unfold barPay slotPts; rw [peer_peer8]
omit [FloatOps F] in
theorem barPay_sig9 : barPay (F := F) (peer c 9) 3
    = iprop(∃ f : Buf (Elt F) ((slot 3).view.loc (c : Thread nD τ)), ((slot 3).view.loc (c : Thread nD τ) ↦[(slot 3).view.set]{fullShare} f : sProp 𝕄)) := by
  unfold barPay slotPts; rw [peer_peer9]
end Spelt

end Cert.KernelIdealProof

end
-- ==== Proof.KernelIdealDues.lean ====
/-
  What each device owes at launch, and why no wait can deadlock.

  Device c owes, from launch: one unit to the barrier cell of each of its ten peers (its entry signals), and the
  credit of one 128 × 256 block to arrival cell i of peer i (its copy to that peer). The cells carry levels: staging
  and departure cells 0, barrier cells 1, reduce-scatter arrival cells 2, gather arrival cells 3. A device waits on
  its barrier cell while it owes arrival credits only (levels 2 and 3), on its reduce-scatter arrival cells while it
  owes gather arrival credits only (level 3), and on everything else owing nothing: every wait sits strictly below
  all the waiter still owes.
-/
import proofs.«900392_g7700000000000393_dist_rsdw_v7x_xyz2x4x4_y_m512_d512_f2048_bf16_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The arrival credit c owes peer i, and the barrier unit. -/
def owedRcv (c : Dev nD) (i : Fin 10) : CellTallies nD τ sig Unit := tallyAt (rcvCell (peer c i) i) () N
def owedBar (c : Dev nD) (i : Fin 10) : CellTallies nD τ sig Unit := tallyAt (barCell (peer c i)) () 1

/-- The gather arrivals (paid last, 9 first), the reduce-scatter arrivals before them (2 first), the barrier units
    first of all (0 first): each payment takes the LAST summand. -/
def OG (c : Dev nD) : CellTallies nD τ sig Unit :=
  owedRcv c 3 + owedRcv c 4 + owedRcv c 5 + owedRcv c 6 + owedRcv c 7 + owedRcv c 8 + owedRcv c 9
def OR (c : Dev nD) : CellTallies nD τ sig Unit := OG c + owedRcv c 0 + owedRcv c 1 + owedRcv c 2
def O₀ (c : Dev nD) : CellTallies nD τ sig Unit :=
  OR c + owedBar c 9 + owedBar c 8 + owedBar c 7 + owedBar c 6 + owedBar c 5 + owedBar c 4 + owedBar c 3 + owedBar c 2 + owedBar c 1 + owedBar c 0

def L (g : GSem nD τ sig) : Finset Unit := if g.1.2 = .tc then {()} else ∅
def lvQ (q : DmaSem sig) : ℕ := if 16 ≤ q.val then 3 else if 6 ≤ q.val ∧ q.val ≤ 8 then 2 else 0
def lv (g : GSem nD τ sig) (_ : Unit) : ℕ := match g.2 with | .reg _ => 1 | .dma q => lvQ q

theorem L_of_ne (g : GSem nD τ sig) (h : g.1.2 ≠ .tc) : L g = ∅ := if_neg h
theorem L_tc (c : Dev nD) (sm : SemLoc sig) : L ((c : Thread nD τ), sm) = {()} := if_pos rfl

theorem lvQ_rcv : ∀ i : Fin 10, 2 ≤ lvQ (rcvQ i) := by decide
theorem lvQ_rcv_g : ∀ i : Fin 10, 3 ≤ i.val → lvQ (rcvQ i) = 3 := by decide
theorem lvQ_rcv_r : ∀ i : Fin 10, i.val < 3 → lvQ (rcvQ i) = 2 := by decide

theorem owedRcv_pos {c : Dev nD} {i : Fin 10} {g : GSem nD τ sig} {u : Unit} (h : 0 < owedRcv c i g u) : g = rcvCell (peer c i) i :=
  (Pipeline.tallyAt_pos h).1
theorem owedBar_pos {c : Dev nD} {i : Fin 10} {g : GSem nD τ sig} {u : Unit} (h : 0 < owedBar c i g u) : g = barCell (peer c i) :=
  (Pipeline.tallyAt_pos h).1

theorem OG_pos {c : Dev nD} {g : GSem nD τ sig} {u : Unit} (h : 0 < OG c g u) : ∃ (p : Dev nD) (i : Fin 10), 3 ≤ i.val ∧ g = rcvCell p i := by
  unfold OG at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, _, by decide, owedRcv_pos h⟩

theorem OR_pos {c : Dev nD} {g : GSem nD τ sig} {u : Unit} (h : 0 < OR c g u) : ∃ (p : Dev nD) (i : Fin 10), g = rcvCell p i := by
  unfold OR at h
  rcases Pipeline.add_pos_cases h with h | h
  rcases Pipeline.add_pos_cases h with h | h
  rcases Pipeline.add_pos_cases h with h | h
  · obtain ⟨p, i, _, hg⟩ := OG_pos h; exact ⟨p, i, hg⟩
  all_goals exact ⟨_, _, owedRcv_pos h⟩

theorem O₀_pos {c : Dev nD} {g : GSem nD τ sig} {u : Unit} (h : 0 < O₀ c g u) :
    (∃ (p : Dev nD) (i : Fin 10), g = rcvCell p i) ∨ ∃ p : Dev nD, g = barCell p := by
  unfold O₀ at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inl (OR_pos h)
  all_goals exact Or.inr ⟨_, owedBar_pos h⟩

omit [FloatOps F] in
/-- At its barrier wait a device owes arrival credits only. -/
theorem mayWait_bar (c : Dev nD) : (levAts L lv : sProp 𝕄) ⊢ MayWait (c : Thread nD τ) (.reg barS) () (OR c) :=
  Pipeline.mayWait_of_levAts (by rw [L_tc]; exact Finset.mem_singleton_self _) fun g i h => by
    obtain ⟨p, j, rfl⟩ := OR_pos h
    exact ⟨by rw [L_tc]; exact Finset.mem_singleton_self _, by show 1 < lvQ (rcvQ j); have := lvQ_rcv j; omega⟩

omit [FloatOps F] in
/-- At a reduce-scatter arrival wait it owes gather arrival credits only. -/
theorem mayWait_rs (c : Dev nD) (k : Fin 10) (hk : k.val < 3) : (levAts L lv : sProp 𝕄) ⊢ MayWait (c : Thread nD τ) (.dma (rcvQ k)) () (OG c) :=
  Pipeline.mayWait_of_levAts (by rw [L_tc]; exact Finset.mem_singleton_self _) fun g i h => by
    obtain ⟨p, j, hj, rfl⟩ := OG_pos h
    exact ⟨by rw [L_tc]; exact Finset.mem_singleton_self _, by show lvQ (rcvQ k) < lvQ (rcvQ j); rw [lvQ_rcv_r k hk, lvQ_rcv_g j hj]; decide⟩

omit [FloatOps F] in
/-- The pipeline's own staging waits happen owing everything (before the body) or nothing (after it): level 0. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i h => ?_
    have h0 : lv ((c : Thread nD τ), SemLoc.dma q) () = 0 := by
      show lvQ q = 0; unfold lvQ; rw [if_neg (by omega), if_neg (by omega)]
    rcases O₀_pos h with ⟨p, j, rfl⟩ | ⟨p, rfl⟩
    · exact ⟨by rw [L_tc]; exact Finset.mem_singleton_self _, by rw [h0]; show 0 < lvQ (rcvQ j); have := lvQ_rcv j; omega⟩
    · exact ⟨by rw [L_tc]; exact Finset.mem_singleton_self _, by rw [h0]; exact Nat.one_pos⟩
  · rw [MayWait_zero]; iintro -; iempintro

end Cert.KernelIdealProof

end
-- ==== Proof.KernelIdealCuts.lean ====
/-
  Cutting the scratch buffers as the protocol uses them: the reduce-scatter buffer into its three planes, the gather
  buffer into its eight, the partial-product buffer into the four row blocks (three sent, one kept). Two planes or two
  row blocks never share an element; a buffer cut into pieces and a remainder is put back from pieces holding anything.
-/
import proofs.«900392_g7700000000000393_dist_rsdw_v7x_xyz2x4x4_y_m512_d512_f2048_bf16_1_alg».proof.Proof.KernelIdealDues

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Carving a piece out of a points-to, and putting one back -/

omit [FloatOps F] [∀ e, Nonempty (Elt F e)] in
theorem carve {ℓ : Loc nD τ sig} {S I : Finset (Idx ℓ)} (h : I ⊆ S) (q : PosShare TreeShare) (f : Buf (Elt F) ℓ) :
    (ℓ ↦[S]{q} f : sProp 𝕄) ⊢ iprop((ℓ ↦[I]{q} f) ∗ ℓ ↦[S \ I]{q} f) := (pointsTo_split_subset h).1

omit [FloatOps F] [∀ e, Nonempty (Elt F e)] in
theorem uncarve {ℓ : Loc nD τ sig} {S I : Finset (Idx ℓ)} (h : I ⊆ S) (q : PosShare TreeShare) (f g : Buf (Elt F) ℓ) :
    iprop((ℓ ↦[I]{q} g) ∗ ℓ ↦[S \ I]{q} f) ⊢ (∃ f', (ℓ ↦[S]{q} f') : sProp 𝕄) := by
  iintro ⟨H1, H2⟩
  iexists (I.piecewise g f)
  ihave H := (BI.Region.is_join (Finset.sdiff_disjoint (s := I) (t := S))) $$ [H1 H2]
  · isplitl [H2] <;> iassumption
  rw [Finset.sdiff_union_of_subset h]
  iexact H

omit [FloatOps F] [∀ e, Nonempty (Elt F e)] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## Planes -/

omit [FloatOps F] in
theorem mem_gplane0 {i : (cc0_scratch2 : Ref sig .tc).ty.Idx}
    (h : i ∈ ((gM.slice (Rect.unit (s := S8x128x256) ![0, 0, 0] S1x128x256.size inb_S8x128x256_S1x128x256_0_0_0) (fun _ => rfl)).squeeze S128x256 squeezes_S1x128x256_S128x256 : Memref sig .tc .vmem S128x256 .bf16).view.set) :
    (i 0 : ℕ) = 0 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane1 {i : (cc0_scratch2 : Ref sig .tc).ty.Idx}
    (h : i ∈ ((gM.slice (Rect.unit (s := S8x128x256) ![1, 0, 0] S1x128x256.size inb_S8x128x256_S1x128x256_1_0_0) (fun _ => rfl)).squeeze S128x256 squeezes_S1x128x256_S128x256 : Memref sig .tc .vmem S128x256 .bf16).view.set) :
    (i 0 : ℕ) = 1 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane2 {i : (cc0_scratch2 : Ref sig .tc).ty.Idx}
    (h : i ∈ ((gM.slice (Rect.unit (s := S8x128x256) ![2, 0, 0] S1x128x256.size inb_S8x128x256_S1x128x256_2_0_0) (fun _ => rfl)).squeeze S128x256 squeezes_S1x128x256_S128x256 : Memref sig .tc .vmem S128x256 .bf16).view.set) :
    (i 0 : ℕ) = 2 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane3 {i : (cc0_scratch2 : Ref sig .tc).ty.Idx}
    (h : i ∈ ((gM.slice (Rect.unit (s := S8x128x256) ![3, 0, 0] S1x128x256.size inb_S8x128x256_S1x128x256_3_0_0) (fun _ => rfl)).squeeze S128x256 squeezes_S1x128x256_S128x256 : Memref sig .tc .vmem S128x256 .bf16).view.set) :
    (i 0 : ℕ) = 3 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane4 {i : (cc0_scratch2 : Ref sig .tc).ty.Idx}
    (h : i ∈ ((gM.slice (Rect.unit (s := S8x128x256) ![4, 0, 0] S1x128x256.size inb_S8x128x256_S1x128x256_4_0_0) (fun _ => rfl)).squeeze S128x256 squeezes_S1x128x256_S128x256 : Memref sig .tc .vmem S128x256 .bf16).view.set) :
    (i 0 : ℕ) = 4 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane5 {i : (cc0_scratch2 : Ref sig .tc).ty.Idx}
    (h : i ∈ ((gM.slice (Rect.unit (s := S8x128x256) ![5, 0, 0] S1x128x256.size inb_S8x128x256_S1x128x256_5_0_0) (fun _ => rfl)).squeeze S128x256 squeezes_S1x128x256_S128x256 : Memref sig .tc .vmem S128x256 .bf16).view.set) :
    (i 0 : ℕ) = 5 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane6 {i : (cc0_scratch2 : Ref sig .tc).ty.Idx}
    (h : i ∈ ((gM.slice (Rect.unit (s := S8x128x256) ![6, 0, 0] S1x128x256.size inb_S8x128x256_S1x128x256_6_0_0) (fun _ => rfl)).squeeze S128x256 squeezes_S1x128x256_S128x256 : Memref sig .tc .vmem S128x256 .bf16).view.set) :
    (i 0 : ℕ) = 6 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_gplane7 {i : (cc0_scratch2 : Ref sig .tc).ty.Idx}
    (h : i ∈ ((gM.slice (Rect.unit (s := S8x128x256) ![7, 0, 0] S1x128x256.size inb_S8x128x256_S1x128x256_7_0_0) (fun _ => rfl)).squeeze S128x256 squeezes_S1x128x256_S128x256 : Memref sig .tc .vmem S128x256 .bf16).view.set) :
    (i 0 : ℕ) = 7 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane0 {i : (cc0_scratch1 : Ref sig .tc).ty.Idx}
    (h : i ∈ ((rM.slice (Rect.unit (s := S3x128x256) ![0, 0, 0] S1x128x256.size inb_S3x128x256_S1x128x256_0_0_0) (fun _ => rfl)).squeeze S128x256 squeezes_S1x128x256_S128x256 : Memref sig .tc .vmem S128x256 .bf16).view.set) :
    (i 0 : ℕ) = 0 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane1 {i : (cc0_scratch1 : Ref sig .tc).ty.Idx}
    (h : i ∈ ((rM.slice (Rect.unit (s := S3x128x256) ![1, 0, 0] S1x128x256.size inb_S3x128x256_S1x128x256_1_0_0) (fun _ => rfl)).squeeze S128x256 squeezes_S1x128x256_S128x256 : Memref sig .tc .vmem S128x256 .bf16).view.set) :
    (i 0 : ℕ) = 1 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega
omit [FloatOps F] in
theorem mem_rplane2 {i : (cc0_scratch1 : Ref sig .tc).ty.Idx}
    (h : i ∈ ((rM.slice (Rect.unit (s := S3x128x256) ![2, 0, 0] S1x128x256.size inb_S3x128x256_S1x128x256_2_0_0) (fun _ => rfl)).squeeze S128x256 squeezes_S1x128x256_S128x256 : Memref sig .tc .vmem S128x256 .bf16).view.set) :
    (i 0 : ℕ) = 2 := by
  simp only [Memref.view_squeeze, Memref.view_slice, Memref.view_whole, View.set_reshape, View.set_slice_whole, Rect.mem_set_unit] at h
  have h0 := h 0
  simp only [Matrix.cons_val_zero] at h0
  have : S1x128x256.size 0 = 1 := rfl
  omega

/-! ## The two landing buffers cut into planes -/

def ownPts (c : Dev nD) (q : PosShare TreeShare) (f : Buf (Elt F) ((ownG : Memref sig .tc .vmem S128x256 .bf16).view.loc (c : Thread nD τ))) : sProp 𝕄 :=
  (ownG : Memref sig .tc .vmem S128x256 .bf16).view.loc (c : Thread nD τ) ↦[(ownG : Memref sig .tc .vmem S128x256 .bf16).view.set]{q} f

omit [FloatOps F] [∀ e, Nonempty (Elt F e)] in
theorem rs_sub0 : (slot 0).view.set ⊆ (Finset.univ : Finset (cc0_scratch1 : Ref sig .tc).ty.Idx) := Finset.subset_univ _
omit [FloatOps F] [∀ e, Nonempty (Elt F e)] in
theorem rs_sub1 : (slot 1).view.set ⊆ (Finset.univ \ (slot 0).view.set : Finset (cc0_scratch1 : Ref sig .tc).ty.Idx) := fun i hi => by
  have hn := mem_rplane1 hi
  refine Finset.mem_sdiff.mpr ⟨?_, fun h0 => by have := mem_rplane0 h0; omega⟩
  exact Finset.mem_univ _
omit [FloatOps F] [∀ e, Nonempty (Elt F e)] in
theorem rs_sub2 : (slot 2).view.set ⊆ ((Finset.univ \ (slot 0).view.set) \ (slot 1).view.set : Finset (cc0_scratch1 : Ref sig .tc).ty.Idx) := fun i hi => by
  have hn := mem_rplane2 hi
  refine Finset.mem_sdiff.mpr ⟨?_, fun h0 => by have := mem_rplane1 h0; omega⟩
  refine Finset.mem_sdiff.mpr ⟨?_, fun h0 => by have := mem_rplane0 h0; omega⟩
  exact Finset.mem_univ _
omit [FloatOps F] [∀ e, Nonempty (Elt F e)] in
theorem g_sub0 : (slot 3).view.set ⊆ (Finset.univ : Finset (cc0_scratch2 : Ref sig .tc).ty.Idx) := Finset.subset_univ _
omit [FloatOps F] [∀ e, Nonempty (Elt F e)] in
theorem g_sub1 : (slot 4).view.set ⊆ (Finset.univ \ (slot 3).view.set : Finset (cc0_scratch2 : Ref sig .tc).ty.Idx) := fun i hi => by
  have hn := mem_gplane1 hi
  refine Finset.mem_sdiff.mpr ⟨?_, fun h0 => by have := mem_gplane0 h0; omega⟩
  exact Finset.mem_univ _
omit [FloatOps F] [∀ e, Nonempty (Elt F e)] in
theorem g_sub2 : (slot 5).view.set ⊆ ((Finset.univ \ (slot 3).view.set) \ (slot 4).view.set : Finset (cc0_scratch2 : Ref sig .tc).ty.Idx) := fun i hi => by
  have hn := mem_gplane2 hi
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub3 : (slot 6).view.set ⊆ (((Finset.univ \ (slot 3).view.set) \ (slot 4).view.set) \ (slot 5).view.set : Finset (cc0_scratch2 : Ref sig .tc).ty.Idx) := fun i hi => by
  have hn := mem_gplane3 hi
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub4 : (slot 7).view.set ⊆ ((((Finset.univ \ (slot 3).view.set) \ (slot 4).view.set) \ (slot 5).view.set) \ (slot 6).view.set : Finset (cc0_scratch2 : Ref sig .tc).ty.Idx) := fun i hi => by
  have hn := mem_gplane4 hi
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub5 : (slot 8).view.set ⊆ (((((Finset.univ \ (slot 3).view.set) \ (slot 4).view.set) \ (slot 5).view.set) \ (slot 6).view.set) \ (slot 7).view.set : Finset (cc0_scratch2 : Ref sig .tc).ty.Idx) := fun i hi => by
  have hn := mem_gplane5 hi
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub6 : (slot 9).view.set ⊆ ((((((Finset.univ \ (slot 3).view.set) \ (slot 4).view.set) \ (slot 5).view.set) \ (slot 6).view.set) \ (slot 7).view.set) \ (slot 8).view.set : Finset (cc0_scratch2 : Ref sig .tc).ty.Idx) := fun i hi => by
  have hn := mem_gplane6 hi
  refine Finset.mem_sdiff.mpr ⟨?_, fun h0 => by have := mem_gplane5 h0; omega⟩
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _
omit [FloatOps F] [∀ e, Nonempty (Elt F e)] in
theorem g_sub7 : (ownG : Memref sig .tc .vmem S128x256 .bf16).view.set ⊆ (((((((Finset.univ \ (slot 3).view.set) \ (slot 4).view.set) \ (slot 5).view.set) \ (slot 6).view.set) \ (slot 7).view.set) \ (slot 8).view.set) \ (slot 9).view.set : Finset (cc0_scratch2 : Ref sig .tc).ty.Idx) := fun i hi => by
  have hn := mem_gplane7 hi
  refine Finset.mem_sdiff.mpr ⟨?_, fun h0 => by have := mem_gplane6 h0; omega⟩
  refine Finset.mem_sdiff.mpr ⟨?_, fun h0 => by have := mem_gplane5 h0; omega⟩
  refine Finset.mem_sdiff.mpr ⟨?_, fun h0 => by have := mem_gplane4 h0; omega⟩
  refine Finset.mem_sdiff.mpr ⟨?_, fun h0 => by have := mem_gplane3 h0; omega⟩
  refine Finset.mem_sdiff.mpr ⟨?_, fun h0 => by have := mem_gplane2 h0; omega⟩
  refine Finset.mem_sdiff.mpr ⟨?_, fun h0 => by have := mem_gplane1 h0; omega⟩
  refine Finset.mem_sdiff.mpr ⟨?_, fun h0 => by have := mem_gplane0 h0; omega⟩
  exact Finset.mem_univ _

/-- What is left of each landing buffer beside its planes (nothing, but nobody needs to know). -/
abbrev rsRest : Finset (cc0_scratch1 : Ref sig .tc).ty.Idx := ((Finset.univ \ (slot 0).view.set) \ (slot 1).view.set) \ (slot 2).view.set
abbrev gRest : Finset (cc0_scratch2 : Ref sig .tc).ty.Idx := (((((((Finset.univ \ (slot 3).view.set) \ (slot 4).view.set) \ (slot 5).view.set) \ (slot 6).view.set) \ (slot 7).view.set) \ (slot 8).view.set) \ (slot 9).view.set) \ (ownG : Memref sig .tc .vmem S128x256 .bf16).view.set

/-- The remainders, kept behind a name (nothing ever reads them). -/
def rsRestPts (c : Dev nD) (f : Buf (Elt F) ((rM : Memref sig .tc .vmem S3x128x256 .bf16).view.loc (c : Thread nD τ))) : sProp 𝕄 :=
  (rM : Memref sig .tc .vmem S3x128x256 .bf16).view.loc (c : Thread nD τ) ↦[rsRest]{fullShare} f
def gRestPts (c : Dev nD) (f : Buf (Elt F) ((gM : Memref sig .tc .vmem S8x128x256 .bf16).view.loc (c : Thread nD τ))) : sProp 𝕄 :=
  (gM : Memref sig .tc .vmem S8x128x256 .bf16).view.loc (c : Thread nD τ) ↦[gRest]{fullShare} f

omit [FloatOps F] [∀ e, Nonempty (Elt F e)] in
theorem rs_split (c : Dev nD) (f : Buf (Elt F) ((rM : Memref sig .tc .vmem S3x128x256 .bf16).view.loc (c : Thread nD τ))) :
    ((rM : Memref sig .tc .vmem S3x128x256 .bf16).view.loc (c : Thread nD τ) ↦{fullShare} f : sProp 𝕄)
      ⊢ iprop(slotPts c 0 f ∗ slotPts c 1 f ∗ slotPts c 2 f ∗ rsRestPts c f) := by
  show _ ⊢ iprop(((rM : Memref sig .tc .vmem S3x128x256 .bf16).view.loc (c : Thread nD τ) ↦[(slot 0).view.set]{fullShare} f) ∗ ((rM : Memref sig .tc .vmem S3x128x256 .bf16).view.loc (c : Thread nD τ) ↦[(slot 1).view.set]{fullShare} f) ∗ ((rM : Memref sig .tc .vmem S3x128x256 .bf16).view.loc (c : Thread nD τ) ↦[(slot 2).view.set]{fullShare} f) ∗ ((rM : Memref sig .tc .vmem S3x128x256 .bf16).view.loc (c : Thread nD τ) ↦[rsRest]{fullShare} f))
  iintro H
  ihave H := (carve rs_sub0 fullShare f) $$ H; icases H with ⟨H0, H⟩
  ihave H := (carve rs_sub1 fullShare f) $$ H; icases H with ⟨H1, H⟩
  ihave H := (carve rs_sub2 fullShare f) $$ H; icases H with ⟨H2, H⟩
  isplitl [H0]; · iexact H0
  isplitl [H1]; · iexact H1
  isplitl [H2]; · iexact H2
  iexact H

omit [FloatOps F] [∀ e, Nonempty (Elt F e)] in
theorem rs_join (c : Dev nD) (g0 g1 g2 f : Buf (Elt F) ((rM : Memref sig .tc .vmem S3x128x256 .bf16).view.loc (c : Thread nD τ))) :
    iprop(slotPts c 0 g0 ∗ slotPts c 1 g1 ∗ slotPts c 2 g2 ∗ rsRestPts c f)
      ⊢ (∃ f', ((rM : Memref sig .tc .vmem S3x128x256 .bf16).view.loc (c : Thread nD τ) ↦{fullShare} f') : sProp 𝕄) := by
  show iprop(((rM : Memref sig .tc .vmem S3x128x256 .bf16).view.loc (c : Thread nD τ) ↦[(slot 0).view.set]{fullShare} g0) ∗ ((rM : Memref sig .tc .vmem S3x128x256 .bf16).view.loc (c : Thread nD τ) ↦[(slot 1).view.set]{fullShare} g1) ∗ ((rM : Memref sig .tc .vmem S3x128x256 .bf16).view.loc (c : Thread nD τ) ↦[(slot 2).view.set]{fullShare} g2) ∗ ((rM : Memref sig .tc .vmem S3x128x256 .bf16).view.loc (c : Thread nD τ) ↦[rsRest]{fullShare} f)) ⊢ _
  iintro ⟨H0, H1, H2, H⟩
  ihave H := (uncarve rs_sub2 fullShare f g2) $$ [H2 H]
  · isplitl [H2] <;> iassumption
  icases H with ⟨%f2, H⟩
  ihave H := (uncarve rs_sub1 fullShare f2 g1) $$ [H1 H]
  · isplitl [H1] <;> iassumption
  icases H with ⟨%f1, H⟩
  ihave H := (uncarve rs_sub0 fullShare f1 g0) $$ [H0 H]
  · isplitl [H0] <;> iassumption
  iexact H

omit [FloatOps F] [∀ e, Nonempty (Elt F e)] in
theorem g_split (c : Dev nD) (f : Buf (Elt F) ((gM : Memref sig .tc .vmem S8x128x256 .bf16).view.loc (c : Thread nD τ))) :
    ((gM : Memref sig .tc .vmem S8x128x256 .bf16).view.loc (c : Thread nD τ) ↦{fullShare} f : sProp 𝕄)
      ⊢ iprop(slotPts c 3 f ∗ slotPts c 4 f ∗ slotPts c 5 f ∗ slotPts c 6 f ∗ slotPts c 7 f ∗ slotPts c 8 f ∗ slotPts c 9 f ∗ ownPts c fullShare f
          ∗ gRestPts c f) := by
  show _ ⊢ iprop(((gM : Memref sig .tc .vmem S8x128x256 .bf16).view.loc (c : Thread nD τ) ↦[(slot 3).view.set]{fullShare} f) ∗ ((gM : Memref sig .tc .vmem S8x128x256 .bf16).view.loc (c : Thread nD τ) ↦[(slot 4).view.set]{fullShare} f) ∗ ((gM : Memref sig .tc .vmem S8x128x256 .bf16).view.loc (c : Thread nD τ) ↦[(slot 5).view.set]{fullShare} f) ∗ ((gM : Memref sig .tc .vmem S8x128x256 .bf16).view.loc (c : Thread nD τ) ↦[(slot 6).view.set]{fullShare} f) ∗ ((gM : Memref sig .tc .vmem S8x128x256 .bf16).view.loc (c : Thread nD τ) ↦[(slot 7).view.set]{fullShare} f) ∗ ((gM : Memref sig .tc .vmem S8x128x256 .bf16).view.loc (c : Thread nD τ) ↦[(slot 8).view.set]{fullShare} f) ∗ ((gM : Memref sig .tc .vmem S8x128x256 .bf16).view.loc (c : Thread nD τ) ↦[(slot 9).view.set]{fullShare} f) ∗ ((gM : Memref sig .tc .vmem S8x128x256 .bf16).view.loc (c : Thread nD τ) ↦[(ownG : Memref sig .tc .vmem S128x256 .bf16).view.set]{fullShare} f) ∗ ((gM : Memref sig .tc .vmem S8x128x256 .bf16).view.loc (c : Thread nD τ) ↦[gRest]{fullShare} f))
  iintro H
  ihave H := (carve g_sub0 fullShare f) $$ H; icases H with ⟨H0, H⟩
  ihave H := (carve g_sub1 fullShare f) $$ H; icases H with ⟨H1, H⟩
  ihave H := (carve g_sub2 fullShare f) $$ H; icases H with ⟨H2, H⟩
  ihave H := (carve g_sub3 fullShare f) $$ H; icases H with ⟨H3, H⟩
  ihave H := (carve g_sub4 fullShare f) $$ H; icases H with ⟨H4, H⟩
  ihave H := (carve g_sub5 fullShare f) $$ H; icases H with ⟨H5, H⟩
  ihave H := (carve g_sub6 fullShare f) $$ H; icases H with ⟨H6, H⟩
  ihave H := (carve g_sub7 fullShare f) $$ H; icases H with ⟨H7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H

omit [FloatOps F] [∀ e, Nonempty (Elt F e)] in
theorem g_join (c : Dev nD) (g0 g1 g2 g3 g4 g5 g6 g7 f : Buf (Elt F) ((gM : Memref sig .tc .vmem S8x128x256 .bf16).view.loc (c : Thread nD τ))) :
    iprop(slotPts c 3 g0 ∗ slotPts c 4 g1 ∗ slotPts c 5 g2 ∗ slotPts c 6 g3 ∗ slotPts c 7 g4 ∗ slotPts c 8 g5 ∗ slotPts c 9 g6 ∗ ownPts c fullShare g7
          ∗ gRestPts c f)
      ⊢ (∃ f', ((gM : Memref sig .tc .vmem S8x128x256 .bf16).view.loc (c : Thread nD τ) ↦{fullShare} f') : sProp 𝕄) := by
  show iprop(((gM : Memref sig .tc .vmem S8x128x256 .bf16).view.loc (c : Thread nD τ) ↦[(slot 3).view.set]{fullShare} g0) ∗ ((gM : Memref sig .tc .vmem S8x128x256 .bf16).view.loc (c : Thread nD τ) ↦[(slot 4).view.set]{fullShare} g1) ∗ ((gM : Memref sig .tc .vmem S8x128x256 .bf16).view.loc (c : Thread nD τ) ↦[(slot 5).view.set]{fullShare} g2) ∗ ((gM : Memref sig .tc .vmem S8x128x256 .bf16).view.loc (c : Thread nD τ) ↦[(slot 6).view.set]{fullShare} g3) ∗ ((gM : Memref sig .tc .vmem S8x128x256 .bf16).view.loc (c : Thread nD τ) ↦[(slot 7).view.set]{fullShare} g4) ∗ ((gM : Memref sig .tc .vmem S8x128x256 .bf16).view.loc (c : Thread nD τ) ↦[(slot 8).view.set]{fullShare} g5) ∗ ((gM : Memref sig .tc .vmem S8x128x256 .bf16).view.loc (c : Thread nD τ) ↦[(slot 9).view.set]{fullShare} g6) ∗ ((gM : Memref sig .tc .vmem S8x128x256 .bf16).view.loc (c : Thread nD τ) ↦[(ownG : Memref sig .tc .vmem S128x256 .bf16).view.set]{fullShare} g7) ∗ ((gM : Memref sig .tc .vmem S8x128x256 .bf16).view.loc (c : Thread nD τ) ↦[gRest]{fullShare} f)) ⊢ _
  iintro ⟨H0, H1, H2, H3, H4, H5, H6, H7, H⟩
  ihave H := (uncarve g_sub7 fullShare f g7) $$ [H7 H]
  · isplitl [H7] <;> iassumption
  icases H with ⟨%f7, H⟩
  ihave H := (uncarve g_sub6 fullShare f7 g6) $$ [H6 H]
  · isplitl [H6] <;> iassumption
  icases H with ⟨%f6, H⟩
  ihave H := (uncarve g_sub5 fullShare f6 g5) $$ [H5 H]
  · isplitl [H5] <;> iassumption
  icases H with ⟨%f5, H⟩
  ihave H := (uncarve g_sub4 fullShare f5 g4) $$ [H4 H]
  · isplitl [H4] <;> iassumption
  icases H with ⟨%f4, H⟩
  ihave H := (uncarve g_sub3 fullShare f4 g3) $$ [H3 H]
  · isplitl [H3] <;> iassumption
  icases H with ⟨%f3, H⟩
  ihave H := (uncarve g_sub2 fullShare f3 g2) $$ [H2 H]
  · isplitl [H2] <;> iassumption
  icases H with ⟨%f2, H⟩
  ihave H := (uncarve g_sub1 fullShare f2 g1) $$ [H1 H]
  · isplitl [H1] <;> iassumption
  icases H with ⟨%f1, H⟩
  ihave H := (uncarve g_sub0 fullShare f1 g0) $$ [H0 H]
  · isplitl [H0] <;> iassumption
  iexact H

/-! ## The partial-product buffer cut into the three row blocks sent and the one kept -/

/-- The row block of P(c) the device keeps (rows 128·y(c) …). -/
abbrev pOwn (c : Dev nD) : Memref sig .tc .vmem S128x256 .bf16 := pM.slice (rOwn c) (fun _ => rfl)

omit [FloatOps F] [∀ e, Nonempty (Elt F e)] in
theorem mem_rows (c : Dev nD) (r : Fin 3) {i : (cc0_scratch0 : Ref sig .tc).ty.Idx} (h : i ∈ (pRows c r).view.set) :
    128 * ((((c.val / 4) % 4) + r.val + 1) % 4) ≤ (i 0 : ℕ) ∧ (i 0 : ℕ) < 128 * ((((c.val / 4) % 4) + r.val + 1) % 4) + 128 := by
  simp only [Memref.view_slice, Memref.view_whole, View.set_slice_whole, Rect.mem_set_unit] at h
  have h0 := h 0
  rw [k0_off2_eq c r] at h0
  simp only [Matrix.cons_val_zero] at h0
  have : S128x256.size 0 = 128 := rfl
  omega

omit [FloatOps F] [∀ e, Nonempty (Elt F e)] in
theorem mem_own (c : Dev nD) {i : (cc0_scratch0 : Ref sig .tc).ty.Idx} (h : i ∈ (pOwn c).view.set) :
    128 * ((c.val / 4) % 4) ≤ (i 0 : ℕ) ∧ (i 0 : ℕ) < 128 * ((c.val / 4) % 4) + 128 := by
  simp only [Memref.view_slice, Memref.view_whole, View.set_slice_whole, Rect.mem_set_unit] at h
  have h0 := h 0
  rw [k0_off3_eq c] at h0
  simp only [Matrix.cons_val_zero] at h0
  have : S128x256.size 0 = 128 := rfl
  omega

omit [FloatOps F] [∀ e, Nonempty (Elt F e)] in
theorem p_sub0 (c : Dev nD) : (pRows c 0).view.set ⊆ (Finset.univ : Finset (cc0_scratch0 : Ref sig .tc).ty.Idx) := Finset.subset_univ _
omit [FloatOps F] [∀ e, Nonempty (Elt F e)] in
theorem p_sub1 (c : Dev nD) : (pRows c 1).view.set ⊆ (Finset.univ \ (pRows c 0).view.set : Finset (cc0_scratch0 : Ref sig .tc).ty.Idx) := fun i hi => by
  have hn := mem_rows c 1 hi
  refine Finset.mem_sdiff.mpr ⟨Finset.mem_univ _, fun h0 => by have := mem_rows c 0 h0; simp only [Fin.val_zero, Fin.val_one] at *; omega⟩
omit [FloatOps F] [∀ e, Nonempty (Elt F e)] in
theorem p_sub2 (c : Dev nD) : (pRows c 2).view.set ⊆ ((Finset.univ \ (pRows c 0).view.set) \ (pRows c 1).view.set : Finset (cc0_scratch0 : Ref sig .tc).ty.Idx) := fun i hi => by
  have hn := mem_rows c 2 hi
  refine Finset.mem_sdiff.mpr ⟨?_, fun h0 => by have := mem_rows c 1 h0; simp only [Fin.val_one, Fin.val_two] at *; omega⟩
  refine Finset.mem_sdiff.mpr ⟨Finset.mem_univ _, fun h0 => by have := mem_rows c 0 h0; simp only [Fin.val_zero, Fin.val_two] at *; omega⟩
omit [FloatOps F] [∀ e, Nonempty (Elt F e)] in
theorem p_sub3 (c : Dev nD) : (pOwn c).view.set ⊆ (((Finset.univ \ (pRows c 0).view.set) \ (pRows c 1).view.set) \ (pRows c 2).view.set : Finset (cc0_scratch0 : Ref sig .tc).ty.Idx) := fun i hi => by
  have hn := mem_own c hi
  refine Finset.mem_sdiff.mpr ⟨?_, fun h0 => by have := mem_rows c 2 h0; simp only [Fin.val_two] at *; omega⟩
  refine Finset.mem_sdiff.mpr ⟨?_, fun h0 => by have := mem_rows c 1 h0; simp only [Fin.val_one] at *; omega⟩
  refine Finset.mem_sdiff.mpr ⟨Finset.mem_univ _, fun h0 => by have := mem_rows c 0 h0; simp only [Fin.val_zero] at *; omega⟩

abbrev pRest (c : Dev nD) : Finset (cc0_scratch0 : Ref sig .tc).ty.Idx := (((Finset.univ \ (pRows c 0).view.set) \ (pRows c 1).view.set) \ (pRows c 2).view.set) \ (pOwn c).view.set

omit [FloatOps F] [∀ e, Nonempty (Elt F e)] in
theorem p_split (c : Dev nD) (f : Buf (Elt F) ((pM : Memref sig .tc .vmem S512x256 .bf16).view.loc (c : Thread nD τ))) :
    ((pM : Memref sig .tc .vmem S512x256 .bf16).view.loc (c : Thread nD τ) ↦{fullShare} f : sProp 𝕄)
      ⊢ iprop(((pM : Memref sig .tc .vmem S512x256 .bf16).view.loc (c : Thread nD τ) ↦[(pRows c 0).view.set]{fullShare} f) ∗ ((pM : Memref sig .tc .vmem S512x256 .bf16).view.loc (c : Thread nD τ) ↦[(pRows c 1).view.set]{fullShare} f) ∗ ((pM : Memref sig .tc .vmem S512x256 .bf16).view.loc (c : Thread nD τ) ↦[(pRows c 2).view.set]{fullShare} f)
          ∗ ((pM : Memref sig .tc .vmem S512x256 .bf16).view.loc (c : Thread nD τ) ↦[(pOwn c).view.set]{fullShare} f) ∗ ((pM : Memref sig .tc .vmem S512x256 .bf16).view.loc (c : Thread nD τ) ↦[pRest c]{fullShare} f)) := by
  iintro H
  ihave H := (carve (p_sub0 c) fullShare f) $$ H; icases H with ⟨H0, H⟩
  ihave H := (carve (p_sub1 c) fullShare f) $$ H; icases H with ⟨H1, H⟩
  ihave H := (carve (p_sub2 c) fullShare f) $$ H; icases H with ⟨H2, H⟩
  ihave H := (carve (p_sub3 c) fullShare f) $$ H; icases H with ⟨H3, H⟩
  isplitl [H0]; · iexact H0
  isplitl [H1]; · iexact H1
  isplitl [H2]; · iexact H2
  isplitl [H3]; · iexact H3
  iexact H

omit [FloatOps F] [∀ e, Nonempty (Elt F e)] in
theorem p_join (c : Dev nD) (g0 g1 g2 g3 f : Buf (Elt F) ((pM : Memref sig .tc .vmem S512x256 .bf16).view.loc (c : Thread nD τ))) :
    iprop(((pM : Memref sig .tc .vmem S512x256 .bf16).view.loc (c : Thread nD τ) ↦[(pRows c 0).view.set]{fullShare} g0) ∗ ((pM : Memref sig .tc .vmem S512x256 .bf16).view.loc (c : Thread nD τ) ↦[(pRows c 1).view.set]{fullShare} g1) ∗ ((pM : Memref sig .tc .vmem S512x256 .bf16).view.loc (c : Thread nD τ) ↦[(pRows c 2).view.set]{fullShare} g2)
          ∗ ((pM : Memref sig .tc .vmem S512x256 .bf16).view.loc (c : Thread nD τ) ↦[(pOwn c).view.set]{fullShare} g3) ∗ ((pM : Memref sig .tc .vmem S512x256 .bf16).view.loc (c : Thread nD τ) ↦[pRest c]{fullShare} f))
      ⊢ (∃ f', ((pM : Memref sig .tc .vmem S512x256 .bf16).view.loc (c : Thread nD τ) ↦{fullShare} f') : sProp 𝕄) := by
  iintro ⟨H0, H1, H2, H3, H⟩
  ihave H := (uncarve (p_sub3 c) fullShare f g3) $$ [H3 H]
  · isplitl [H3] <;> iassumption
  icases H with ⟨%f3, H⟩
  ihave H := (uncarve (p_sub2 c) fullShare f3 g2) $$ [H2 H]
  · isplitl [H2] <;> iassumption
  icases H with ⟨%f2, H⟩
  ihave H := (uncarve (p_sub1 c) fullShare f2 g1) $$ [H1 H]
  · isplitl [H1] <;> iassumption
  icases H with ⟨%f1, H⟩
  ihave H := (uncarve (p_sub0 c) fullShare f1 g0) $$ [H0 H]
  · isplitl [H0] <;> iassumption
  iexact H

/-! ## Plane 7 of the gather buffer, read by seven copies at once: an eighth of its share each -/

omit [FloatOps F] [∀ e, Nonempty (Elt F e)] in
theorem ownPts_eq (c : Dev nD) (q : PosShare TreeShare) (f : Buf (Elt F) ((ownG : Memref sig .tc .vmem S128x256 .bf16).view.loc (c : Thread nD τ))) :
    ownPts c q f = ((ownG : Memref sig .tc .vmem S128x256 .bf16).view.loc (c : Thread nD τ) ↦[(ownG : Memref sig .tc .vmem S128x256 .bf16).view.set]{q} f : sProp 𝕄) := rfl

omit [FloatOps F] [∀ e, Nonempty (Elt F e)] in
theorem own_half (c : Dev nD) (q : PosShare TreeShare) (f : Buf (Elt F) ((ownG : Memref sig .tc .vmem S128x256 .bf16).view.loc (c : Thread nD τ))) :
    (ownPts c q f : sProp 𝕄) ⊣⊢ iprop(ownPts c q.left f ∗ ownPts c q.right f) := by
  unfold ownPts; exact pointsTo_share (PosShare.mem_left_op_right q)

omit [FloatOps F] [∀ e, Nonempty (Elt F e)] in
theorem own_shares (c : Dev nD) (f : Buf (Elt F) ((ownG : Memref sig .tc .vmem S128x256 .bf16).view.loc (c : Thread nD τ))) :
    (ownPts c fullShare f : sProp 𝕄)
      ⊢ iprop(ownPts c (shr 3) f ∗ ownPts c (shr 4) f ∗ ownPts c (shr 5) f ∗ ownPts c (shr 6) f ∗ ownPts c (shr 7) f ∗ ownPts c (shr 8) f ∗ ownPts c (shr 9) f ∗ ownPts c (fullShare.right.right.right) f) := by
  iintro H
  ihave H := (own_half c fullShare f).1 $$ H; icases H with ⟨HL, HR⟩
  ihave HL := (own_half c fullShare.left f).1 $$ HL; icases HL with ⟨HLL, HLR⟩
  ihave HR := (own_half c fullShare.right f).1 $$ HR; icases HR with ⟨HRL, HRR⟩
  ihave HLL := (own_half c fullShare.left.left f).1 $$ HLL; icases HLL with ⟨H3, H4⟩
  ihave HLR := (own_half c fullShare.left.right f).1 $$ HLR; icases HLR with ⟨H5, H6⟩
  ihave HRL := (own_half c fullShare.right.left f).1 $$ HRL; icases HRL with ⟨H7, H8⟩
  ihave HRR := (own_half c fullShare.right.right f).1 $$ HRR; icases HRR with ⟨H9, H10⟩
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

omit [FloatOps F] [∀ e, Nonempty (Elt F e)] in
theorem own_unshare (c : Dev nD) (f : Buf (Elt F) ((ownG : Memref sig .tc .vmem S128x256 .bf16).view.loc (c : Thread nD τ))) :
    iprop(ownPts c (shr 3) f ∗ ownPts c (shr 4) f ∗ ownPts c (shr 5) f ∗ ownPts c (shr 6) f ∗ ownPts c (shr 7) f ∗ ownPts c (shr 8) f ∗ ownPts c (shr 9) f ∗ ownPts c (fullShare.right.right.right) f)
      ⊢ (ownPts c fullShare f : sProp 𝕄) := by
  iintro ⟨H3, H4, H5, H6, H7, H8, H9, H10⟩
  ihave HLL := (own_half c fullShare.left.left f).2 $$ [H3 H4]
  · isplitl [H3]; · iexact H3
    iexact H4
  ihave HLR := (own_half c fullShare.left.right f).2 $$ [H5 H6]
  · isplitl [H5]; · iexact H5
    iexact H6
  ihave HRL := (own_half c fullShare.right.left f).2 $$ [H7 H8]
  · isplitl [H7]; · iexact H7
    iexact H8
  ihave HRR := (own_half c fullShare.right.right f).2 $$ [H9 H10]
  · isplitl [H9]; · iexact H9
    iexact H10
  ihave HL := (own_half c fullShare.left f).2 $$ [HLL HLR]
  · isplitl [HLL] <;> iassumption
  ihave HR := (own_half c fullShare.right f).2 $$ [HRL HRR]
  · isplitl [HRL] <;> iassumption
  iapply (own_half c fullShare f).2
  isplitl [HL] <;> iassumption

omit [FloatOps F] [∀ e, Nonempty (Elt F e)] in
/-- Plane 7 through its squeezed view and through the rectangle the body stores it by: the same elements. -/
theorem ownG_set : (ownG : Memref sig .tc .vmem S128x256 .bf16).view.set = ((gM.access rG7 : View sig .tc _ _ _)).set := by
  simp only [Memref.view_squeeze, View.set_reshape]

end Cert.KernelIdealProof

end
-- ==== Proof.KernelIdealOut.lean ====
/-
  The result block of one device: eight column blocks of 256 written one after the other — the own block g(c) first,
  then the block of each gather peer — and that they cover the 2048 columns, so that what the buffer held before the
  body does not matter.
-/
import proofs.«900392_g7700000000000393_dist_rsdw_v7x_xyz2x4x4_y_m512_d512_f2048_bf16_1_alg».proof.Proof.KernelIdealCuts

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- The result block of device c over what the staging buffer held before: the own column block g(c) set to A(c), then
    the column block of each gather peer set to that peer's A (widened back from its stored format). -/
def outW (c : Dev nD) (f0 : (cc0_stg2_0 : Ref sig .tc).ty.Contents (Elt F)) : (cc0_stg2_0 : Ref sig .tc).ty.Contents (Elt F) :=
  ((oM.access (rOut c 6) : View sig .tc _ _ _)).write (Elt F)
    (((oM.access (rOut c 5) : View sig .tc _ _ _)).write (Elt F)
    (((oM.access (rOut c 4) : View sig .tc _ _ _)).write (Elt F)
    (((oM.access (rOut c 3) : View sig .tc _ _ _)).write (Elt F)
    (((oM.access (rOut c 2) : View sig .tc _ _ _)).write (Elt F)
    (((oM.access (rOut c 1) : View sig .tc _ _ _)).write (Elt F)
    (((oM.access (rOut c 0) : View sig .tc _ _ _)).write (Elt F)
    (((oM.access (rOutOwn c) : View sig .tc _ _ _)).write (Elt F) f0 (accV m c) Finset.univ)
    (k0_pay4 (gM.view.readAt (Elt F) rG0.toLoadRect (gBuf m c 0))) Finset.univ)
    (k0_pay5 (gM.view.readAt (Elt F) rG1.toLoadRect (gBuf m c 1))) Finset.univ)
    (k0_pay6 (gM.view.readAt (Elt F) rG2.toLoadRect (gBuf m c 2))) Finset.univ)
    (k0_pay7 (gM.view.readAt (Elt F) rG3.toLoadRect (gBuf m c 3))) Finset.univ)
    (k0_pay8 (gM.view.readAt (Elt F) rG4.toLoadRect (gBuf m c 4))) Finset.univ)
    (k0_pay9 (gM.view.readAt (Elt F) rG5.toLoadRect (gBuf m c 5))) Finset.univ)
    (k0_pay10 (gM.view.readAt (Elt F) rG6.toLoadRect (gBuf m c 6))) Finset.univ
def outAt (c : Dev nD) : (cc0_stg2_0 : Ref sig .tc).ty.Contents (Elt F) := outW m c (View.junk (Val := Elt F) (View.whole cc0_stg2_0))

omit [FloatOps F] [∀ e, Nonempty (Elt F e)] in
/-- The elements of the column block written for gather offset r + 1: columns 256·((g + 7 − r) mod 8) …; -/
theorem mem_out (c : Dev nD) (r : Fin 7) (i : (cc0_stg2_0 : Ref sig .tc).ty.Idx) :
    Iff (i ∈ ((oM.access (rOut c r) : View sig .tc _ _ _)).set)
      (256 * (((2 * (c.val % 4) + c.val / 16) + 7 - r.val) % 8) ≤ (i 1 : ℕ) ∧ (i 1 : ℕ) < 256 * (((2 * (c.val % 4) + c.val / 16) + 7 - r.val) % 8) + 256) := by
  simp only [Memref.access, Memref.view_whole, View.set_slice_whole, Rect.mem_set_unit]
  rw [k0_off5_eq c r]
  constructor
  · intro h; have h1 := h 1; simp only [Matrix.cons_val_one, Matrix.cons_val_zero] at h1
    have : S128x256.size 1 = 256 := rfl
    omega
  · intro h a
    fin_cases a
    · have := (i 0).isLt
      have h128 : (cc0_stg2_0 : Ref sig .tc).ty.shape.size 0 = 128 := rfl
      have : S128x256.size 0 = 128 := rfl
      simp only [Fin.zero_eta, Matrix.cons_val_zero]; omega
    · have : S128x256.size 1 = 256 := rfl
      simp only [Fin.mk_one, Matrix.cons_val_one, Matrix.cons_val_zero]; omega

omit [FloatOps F] [∀ e, Nonempty (Elt F e)] in
/-- of the own block: columns 256·g …. -/
theorem mem_outOwn (c : Dev nD) (i : (cc0_stg2_0 : Ref sig .tc).ty.Idx) :
    Iff (i ∈ ((oM.access (rOutOwn c) : View sig .tc _ _ _)).set)
      (256 * (2 * (c.val % 4) + c.val / 16) ≤ (i 1 : ℕ) ∧ (i 1 : ℕ) < 256 * (2 * (c.val % 4) + c.val / 16) + 256) := by
  simp only [Memref.access, Memref.view_whole, View.set_slice_whole, Rect.mem_set_unit]
  rw [k0_off4_eq c]
  constructor
  · intro h; have h1 := h 1; simp only [Matrix.cons_val_one, Matrix.cons_val_zero] at h1
    have : S128x256.size 1 = 256 := rfl
    omega
  · intro h a
    fin_cases a
    · have := (i 0).isLt
      have h128 : (cc0_stg2_0 : Ref sig .tc).ty.shape.size 0 = 128 := rfl
      have : S128x256.size 0 = 128 := rfl
      simp only [Fin.zero_eta, Matrix.cons_val_zero]; omega
    · have : S128x256.size 1 = 256 := rfl
      simp only [Fin.mk_one, Matrix.cons_val_one, Matrix.cons_val_zero]; omega

omit [FloatOps F] [∀ e, Nonempty (Elt F e)] in
/-- A whole write through a view over two buffers that agree off the view: the results agree everywhere. -/
theorem write_congr_off {κ : Kind} {sp : Space} {s : Shape} {e : EltTy} (v : View sig κ sp s e) (f g : v.ty.Contents (Elt F)) (w : s.Idx → Elt F e)
    (i : v.ty.Idx) (h : i ∉ v.set → f i = g i) : v.write (Elt F) f w Finset.univ i = v.write (Elt F) g w Finset.univ i := by
  by_cases hi : i ∈ v.set
  · unfold View.set at hi
    obtain ⟨y, -, rfl⟩ := Finset.mem_map.mp hi
    rw [View.write_emb_of_mem _ _ (Finset.mem_univ y), View.write_emb_of_mem _ _ (Finset.mem_univ y)]
  · rw [View.write_of_not_mem _ _ _ (show i ∉ v.setOn Finset.univ from hi), View.write_of_not_mem _ _ _ (show i ∉ v.setOn Finset.univ from hi)]
    exact h hi

set_option maxHeartbeats 1600000 in
/-- The eight column blocks cover the buffer: the result does not depend on what it held. -/
theorem outW_indep (c : Dev nD) (f0 f0' : (cc0_stg2_0 : Ref sig .tc).ty.Contents (Elt F)) : outW m c f0 = outW m c f0' := by
  funext i
  unfold outW
  refine write_congr_off (oM.access (rOut c 6) : View sig .tc _ _ _) _ _ _ i fun h6 => ?_
  refine write_congr_off (oM.access (rOut c 5) : View sig .tc _ _ _) _ _ _ i fun h5 => ?_
  refine write_congr_off (oM.access (rOut c 4) : View sig .tc _ _ _) _ _ _ i fun h4 => ?_
  refine write_congr_off (oM.access (rOut c 3) : View sig .tc _ _ _) _ _ _ i fun h3 => ?_
  refine write_congr_off (oM.access (rOut c 2) : View sig .tc _ _ _) _ _ _ i fun h2 => ?_
  refine write_congr_off (oM.access (rOut c 1) : View sig .tc _ _ _) _ _ _ i fun h1 => ?_
  refine write_congr_off (oM.access (rOut c 0) : View sig .tc _ _ _) _ _ _ i fun h0 => ?_
  refine write_congr_off (oM.access (rOutOwn c) : View sig .tc _ _ _) _ _ _ i fun ho => ?_
  exfalso
  rw [mem_out c 6 i] at h6; rw [mem_out c 5 i] at h5; rw [mem_out c 4 i] at h4; rw [mem_out c 3 i] at h3
  rw [mem_out c 2 i] at h2; rw [mem_out c 1 i] at h1; rw [mem_out c 0 i] at h0; rw [mem_outOwn c i] at ho
  have hi1 := (i 1).isLt
  have h2048 : (cc0_stg2_0 : Ref sig .tc).ty.shape.size 1 = 2048 := rfl
  have hg : 2 * (c.val % 4) + c.val / 16 ≤ 7 := by have hc := c.isLt; have hnD : nD = 32 := rfl; omega
  generalize 2 * (c.val % 4) + c.val / 16 = g at h0 h1 h2 h3 h4 h5 h6 ho hg
  simp only [Fin.val_zero, Fin.val_one, Fin.val_two, show ((3 : Fin 7).val) = 3 from rfl, show ((4 : Fin 7).val) = 4 from rfl, show ((5 : Fin 7).val) = 5 from rfl, show ((6 : Fin 7).val) = 6 from rfl] at h0 h1 h2 h3 h4 h5 h6
  omega

theorem outW_eq_outAt (c : Dev nD) (f0 : (cc0_stg2_0 : Ref sig .tc).ty.Contents (Elt F)) : outW m c f0 = outAt m c := outW_indep m c f0 _

end Cert.KernelIdealProof

end
-- ==== Proof.KernelIdealBody.lean ====
/-
  The body of one device's kernel, stepped once at a symbolic device c: ten entry signals, the barrier wait, the
  local product, three reduce-scatter copies and their arrival waits, the sum, seven gather copies and their arrival
  waits with the stores of the gathered blocks, and the ten departure waits.
-/
import proofs.«900392_g7700000000000393_dist_rsdw_v7x_xyz2x4x4_y_m512_d512_f2048_bf16_1_alg».proof.Proof.KernelIdealOut
import proofs.«900392_g7700000000000393_dist_rsdw_v7x_xyz2x4x4_y_m512_d512_f2048_bf16_1_alg».proof.Proof.Gen.KernelIdeal.Points

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

abbrev 𝒱₀ : Variants := Variants.none

/-! ## Ghost state of one device -/

section Ghost
variable (K : GSem nD τ sig → ℕ) (c : Dev nD)

/-- The invariants of the cells device c touches — its own 21, the barrier cell of each peer, arrival cell i of peer i —
    and the rounds it needs reached. -/
def records : sProp 𝕄 :=
  iprop(cellInv ER (sched m) (K (barCell c)) (barCell c)
    ∗ cellInv ER (sched m) (K (sndCell c 0)) (sndCell c 0)
    ∗ cellInv ER (sched m) (K (sndCell c 1)) (sndCell c 1)
    ∗ cellInv ER (sched m) (K (sndCell c 2)) (sndCell c 2)
    ∗ cellInv ER (sched m) (K (sndCell c 3)) (sndCell c 3)
    ∗ cellInv ER (sched m) (K (sndCell c 4)) (sndCell c 4)
    ∗ cellInv ER (sched m) (K (sndCell c 5)) (sndCell c 5)
    ∗ cellInv ER (sched m) (K (sndCell c 6)) (sndCell c 6)
    ∗ cellInv ER (sched m) (K (sndCell c 7)) (sndCell c 7)
    ∗ cellInv ER (sched m) (K (sndCell c 8)) (sndCell c 8)
    ∗ cellInv ER (sched m) (K (sndCell c 9)) (sndCell c 9)
    ∗ cellInv ER (sched m) (K (rcvCell c 0)) (rcvCell c 0)
    ∗ cellInv ER (sched m) (K (rcvCell c 1)) (rcvCell c 1)
    ∗ cellInv ER (sched m) (K (rcvCell c 2)) (rcvCell c 2)
    ∗ cellInv ER (sched m) (K (rcvCell c 3)) (rcvCell c 3)
    ∗ cellInv ER (sched m) (K (rcvCell c 4)) (rcvCell c 4)
    ∗ cellInv ER (sched m) (K (rcvCell c 5)) (rcvCell c 5)
    ∗ cellInv ER (sched m) (K (rcvCell c 6)) (rcvCell c 6)
    ∗ cellInv ER (sched m) (K (rcvCell c 7)) (rcvCell c 7)
    ∗ cellInv ER (sched m) (K (rcvCell c 8)) (rcvCell c 8)
    ∗ cellInv ER (sched m) (K (rcvCell c 9)) (rcvCell c 9)
    ∗ cellInv ER (sched m) (K (barCell (peer c 0))) (barCell (peer c 0))
    ∗ cellInv ER (sched m) (K (barCell (peer c 1))) (barCell (peer c 1))
    ∗ cellInv ER (sched m) (K (barCell (peer c 2))) (barCell (peer c 2))
    ∗ cellInv ER (sched m) (K (barCell (peer c 3))) (barCell (peer c 3))
    ∗ cellInv ER (sched m) (K (barCell (peer c 4))) (barCell (peer c 4))
    ∗ cellInv ER (sched m) (K (barCell (peer c 5))) (barCell (peer c 5))
    ∗ cellInv ER (sched m) (K (barCell (peer c 6))) (barCell (peer c 6))
    ∗ cellInv ER (sched m) (K (barCell (peer c 7))) (barCell (peer c 7))
    ∗ cellInv ER (sched m) (K (barCell (peer c 8))) (barCell (peer c 8))
    ∗ cellInv ER (sched m) (K (barCell (peer c 9))) (barCell (peer c 9))
    ∗ cellInv ER (sched m) (K (rcvCell (peer c 0) 0)) (rcvCell (peer c 0) 0)
    ∗ cellInv ER (sched m) (K (rcvCell (peer c 1) 1)) (rcvCell (peer c 1) 1)
    ∗ cellInv ER (sched m) (K (rcvCell (peer c 2) 2)) (rcvCell (peer c 2) 2)
    ∗ cellInv ER (sched m) (K (rcvCell (peer c 3) 3)) (rcvCell (peer c 3) 3)
    ∗ cellInv ER (sched m) (K (rcvCell (peer c 4) 4)) (rcvCell (peer c 4) 4)
    ∗ cellInv ER (sched m) (K (rcvCell (peer c 5) 5)) (rcvCell (peer c 5) 5)
    ∗ cellInv ER (sched m) (K (rcvCell (peer c 6) 6)) (rcvCell (peer c 6) 6)
    ∗ cellInv ER (sched m) (K (rcvCell (peer c 7) 7)) (rcvCell (peer c 7) 7)
    ∗ cellInv ER (sched m) (K (rcvCell (peer c 8) 8)) (rcvCell (peer c 8) 8)
    ∗ cellInv ER (sched m) (K (rcvCell (peer c 9) 9)) (rcvCell (peer c 9) 9)
    ∗ reached ER (sndCell c 0) 0
    ∗ reached ER (sndCell c 1) 0
    ∗ reached ER (sndCell c 2) 0
    ∗ reached ER (sndCell c 3) 0
    ∗ reached ER (sndCell c 4) 0
    ∗ reached ER (sndCell c 5) 0
    ∗ reached ER (sndCell c 6) 0
    ∗ reached ER (sndCell c 7) 0
    ∗ reached ER (sndCell c 8) 0
    ∗ reached ER (sndCell c 9) 0
    ∗ reached ER (barCell (peer c 0)) 0
    ∗ reached ER (barCell (peer c 1)) 0
    ∗ reached ER (barCell (peer c 2)) 0
    ∗ reached ER (barCell (peer c 3)) 0
    ∗ reached ER (barCell (peer c 4)) 0
    ∗ reached ER (barCell (peer c 5)) 0
    ∗ reached ER (barCell (peer c 6)) 0
    ∗ reached ER (barCell (peer c 7)) 0
    ∗ reached ER (barCell (peer c 8)) 0
    ∗ reached ER (barCell (peer c 9)) 0
    ∗ reached ER (rcvCell (peer c 0) 0) 0
    ∗ reached ER (rcvCell (peer c 1) 1) 0
    ∗ reached ER (rcvCell (peer c 2) 2) 0
    ∗ reached ER (rcvCell (peer c 3) 3) 0
    ∗ reached ER (rcvCell (peer c 4) 4) 0
    ∗ reached ER (rcvCell (peer c 5) 5) 0
    ∗ reached ER (rcvCell (peer c 6) 6) 0
    ∗ reached ER (rcvCell (peer c 7) 7) 0
    ∗ reached ER (rcvCell (peer c 8) 8) 0
    ∗ reached ER (rcvCell (peer c 9) 9) 0)

set_option synthInstance.maxSize 4096 in
set_option synthInstance.maxHeartbeats 400000 in
instance records_persistent : BI.Persistent (records m K c) := by unfold records; infer_instance

/-- Its positions in its own cells, and the tokens of the thirty duties IT pays: a barrier duty of each peer, the
    arrival duty of each peer's slot, its own departure duties. -/
def linear : sProp 𝕄 :=
  iprop(atPos ER (barCell c) 0 ∅ 0
    ∗ atPos ER (sndCell c 0) 0 ∅ 0
    ∗ atPos ER (sndCell c 1) 0 ∅ 0
    ∗ atPos ER (sndCell c 2) 0 ∅ 0
    ∗ atPos ER (sndCell c 3) 0 ∅ 0
    ∗ atPos ER (sndCell c 4) 0 ∅ 0
    ∗ atPos ER (sndCell c 5) 0 ∅ 0
    ∗ atPos ER (sndCell c 6) 0 ∅ 0
    ∗ atPos ER (sndCell c 7) 0 ∅ 0
    ∗ atPos ER (sndCell c 8) 0 ∅ 0
    ∗ atPos ER (sndCell c 9) 0 ∅ 0
    ∗ atPos ER (rcvCell c 0) 0 ∅ 0
    ∗ atPos ER (rcvCell c 1) 0 ∅ 0
    ∗ atPos ER (rcvCell c 2) 0 ∅ 0
    ∗ atPos ER (rcvCell c 3) 0 ∅ 0
    ∗ atPos ER (rcvCell c 4) 0 ∅ 0
    ∗ atPos ER (rcvCell c 5) 0 ∅ 0
    ∗ atPos ER (rcvCell c 6) 0 ∅ 0
    ∗ atPos ER (rcvCell c 7) 0 ∅ 0
    ∗ atPos ER (rcvCell c 8) 0 ∅ 0
    ∗ atPos ER (rcvCell c 9) 0 ∅ 0
    ∗ dutyTok ER (barCell (peer c 0)) 0 2
    ∗ dutyTok ER (barCell (peer c 1)) 0 1
    ∗ dutyTok ER (barCell (peer c 2)) 0 0
    ∗ dutyTok ER (barCell (peer c 3)) 0 9
    ∗ dutyTok ER (barCell (peer c 4)) 0 8
    ∗ dutyTok ER (barCell (peer c 5)) 0 7
    ∗ dutyTok ER (barCell (peer c 6)) 0 6
    ∗ dutyTok ER (barCell (peer c 7)) 0 5
    ∗ dutyTok ER (barCell (peer c 8)) 0 4
    ∗ dutyTok ER (barCell (peer c 9)) 0 3
    ∗ dutyTok ER (rcvCell (peer c 0) 0) 0 0
    ∗ dutyTok ER (rcvCell (peer c 1) 1) 0 0
    ∗ dutyTok ER (rcvCell (peer c 2) 2) 0 0
    ∗ dutyTok ER (rcvCell (peer c 3) 3) 0 0
    ∗ dutyTok ER (rcvCell (peer c 4) 4) 0 0
    ∗ dutyTok ER (rcvCell (peer c 5) 5) 0 0
    ∗ dutyTok ER (rcvCell (peer c 6) 6) 0 0
    ∗ dutyTok ER (rcvCell (peer c 7) 7) 0 0
    ∗ dutyTok ER (rcvCell (peer c 8) 8) 0 0
    ∗ dutyTok ER (rcvCell (peer c 9) 9) 0 0
    ∗ dutyTok ER (sndCell c 0) 0 0
    ∗ dutyTok ER (sndCell c 1) 0 0
    ∗ dutyTok ER (sndCell c 2) 0 0
    ∗ dutyTok ER (sndCell c 3) 0 0
    ∗ dutyTok ER (sndCell c 4) 0 0
    ∗ dutyTok ER (sndCell c 5) 0 0
    ∗ dutyTok ER (sndCell c 6) 0 0
    ∗ dutyTok ER (sndCell c 7) 0 0
    ∗ dutyTok ER (sndCell c 8) 0 0
    ∗ dutyTok ER (sndCell c 9) 0 0)

def creds : sProp 𝕄 :=
  iprop(cred (tallyAt (barCell c) () 10) ∗ cred (tallyAt (rcvCell c 0) () N) ∗ cred (tallyAt (rcvCell c 1) () N) ∗ cred (tallyAt (rcvCell c 2) () N) ∗ cred (tallyAt (rcvCell c 3) () N) ∗ cred (tallyAt (rcvCell c 4) () N) ∗ cred (tallyAt (rcvCell c 5) () N) ∗ cred (tallyAt (rcvCell c 6) () N) ∗ cred (tallyAt (rcvCell c 7) () N) ∗ cred (tallyAt (rcvCell c 8) () N) ∗ cred (tallyAt (rcvCell c 9) () N))
end Ghost

/-! ## The pipeline's proof data -/

section Data

/-- What device c's body starts from: its ghost state at some names, its launch credit, the level facts. -/
def start (c : Dev nD) : sProp 𝕄 := iprop((∃ K, records m K c ∗ linear (F := F) c) ∗ creds (F := F) c ∗ levAts L lv)

/-- The three scratch buffers, whole, over anything. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own twenty DMA semaphores at zero, closed. -/
def semsZero (c : Dev nD) : sProp 𝕄 :=
  iprop(semVal (sndCell c 0) 0 ∗ semVal (sndCell c 1) 0 ∗ semVal (sndCell c 2) 0 ∗ semVal (sndCell c 3) 0 ∗ semVal (sndCell c 4) 0 ∗ semVal (sndCell c 5) 0 ∗ semVal (sndCell c 6) 0 ∗ semVal (sndCell c 7) 0 ∗ semVal (sndCell c 8) 0 ∗ semVal (sndCell c 9) 0 ∗ semVal (rcvCell c 0) 0 ∗ semVal (rcvCell c 1) 0 ∗ semVal (rcvCell c 2) 0 ∗ semVal (rcvCell c 3) 0 ∗ semVal (rcvCell c 4) 0 ∗ semVal (rcvCell c 5) 0 ∗ semVal (rcvCell c 6) 0 ∗ semVal (rcvCell c 7) 0 ∗ semVal (rcvCell c 8) 0 ∗ semVal (rcvCell c 9) 0)

def Φ₀ (c : Dev nD) : sProp 𝕄 := iprop(start m c ∗ bufs (F := F) c)
def Φ₁ (c : Dev nD) : sProp 𝕄 := iprop(bufs (F := F) c ∗ semsZero (F := F) c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => dyC m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Data

/-! ## Two facts about views, and the copy step -/

section Helpers

omit [FloatOps F] [∀ e, Nonempty (Elt F e)] in
/-- Written whole through a view, the view's elements hold the payload, whatever was there. -/
theorem write_agree_on_set {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  unfold View.set at hi
  obtain ⟨y, -, rfl⟩ := Finset.mem_map.mp hi
  rw [View.write_emb_of_mem _ _ (Finset.mem_univ y), View.write_emb_of_mem _ _ (Finset.mem_univ y)]

omit [FloatOps F] [∀ e, Nonempty (Elt F e)] in
/-- A read through a view sees the view's elements only. -/
theorem read_agree_of_set {κ : Kind} {sp : Space} {s : Shape} {e : EltTy} (v : View sig κ sp s e) (f g : v.ty.Contents (Elt F))
    (h : ∀ i ∈ v.set, f i = g i) : v.read (Elt F) f = v.read (Elt F) g :=
  funext fun x => by
    rw [View.read_apply, View.read_apply, h _ (by unfold View.set; exact Finset.mem_map.mpr ⟨x, Finset.mem_univ _, rfl⟩)]

theorem landed_eq (c : Dev nD) (i : Fin 10) :
    landed m c i = (slot i).view.write (Elt F) (View.junk (Val := Elt F) (slot i).view)
      ((src (peer c (rev i)) i).view.read (Elt F) (srcC m (peer c (rev i)) i)) Finset.univ := by
  revert i; intro i; fin_cases i <;> rfl

theorem slot_amount : ∀ i : Fin 10, (slot i).view.amount (.dma (rcvQ i)) = N := by
  intro i; fin_cases i <;> rfl

omit [∀ e, Nonempty (Elt F e)] in
theorem hz2 : (![0, 0] : Fin 2 → Nat) = fun _ => 0 := funext fun a => by fin_cases a <;> rfl

/-- The store of P(c) covers the partial-product buffer. -/
theorem part_written (c : Dev nD) (fp : (cc0_scratch0 : Ref sig .tc).ty.Contents (Elt F)) :
    (pM : Memref sig .tc .vmem S512x256 .bf16).view.writes (Elt F) fp
        [⟨rP, k0_pay1 (xM.view.readAt (Elt F) rX.toLoadRect (xC m c)) (dyM.view.readAt (Elt F) (rDy c).toLoadRect (dyC m c))⟩]
      = pC m c := by
  rw [View.writes_cons, View.writes_nil]
  show ((Memref.whole cc0_scratch0).access rP : View sig .tc _ _ _).write (Elt F) fp (pC m c) Finset.univ = pC m c
  exact Memref.write_access_unit_zero_univ (Elt F) cc0_scratch0 hz2 inb_S512x256_S512x256_0_0 fp (pC m c)

variable (K : GSem nD τ sig → ℕ)

/-- The copy to peer i: the source elements (holding what the schedule says the source holds) go into the departure
    cell, the peer's landing slot rewritten into its arrival cell; the arrival credit comes off what the device owes. -/
theorem send_step (c : Dev nD) (i : Fin 10) (n : Dev nD) (hn : n = peer c i)
    {hsc : ((slot i : Memref sig (Dev.tc n : Thread nD τ).2.kind .vmem S128x256 .bf16)).view.ref.isScScratch = false}
    {hsrc : (src c i).view.WordExact} {hdst : (slot i).view.WordExact}
    {hsem : DmaTarget.Typed .vmem (.dma (rcvQ i)) (.remote (Dev.tc n : Thread nD τ) (slot i) (.dma (sndQ i)) hsc)}
    {α : Type} {Q : α → sProp 𝕄} {k : PUnit → Prog (TpuEff nD τ sig (Elt F) Λ₀ .tc) α}
    (fs : Buf (Elt F) ((src c i).view.loc (c : Thread nD τ))) (fd : Buf (Elt F) ((slot i).view.loc (peer c i : Thread nD τ)))
    (hfs : ∀ x ∈ (src c i).view.set, fs x = srcC m c i x)
    {O₁ : CellTallies nD τ sig Unit} (O : CellTallies nD τ sig Unit) (hO : O₁ = O + tallyAt (rcvCell (peer c i) i) () N) (W : Waits sig Unit) :
    iprop(cellInv ER (sched m) (K (sndCell c i)) (sndCell c i) ∗ cellInv ER (sched m) (K (rcvCell (peer c i) i)) (rcvCell (peer c i) i)
        ∗ ((src c i).view.loc (c : Thread nD τ) ↦[(src c i).view.set]{shr i} fs)
        ∗ ((slot i).view.loc (peer c i : Thread nD τ) ↦[(slot i).view.set]{fullShare} fd)
        ∗ owes (c : Thread nD τ) O₁ W
        ∗ dutyTok ER (sndCell c i) 0 0 ∗ reached ER (sndCell c i) 0
        ∗ dutyTok ER (rcvCell (peer c i) i) 0 0 ∗ reached ER (rcvCell (peer c i) i) 0)
      ⊢ iprop(((cred (tallyAt (sndCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src c i) (.remote (Dev.tc n : Thread nD τ) (slot i) (.dma (sndQ i)) hsc) (.dma (rcvQ i)) hsrc hdst hsem) k) Q) := by
  subst hn
  exact Rounds.wp_send_pointsTo 𝒱₀ ER (sched m) (c : Thread nD τ) none (κ₁ := K (sndCell c i)) (κ₂ := K (rcvCell (peer c i) i))
    (r₁ := 0) (r₂ := 0) (d₁ := 0) (d₂ := 0) (fd := fd)
    (by rw [duties_snd]; exact Finset.mem_singleton_self _) (by rw [duties_rcv]; exact Finset.mem_singleton_self _)
    () () N (slot_amount i) (amount_snd m c i 0) (amount_rcv m (peer c i) i 0) O hO (W := W)
    (by rw [payload_snd]; unfold sndPay; exact Entails.of_eq (pointsTo_congr hfs))
    (by
      rw [payload_rcv]; unfold rcvPay slotPts
      rw [landed_eq, peer_rev]
      refine Entails.of_eq (pointsTo_congr fun x hx => ?_)
      rw [read_agree_of_set (src c i).view fs (srcC m c i) hfs]
      exact write_agree_on_set (slot i).view _ _ _ x hx)

end Helpers

/-! ## Putting the buffers back together, in the forms the run leaves the pieces -/

section Rejoin
variable (c : Dev nD)

omit [FloatOps F] in
theorem whole_eq (b : Ref sig .tc) (q : PosShare TreeShare) (f : Buf (Elt F) ((c : Thread nD τ).loc b)) :
    ((((c : Thread nD τ).loc b) ↦{q} f) : sProp 𝕄) = ((Memref.whole b : Memref sig .tc _ _ _).view.loc (c : Thread nD τ) ↦{q} f) := rfl

/-- The partial-product buffer from the three row blocks the departure waits return, the kept block and the rest. -/
theorem p_rejoin (g3 f : Buf (Elt F) ((pM : Memref sig .tc .vmem S512x256 .bf16).view.loc (c : Thread nD τ))) :
    iprop(((src c 0).view.loc (c : Thread nD τ) ↦[(src c 0).view.set]{shr 0} srcC m c 0)
        ∗ ((src c 1).view.loc (c : Thread nD τ) ↦[(src c 1).view.set]{shr 1} srcC m c 1)
        ∗ ((src c 2).view.loc (c : Thread nD τ) ↦[(src c 2).view.set]{shr 2} srcC m c 2)
        ∗ ((pM.access (rOwn c) : View sig .tc _ _ _).loc (c : Thread nD τ) ↦[(pM.access (rOwn c) : View sig .tc _ _ _).set]{fullShare} g3)
        ∗ ((pM : Memref sig .tc .vmem S512x256 .bf16).view.loc (c : Thread nD τ) ↦[pRest c]{fullShare} f))
      ⊢ (∃ f' : Buf (Elt F) ((c : Thread nD τ).loc cc0_scratch0), (((c : Thread nD τ).loc cc0_scratch0) ↦{fullShare} f') : sProp 𝕄) :=
  p_join (F := F) c (pC m c) (pC m c) (pC m c) g3 f

omit [FloatOps F] in
theorem rs_rejoin (g0 g1 g2 f : Buf (Elt F) ((rM : Memref sig .tc .vmem S3x128x256 .bf16).view.loc (c : Thread nD τ))) :
    iprop(((slot 0).view.loc (c : Thread nD τ) ↦[(slot 0).view.set]{fullShare} g0)
        ∗ ((slot 1).view.loc (c : Thread nD τ) ↦[(slot 1).view.set]{fullShare} g1)
        ∗ ((slot 2).view.loc (c : Thread nD τ) ↦[(slot 2).view.set]{fullShare} g2)
        ∗ rsRestPts c f)
      ⊢ (∃ f' : Buf (Elt F) ((c : Thread nD τ).loc cc0_scratch1), (((c : Thread nD τ).loc cc0_scratch1) ↦{fullShare} f') : sProp 𝕄) :=
  rs_join (F := F) c g0 g1 g2 f

/-- Plane 7 from the seven eighths the departure waits return and the eighth kept. -/
theorem own_rejoin :
    iprop(((src c 3).view.loc (c : Thread nD τ) ↦[(src c 3).view.set]{shr 3} srcC m c 3)
        ∗ ((src c 4).view.loc (c : Thread nD τ) ↦[(src c 4).view.set]{shr 4} srcC m c 4)
        ∗ ((src c 5).view.loc (c : Thread nD τ) ↦[(src c 5).view.set]{shr 5} srcC m c 5)
        ∗ ((src c 6).view.loc (c : Thread nD τ) ↦[(src c 6).view.set]{shr 6} srcC m c 6)
        ∗ ((src c 7).view.loc (c : Thread nD τ) ↦[(src c 7).view.set]{shr 7} srcC m c 7)
        ∗ ((src c 8).view.loc (c : Thread nD τ) ↦[(src c 8).view.set]{shr 8} srcC m c 8)
        ∗ ((src c 9).view.loc (c : Thread nD τ) ↦[(src c 9).view.set]{shr 9} srcC m c 9)
        ∗ ((ownG : Memref sig .tc .vmem S128x256 .bf16).view.loc (c : Thread nD τ) ↦[(ownG : Memref sig .tc .vmem S128x256 .bf16).view.set]{fullShare.right.right.right} ownC m c))
      ⊢ (ownPts c fullShare (ownC m c) : sProp 𝕄) :=
  own_unshare (F := F) c (ownC m c)

omit [FloatOps F] in
theorem g_rejoin (g0 g1 g2 g3 g4 g5 g6 g7 f : Buf (Elt F) ((gM : Memref sig .tc .vmem S8x128x256 .bf16).view.loc (c : Thread nD τ))) :
    iprop(((slot 3).view.loc (c : Thread nD τ) ↦[(slot 3).view.set]{fullShare} g0)
        ∗ ((slot 4).view.loc (c : Thread nD τ) ↦[(slot 4).view.set]{fullShare} g1)
        ∗ ((slot 5).view.loc (c : Thread nD τ) ↦[(slot 5).view.set]{fullShare} g2)
        ∗ ((slot 6).view.loc (c : Thread nD τ) ↦[(slot 6).view.set]{fullShare} g3)
        ∗ ((slot 7).view.loc (c : Thread nD τ) ↦[(slot 7).view.set]{fullShare} g4)
        ∗ ((slot 8).view.loc (c : Thread nD τ) ↦[(slot 8).view.set]{fullShare} g5)
        ∗ ((slot 9).view.loc (c : Thread nD τ) ↦[(slot 9).view.set]{fullShare} g6)
        ∗ ownPts c fullShare g7
        ∗ gRestPts c f)
      ⊢ (∃ f' : Buf (Elt F) ((c : Thread nD τ).loc cc0_scratch2), (((c : Thread nD τ).loc cc0_scratch2) ↦{fullShare} f') : sProp 𝕄) :=
  g_join (F := F) c g0 g1 g2 g3 g4 g5 g6 g7 f

end Rejoin

/-! ## The body -/

section Body
variable (K : GSem nD τ sig → ℕ)

attribute [local sl_rounds] duties_bar duties_snd duties_rcv amount_bar amount_snd amount_rcv expect_bar expect_snd expect_rcv payload_bar payload_snd payload_rcv barPay_eq sndPay_eq rcvPay_eq
attribute [local sl_rounds high] barPay_sig0 barPay_sig1 barPay_sig2 barPay_sig3 barPay_sig4 barPay_sig5 barPay_sig6 barPay_sig7 barPay_sig8 barPay_sig9

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K c ∗ linear (F := F) c ∗ creds (F := F) c ∗ levAts L lv ∗ bufs (F := F) c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt () t0_0.succ ∗ stg c cc0_stg0_0 (xC m c) ∗ stg c cc0_stg1_0 (dyC m c) ∗ stg c cc0_stg2_0 (outAt m c))

set_option maxHeartbeats 8000000 in
/-- One device's body from its invariant: every statement a step, the copies by `send_step`. -/
theorem run_body (c : Dev nD) (Kt : PUnit → sProp 𝕄) :
    iprop(bodyPre m K c ∗ (bodyPost m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  unfold bodyPre records linear creds bufs
  iintro ⟨⟨⟨⟨#Ib, #Is0, #Is1, #Is2, #Is3, #Is4, #Is5, #Is6, #Is7, #Is8, #Is9, #Ir0, #Ir1, #Ir2, #Ir3, #Ir4, #Ir5, #Ir6, #Ir7, #Ir8, #Ir9, #Ipb0, #Ipb1, #Ipb2, #Ipb3, #Ipb4, #Ipb5, #Ipb6, #Ipb7, #Ipb8, #Ipb9, #Ipr0, #Ipr1, #Ipr2, #Ipr3, #Ipr4, #Ipr5, #Ipr6, #Ipr7, #Ipr8, #Ipr9, #Rs0, #Rs1, #Rs2, #Rs3, #Rs4, #Rs5, #Rs6, #Rs7, #Rs8, #Rs9, #Rpb0, #Rpb1, #Rpb2, #Rpb3, #Rpb4, #Rpb5, #Rpb6, #Rpb7, #Rpb8, #Rpb9, #Rpr0, #Rpr1, #Rpr2, #Rpr3, #Rpr4, #Rpr5, #Rpr6, #Rpr7, #Rpr8, #Rpr9⟩, ⟨Ab, As0, As1, As2, As3, As4, As5, As6, As7, As8, As9, Ar0, Ar1, Ar2, Ar3, Ar4, Ar5, Ar6, Ar7, Ar8, Ar9, Tb0, Tb1, Tb2, Tb3, Tb4, Tb5, Tb6, Tb7, Tb8, Tb9, Ta0, Ta1, Ta2, Ta3, Ta4, Ta5, Ta6, Ta7, Ta8, Ta9, Td0, Td1, Td2, Td3, Td4, Td5, Td6, Td7, Td8, Td9⟩, ⟨Cb, Cr0, Cr1, Cr2, Cr3, Cr4, Cr5, Cr6, Cr7, Cr8, Cr9⟩, #Hlev, ⟨%fp, Hp0⟩, ⟨%fr, Hr0⟩, ⟨%fg, Hg0⟩⟩, Ho, ⟨%d0, %g0, %hg0, Hx0⟩, ⟨%d1, %g1, %hg1, Hdy0⟩, ⟨%d2, %fo, %hg2, Hout0⟩⟩, Hk⟩
  have hx : g0 = xC m c := by rw [hg0]; unfold Dat.before; rw [if_pos (fetch0_0 t0_0)]; rfl
  have hdy : g1 = dyC m c := by rw [hg1]; unfold Dat.before; rw [if_pos (fetch0_1 t0_0)]; rfl
  subst hx hdy
  unfold Dat.owesAt Pipeline.owesWithin
  icases Ho with ⟨%W, %hW, HO⟩
  rw [show (dats m 0 c).owed t0_0.castSucc = O₀ c from rfl]
  unfold O₀ OR OG owedRcv owedBar
  -- the buffers, through their memrefs; the two landing buffers cut into planes
  ihave Hp := (Entails.of_eq (whole_eq (F := F) c cc0_scratch0 fullShare fp)) $$ Hp0
  ihave Hr1 := (Entails.of_eq (whole_eq (F := F) c cc0_scratch1 fullShare fr)) $$ Hr0
  ihave Hg1 := (Entails.of_eq (whole_eq (F := F) c cc0_scratch2 fullShare fg)) $$ Hg0
  ihave Hx := (Entails.of_eq (whole_eq (F := F) c cc0_stg0_0 fullShare (xC m c))) $$ Hx0
  ihave Hdy := (Entails.of_eq (whole_eq (F := F) c cc0_stg1_0 fullShare (dyC m c))) $$ Hdy0
  ihave Hout := (Entails.of_eq (whole_eq (F := F) c cc0_stg2_0 fullShare fo)) $$ Hout0
  ihave Hr2 := (rs_split (F := F) c fr) $$ Hr1
  icases Hr2 with ⟨Hsl0, Hsl1, Hsl2, HrsRest⟩
  ihave Hg2 := (g_split (F := F) c fg) $$ Hg1
  icases Hg2 with ⟨Hsl3, Hsl4, Hsl5, Hsl6, Hsl7, Hsl8, Hsl9, Hown, HgRest⟩
  have hmw_bar := mayWait_bar (F := F) c
  unfold OR OG owedRcv at hmw_bar
  have hmw_rs0 := mayWait_rs (F := F) c 0 (by decide)
  have hmw_rs1 := mayWait_rs (F := F) c 1 (by decide)
  have hmw_rs2 := mayWait_rs (F := F) c 2 (by decide)
  unfold OG owedRcv at hmw_rs0 hmw_rs1 hmw_rs2
  -- the ten entry signals: each hands the peer one landing slot of this device
  have hd1 := dev1_eq c
  ihave Hs2' := (Entails.of_eq (slotPts_eq (F := F) c 2 fr)) $$ Hsl2
  sl_exec
  clear hd1
  have hd2 := dev2_eq c
  ihave Hs1' := (Entails.of_eq (slotPts_eq (F := F) c 1 fr)) $$ Hsl1
  sl_exec
  clear hd2
  have hd3 := dev3_eq c
  ihave Hs0' := (Entails.of_eq (slotPts_eq (F := F) c 0 fr)) $$ Hsl0
  sl_exec
  clear hd3
  have hd4 := dev4_eq c
  ihave Hs9' := (Entails.of_eq (slotPts_eq (F := F) c 9 fg)) $$ Hsl9
  sl_exec
  clear hd4
  have hd5 := dev5_eq c
  ihave Hs8' := (Entails.of_eq (slotPts_eq (F := F) c 8 fg)) $$ Hsl8
  sl_exec
  clear hd5
  have hd6 := dev6_eq c
  ihave Hs7' := (Entails.of_eq (slotPts_eq (F := F) c 7 fg)) $$ Hsl7
  sl_exec
  clear hd6
  have hd7 := dev7_eq c
  ihave Hs6' := (Entails.of_eq (slotPts_eq (F := F) c 6 fg)) $$ Hsl6
  sl_exec
  clear hd7
  have hd8 := dev8_eq c
  ihave Hs5' := (Entails.of_eq (slotPts_eq (F := F) c 5 fg)) $$ Hsl5
  sl_exec
  clear hd8
  have hd9 := dev9_eq c
  ihave Hs4' := (Entails.of_eq (slotPts_eq (F := F) c 4 fg)) $$ Hsl4
  sl_exec
  clear hd9
  have hd10 := dev10_eq c
  ihave Hs3' := (Entails.of_eq (slotPts_eq (F := F) c 3 fg)) $$ Hsl3
  sl_exec
  clear hd10
  -- the ten landing slots the peers handed over
  ihave Hps := (Entails.of_eq (bigSep_fin10 _)) $$ Ab_pay1
  icases Hps with ⟨⟨%q0, Hq0⟩, ⟨%q1, Hq1⟩, ⟨%q2, Hq2⟩, ⟨%q3, Hq3⟩, ⟨%q4, Hq4⟩, ⟨%q5, Hq5⟩, ⟨%q6, Hq6⟩, ⟨%q7, Hq7⟩, ⟨%q8, Hq8⟩, ⟨%q9, Hq9⟩⟩
  -- the partial-product buffer holds P(c): cut it into the three row blocks to send and the one to keep
  ihave Hp1 := (Entails.of_eq (congrArg (fun f => ((pM : Memref sig .tc .vmem S512x256 .bf16).view.loc (c : Thread nD τ) ↦{fullShare} f : sProp 𝕄)) (part_written m c fp))) $$ Hp
  ihave Hp2 := (p_split (F := F) c (pC m c)) $$ Hp1
  icases Hp2 with ⟨Hr0', Hr1', Hr2', Hro, Hrr⟩
  have hd11 := dev11_eq c
  iapply (send_step m K c 2 _ hd11 _ q2 (fun _ _ => rfl) _ rfl _) $$ [Hr2' Hq2 HO Td2 Ta2]
  · isplitr; · iexact Is2
    isplitr; · iexact Ipr2
    isplitl [Hr2']; · iexact Hr2'
    isplitl [Hq2]; · iexact Hq2
    isplitl [HO]; · iexact HO
    isplitl [Td2]; · iexact Td2
    isplitr; · iexact Rs2
    isplitl [Ta2]; · iexact Ta2
    iexact Rpr2
  iintro ⟨Cs2, HO⟩
  clear hd11
  sl_exec
  have hd12 := dev12_eq c
  iapply (send_step m K c 1 _ hd12 _ q1 (fun _ _ => rfl) _ rfl _) $$ [Hr1' Hq1 HO Td1 Ta1]
  · isplitr; · iexact Is1
    isplitr; · iexact Ipr1
    isplitl [Hr1']; · iexact Hr1'
    isplitl [Hq1]; · iexact Hq1
    isplitl [HO]; · iexact HO
    isplitl [Td1]; · iexact Td1
    isplitr; · iexact Rs1
    isplitl [Ta1]; · iexact Ta1
    iexact Rpr1
  iintro ⟨Cs1, HO⟩
  clear hd12
  sl_exec
  have hd13 := dev13_eq c
  iapply (send_step m K c 0 _ hd13 _ q0 (fun _ _ => rfl) _ rfl _) $$ [Hr0' Hq0 HO Td0 Ta0]
  · isplitr; · iexact Is0
    isplitr; · iexact Ipr0
    isplitl [Hr0']; · iexact Hr0'
    isplitl [Hq0]; · iexact Hq0
    isplitl [HO]; · iexact HO
    isplitl [Td0]; · iexact Td0
    isplitr; · iexact Rs0
    isplitl [Ta0]; · iexact Ta0
    iexact Rpr0
  iintro ⟨Cs0, HO⟩
  clear hd13
  unfold ownPts
  sl_exec
  -- the own row block of P(c), from the quarter of the buffer the device kept
  iapply (wp_load_rect 𝒱₀ (c : Thread nD τ) none Set.univ (m := pM) (r := rOwn c) (fun _ h => h)) $$ Hro; iintro Hro
  sl_exec
  -- plane 7 holds A(c): seven eighths of its share go out with the seven gather copies
  have hown : ∀ x ∈ (ownG : Memref sig .tc .vmem S128x256 .bf16).view.set, run_body.sl.Hown_w1 m c fg x = ownC m c x :=
    fun x hx => write_agree_on_set (gM.access rG7 : View sig .tc _ _ _) fg _ _ x (ownG_set ▸ hx)
  ihave Hown' := (Entails.of_eq (ownPts_eq (F := F) c fullShare (run_body.sl.Hown_w1 m c fg)).symm) $$ Hown
  ihave Hsh := (own_shares (F := F) c _) $$ Hown'
  icases Hsh with ⟨Ho3, Ho4, Ho5, Ho6, Ho7, Ho8, Ho9, HoK⟩
  unfold ownPts
  have hd14 := dev14_eq c
  iapply (send_step m K c 9 _ hd14 _ q9 hown _ rfl _) $$ [Ho9 Hq9 HO Td9 Ta9]
  · isplitr; · iexact Is9
    isplitr; · iexact Ipr9
    isplitl [Ho9]; · iexact Ho9
    isplitl [Hq9]; · iexact Hq9
    isplitl [HO]; · iexact HO
    isplitl [Td9]; · iexact Td9
    isplitr; · iexact Rs9
    isplitl [Ta9]; · iexact Ta9
    iexact Rpr9
  iintro ⟨Cs9, HO⟩
  clear hd14
  sl_exec
  have hd15 := dev15_eq c
  iapply (send_step m K c 8 _ hd15 _ q8 hown _ rfl _) $$ [Ho8 Hq8 HO Td8 Ta8]
  · isplitr; · iexact Is8
    isplitr; · iexact Ipr8
    isplitl [Ho8]; · iexact Ho8
    isplitl [Hq8]; · iexact Hq8
    isplitl [HO]; · iexact HO
    isplitl [Td8]; · iexact Td8
    isplitr; · iexact Rs8
    isplitl [Ta8]; · iexact Ta8
    iexact Rpr8
  iintro ⟨Cs8, HO⟩
  clear hd15
  sl_exec
  have hd16 := dev16_eq c
  iapply (send_step m K c 7 _ hd16 _ q7 hown _ rfl _) $$ [Ho7 Hq7 HO Td7 Ta7]
  · isplitr; · iexact Is7
    isplitr; · iexact Ipr7
    isplitl [Ho7]; · iexact Ho7
    isplitl [Hq7]; · iexact Hq7
    isplitl [HO]; · iexact HO
    isplitl [Td7]; · iexact Td7
    isplitr; · iexact Rs7
    isplitl [Ta7]; · iexact Ta7
    iexact Rpr7
  iintro ⟨Cs7, HO⟩
  clear hd16
  sl_exec
  have hd17 := dev17_eq c
  iapply (send_step m K c 6 _ hd17 _ q6 hown _ rfl _) $$ [Ho6 Hq6 HO Td6 Ta6]
  · isplitr; · iexact Is6
    isplitr; · iexact Ipr6
    isplitl [Ho6]; · iexact Ho6
    isplitl [Hq6]; · iexact Hq6
    isplitl [HO]; · iexact HO
    isplitl [Td6]; · iexact Td6
    isplitr; · iexact Rs6
    isplitl [Ta6]; · iexact Ta6
    iexact Rpr6
  iintro ⟨Cs6, HO⟩
  clear hd17
  sl_exec
  have hd18 := dev18_eq c
  iapply (send_step m K c 5 _ hd18 _ q5 hown _ rfl _) $$ [Ho5 Hq5 HO Td5 Ta5]
  · isplitr; · iexact Is5
    isplitr; · iexact Ipr5
    isplitl [Ho5]; · iexact Ho5
    isplitl [Hq5]; · iexact Hq5
    isplitl [HO]; · iexact HO
    isplitl [Td5]; · iexact Td5
    isplitr; · iexact Rs5
    isplitl [Ta5]; · iexact Ta5
    iexact Rpr5
  iintro ⟨Cs5, HO⟩
  clear hd18
  sl_exec
  have hd19 := dev19_eq c
  iapply (send_step m K c 4 _ hd19 _ q4 hown _ rfl _) $$ [Ho4 Hq4 HO Td4 Ta4]
  · isplitr; · iexact Is4
    isplitr; · iexact Ipr4
    isplitl [Ho4]; · iexact Ho4
    isplitl [Hq4]; · iexact Hq4
    isplitl [HO]; · iexact HO
    isplitl [Td4]; · iexact Td4
    isplitr; · iexact Rs4
    isplitl [Ta4]; · iexact Ta4
    iexact Rpr4
  iintro ⟨Cs4, HO⟩
  clear hd19
  sl_exec
  have hd20 := dev20_eq c
  iapply (send_step m K c 3 _ hd20 _ q3 hown 0 (zero_add _).symm _) $$ [Ho3 Hq3 HO Td3 Ta3]
  · isplitr; · iexact Is3
    isplitr; · iexact Ipr3
    isplitl [Ho3]; · iexact Ho3
    isplitl [Hq3]; · iexact Hq3
    isplitl [HO]; · iexact HO
    isplitl [Td3]; · iexact Td3
    isplitr; · iexact Rs3
    isplitl [Ta3]; · iexact Ta3
    iexact Rpr3
  iintro ⟨Cs3, HO⟩
  clear hd20
  sl_exec
  -- the kernel's own twenty cells close: their counters at zero are the device's again
  imod (Rounds.cell_close ER (sched m) (Set.mem_univ (K (sndCell c 0))) (fun h => h) (R := 0 + 1) (duties_later m (sndCell c 0))) $$ [As0] with Zs0
  · isplitr; · iexact Is0
    iexact As0
  imod (Rounds.cell_close ER (sched m) (Set.mem_univ (K (sndCell c 1))) (fun h => h) (R := 0 + 1) (duties_later m (sndCell c 1))) $$ [As1] with Zs1
  · isplitr; · iexact Is1
    iexact As1
  imod (Rounds.cell_close ER (sched m) (Set.mem_univ (K (sndCell c 2))) (fun h => h) (R := 0 + 1) (duties_later m (sndCell c 2))) $$ [As2] with Zs2
  · isplitr; · iexact Is2
    iexact As2
  imod (Rounds.cell_close ER (sched m) (Set.mem_univ (K (sndCell c 3))) (fun h => h) (R := 0 + 1) (duties_later m (sndCell c 3))) $$ [As3] with Zs3
  · isplitr; · iexact Is3
    iexact As3
  imod (Rounds.cell_close ER (sched m) (Set.mem_univ (K (sndCell c 4))) (fun h => h) (R := 0 + 1) (duties_later m (sndCell c 4))) $$ [As4] with Zs4
  · isplitr; · iexact Is4
    iexact As4
  imod (Rounds.cell_close ER (sched m) (Set.mem_univ (K (sndCell c 5))) (fun h => h) (R := 0 + 1) (duties_later m (sndCell c 5))) $$ [As5] with Zs5
  · isplitr; · iexact Is5
    iexact As5
  imod (Rounds.cell_close ER (sched m) (Set.mem_univ (K (sndCell c 6))) (fun h => h) (R := 0 + 1) (duties_later m (sndCell c 6))) $$ [As6] with Zs6
  · isplitr; · iexact Is6
    iexact As6
  imod (Rounds.cell_close ER (sched m) (Set.mem_univ (K (sndCell c 7))) (fun h => h) (R := 0 + 1) (duties_later m (sndCell c 7))) $$ [As7] with Zs7
  · isplitr; · iexact Is7
    iexact As7
  imod (Rounds.cell_close ER (sched m) (Set.mem_univ (K (sndCell c 8))) (fun h => h) (R := 0 + 1) (duties_later m (sndCell c 8))) $$ [As8] with Zs8
  · isplitr; · iexact Is8
    iexact As8
  imod (Rounds.cell_close ER (sched m) (Set.mem_univ (K (sndCell c 9))) (fun h => h) (R := 0 + 1) (duties_later m (sndCell c 9))) $$ [As9] with Zs9
  · isplitr; · iexact Is9
    iexact As9
  imod (Rounds.cell_close ER (sched m) (Set.mem_univ (K (rcvCell c 0))) (fun h => h) (R := 0 + 1) (duties_later m (rcvCell c 0))) $$ [Ar0] with Zr0
  · isplitr; · iexact Ir0
    iexact Ar0
  imod (Rounds.cell_close ER (sched m) (Set.mem_univ (K (rcvCell c 1))) (fun h => h) (R := 0 + 1) (duties_later m (rcvCell c 1))) $$ [Ar1] with Zr1
  · isplitr; · iexact Ir1
    iexact Ar1
  imod (Rounds.cell_close ER (sched m) (Set.mem_univ (K (rcvCell c 2))) (fun h => h) (R := 0 + 1) (duties_later m (rcvCell c 2))) $$ [Ar2] with Zr2
  · isplitr; · iexact Ir2
    iexact Ar2
  imod (Rounds.cell_close ER (sched m) (Set.mem_univ (K (rcvCell c 3))) (fun h => h) (R := 0 + 1) (duties_later m (rcvCell c 3))) $$ [Ar3] with Zr3
  · isplitr; · iexact Ir3
    iexact Ar3
  imod (Rounds.cell_close ER (sched m) (Set.mem_univ (K (rcvCell c 4))) (fun h => h) (R := 0 + 1) (duties_later m (rcvCell c 4))) $$ [Ar4] with Zr4
  · isplitr; · iexact Ir4
    iexact Ar4
  imod (Rounds.cell_close ER (sched m) (Set.mem_univ (K (rcvCell c 5))) (fun h => h) (R := 0 + 1) (duties_later m (rcvCell c 5))) $$ [Ar5] with Zr5
  · isplitr; · iexact Ir5
    iexact Ar5
  imod (Rounds.cell_close ER (sched m) (Set.mem_univ (K (rcvCell c 6))) (fun h => h) (R := 0 + 1) (duties_later m (rcvCell c 6))) $$ [Ar6] with Zr6
  · isplitr; · iexact Ir6
    iexact Ar6
  imod (Rounds.cell_close ER (sched m) (Set.mem_univ (K (rcvCell c 7))) (fun h => h) (R := 0 + 1) (duties_later m (rcvCell c 7))) $$ [Ar7] with Zr7
  · isplitr; · iexact Ir7
    iexact Ar7
  imod (Rounds.cell_close ER (sched m) (Set.mem_univ (K (rcvCell c 8))) (fun h => h) (R := 0 + 1) (duties_later m (rcvCell c 8))) $$ [Ar8] with Zr8
  · isplitr; · iexact Ir8
    iexact Ar8
  imod (Rounds.cell_close ER (sched m) (Set.mem_univ (K (rcvCell c 9))) (fun h => h) (R := 0 + 1) (duties_later m (rcvCell c 9))) $$ [Ar9] with Zr9
  · isplitr; · iexact Ir9
    iexact Ar9
  -- the buffers whole again
  ihave Hpw := (p_rejoin m c _ _) $$ [As0_pay1 As1_pay1 As2_pay1 Hro Hrr]
  · isplitl [As0_pay1]; · iexact As0_pay1
    isplitl [As1_pay1]; · iexact As1_pay1
    isplitl [As2_pay1]; · iexact As2_pay1
    isplitl [Hro]; · iexact Hro
    iexact Hrr
  ihave Hrw := (rs_rejoin (F := F) c _ _ _ _) $$ [Ar0_pay1 Ar1_pay1 Ar2_pay1 HrsRest]
  · isplitl [Ar0_pay1]; · iexact Ar0_pay1
    isplitl [Ar1_pay1]; · iexact Ar1_pay1
    isplitl [Ar2_pay1]; · iexact Ar2_pay1
    iexact HrsRest
  ihave HoK' := (Entails.of_eq (pointsTo_congr hown)) $$ HoK
  ihave Hown2 := (own_rejoin m c) $$ [As3_pay1 As4_pay1 As5_pay1 As6_pay1 As7_pay1 As8_pay1 As9_pay1 HoK']
  · isplitl [As3_pay1]; · iexact As3_pay1
    isplitl [As4_pay1]; · iexact As4_pay1
    isplitl [As5_pay1]; · iexact As5_pay1
    isplitl [As6_pay1]; · iexact As6_pay1
    isplitl [As7_pay1]; · iexact As7_pay1
    isplitl [As8_pay1]; · iexact As8_pay1
    isplitl [As9_pay1]; · iexact As9_pay1
    iexact HoK'
  ihave Hgw := (g_rejoin (F := F) c _ _ _ _ _ _ _ _ _) $$ [Ar3_pay1 Ar4_pay1 Ar5_pay1 Ar6_pay1 Ar7_pay1 Ar8_pay1 Ar9_pay1 Hown2 HgRest]
  · isplitl [Ar3_pay1]; · iexact Ar3_pay1
    isplitl [Ar4_pay1]; · iexact Ar4_pay1
    isplitl [Ar5_pay1]; · iexact Ar5_pay1
    isplitl [Ar6_pay1]; · iexact Ar6_pay1
    isplitl [Ar7_pay1]; · iexact Ar7_pay1
    isplitl [Ar8_pay1]; · iexact Ar8_pay1
    isplitl [Ar9_pay1]; · iexact Ar9_pay1
    isplitl [Hown2]; · iexact Hown2
    iexact HgRest
  rw [wp_ret]; imodintro
  iapply Hk
  unfold bodyPost Φ₁ bufs semsZero Dat.owesAt Pipeline.owesWithin
  rw [show (dats m 0 c).owed t0_0.succ = 0 from rfl]
  isplitl [Hpw Hrw Hgw Zs0 Zs1 Zs2 Zs3 Zs4 Zs5 Zs6 Zs7 Zs8 Zs9 Zr0 Zr1 Zr2 Zr3 Zr4 Zr5 Zr6 Zr7 Zr8 Zr9]
  · isplitl [Hpw Hrw Hgw]
    · isplitl [Hpw]; · iexact Hpw
      isplitl [Hrw]; · iexact Hrw
      iexact Hgw
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zs8]; · iexact Zs8
    isplitl [Zs9]; · iexact Zs9
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zr8]; · iexact Zr8
    iexact Zr9
  isplitl [HO]
  · iexists _
    isplitr
    on_goal 2 => iexact HO
    ipureintro; exact fun _ _ => Or.inl trivial
  isplitl [Hx]
  · iexists _; isplitr; · (ipureintro; rfl)
    iexact Hx
  isplitl [Hdy]
  · iexists _; isplitr; · (ipureintro; rfl)
    iexact Hdy
  iexists _; isplitr
  · ipureintro; exact (show _ = outW m c fo from rfl).trans (outW_eq_outAt m c fo)
  iexact Hout

end Body

end Cert.KernelIdealProof

end
-- ==== Proof.KernelIdealLaunch.lean ====
/-
  The launch: the cells' ghost state allocated for all devices at once (the barrier cells are the runtime's, shared by
  the devices that signal them), the duty tokens dealt to the devices that pay them, the launch credit, and the run of
  @main on the 32 devices.
-/
import proofs.«900392_g7700000000000393_dist_rsdw_v7x_xyz2x4x4_y_m512_d512_f2048_bf16_1_alg».proof.Proof.KernelIdealBody

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Cells and tokens, enumerated -/

/-- The kernel's own (scoped) semaphores as the launch indexes them: the ten departure, the ten arrival cells; -/
abbrev osem : Fin 20 → SemLoc sig
  | 0 => .dma (sndQ 0) | 1 => .dma (sndQ 1) | 2 => .dma (sndQ 2) | 3 => .dma (sndQ 3) | 4 => .dma (sndQ 4) | 5 => .dma (sndQ 5) | 6 => .dma (sndQ 6) | 7 => .dma (sndQ 7) | 8 => .dma (sndQ 8) | 9 => .dma (sndQ 9) | 10 => .dma (rcvQ 0) | 11 => .dma (rcvQ 1) | 12 => .dma (rcvQ 2) | 13 => .dma (rcvQ 3) | 14 => .dma (rcvQ 4) | 15 => .dma (rcvQ 5) | 16 => .dma (rcvQ 6) | 17 => .dma (rcvQ 7) | 18 => .dma (rcvQ 8) | 19 => .dma (rcvQ 9) | ⟨_ + 20, h⟩ => absurd h (by omega)
/-- all 21 cells of the protocol on a device: the barrier cell, then those twenty. -/
abbrev csem : Fin 21 → SemLoc sig
  | 0 => .reg barS | 1 => .dma (sndQ 0) | 2 => .dma (sndQ 1) | 3 => .dma (sndQ 2) | 4 => .dma (sndQ 3) | 5 => .dma (sndQ 4) | 6 => .dma (sndQ 5) | 7 => .dma (sndQ 6) | 8 => .dma (sndQ 7) | 9 => .dma (sndQ 8) | 10 => .dma (sndQ 9) | 11 => .dma (rcvQ 0) | 12 => .dma (rcvQ 1) | 13 => .dma (rcvQ 2) | 14 => .dma (rcvQ 3) | 15 => .dma (rcvQ 4) | 16 => .dma (rcvQ 5) | 17 => .dma (rcvQ 6) | 18 => .dma (rcvQ 7) | 19 => .dma (rcvQ 8) | 20 => .dma (rcvQ 9) | ⟨_ + 21, h⟩ => absurd h (by omega)
abbrev kcell (ck : Dev nD × Fin 21) : GSem nD τ sig := ((ck.1 : Thread nD τ), csem ck.2)

theorem csem_injective : Function.Injective csem := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def protoCells : Finset (GSem nD τ sig) := Finset.univ.map ⟨kcell, kcell_injective⟩

/-- The index of a cell's semaphore among the 21 (0 for a semaphore that is none of them). -/
def idx : SemLoc sig → Fin 21
  | .reg _ => 0
  | .dma q => if h1 : q.val < 3 then 0 else if h2 : q.val < 6 then ⟨q.val - 2, by omega⟩ else if h3 : q.val < 9 then ⟨q.val + 5, by omega⟩
      else if h4 : q.val < 16 then ⟨q.val - 5, by omega⟩ else ⟨q.val - 2, by have := q.isLt; show q.val - 2 < 21; have : sig.nDmaSem = 23 := rfl; omega⟩
theorem idx_csem : ∀ k : Fin 21, idx (csem k) = k := by decide

/-- A device's own cells' duty tokens as minted: the ten duties of its barrier cell, the one duty of each departure and
    each arrival cell. -/
abbrev tokSem : Fin 30 → SemLoc sig
  | 0 => .reg barS | 1 => .reg barS | 2 => .reg barS | 3 => .reg barS | 4 => .reg barS | 5 => .reg barS | 6 => .reg barS | 7 => .reg barS | 8 => .reg barS | 9 => .reg barS | 10 => .dma (sndQ 0) | 11 => .dma (sndQ 1) | 12 => .dma (sndQ 2) | 13 => .dma (sndQ 3) | 14 => .dma (sndQ 4) | 15 => .dma (sndQ 5) | 16 => .dma (sndQ 6) | 17 => .dma (sndQ 7) | 18 => .dma (sndQ 8) | 19 => .dma (sndQ 9) | 20 => .dma (rcvQ 0) | 21 => .dma (rcvQ 1) | 22 => .dma (rcvQ 2) | 23 => .dma (rcvQ 3) | 24 => .dma (rcvQ 4) | 25 => .dma (rcvQ 5) | 26 => .dma (rcvQ 6) | 27 => .dma (rcvQ 7) | 28 => .dma (rcvQ 8) | 29 => .dma (rcvQ 9) | ⟨_ + 30, h⟩ => absurd h (by omega)
abbrev tokDuty : Fin 30 → Fin 10
  | 0 => 0 | 1 => 1 | 2 => 2 | 3 => 3 | 4 => 4 | 5 => 5 | 6 => 6 | 7 => 7 | 8 => 8 | 9 => 9 | 10 => 0 | 11 => 0 | 12 => 0 | 13 => 0 | 14 => 0 | 15 => 0 | 16 => 0 | 17 => 0 | 18 => 0 | 19 => 0 | 20 => 0 | 21 => 0 | 22 => 0 | 23 => 0 | 24 => 0 | 25 => 0 | 26 => 0 | 27 => 0 | 28 => 0 | 29 => 0 | ⟨_ + 30, h⟩ => absurd h (by omega)
abbrev tokOf (cj : Dev nD × Fin 30) : GSem nD τ sig × ℕ × Fin 10 := (((cj.1 : Thread nD τ), tokSem cj.2), 0, tokDuty cj.2)
theorem tokKey_injective : ∀ a b : Fin 30, tokSem a = tokSem b → tokDuty a = tokDuty b → a = b := by decide
theorem tokOf_injective : Function.Injective (tokOf : Dev nD × Fin 30 → GSem nD τ sig × ℕ × Fin 10) := by
  rintro ⟨c, j⟩ ⟨c', j'⟩ h
  have h1 : c = c' := congrArg (fun x : GSem nD τ sig × ℕ × Fin 10 => x.1.1.1) h
  subst h1
  rw [tokKey_injective j j' (congrArg (fun x : GSem nD τ sig × ℕ × Fin 10 => x.1.2) h) (congrArg (fun x : GSem nD τ sig × ℕ × Fin 10 => x.2.2) h)]
def protoToks : Finset (GSem nD τ sig × ℕ × Fin 10) := Finset.univ.map ⟨tokOf, tokOf_injective⟩

def u₀ : UU :=
  (initOf (Pipeline.cells cfgs cellOf_inj) (Pipeline.launchToks cfgs cellOf_inj), initOf protoCells protoToks)

/-! ## The body obligation, in the library's form -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 4000 in
/-- The library's body obligation on device c. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m c)
  unfold bodyPre' Φ₀ start
  iintro ⟨⟨⟨⟨%K, Hrec, Hlin⟩, Hcr, Hlev⟩, Hb⟩, Ho, Hx, Hdy, Hout⟩
  iapply (run_body m K c fun _ => bodyPost m c)
  unfold bodyPre
  isplitr []
  · isplitl [Hrec Hlin Hcr Hlev Hb]
    · isplitl [Hrec]; · iexact Hrec
      isplitl [Hlin]; · iexact Hlin
      isplitl [Hcr]; · iexact Hcr
      isplitl [Hlev]; · iexact Hlev
      iexact Hb
    isplitl [Ho]; · iexact Ho
    isplitl [Hx]; · iexact Hx
    isplitl [Hdy]; · iexact Hdy
    iexact Hout
  · iintro H; iexact H

/-! ## What the launch deals a device, and what the global step makes of it -/

/-- The duty tokens of device c's own cells. -/
def toks (c : Dev nD) : sProp 𝕄 := iprop(dutyTok ER (barCell c) 0 0 ∗ dutyTok ER (barCell c) 0 1 ∗ dutyTok ER (barCell c) 0 2 ∗ dutyTok ER (barCell c) 0 3 ∗ dutyTok ER (barCell c) 0 4 ∗ dutyTok ER (barCell c) 0 5 ∗ dutyTok ER (barCell c) 0 6 ∗ dutyTok ER (barCell c) 0 7 ∗ dutyTok ER (barCell c) 0 8 ∗ dutyTok ER (barCell c) 0 9 ∗ dutyTok ER (sndCell c 0) 0 0 ∗ dutyTok ER (sndCell c 1) 0 0 ∗ dutyTok ER (sndCell c 2) 0 0 ∗ dutyTok ER (sndCell c 3) 0 0 ∗ dutyTok ER (sndCell c 4) 0 0 ∗ dutyTok ER (sndCell c 5) 0 0 ∗ dutyTok ER (sndCell c 6) 0 0 ∗ dutyTok ER (sndCell c 7) 0 0 ∗ dutyTok ER (sndCell c 8) 0 0 ∗ dutyTok ER (sndCell c 9) 0 0 ∗ dutyTok ER (rcvCell c 0) 0 0 ∗ dutyTok ER (rcvCell c 1) 0 0 ∗ dutyTok ER (rcvCell c 2) 0 0 ∗ dutyTok ER (rcvCell c 3) 0 0 ∗ dutyTok ER (rcvCell c 4) 0 0 ∗ dutyTok ER (rcvCell c 5) 0 0 ∗ dutyTok ER (rcvCell c 6) 0 0 ∗ dutyTok ER (rcvCell c 7) 0 0 ∗ dutyTok ER (rcvCell c 8) 0 0 ∗ dutyTok ER (rcvCell c 9) 0 0)
/-- The duty tokens device c pays with. -/
def payToks (c : Dev nD) : sProp 𝕄 := iprop(dutyTok ER (barCell (peer c 0)) 0 2 ∗ dutyTok ER (barCell (peer c 1)) 0 1 ∗ dutyTok ER (barCell (peer c 2)) 0 0 ∗ dutyTok ER (barCell (peer c 3)) 0 9 ∗ dutyTok ER (barCell (peer c 4)) 0 8 ∗ dutyTok ER (barCell (peer c 5)) 0 7 ∗ dutyTok ER (barCell (peer c 6)) 0 6 ∗ dutyTok ER (barCell (peer c 7)) 0 5 ∗ dutyTok ER (barCell (peer c 8)) 0 4 ∗ dutyTok ER (barCell (peer c 9)) 0 3 ∗ dutyTok ER (rcvCell (peer c 0) 0) 0 0 ∗ dutyTok ER (rcvCell (peer c 1) 1) 0 0 ∗ dutyTok ER (rcvCell (peer c 2) 2) 0 0 ∗ dutyTok ER (rcvCell (peer c 3) 3) 0 0 ∗ dutyTok ER (rcvCell (peer c 4) 4) 0 0 ∗ dutyTok ER (rcvCell (peer c 5) 5) 0 0 ∗ dutyTok ER (rcvCell (peer c 6) 6) 0 0 ∗ dutyTok ER (rcvCell (peer c 7) 7) 0 0 ∗ dutyTok ER (rcvCell (peer c 8) 8) 0 0 ∗ dutyTok ER (rcvCell (peer c 9) 9) 0 0 ∗ dutyTok ER (sndCell c 0) 0 0 ∗ dutyTok ER (sndCell c 1) 0 0 ∗ dutyTok ER (sndCell c 2) 0 0 ∗ dutyTok ER (sndCell c 3) 0 0 ∗ dutyTok ER (sndCell c 4) 0 0 ∗ dutyTok ER (sndCell c 5) 0 0 ∗ dutyTok ER (sndCell c 6) 0 0 ∗ dutyTok ER (sndCell c 7) 0 0 ∗ dutyTok ER (sndCell c 8) 0 0 ∗ dutyTok ER (sndCell c 9) 0 0)
def positions (c : Dev nD) : sProp 𝕄 := iprop(atPos ER (barCell c) 0 ∅ 0 ∗ atPos ER (sndCell c 0) 0 ∅ 0 ∗ atPos ER (sndCell c 1) 0 ∅ 0 ∗ atPos ER (sndCell c 2) 0 ∅ 0 ∗ atPos ER (sndCell c 3) 0 ∅ 0 ∗ atPos ER (sndCell c 4) 0 ∅ 0 ∗ atPos ER (sndCell c 5) 0 ∅ 0 ∗ atPos ER (sndCell c 6) 0 ∅ 0 ∗ atPos ER (sndCell c 7) 0 ∅ 0 ∗ atPos ER (sndCell c 8) 0 ∅ 0 ∗ atPos ER (sndCell c 9) 0 ∅ 0 ∗ atPos ER (rcvCell c 0) 0 ∅ 0 ∗ atPos ER (rcvCell c 1) 0 ∅ 0 ∗ atPos ER (rcvCell c 2) 0 ∅ 0 ∗ atPos ER (rcvCell c 3) 0 ∅ 0 ∗ atPos ER (rcvCell c 4) 0 ∅ 0 ∗ atPos ER (rcvCell c 5) 0 ∅ 0 ∗ atPos ER (rcvCell c 6) 0 ∅ 0 ∗ atPos ER (rcvCell c 7) 0 ∅ 0 ∗ atPos ER (rcvCell c 8) 0 ∅ 0 ∗ atPos ER (rcvCell c 9) 0 ∅ 0)

/-- What the launch element deals device c (the theorem's G). -/
def G (c : Dev nD) : sProp 𝕄 :=
  iprop((bigSep Finset.univ fun k : Fin 21 => roundState ER (sched m) (kcell (c, k)) 0)
    ∗ (bigSep Finset.univ fun k : Fin 21 => iprop(atPos ER (kcell (c, k)) 0 ∅ 0 ∗ reached ER (kcell (c, k)) 0)) ∗ toks (F := F) c)

/-- What the global step makes of it (G'). -/
def G' (c : Dev nD) : sProp 𝕄 := iprop(∃ K, records m K c ∗ linear (F := F) c)

omit [FloatOps F] [∀ e, Nonempty (Elt F e)] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] [∀ e, Nonempty (Elt F e)] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ
omit [FloatOps F] [∀ e, Nonempty (Elt F e)] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 21 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin30]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

omit [FloatOps F] [∀ e, Nonempty (Elt F e)] in
/-- The twenty own semaphores at zero, as the launch hands them over; -/
theorem ownSems0_eq (c : Dev nD) : (Pipeline.ownSems0 (Ix := Unit) (Name := ℕ) (U := UU) (Lvl := ℕ) (Val := Elt F) (τ := τ) osem c : sProp 𝕄)
    = semsZero (F := F) c := by
  rw [Pipeline.ownSems0_eq_of_list c osem [0, 1, 2, 3, 4, 5, 6, 7, 8, 9, 10, 11, 12, 13, 14, 15, 16, 17, 18, 19] (by decide) (by decide)]; rfl
omit [FloatOps F] [∀ e, Nonempty (Elt F e)] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [∀ e, Nonempty (Elt F e)] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_fin21]
  unfold semsZero
  iintro ⟨⟨H0, H1, H2, H3, H4, H5, H6, H7, H8, H9, H10, H11, H12, H13, H14, H15, H16, H17, H18, H19⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The names of all cells' invariants, as a function of the cell. -/
def Kof (K' : Dev nD × Fin 21 → ℕ) (g : GSem nD τ sig) : ℕ := K' (g.1.1, idx g.2)
theorem Kof_kcell (K' : Dev nD × Fin 21 → ℕ) (ck : Dev nD × Fin 21) : Kof K' (kcell ck) = K' ck := by
  unfold Kof; show K' (ck.1, idx (csem ck.2)) = K' ck; rw [idx_csem]

theorem inv_at (K' : Dev nD × Fin 21 → ℕ) (ck : Dev nD × Fin 21) :
    (bigSep Finset.univ fun ck : Dev nD × Fin 21 => (cellInv ER (sched m) (K' ck) (kcell ck) : sProp 𝕄)) ⊢ cellInv ER (sched m) (Kof K' (kcell ck)) (kcell ck) := by
  rw [Kof_kcell]; exact bigSep_elim (Finset.mem_univ ck)
omit [FloatOps F] [∀ e, Nonempty (Elt F e)] in
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

theorem records_intro (K' : Dev nD × Fin 21 → ℕ) (c : Dev nD) :
    iprop(□ (bigSep Finset.univ fun ck : Dev nD × Fin 21 => cellInv ER (sched m) (K' ck) (kcell ck))
        ∗ □ (bigSep Finset.univ fun ck : Dev nD × Fin 21 => (reached ER (kcell ck) 0 : sProp 𝕄)))
      ⊢ records m (Kof K' ) c := by
  unfold records
  iintro ⟨#HI, #HR⟩
  isplitr; · iapply (inv_at m K' (c, 0)); iexact HI
  isplitr; · iapply (inv_at m K' (c, 1)); iexact HI
  isplitr; · iapply (inv_at m K' (c, 2)); iexact HI
  isplitr; · iapply (inv_at m K' (c, 3)); iexact HI
  isplitr; · iapply (inv_at m K' (c, 4)); iexact HI
  isplitr; · iapply (inv_at m K' (c, 5)); iexact HI
  isplitr; · iapply (inv_at m K' (c, 6)); iexact HI
  isplitr; · iapply (inv_at m K' (c, 7)); iexact HI
  isplitr; · iapply (inv_at m K' (c, 8)); iexact HI
  isplitr; · iapply (inv_at m K' (c, 9)); iexact HI
  isplitr; · iapply (inv_at m K' (c, 10)); iexact HI
  isplitr; · iapply (inv_at m K' (c, 11)); iexact HI
  isplitr; · iapply (inv_at m K' (c, 12)); iexact HI
  isplitr; · iapply (inv_at m K' (c, 13)); iexact HI
  isplitr; · iapply (inv_at m K' (c, 14)); iexact HI
  isplitr; · iapply (inv_at m K' (c, 15)); iexact HI
  isplitr; · iapply (inv_at m K' (c, 16)); iexact HI
  isplitr; · iapply (inv_at m K' (c, 17)); iexact HI
  isplitr; · iapply (inv_at m K' (c, 18)); iexact HI
  isplitr; · iapply (inv_at m K' (c, 19)); iexact HI
  isplitr; · iapply (inv_at m K' (c, 20)); iexact HI
  isplitr; · iapply (inv_at m K' (peer c 0, 0)); iexact HI
  isplitr; · iapply (inv_at m K' (peer c 1, 0)); iexact HI
  isplitr; · iapply (inv_at m K' (peer c 2, 0)); iexact HI
  isplitr; · iapply (inv_at m K' (peer c 3, 0)); iexact HI
  isplitr; · iapply (inv_at m K' (peer c 4, 0)); iexact HI
  isplitr; · iapply (inv_at m K' (peer c 5, 0)); iexact HI
  isplitr; · iapply (inv_at m K' (peer c 6, 0)); iexact HI
  isplitr; · iapply (inv_at m K' (peer c 7, 0)); iexact HI
  isplitr; · iapply (inv_at m K' (peer c 8, 0)); iexact HI
  isplitr; · iapply (inv_at m K' (peer c 9, 0)); iexact HI
  isplitr; · iapply (inv_at m K' (peer c 0, 11)); iexact HI
  isplitr; · iapply (inv_at m K' (peer c 1, 12)); iexact HI
  isplitr; · iapply (inv_at m K' (peer c 2, 13)); iexact HI
  isplitr; · iapply (inv_at m K' (peer c 3, 14)); iexact HI
  isplitr; · iapply (inv_at m K' (peer c 4, 15)); iexact HI
  isplitr; · iapply (inv_at m K' (peer c 5, 16)); iexact HI
  isplitr; · iapply (inv_at m K' (peer c 6, 17)); iexact HI
  isplitr; · iapply (inv_at m K' (peer c 7, 18)); iexact HI
  isplitr; · iapply (inv_at m K' (peer c 8, 19)); iexact HI
  isplitr; · iapply (inv_at m K' (peer c 9, 20)); iexact HI
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (peer c 0, 0)); iexact HR
  isplitr; · iapply (reached_at (F := F) (peer c 1, 0)); iexact HR
  isplitr; · iapply (reached_at (F := F) (peer c 2, 0)); iexact HR
  isplitr; · iapply (reached_at (F := F) (peer c 3, 0)); iexact HR
  isplitr; · iapply (reached_at (F := F) (peer c 4, 0)); iexact HR
  isplitr; · iapply (reached_at (F := F) (peer c 5, 0)); iexact HR
  isplitr; · iapply (reached_at (F := F) (peer c 6, 0)); iexact HR
  isplitr; · iapply (reached_at (F := F) (peer c 7, 0)); iexact HR
  isplitr; · iapply (reached_at (F := F) (peer c 8, 0)); iexact HR
  isplitr; · iapply (reached_at (F := F) (peer c 9, 0)); iexact HR
  isplitr; · iapply (reached_at (F := F) (peer c 0, 11)); iexact HR
  isplitr; · iapply (reached_at (F := F) (peer c 1, 12)); iexact HR
  isplitr; · iapply (reached_at (F := F) (peer c 2, 13)); iexact HR
  isplitr; · iapply (reached_at (F := F) (peer c 3, 14)); iexact HR
  isplitr; · iapply (reached_at (F := F) (peer c 4, 15)); iexact HR
  isplitr; · iapply (reached_at (F := F) (peer c 5, 16)); iexact HR
  isplitr; · iapply (reached_at (F := F) (peer c 6, 17)); iexact HR
  isplitr; · iapply (reached_at (F := F) (peer c 7, 18)); iexact HR
  isplitr; · iapply (reached_at (F := F) (peer c 8, 19)); iexact HR
  iapply (reached_at (F := F) (peer c 9, 20)); iexact HR

/-- Peer i as a permutation of the devices (its inverse is peer rev i). -/
def peerE (i : Fin 10) : Dev nD ≃ Dev nD := ⟨fun c => peer c i, fun c => peer c (rev i), fun c => peer_rev c i, fun c => by
  have h := peer_rev c (rev i); rw [rev_rev] at h; exact h⟩

omit [FloatOps F] [∀ e, Nonempty (Elt F e)] in
/-- The tokens dealt around: duty j of a device's barrier cell goes to its peer j, its arrival duty i to the device that
    counts it as peer i; the departure duties stay. -/
theorem toks_around : (bigSep Finset.univ fun c : Dev nD => (toks c : sProp 𝕄)) ⊢ bigSep Finset.univ fun c : Dev nD => payToks c := by
  unfold toks payToks
  simp only [bigSep_sep']
  rw [bigSep_univ_equiv (peerE 2) (fun c : Dev nD => (dutyTok ER (barCell c) 0 0 : sProp 𝕄)),
    bigSep_univ_equiv (peerE 1) (fun c : Dev nD => (dutyTok ER (barCell c) 0 1 : sProp 𝕄)),
    bigSep_univ_equiv (peerE 0) (fun c : Dev nD => (dutyTok ER (barCell c) 0 2 : sProp 𝕄)),
    bigSep_univ_equiv (peerE 9) (fun c : Dev nD => (dutyTok ER (barCell c) 0 3 : sProp 𝕄)),
    bigSep_univ_equiv (peerE 8) (fun c : Dev nD => (dutyTok ER (barCell c) 0 4 : sProp 𝕄)),
    bigSep_univ_equiv (peerE 7) (fun c : Dev nD => (dutyTok ER (barCell c) 0 5 : sProp 𝕄)),
    bigSep_univ_equiv (peerE 6) (fun c : Dev nD => (dutyTok ER (barCell c) 0 6 : sProp 𝕄)),
    bigSep_univ_equiv (peerE 5) (fun c : Dev nD => (dutyTok ER (barCell c) 0 7 : sProp 𝕄)),
    bigSep_univ_equiv (peerE 4) (fun c : Dev nD => (dutyTok ER (barCell c) 0 8 : sProp 𝕄)),
    bigSep_univ_equiv (peerE 3) (fun c : Dev nD => (dutyTok ER (barCell c) 0 9 : sProp 𝕄)),
    bigSep_univ_equiv (peerE 0) (fun c : Dev nD => (dutyTok ER (rcvCell c 0) 0 0 : sProp 𝕄)),
    bigSep_univ_equiv (peerE 1) (fun c : Dev nD => (dutyTok ER (rcvCell c 1) 0 0 : sProp 𝕄)),
    bigSep_univ_equiv (peerE 2) (fun c : Dev nD => (dutyTok ER (rcvCell c 2) 0 0 : sProp 𝕄)),
    bigSep_univ_equiv (peerE 3) (fun c : Dev nD => (dutyTok ER (rcvCell c 3) 0 0 : sProp 𝕄)),
    bigSep_univ_equiv (peerE 4) (fun c : Dev nD => (dutyTok ER (rcvCell c 4) 0 0 : sProp 𝕄)),
    bigSep_univ_equiv (peerE 5) (fun c : Dev nD => (dutyTok ER (rcvCell c 5) 0 0 : sProp 𝕄)),
    bigSep_univ_equiv (peerE 6) (fun c : Dev nD => (dutyTok ER (rcvCell c 6) 0 0 : sProp 𝕄)),
    bigSep_univ_equiv (peerE 7) (fun c : Dev nD => (dutyTok ER (rcvCell c 7) 0 0 : sProp 𝕄)),
    bigSep_univ_equiv (peerE 8) (fun c : Dev nD => (dutyTok ER (rcvCell c 8) 0 0 : sProp 𝕄)),
    bigSep_univ_equiv (peerE 9) (fun c : Dev nD => (dutyTok ER (rcvCell c 9) 0 0 : sProp 𝕄))]
  iintro ⟨M0, M1, M2, M3, M4, M5, M6, M7, M8, M9, M10, M11, M12, M13, M14, M15, M16, M17, M18, M19, M20, M21, M22, M23, M24, M25, M26, M27, M28, M29⟩
  isplitl [M2]; · iexact M2
  isplitl [M1]; · iexact M1
  isplitl [M0]; · iexact M0
  isplitl [M9]; · iexact M9
  isplitl [M8]; · iexact M8
  isplitl [M7]; · iexact M7
  isplitl [M6]; · iexact M6
  isplitl [M5]; · iexact M5
  isplitl [M4]; · iexact M4
  isplitl [M3]; · iexact M3
  isplitl [M20]; · iexact M20
  isplitl [M21]; · iexact M21
  isplitl [M22]; · iexact M22
  isplitl [M23]; · iexact M23
  isplitl [M24]; · iexact M24
  isplitl [M25]; · iexact M25
  isplitl [M26]; · iexact M26
  isplitl [M27]; · iexact M27
  isplitl [M28]; · iexact M28
  isplitl [M29]; · iexact M29
  isplitl [M10]; · iexact M10
  isplitl [M11]; · iexact M11
  isplitl [M12]; · iexact M12
  isplitl [M13]; · iexact M13
  isplitl [M14]; · iexact M14
  isplitl [M15]; · iexact M15
  isplitl [M16]; · iexact M16
  isplitl [M17]; · iexact M17
  isplitl [M18]; · iexact M18
  iexact M19

omit [FloatOps F] [∀ e, Nonempty (Elt F e)] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The global facts every device's records are read off: all cells' invariants at their names, round 0 of all reached. -/
def globals (K' : Dev nD × Fin 21 → ℕ) : sProp 𝕄 :=
  iprop((bigSep Finset.univ fun ck : Dev nD × Fin 21 => cellInv ER (sched m) (K' ck) (kcell ck))
    ∗ bigSep Finset.univ fun ck : Dev nD × Fin 21 => reached ER (kcell ck) 0)
instance globals_persistent (K' : Dev nD × Fin 21 → ℕ) : BI.Persistent (globals m K') := by unfold globals; infer_instance

theorem ghost_intro (K' : Dev nD × Fin 21 → ℕ) (c : Dev nD) :
    iprop(globals m K' ∗ (positions (F := F) c ∗ payToks (F := F) c)) ⊢ G' m c := by
  unfold globals G'
  iintro ⟨⟨#HI, #HR⟩, Hpos, Htok⟩
  iexists (Kof K')
  isplitr
  · iapply (records_intro m K' c)
    isplitr
    · imodintro; iexact HI
    · imodintro; iexact HR
  · unfold linear positions payToks
    icases Hpos with ⟨P0, P1, P2, P3, P4, P5, P6, P7, P8, P9, P10, P11, P12, P13, P14, P15, P16, P17, P18, P19, P20⟩
    icases Htok with ⟨T0, T1, T2, T3, T4, T5, T6, T7, T8, T9, T10, T11, T12, T13, T14, T15, T16, T17, T18, T19, T20, T21, T22, T23, T24, T25, T26, T27, T28, T29⟩
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    iexact T29

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 21 => iprop(∃ κ : ℕ, cellInv ER (sched m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (sched m) κ (kcell ck) : sProp 𝕄))) $$ HI
  icases HK with ⟨%K', #HI⟩
  ihave Htk := (toks_around (F := F)) $$ Htok
  iapply (bigSep_with_persistent (R := globals m K') fun c _ => ghost_intro m K' c)
  isplitr
  · unfold globals; isplitl; · iexact HI
    iexact HR
  · iapply ((Entails.of_eq (bigSep_sep' Finset.univ (fun c : Dev nD => bigSep Finset.univ fun k : Fin 21 => (atPos ER (kcell (c, k)) 0 ∅ 0 : sProp 𝕄)) payToks).symm).trans
      (bigSep_mono fun c _ => show _ ⊢ iprop(positions c ∗ payToks c) from Entails.of_eq (by unfold positions; rw [bigSep_fin21])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem peerE_right (i : Fin 10) (c : Dev nD) : peer (peer c (rev i)) i = c := (peerE i).right_inv c

omit [FloatOps F] [∀ e, Nonempty (Elt F e)] in
theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] [∀ e, Nonempty (Elt F e)] in
/-- Every peer owes a device's barrier cell one unit, and the peer that counts it as peer i owes its arrival cell i the
    block's credit: summed over the devices that is the device's launch credit. -/
theorem creds_of_launch (c : Dev nD) : (Pipeline.launchCred O₀ c : sProp 𝕄) ⊢ creds (F := F) c := by
  have e : (O₀ : Dev nD → CellTallies nD τ sig Unit) = fun d : Dev nD => owedRcv d 3 + owedRcv d 4 + owedRcv d 5 + owedRcv d 6 + owedRcv d 7 + owedRcv d 8 + owedRcv d 9 + owedRcv d 0 + owedRcv d 1 + owedRcv d 2 + owedBar d 9 + owedBar d 8 + owedBar d 7 + owedBar d 6 + owedBar d 5 + owedBar d 4 + owedBar d 3 + owedBar d 2 + owedBar d 1 + owedBar d 0 := rfl
  rw [e]
  simp only [Pipeline.launchCred_add]
  iintro ⟨⟨⟨⟨⟨⟨⟨⟨⟨⟨⟨⟨⟨⟨⟨⟨⟨⟨⟨L0, L1⟩, L2⟩, L3⟩, L4⟩, L5⟩, L6⟩, L7⟩, L8⟩, L9⟩, L10⟩, L11⟩, L12⟩, L13⟩, L14⟩, L15⟩, L16⟩, L17⟩, L18⟩, L19⟩
  unfold owedRcv owedBar
  ihave R3 := (Pipeline.launchCred_tallyAt (.dma (rcvQ 3)) (fun d => peer d 3) (fun c => peer c 9) (fun c => peerE_right 3 c) (fun d => peer_rev d 3) () N c) $$ L0
  ihave R4 := (Pipeline.launchCred_tallyAt (.dma (rcvQ 4)) (fun d => peer d 4) (fun c => peer c 8) (fun c => peerE_right 4 c) (fun d => peer_rev d 4) () N c) $$ L1
  ihave R5 := (Pipeline.launchCred_tallyAt (.dma (rcvQ 5)) (fun d => peer d 5) (fun c => peer c 7) (fun c => peerE_right 5 c) (fun d => peer_rev d 5) () N c) $$ L2
  ihave R6 := (Pipeline.launchCred_tallyAt (.dma (rcvQ 6)) (fun d => peer d 6) (fun c => peer c 6) (fun c => peerE_right 6 c) (fun d => peer_rev d 6) () N c) $$ L3
  ihave R7 := (Pipeline.launchCred_tallyAt (.dma (rcvQ 7)) (fun d => peer d 7) (fun c => peer c 5) (fun c => peerE_right 7 c) (fun d => peer_rev d 7) () N c) $$ L4
  ihave R8 := (Pipeline.launchCred_tallyAt (.dma (rcvQ 8)) (fun d => peer d 8) (fun c => peer c 4) (fun c => peerE_right 8 c) (fun d => peer_rev d 8) () N c) $$ L5
  ihave R9 := (Pipeline.launchCred_tallyAt (.dma (rcvQ 9)) (fun d => peer d 9) (fun c => peer c 3) (fun c => peerE_right 9 c) (fun d => peer_rev d 9) () N c) $$ L6
  ihave R0 := (Pipeline.launchCred_tallyAt (.dma (rcvQ 0)) (fun d => peer d 0) (fun c => peer c 2) (fun c => peerE_right 0 c) (fun d => peer_rev d 0) () N c) $$ L7
  ihave R1 := (Pipeline.launchCred_tallyAt (.dma (rcvQ 1)) (fun d => peer d 1) (fun c => peer c 1) (fun c => peerE_right 1 c) (fun d => peer_rev d 1) () N c) $$ L8
  ihave R2 := (Pipeline.launchCred_tallyAt (.dma (rcvQ 2)) (fun d => peer d 2) (fun c => peer c 0) (fun c => peerE_right 2 c) (fun d => peer_rev d 2) () N c) $$ L9
  ihave B9 := (Pipeline.launchCred_tallyAt (.reg barS) (fun d => peer d 9) (fun c => peer c 3) (fun c => peerE_right 9 c) (fun d => peer_rev d 9) () 1 c) $$ L10
  ihave B8 := (Pipeline.launchCred_tallyAt (.reg barS) (fun d => peer d 8) (fun c => peer c 4) (fun c => peerE_right 8 c) (fun d => peer_rev d 8) () 1 c) $$ L11
  ihave B7 := (Pipeline.launchCred_tallyAt (.reg barS) (fun d => peer d 7) (fun c => peer c 5) (fun c => peerE_right 7 c) (fun d => peer_rev d 7) () 1 c) $$ L12
  ihave B6 := (Pipeline.launchCred_tallyAt (.reg barS) (fun d => peer d 6) (fun c => peer c 6) (fun c => peerE_right 6 c) (fun d => peer_rev d 6) () 1 c) $$ L13
  ihave B5 := (Pipeline.launchCred_tallyAt (.reg barS) (fun d => peer d 5) (fun c => peer c 7) (fun c => peerE_right 5 c) (fun d => peer_rev d 5) () 1 c) $$ L14
  ihave B4 := (Pipeline.launchCred_tallyAt (.reg barS) (fun d => peer d 4) (fun c => peer c 8) (fun c => peerE_right 4 c) (fun d => peer_rev d 4) () 1 c) $$ L15
  ihave B3 := (Pipeline.launchCred_tallyAt (.reg barS) (fun d => peer d 3) (fun c => peer c 9) (fun c => peerE_right 3 c) (fun d => peer_rev d 3) () 1 c) $$ L16
  ihave B2 := (Pipeline.launchCred_tallyAt (.reg barS) (fun d => peer d 2) (fun c => peer c 0) (fun c => peerE_right 2 c) (fun d => peer_rev d 2) () 1 c) $$ L17
  ihave B1 := (Pipeline.launchCred_tallyAt (.reg barS) (fun d => peer d 1) (fun c => peer c 1) (fun c => peerE_right 1 c) (fun d => peer_rev d 1) () 1 c) $$ L18
  ihave B0 := (Pipeline.launchCred_tallyAt (.reg barS) (fun d => peer d 0) (fun c => peer c 2) (fun c => peerE_right 0 c) (fun d => peer_rev d 0) () 1 c) $$ L19
  ihave BB := (cred_join (F := F) (barCell c) 1 1) $$ [B0 B1]
  · isplitl [B0] <;> iassumption
  ihave BB := (cred_join (F := F) (barCell c) 2 1) $$ [BB B2]
  · isplitl [BB] <;> iassumption
  ihave BB := (cred_join (F := F) (barCell c) 3 1) $$ [BB B3]
  · isplitl [BB] <;> iassumption
  ihave BB := (cred_join (F := F) (barCell c) 4 1) $$ [BB B4]
  · isplitl [BB] <;> iassumption
  ihave BB := (cred_join (F := F) (barCell c) 5 1) $$ [BB B5]
  · isplitl [BB] <;> iassumption
  ihave BB := (cred_join (F := F) (barCell c) 6 1) $$ [BB B6]
  · isplitl [BB] <;> iassumption
  ihave BB := (cred_join (F := F) (barCell c) 7 1) $$ [BB B7]
  · isplitl [BB] <;> iassumption
  ihave BB := (cred_join (F := F) (barCell c) 8 1) $$ [BB B8]
  · isplitl [BB] <;> iassumption
  ihave BB := (cred_join (F := F) (barCell c) 9 1) $$ [BB B9]
  · isplitl [BB] <;> iassumption
  unfold creds
  isplitl [BB]; · iexact BB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ bufs
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of 32 devices, for any float values, from any memory with zero counters: every weakly fair
    execution of @main terminates, nothing faults, and every final state has each device's three arrays at the
    proof data's final contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The arrays after the run -/

theorem finalA_x (c : Dev nD) : finalA m c (0 : Fin 3) = m (win0_0.arr.view.loc (c : Thread nD τ)) :=
  (dats (F := F) m 0 c).arrAt_in (0 : Fin 3) rfl _
theorem finalA_dy (c : Dev nD) : finalA m c (1 : Fin 3) = m (win0_1.arr.view.loc (c : Thread nD τ)) :=
  (dats (F := F) m 0 c).arrAt_in (1 : Fin 3) rfl _
/-- The result window's one block is the whole result array: after the run it holds what the body left. -/
theorem finalA_o (c : Dev nD) : finalA m c (2 : Fin 3) = outAt m c := by
  have h : (win0_2.blk t0_0).view.read (Elt F) (finalA m c (2 : Fin 3)) = outAt m c := by
    unfold finalA
    rw [show cfg0.N = (t0_0 : Fin cfg0.N).val + 1 from rfl, (dats m 0 c).arrAt_succ (2 : Fin 3) t0_0]
    rw [show (cfg0.win (2 : Fin 3)).flush t0_0 = true from flush0_2 t0_0, if_pos rfl]
    exact View.read_write_univ _ _
  have hz : (fun a => (win0_2.index t0_0) a * main_v1.ty.shape.size a) = fun _ => 0 := funext fun a => by fin_cases a <;> decide
  rw [← h]
  exact (Memref.read_access_unit_zero (Elt F) main_v1 hz (fun a => by fin_cases a <;> decide) _).symm

/-- The run with every array named: the result array at the device's result block, both argument arrays as they were. -/
theorem run_frame : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c 2).trans (finalA_o m c), (h c 0).trans (finalA_x m c), (h c 1).trans (finalA_dy m c)⟩)
    (run_main m ρ)

end Cert.KernelIdealProof

end
-- ==== Proof.LibQuarterSum.lean ====
/-
  A sum over 4096 consecutive indices, cut into its four quarters of 1024.

  Addition in a commutative monoid is associative, so a sum over the indices `0, …, 4n − 1` taken in order is the sum
  over the first `n` indices, plus the sum over the next `n`, plus the third `n`, plus the last `n`: index `j` of quarter
  `a` is index `a·n + j` of the whole. A matrix product whose contracted axis of 4096 is computed as four partial
  products over 1024 coordinates each, added in order, is the whole product by this identity.
-/
import Mathlib.Algebra.BigOperators.Fin

open scoped BigOperators

namespace Cert.LibQuarterSum

/-- A sum over `n + n + n + n` consecutive indices is the sum of the four sums over its quarters, in order. -/
theorem sum_four_quarters {M : Type*} [AddCommMonoid M] (n : ℕ) (f : Fin (n + n + n + n) → M) :
    ∑ j, f j = (∑ k : Fin n, f ⟨k.val, by omega⟩) + (∑ k : Fin n, f ⟨n + k.val, by omega⟩)
      + (∑ k : Fin n, f ⟨n + n + k.val, by omega⟩) + (∑ k : Fin n, f ⟨n + n + n + k.val, by omega⟩) := by
  rw [Fin.sum_univ_add, Fin.sum_univ_add, Fin.sum_univ_add]
  rfl

/-- A sum over 4096 consecutive indices is the sum of the four sums over its quarters of 1024, in order: quarter `a`
    holds the indices `1024·a + k`. -/
theorem sum_4096 {M : Type*} [AddCommMonoid M] (f : Fin 4096 → M) :
    ∑ j : Fin 4096, f j = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) :=
  sum_four_quarters 1024 f

end Cert.LibQuarterSum
-- ==== Proof.KernelIdealValue.lean ====
/-
  The values at the ideal instance, where a float is an extended real and every format change is the identity.

  Device c = 16·x + 4·y + z holds rows 512·y … of x and of dy. Its partial product P(c) is the contraction of those 512
  rows: P(c)[a, b] = Σ_{k < 512} x[512·y + k, a] · dy[512·y + k, 256·g + b]. The reduce-scatter hands c the rows
  128·y(c) … of P of the three devices that differ from it in y only, so A(c)[r, b] = Σ over the four y of those row
  blocks = Σ_{k < 2048} x[k, 128·y + r] · dy[k, 256·g + b]: the contraction over all 2048 rows, cut into its four
  quarters. The all-gather puts A of the device with gather index g' into columns 256·g' … of every device with the
  same y: the result block of c is rows 128·y(c) … of xᵀ·dy, which is block y(c) of the reference's result.
-/
import proofs.«900392_g7700000000000393_dist_rsdw_v7x_xyz2x4x4_y_m512_d512_f2048_bf16_1_alg».proof.Proof.KernelIdealOut
import proofs.«900392_g7700000000000393_dist_rsdw_v7x_xyz2x4x4_y_m512_d512_f2048_bf16_1_alg».proof.Proof.Gen.ReferenceIdeal.Read
import proofs.«900392_g7700000000000393_dist_rsdw_v7x_xyz2x4x4_y_m512_d512_f2048_bf16_1_alg».proof.Proof.LibQuarterSum
import Idealize.ShloMosaic.Lib.Layout
import Idealize.ShloMosaic.Lib.ValueIdx
import Idealize.ShloMosaic.Lib.Pipeline.Value
import Idealize.ShloMosaic.PureOps.Ideal.Laws

noncomputable section

namespace Cert.KernelIdealProof.Val

open Cert.KernelIdeal Cert.KernelIdeal.Gen Cert.KernelIdealProof

open Idealize.ShloMosaic
open Idealize.ShloMosaic.TcCoe Idealize.ShloMosaic.ValueIdx
open Idealize.SL Idealize.SL.Sem

open scoped BigOperators

variable (m : (ℓ : Loc nD τ sig) → Buf (Elt Ideal) ℓ)

/-! ## The local product -/

abbrev D0 := dot_S512x512_S512x256_S512x256_0_0_1_1_n_n

theorem lhs_nc (j : S512x256.Idx) (q : D0.contr.Idx) : (D0.lhsIdx j q 1).val = (j 0).val := by
  unfold DotDims.lhsIdx
  rw [dif_neg (show ¬(1 : Fin S512x512.rank) ∈ D0.lhsBatch by decide), dif_pos (show (1 : Fin S512x512.rank) ∈ D0.lhsNonContracting by decide)]
  rfl
theorem rhs_nc (j : S512x256.Idx) (q : D0.contr.Idx) : (D0.rhsIdx j q 1).val = (j 1).val := by
  unfold DotDims.rhsIdx
  rw [dif_neg (show ¬(1 : Fin S512x256.rank) ∈ D0.rhsBatch by decide), dif_pos (show (1 : Fin S512x256.rank) ∈ D0.rhsNonContracting by decide)]
  rfl

/-- The matrix product into a zero accumulator, contracted over the 512 rows of both operands. -/
theorem mm_apply (A : FVec Ideal S512x512 .bf16) (B : FVec Ideal S512x256 .bf16) (j : S512x256.Idx) :
    matmul D0 none A B (constant S512x256 .f32 0x00000000#32) j = ∑ k : Fin 512, A (ix2 k (j 0)) * B (ix2 k (j 1)) := by
  simp only [matmul]
  rw [Ideal.matmul_constant_zero_apply, ← Equiv.sum_comp (ValueIdx.contrEquiv1 D0 512 rfl rfl).symm]
  refine Finset.sum_congr rfl fun k _ => ?_
  have hk := ValueIdx.contrEquiv1_symm_val D0 512 rfl rfl k
  have el : D0.lhsIdx j ((ValueIdx.contrEquiv1 D0 512 rfl rfl).symm k) = ix2 k (j 0) := funext fun a => Fin.ext (by
    match a with
    | ⟨0, _⟩ => exact (D0.lhsIdx_val_of_single rfl j _).trans hk
    | ⟨1, _⟩ => exact lhs_nc _ _)
  have er : D0.rhsIdx j ((ValueIdx.contrEquiv1 D0 512 rfl rfl).symm k) = ix2 k (j 1) := funext fun a => Fin.ext (by
    match a with
    | ⟨0, _⟩ => exact (D0.rhsIdx_val_of_single rfl j _).trans hk
    | ⟨1, _⟩ => exact rhs_nc _ _)
  rw [el, er]
  rfl

theorem hz0 : (![0, 0] : Fin 2 → Nat) = fun _ => 0 := funext fun a => by fin_cases a <;> rfl

/-- Device c's rows of x and of dy, as arrays of extended reals. -/
def xB (c : Dev nD) : S512x512.Idx → EReal := m ((c : Thread nD τ).loc main_arg0)
def dyB (c : Dev nD) : S512x2048.Idx → EReal := m ((c : Thread nD τ).loc main_arg1)

/-- The staged blocks are the device's argument buffers (each window's one block is the whole array). -/
theorem xC_eq (c : Dev nD) : xC m c = xB m c := by
  unfold xC
  have hz : (fun a => (win0_0.index t0_0) a * main_arg0.ty.shape.size a) = fun _ => 0 := funext fun a => by fin_cases a <;> decide
  exact Memref.read_access_unit_zero (Elt Ideal) main_arg0 hz (fun a => by fin_cases a <;> decide) _
theorem dyC_eq (c : Dev nD) : dyC m c = dyB m c := by
  unfold dyC
  have hz : (fun a => (win0_1.index t0_0) a * main_arg1.ty.shape.size a) = fun _ => 0 := funext fun a => by fin_cases a <;> decide
  exact Memref.read_access_unit_zero (Elt Ideal) main_arg1 hz (fun a => by fin_cases a <;> decide) _

/-- P(c) at an entry: the contraction of the device's 512 rows of x with its rows of dy, in column block g(c). -/
theorem partV_apply (c : Dev nD) (a : Fin 512) (b : Fin 256) :
    (partV m c (ix2 a b) : EReal) = ∑ k : Fin 512, xB m c (ix2 k a)
      * dyB m c (ix2 k (⟨256 * (2 * (c.val % 4) + c.val / 16) + b.val, by have := c.isLt; have : nD = 32 := rfl; omega⟩ : Fin 2048)) := by
  unfold partV k0_pay1
  simp only [shapeCast_self]
  rw [truncf_apply, mm_apply]
  refine Finset.sum_congr rfl fun k _ => ?_
  rw [truncf_apply, truncf_apply]
  have e1 : View.readAt (Elt Ideal) (View.whole cc0_stg0_0) rX.toLoadRect (xC m c) (ix2 k (ix2 a b 0)) = xB m c (ix2 k a) := by
    rw [show View.readAt (Elt Ideal) (View.whole cc0_stg0_0) rX.toLoadRect (xC m c) = xC m c from
      Memref.readAt_unit_zero (Elt Ideal) cc0_stg0_0 hz0 _ _, xC_eq]
  have e2 : View.readAt (Elt Ideal) (View.whole cc0_stg1_0) (rDy c).toLoadRect (dyC m c) (ix2 k (ix2 a b 1))
      = dyB m c (ix2 k (⟨256 * (2 * (c.val % 4) + c.val / 16) + b.val, by have := c.isLt; have : nD = 32 := rfl; omega⟩ : Fin 2048)) := by
    rw [View.readAt_apply, View.read_whole, dyC_eq]
    refine congrArg (dyB m c) (funext fun d => ?_)
    match d with
    | ⟨0, _⟩ => exact Fin.ext (by simp [LoadRect.idx_apply, k0_off1_eq c])
    | ⟨1, _⟩ => exact Fin.ext (by simp [LoadRect.idx_apply, k0_off1_eq c]; omega)
  rw [e1, e2]

/-! ## What a landing slot holds, read back through the buffer's plane -/

theorem rs_read0 (c : Dev nD) (j : S128x256.Idx) :
    shapeCast S128x256 (rM.view.readAt (Elt Ideal) rR0.toLoadRect (rsBuf m c 0)) shapeCasts_S1x128x256_S128x256 j = rsVec m c 0 j :=
  (View.write_emb_of_mem (v := (slot 0).view) (View.junk (Val := Elt Ideal) (View.whole cc0_scratch1)) (rsVec m c 0) (Finset.mem_univ j))
theorem rs_read1 (c : Dev nD) (j : S128x256.Idx) :
    shapeCast S128x256 (rM.view.readAt (Elt Ideal) rR1.toLoadRect (rsBuf m c 1)) shapeCasts_S1x128x256_S128x256 j = rsVec m c 1 j :=
  (View.write_emb_of_mem (v := (slot 1).view) (View.junk (Val := Elt Ideal) (View.whole cc0_scratch1)) (rsVec m c 1) (Finset.mem_univ j))
theorem rs_read2 (c : Dev nD) (j : S128x256.Idx) :
    shapeCast S128x256 (rM.view.readAt (Elt Ideal) rR2.toLoadRect (rsBuf m c 2)) shapeCasts_S1x128x256_S128x256 j = rsVec m c 2 j :=
  (View.write_emb_of_mem (v := (slot 2).view) (View.junk (Val := Elt Ideal) (View.whole cc0_scratch1)) (rsVec m c 2) (Finset.mem_univ j))
theorem g_read0 (c : Dev nD) (j : S128x256.Idx) :
    shapeCast S128x256 (gM.view.readAt (Elt Ideal) rG0.toLoadRect (gBuf m c 0)) shapeCasts_S1x128x256_S128x256 j = gVec m c 0 j :=
  (View.write_emb_of_mem (v := (slot 3).view) (View.junk (Val := Elt Ideal) (View.whole cc0_scratch2)) (gVec m c 0) (Finset.mem_univ j))
theorem g_read1 (c : Dev nD) (j : S128x256.Idx) :
    shapeCast S128x256 (gM.view.readAt (Elt Ideal) rG1.toLoadRect (gBuf m c 1)) shapeCasts_S1x128x256_S128x256 j = gVec m c 1 j :=
  (View.write_emb_of_mem (v := (slot 4).view) (View.junk (Val := Elt Ideal) (View.whole cc0_scratch2)) (gVec m c 1) (Finset.mem_univ j))
theorem g_read2 (c : Dev nD) (j : S128x256.Idx) :
    shapeCast S128x256 (gM.view.readAt (Elt Ideal) rG2.toLoadRect (gBuf m c 2)) shapeCasts_S1x128x256_S128x256 j = gVec m c 2 j :=
  (View.write_emb_of_mem (v := (slot 5).view) (View.junk (Val := Elt Ideal) (View.whole cc0_scratch2)) (gVec m c 2) (Finset.mem_univ j))
theorem g_read3 (c : Dev nD) (j : S128x256.Idx) :
    shapeCast S128x256 (gM.view.readAt (Elt Ideal) rG3.toLoadRect (gBuf m c 3)) shapeCasts_S1x128x256_S128x256 j = gVec m c 3 j :=
  (View.write_emb_of_mem (v := (slot 6).view) (View.junk (Val := Elt Ideal) (View.whole cc0_scratch2)) (gVec m c 3) (Finset.mem_univ j))
theorem g_read4 (c : Dev nD) (j : S128x256.Idx) :
    shapeCast S128x256 (gM.view.readAt (Elt Ideal) rG4.toLoadRect (gBuf m c 4)) shapeCasts_S1x128x256_S128x256 j = gVec m c 4 j :=
  (View.write_emb_of_mem (v := (slot 7).view) (View.junk (Val := Elt Ideal) (View.whole cc0_scratch2)) (gVec m c 4) (Finset.mem_univ j))
theorem g_read5 (c : Dev nD) (j : S128x256.Idx) :
    shapeCast S128x256 (gM.view.readAt (Elt Ideal) rG5.toLoadRect (gBuf m c 5)) shapeCasts_S1x128x256_S128x256 j = gVec m c 5 j :=
  (View.write_emb_of_mem (v := (slot 8).view) (View.junk (Val := Elt Ideal) (View.whole cc0_scratch2)) (gVec m c 5) (Finset.mem_univ j))
theorem g_read6 (c : Dev nD) (j : S128x256.Idx) :
    shapeCast S128x256 (gM.view.readAt (Elt Ideal) rG6.toLoadRect (gBuf m c 6)) shapeCasts_S1x128x256_S128x256 j = gVec m c 6 j :=
  (View.write_emb_of_mem (v := (slot 9).view) (View.junk (Val := Elt Ideal) (View.whole cc0_scratch2)) (gVec m c 6) (Finset.mem_univ j))

/-! ## The mesh coordinates of a device and of its peers -/

/-- y(c), the block of rows device c holds; g(c), its place among the eight devices of one y. -/
def yOf (c : Dev nD) : ℕ := (c.val / 4) % 4
def gOf (c : Dev nD) : ℕ := 2 * (c.val % 4) + c.val / 16
theorem yOf_lt (c : Dev nD) : yOf c < 4 := Nat.mod_lt _ (by decide)
theorem gOf_lt (c : Dev nD) : gOf c < 8 := by unfold gOf; have := c.isLt; have : nD = 32 := rfl; omega

theorem peer_lo : ∀ (c : Dev nD) (i : Fin 10), i.val < 3 → yOf (peer c i) = (yOf c + i.val + 1) % 4 ∧ gOf (peer c i) = gOf c := by decide +kernel
theorem peer_lo0 : ∀ c : Dev nD, yOf (peer c 0) = (yOf c + 1) % 4 ∧ gOf (peer c 0) = gOf c := by decide +kernel
theorem peer_lo1 : ∀ c : Dev nD, yOf (peer c 1) = (yOf c + 2) % 4 ∧ gOf (peer c 1) = gOf c := by decide +kernel
theorem peer_lo2 : ∀ c : Dev nD, yOf (peer c 2) = (yOf c + 3) % 4 ∧ gOf (peer c 2) = gOf c := by decide +kernel
theorem peer_hi9 : ∀ c : Dev nD, yOf (peer c 9) = yOf c ∧ gOf (peer c 9) = (gOf c + 7) % 8 := by decide +kernel
theorem peer_hi8 : ∀ c : Dev nD, yOf (peer c 8) = yOf c ∧ gOf (peer c 8) = (gOf c + 6) % 8 := by decide +kernel
theorem peer_hi7 : ∀ c : Dev nD, yOf (peer c 7) = yOf c ∧ gOf (peer c 7) = (gOf c + 5) % 8 := by decide +kernel
theorem peer_hi6 : ∀ c : Dev nD, yOf (peer c 6) = yOf c ∧ gOf (peer c 6) = (gOf c + 4) % 8 := by decide +kernel
theorem peer_hi5 : ∀ c : Dev nD, yOf (peer c 5) = yOf c ∧ gOf (peer c 5) = (gOf c + 3) % 8 := by decide +kernel
theorem peer_hi4 : ∀ c : Dev nD, yOf (peer c 4) = yOf c ∧ gOf (peer c 4) = (gOf c + 2) % 8 := by decide +kernel
theorem peer_hi3 : ∀ c : Dev nD, yOf (peer c 3) = yOf c ∧ gOf (peer c 3) = (gOf c + 1) % 8 := by decide +kernel
theorem peer_hi : ∀ (c : Dev nD) (i : Fin 10), 3 ≤ i.val → yOf (peer c i) = yOf c ∧ gOf (peer c i) = (gOf c + (i.val - 2)) % 8 := by decide +kernel
theorem ml1 : ∀ c : Dev nD, Layout.meshLin [2, 4, 4] c.val [1] = yOf c := by decide
theorem ml0 (c : Dev nD) : Layout.meshLin [2, 4, 4] c.val [] = 0 := rfl

/-! ## The whole arrays, their quarters, and the reference -/

section Whole
variable (X : (⟨2, ![2048, 512]⟩ : Shape).Idx → EReal) (DY : (⟨2, ![2048, 2048]⟩ : Shape).Idx → EReal)

/-- Row k of quarter y of the 2048 rows. -/
def qIdx : Fin 4 → Fin 512 → Fin 2048
  | 0, k => ⟨k.val, by omega⟩ | 1, k => ⟨512 + k.val, by omega⟩ | 2, k => ⟨512 + 512 + k.val, by omega⟩ | 3, k => ⟨512 + 512 + 512 + k.val, by omega⟩
theorem qIdx_val (y : Fin 4) (k : Fin 512) : (qIdx y k).val = 512 * y.val + k.val := by
  fin_cases y <;> simp [qIdx] <;> omega

/-- The contraction over ONE quarter of the rows, -/
def Qg (y : Fin 4) (row : Fin 512) (col : Fin 2048) : EReal := ∑ k : Fin 512, X (ix2 (qIdx y k) row) * DY (ix2 (qIdx y k) col)
/-- and over all of them: an entry of xᵀ · dy. -/
def Rf (row : Fin 512) (col : Fin 2048) : EReal := ∑ k : Fin 2048, X (ix2 k row) * DY (ix2 k col)

theorem Rf_quarters (row : Fin 512) (col : Fin 2048) :
    Rf X DY row col = Qg X DY 0 row col + Qg X DY 1 row col + Qg X DY 2 row col + Qg X DY 3 row col :=
  Cert.LibQuarterSum.sum_four_quarters 512 (fun k : Fin (512 + 512 + 512 + 512) => X (ix2 k row) * DY (ix2 k col))

/-- The four quarters in the order a device of block y adds them: its own, then those of the devices 3, 2 and 1 steps
    up in y. Addition of extended reals is commutative and associative. -/
theorem Rf_rotated (y : ℕ) (hy : y < 4) (row : Fin 512) (col : Fin 2048) :
    Qg X DY ⟨y, hy⟩ row col + Qg X DY ⟨(y + 3) % 4, Nat.mod_lt _ (by decide)⟩ row col + Qg X DY ⟨(y + 2) % 4, Nat.mod_lt _ (by decide)⟩ row col
      + Qg X DY ⟨(y + 1) % 4, Nat.mod_lt _ (by decide)⟩ row col = Rf X DY row col := by
  rw [Rf_quarters]
  have h : y = 0 ∨ y = 1 ∨ y = 2 ∨ y = 3 := by omega
  rcases h with rfl | rfl | rfl | rfl
  · show Qg X DY 0 row col + Qg X DY 3 row col + Qg X DY 2 row col + Qg X DY 1 row col = _; ac_rfl
  · show Qg X DY 1 row col + Qg X DY 0 row col + Qg X DY 3 row col + Qg X DY 2 row col = _; ac_rfl
  · show Qg X DY 2 row col + Qg X DY 1 row col + Qg X DY 0 row col + Qg X DY 3 row col = _; ac_rfl
  · show Qg X DY 3 row col + Qg X DY 2 row col + Qg X DY 1 row col + Qg X DY 0 row col = _; ac_rfl

theorem ref_apply (i : (⟨2, ![512, 2048]⟩ : Shape).Idx) :
    (Cert.ReferenceIdeal.Read.val_main_v1 (F := Ideal) X DY i : EReal) = Rf X DY (i 0) (i 1) := by
  rw [Cert.ReferenceIdeal.Read.val_main_v1_apply]
  unfold Rf
  refine Finset.sum_congr rfl fun k _ => ?_
  rw [Cert.ReferenceIdeal.Read.val_main_v0_apply]
  congr 1
  · refine congrArg X (funext fun d => ?_)
    match d with
    | ⟨0, _⟩ => rfl
    | ⟨1, _⟩ => rfl
  · refine congrArg DY (funext fun d => ?_)
    match d with
    | ⟨0, _⟩ => rfl
    | ⟨1, _⟩ => rfl

end Whole

/-! ## The devices' buffers as parts of the whole arrays -/

section Device
variable (X : (⟨2, ![2048, 512]⟩ : Shape).Idx → EReal) (DY : (⟨2, ![2048, 2048]⟩ : Shape).Idx → EReal)
variable (hag : ∀ c : Dev nD, m ((c : Thread nD τ).loc main_arg0) = Layout.blockN ⟨2, ![512, 512]⟩ ⟨2, ![2048, 512]⟩ (Layout.meshBlock [2, 4, 4] ![[1], []] c) X
      ∧ m ((c : Thread nD τ).loc main_arg1) = Layout.blockN ⟨2, ![512, 2048]⟩ ⟨2, ![2048, 2048]⟩ (Layout.meshBlock [2, 4, 4] ![[1], []] c) DY)
include hag

omit hag in
theorem Qg_congr (y y' : Fin 4) (row row' : Fin 512) (col col' : Fin 2048) (hy : y.val = y'.val) (hr : row.val = row'.val) (hc : col.val = col'.val) :
    Qg X DY y row col = Qg X DY y' row' col' := by
  cases Fin.ext hy; cases Fin.ext hr; cases Fin.ext hc; rfl

theorem xB_apply (q : Dev nD) (k a : Fin 512) : xB m q (ix2 k a) = X (ix2 (qIdx ⟨yOf q, yOf_lt q⟩ k) a) := by
  unfold xB
  rw [(hag q).1, Layout.blockN_apply]
  refine congrArg X (funext fun d => ?_)
  match d with
  | ⟨0, _⟩ => exact Fin.ext (by rw [Layout.TilesN.idx_val, qIdx_val]; simp [ml1]; omega)
  | ⟨1, _⟩ => exact Fin.ext (by rw [Layout.TilesN.idx_val]; simp [ml0])

theorem dyB_apply (q : Dev nD) (k : Fin 512) (col : Fin 2048) : dyB m q (ix2 k col) = DY (ix2 (qIdx ⟨yOf q, yOf_lt q⟩ k) col) := by
  unfold dyB
  rw [(hag q).2, Layout.blockN_apply]
  refine congrArg DY (funext fun d => ?_)
  match d with
  | ⟨0, _⟩ => exact Fin.ext (by rw [Layout.TilesN.idx_val, qIdx_val]; simp [ml1]; omega)
  | ⟨1, _⟩ => exact Fin.ext (by rw [Layout.TilesN.idx_val]; simp [ml0])

/-- P(q) at an entry is one quarter's contraction. -/
theorem part_Q (q : Dev nD) (a : Fin 512) (b : Fin 256) :
    (partV m q (ix2 a b) : EReal) = Qg X DY ⟨yOf q, yOf_lt q⟩ a ⟨256 * gOf q + b.val, by have := gOf_lt q; omega⟩ := by
  rw [partV_apply]
  unfold Qg
  refine Finset.sum_congr rfl fun k _ => ?_
  rw [xB_apply m X DY hag, dyB_apply m X DY hag]
  rfl

omit hag in
/-- A block of 128 rows of the partial-product buffer, read at an entry. -/
theorem p_read (q : Dev nD) (off : Fin 2 → ℕ) (inb : ∀ a, off a + S128x256.size a ≤ S512x256.size a) (A : ℕ) (hoff : off = ![128 * A, 0])
    (r : Fin 128) (b : Fin 256) (hA : 128 * A + r.val < 512) :
    ((pM.view.slice (Rect.unit (s := S512x256) off S128x256.size inb)).read (Elt Ideal) (pC m q) (ix2 r b) : EReal)
      = partV m q (ix2 ⟨128 * A + r.val, hA⟩ b) := by
  subst hoff
  show pC m q ((Rect.unit (s := S512x256) ![128 * A, 0] S128x256.size inb).emb (ix2 r b)) = _
  unfold pC
  refine congrArg (partV m q) (funext fun d => ?_)
  match d with
  | ⟨0, _⟩ => exact Fin.ext (by simp)
  | ⟨1, _⟩ => exact Fin.ext (by simp)

theorem rsVec0_apply (c : Dev nD) (r : Fin 128) (b : Fin 256) :
    (rsVec m c 0 (ix2 r b) : EReal) = Qg X DY ⟨(yOf c + 3) % 4, Nat.mod_lt _ (by decide)⟩
      ⟨128 * yOf c + r.val, by have := yOf_lt c; omega⟩ ⟨256 * gOf c + b.val, by have := gOf_lt c; omega⟩ := by
  have hp := peer_lo2 c
  unfold rsVec
  have e := p_read m (peer c (rev ⟨0, by omega⟩)) _ (k0_off2_inb _ 0) ((yOf (peer c 2) + 0 + 1) % 4) (k0_off2_eq _ 0) r b (by have : (yOf (peer c 2) + 0 + 1) % 4 < 4 := Nat.mod_lt _ (by decide); omega)
  refine e.trans ?_
  rw [part_Q m X DY hag]
  exact Qg_congr X DY _ _ _ _ _ _ (by show yOf (peer c 2) = _; rw [hp.1]) (by show 128 * ((yOf (peer c 2) + 0 + 1) % 4) + r.val = _; rw [hp.1]; dsimp only; have := yOf_lt c; omega) (by show 256 * gOf (peer c 2) + b.val = _; rw [hp.2])

theorem rsVec1_apply (c : Dev nD) (r : Fin 128) (b : Fin 256) :
    (rsVec m c 1 (ix2 r b) : EReal) = Qg X DY ⟨(yOf c + 2) % 4, Nat.mod_lt _ (by decide)⟩
      ⟨128 * yOf c + r.val, by have := yOf_lt c; omega⟩ ⟨256 * gOf c + b.val, by have := gOf_lt c; omega⟩ := by
  have hp := peer_lo1 c
  unfold rsVec
  have e := p_read m (peer c (rev ⟨1, by omega⟩)) _ (k0_off2_inb _ 1) ((yOf (peer c 1) + 1 + 1) % 4) (k0_off2_eq _ 1) r b (by have : (yOf (peer c 1) + 1 + 1) % 4 < 4 := Nat.mod_lt _ (by decide); omega)
  refine e.trans ?_
  rw [part_Q m X DY hag]
  exact Qg_congr X DY _ _ _ _ _ _ (by show yOf (peer c 1) = _; rw [hp.1]) (by show 128 * ((yOf (peer c 1) + 1 + 1) % 4) + r.val = _; rw [hp.1]; dsimp only; have := yOf_lt c; omega) (by show 256 * gOf (peer c 1) + b.val = _; rw [hp.2])

theorem rsVec2_apply (c : Dev nD) (r : Fin 128) (b : Fin 256) :
    (rsVec m c 2 (ix2 r b) : EReal) = Qg X DY ⟨(yOf c + 1) % 4, Nat.mod_lt _ (by decide)⟩
      ⟨128 * yOf c + r.val, by have := yOf_lt c; omega⟩ ⟨256 * gOf c + b.val, by have := gOf_lt c; omega⟩ := by
  have hp := peer_lo0 c
  unfold rsVec
  have e := p_read m (peer c (rev ⟨2, by omega⟩)) _ (k0_off2_inb _ 2) ((yOf (peer c 0) + 2 + 1) % 4) (k0_off2_eq _ 2) r b (by have : (yOf (peer c 0) + 2 + 1) % 4 < 4 := Nat.mod_lt _ (by decide); omega)
  refine e.trans ?_
  rw [part_Q m X DY hag]
  exact Qg_congr X DY _ _ _ _ _ _ (by show yOf (peer c 0) = _; rw [hp.1]) (by show 128 * ((yOf (peer c 0) + 2 + 1) % 4) + r.val = _; rw [hp.1]; dsimp only; have := yOf_lt c; omega) (by show 256 * gOf (peer c 0) + b.val = _; rw [hp.2])

/-- A(c) at an entry: the whole contraction, row 128·y(c) + r of xᵀ · dy, column 256·g(c) + b. -/
theorem acc_apply (c : Dev nD) (r : Fin 128) (b : Fin 256) :
    (accV m c (ix2 r b) : EReal) = Rf X DY ⟨128 * yOf c + r.val, by have := yOf_lt c; omega⟩ ⟨256 * gOf c + b.val, by have := gOf_lt c; omega⟩ := by
  unfold accV k0_pay2
  simp only [addf_apply, extf_apply]
  rw [rs_read0, rs_read1, rs_read2, rsVec0_apply m X DY hag, rsVec1_apply m X DY hag, rsVec2_apply m X DY hag]
  have e := p_read m c _ (k0_off3_inb c) (yOf c) (k0_off3_eq c) r b (by have := yOf_lt c; omega)
  rw [show (pM.view.readAt (Elt Ideal) (rOwn c).toLoadRect (pC m c) (ix2 r b) : EReal) = _ from e, part_Q m X DY hag]
  exact Rf_rotated X DY (yOf c) (yOf_lt c) _ _

end Device

/-! ## The gathered blocks, and the result -/

section Result
variable (X : (⟨2, ![2048, 512]⟩ : Shape).Idx → EReal) (DY : (⟨2, ![2048, 2048]⟩ : Shape).Idx → EReal)
variable (hag : ∀ c : Dev nD, m ((c : Thread nD τ).loc main_arg0) = Layout.blockN ⟨2, ![512, 512]⟩ ⟨2, ![2048, 512]⟩ (Layout.meshBlock [2, 4, 4] ![[1], []] c) X
      ∧ m ((c : Thread nD τ).loc main_arg1) = Layout.blockN ⟨2, ![512, 2048]⟩ ⟨2, ![2048, 2048]⟩ (Layout.meshBlock [2, 4, 4] ![[1], []] c) DY)
include hag

omit hag in
theorem Rf_congr (row row' : Fin 512) (col col' : Fin 2048) (hr : row.val = row'.val) (hc : col.val = col'.val) :
    Rf X DY row col = Rf X DY row' col' := by
  cases Fin.ext hr; cases Fin.ext hc; rfl

omit hag in
/-- What lands in gather slot 3 + j of c is A of the peer that counts c as its peer 3 + j (stored in the narrow format
    and in the plane's shape, read back in the block's). -/
theorem gVec_eq (c : Dev nD) (j : Fin 7) :
    gVec m c j = truncf .bf16 (accV m (peer c (rev ⟨3 + j.val, by omega⟩))) bitsLt_bf16_f32 := by
  funext x
  unfold gVec
  show (ownC m (peer c (rev ⟨3 + j.val, by omega⟩))) (((gM.access rG7 : View sig .tc _ _ _)).emb (Shape.reshapeEquiv _ x)) = _
  unfold ownC
  rw [View.write_emb_of_mem _ _ (Finset.mem_univ _)]
  show ownV m (peer c (rev ⟨3 + j.val, by omega⟩)) (Shape.reshapeEquiv _ x) = _
  unfold ownV k0_pay3
  exact congrFun (shapeCast_shapeCast (truncf .bf16 (accV m (peer c (rev ⟨3 + j.val, by omega⟩))) bitsLt_bf16_f32) shapeCasts_S128x256_S1x128x256 shapeCasts_S1x128x256_S128x256) x

omit hag in
theorem pay4_apply (c : Dev nD) (y : S128x256.Idx) :
    (k0_pay4 (gM.view.readAt (Elt Ideal) rG0.toLoadRect (gBuf m c 0)) y : EReal) = accV m (peer c 9) y := by
  unfold k0_pay4
  rw [extf_apply, g_read0, gVec_eq]
  rfl

omit hag in
theorem pay5_apply (c : Dev nD) (y : S128x256.Idx) :
    (k0_pay5 (gM.view.readAt (Elt Ideal) rG1.toLoadRect (gBuf m c 1)) y : EReal) = accV m (peer c 8) y := by
  unfold k0_pay5
  rw [extf_apply, g_read1, gVec_eq]
  rfl

omit hag in
theorem pay6_apply (c : Dev nD) (y : S128x256.Idx) :
    (k0_pay6 (gM.view.readAt (Elt Ideal) rG2.toLoadRect (gBuf m c 2)) y : EReal) = accV m (peer c 7) y := by
  unfold k0_pay6
  rw [extf_apply, g_read2, gVec_eq]
  rfl

omit hag in
theorem pay7_apply (c : Dev nD) (y : S128x256.Idx) :
    (k0_pay7 (gM.view.readAt (Elt Ideal) rG3.toLoadRect (gBuf m c 3)) y : EReal) = accV m (peer c 6) y := by
  unfold k0_pay7
  rw [extf_apply, g_read3, gVec_eq]
  rfl

omit hag in
theorem pay8_apply (c : Dev nD) (y : S128x256.Idx) :
    (k0_pay8 (gM.view.readAt (Elt Ideal) rG4.toLoadRect (gBuf m c 4)) y : EReal) = accV m (peer c 5) y := by
  unfold k0_pay8
  rw [extf_apply, g_read4, gVec_eq]
  rfl

omit hag in
theorem pay9_apply (c : Dev nD) (y : S128x256.Idx) :
    (k0_pay9 (gM.view.readAt (Elt Ideal) rG5.toLoadRect (gBuf m c 5)) y : EReal) = accV m (peer c 4) y := by
  unfold k0_pay9
  rw [extf_apply, g_read5, gVec_eq]
  rfl

omit hag in
theorem pay10_apply (c : Dev nD) (y : S128x256.Idx) :
    (k0_pay10 (gM.view.readAt (Elt Ideal) rG6.toLoadRect (gBuf m c 6)) y : EReal) = accV m (peer c 3) y := by
  unfold k0_pay10
  rw [extf_apply, g_read6, gVec_eq]
  rfl

/-- The target: row 128·y(c) + i₀ of xᵀ · dy at column i₁. -/
def Tgt (c : Dev nD) : (cc0_stg2_0 : Ref sig .tc).ty.Contents (Elt Ideal) :=
  fun i => Rf X DY ⟨128 * yOf c + (i 0).val, by have := yOf_lt c; have := (i 0).isLt; have : (cc0_stg2_0 : Ref sig .tc).ty.shape.size 0 = 128 := rfl; omega⟩
    ⟨(i 1).val, by have := (i 1).isLt; have : (cc0_stg2_0 : Ref sig .tc).ty.shape.size 1 = 2048 := rfl; omega⟩

omit hag in
/-- One store of the chain: on its block it writes the target, off it the earlier stores decide. -/
theorem write_hit {κ : Kind} {sp : Space} {s : Shape} {e : EltTy} (v : View sig κ sp s e) (f : v.ty.Contents (Elt Ideal)) (w : s.Idx → Elt Ideal e)
    (T : v.ty.Contents (Elt Ideal)) (hw : ∀ y, v.write (Elt Ideal) f w Finset.univ (v.emb y) = T (v.emb y)) (i : v.ty.Idx)
    (rest : i ∉ v.set → f i = T i) : v.write (Elt Ideal) f w Finset.univ i = T i := by
  by_cases hi : i ∈ v.set
  · unfold View.set at hi
    obtain ⟨y, -, rfl⟩ := Finset.mem_map.mp hi
    exact hw y
  · rw [View.write_of_not_mem _ _ _ (show i ∉ v.setOn Finset.univ from hi)]
    exact rest hi

theorem hwOwn (c : Dev nD) (f : (cc0_stg2_0 : Ref sig .tc).ty.Contents (Elt Ideal)) (y : S128x256.Idx) :
    ((oM.access (rOutOwn c) : View sig .tc _ _ _)).write (Elt Ideal) f (accV m c) Finset.univ
        (((oM.access (rOutOwn c) : View sig .tc _ _ _)).emb y) = Tgt X DY c (((oM.access (rOutOwn c) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (accV m c (ix2 a b) : EReal) = _
  rw [acc_apply m X DY hag]
  unfold Tgt
  refine Rf_congr X DY _ _ _ _
    (by show 128 * yOf c + a.val = 128 * yOf c + (k0_off4 c 0 + 1 * a.val)
        rw [k0_off4_eq c]; simp)
    (by show 256 * gOf c + b.val = k0_off4 c 1 + 1 * b.val
        rw [k0_off4_eq c]; unfold gOf; simp <;> omega)

theorem hw0 (c : Dev nD) (f : (cc0_stg2_0 : Ref sig .tc).ty.Contents (Elt Ideal)) (y : S128x256.Idx) :
    ((oM.access (rOut c 0) : View sig .tc _ _ _)).write (Elt Ideal) f (k0_pay4 (gM.view.readAt (Elt Ideal) rG0.toLoadRect (gBuf m c 0))) Finset.univ
        (((oM.access (rOut c 0) : View sig .tc _ _ _)).emb y) = Tgt X DY c (((oM.access (rOut c 0) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay4 (gM.view.readAt (Elt Ideal) rG0.toLoadRect (gBuf m c 0)) (ix2 a b) : EReal) = _
  rw [pay4_apply, acc_apply m X DY hag]
  have hp := peer_hi9 c
  unfold Tgt
  refine Rf_congr X DY _ _ _ _
    (by show 128 * yOf (peer c 9) + a.val = 128 * yOf c + (k0_off5 c (BitVec.ofNat 32 (1 + (0 : Fin 7).val)) 0 + 1 * a.val)
        rw [hp.1, k0_off5_eq c 0]; simp)
    (by show 256 * gOf (peer c 9) + b.val = k0_off5 c (BitVec.ofNat 32 (1 + (0 : Fin 7).val)) 1 + 1 * b.val
        rw [hp.2, k0_off5_eq c 0]; unfold gOf; simp <;> omega)

theorem hw1 (c : Dev nD) (f : (cc0_stg2_0 : Ref sig .tc).ty.Contents (Elt Ideal)) (y : S128x256.Idx) :
    ((oM.access (rOut c 1) : View sig .tc _ _ _)).write (Elt Ideal) f (k0_pay5 (gM.view.readAt (Elt Ideal) rG1.toLoadRect (gBuf m c 1))) Finset.univ
        (((oM.access (rOut c 1) : View sig .tc _ _ _)).emb y) = Tgt X DY c (((oM.access (rOut c 1) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay5 (gM.view.readAt (Elt Ideal) rG1.toLoadRect (gBuf m c 1)) (ix2 a b) : EReal) = _
  rw [pay5_apply, acc_apply m X DY hag]
  have hp := peer_hi8 c
  unfold Tgt
  refine Rf_congr X DY _ _ _ _
    (by show 128 * yOf (peer c 8) + a.val = 128 * yOf c + (k0_off5 c (BitVec.ofNat 32 (1 + (1 : Fin 7).val)) 0 + 1 * a.val)
        rw [hp.1, k0_off5_eq c 1]; simp)
    (by show 256 * gOf (peer c 8) + b.val = k0_off5 c (BitVec.ofNat 32 (1 + (1 : Fin 7).val)) 1 + 1 * b.val
        rw [hp.2, k0_off5_eq c 1]; unfold gOf; simp <;> omega)

theorem hw2 (c : Dev nD) (f : (cc0_stg2_0 : Ref sig .tc).ty.Contents (Elt Ideal)) (y : S128x256.Idx) :
    ((oM.access (rOut c 2) : View sig .tc _ _ _)).write (Elt Ideal) f (k0_pay6 (gM.view.readAt (Elt Ideal) rG2.toLoadRect (gBuf m c 2))) Finset.univ
        (((oM.access (rOut c 2) : View sig .tc _ _ _)).emb y) = Tgt X DY c (((oM.access (rOut c 2) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay6 (gM.view.readAt (Elt Ideal) rG2.toLoadRect (gBuf m c 2)) (ix2 a b) : EReal) = _
  rw [pay6_apply, acc_apply m X DY hag]
  have hp := peer_hi7 c
  unfold Tgt
  refine Rf_congr X DY _ _ _ _
    (by show 128 * yOf (peer c 7) + a.val = 128 * yOf c + (k0_off5 c (BitVec.ofNat 32 (1 + (2 : Fin 7).val)) 0 + 1 * a.val)
        rw [hp.1, k0_off5_eq c 2]; simp)
    (by show 256 * gOf (peer c 7) + b.val = k0_off5 c (BitVec.ofNat 32 (1 + (2 : Fin 7).val)) 1 + 1 * b.val
        rw [hp.2, k0_off5_eq c 2]; unfold gOf; simp <;> omega)

theorem hw3 (c : Dev nD) (f : (cc0_stg2_0 : Ref sig .tc).ty.Contents (Elt Ideal)) (y : S128x256.Idx) :
    ((oM.access (rOut c 3) : View sig .tc _ _ _)).write (Elt Ideal) f (k0_pay7 (gM.view.readAt (Elt Ideal) rG3.toLoadRect (gBuf m c 3))) Finset.univ
        (((oM.access (rOut c 3) : View sig .tc _ _ _)).emb y) = Tgt X DY c (((oM.access (rOut c 3) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay7 (gM.view.readAt (Elt Ideal) rG3.toLoadRect (gBuf m c 3)) (ix2 a b) : EReal) = _
  rw [pay7_apply, acc_apply m X DY hag]
  have hp := peer_hi6 c
  unfold Tgt
  refine Rf_congr X DY _ _ _ _
    (by show 128 * yOf (peer c 6) + a.val = 128 * yOf c + (k0_off5 c (BitVec.ofNat 32 (1 + (3 : Fin 7).val)) 0 + 1 * a.val)
        rw [hp.1, k0_off5_eq c 3]; simp)
    (by show 256 * gOf (peer c 6) + b.val = k0_off5 c (BitVec.ofNat 32 (1 + (3 : Fin 7).val)) 1 + 1 * b.val
        rw [hp.2, k0_off5_eq c 3]; unfold gOf; simp <;> omega)

theorem hw4 (c : Dev nD) (f : (cc0_stg2_0 : Ref sig .tc).ty.Contents (Elt Ideal)) (y : S128x256.Idx) :
    ((oM.access (rOut c 4) : View sig .tc _ _ _)).write (Elt Ideal) f (k0_pay8 (gM.view.readAt (Elt Ideal) rG4.toLoadRect (gBuf m c 4))) Finset.univ
        (((oM.access (rOut c 4) : View sig .tc _ _ _)).emb y) = Tgt X DY c (((oM.access (rOut c 4) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay8 (gM.view.readAt (Elt Ideal) rG4.toLoadRect (gBuf m c 4)) (ix2 a b) : EReal) = _
  rw [pay8_apply, acc_apply m X DY hag]
  have hp := peer_hi5 c
  unfold Tgt
  refine Rf_congr X DY _ _ _ _
    (by show 128 * yOf (peer c 5) + a.val = 128 * yOf c + (k0_off5 c (BitVec.ofNat 32 (1 + (4 : Fin 7).val)) 0 + 1 * a.val)
        rw [hp.1, k0_off5_eq c 4]; simp)
    (by show 256 * gOf (peer c 5) + b.val = k0_off5 c (BitVec.ofNat 32 (1 + (4 : Fin 7).val)) 1 + 1 * b.val
        rw [hp.2, k0_off5_eq c 4]; unfold gOf; simp <;> omega)

theorem hw5 (c : Dev nD) (f : (cc0_stg2_0 : Ref sig .tc).ty.Contents (Elt Ideal)) (y : S128x256.Idx) :
    ((oM.access (rOut c 5) : View sig .tc _ _ _)).write (Elt Ideal) f (k0_pay9 (gM.view.readAt (Elt Ideal) rG5.toLoadRect (gBuf m c 5))) Finset.univ
        (((oM.access (rOut c 5) : View sig .tc _ _ _)).emb y) = Tgt X DY c (((oM.access (rOut c 5) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay9 (gM.view.readAt (Elt Ideal) rG5.toLoadRect (gBuf m c 5)) (ix2 a b) : EReal) = _
  rw [pay9_apply, acc_apply m X DY hag]
  have hp := peer_hi4 c
  unfold Tgt
  refine Rf_congr X DY _ _ _ _
    (by show 128 * yOf (peer c 4) + a.val = 128 * yOf c + (k0_off5 c (BitVec.ofNat 32 (1 + (5 : Fin 7).val)) 0 + 1 * a.val)
        rw [hp.1, k0_off5_eq c 5]; simp)
    (by show 256 * gOf (peer c 4) + b.val = k0_off5 c (BitVec.ofNat 32 (1 + (5 : Fin 7).val)) 1 + 1 * b.val
        rw [hp.2, k0_off5_eq c 5]; unfold gOf; simp <;> omega)

theorem hw6 (c : Dev nD) (f : (cc0_stg2_0 : Ref sig .tc).ty.Contents (Elt Ideal)) (y : S128x256.Idx) :
    ((oM.access (rOut c 6) : View sig .tc _ _ _)).write (Elt Ideal) f (k0_pay10 (gM.view.readAt (Elt Ideal) rG6.toLoadRect (gBuf m c 6))) Finset.univ
        (((oM.access (rOut c 6) : View sig .tc _ _ _)).emb y) = Tgt X DY c (((oM.access (rOut c 6) : View sig .tc _ _ _)).emb y) := by
  obtain ⟨a, b, rfl⟩ : ∃ (a : Fin 128) (b : Fin 256), y = ix2 a b := ⟨y 0, y 1, eq_ix2 y⟩
  rw [View.write_emb_of_mem _ _ (Finset.mem_univ _)]
  show (k0_pay10 (gM.view.readAt (Elt Ideal) rG6.toLoadRect (gBuf m c 6)) (ix2 a b) : EReal) = _
  rw [pay10_apply, acc_apply m X DY hag]
  have hp := peer_hi3 c
  unfold Tgt
  refine Rf_congr X DY _ _ _ _
    (by show 128 * yOf (peer c 3) + a.val = 128 * yOf c + (k0_off5 c (BitVec.ofNat 32 (1 + (6 : Fin 7).val)) 0 + 1 * a.val)
        rw [hp.1, k0_off5_eq c 6]; simp)
    (by show 256 * gOf (peer c 3) + b.val = k0_off5 c (BitVec.ofNat 32 (1 + (6 : Fin 7).val)) 1 + 1 * b.val
        rw [hp.2, k0_off5_eq c 6]; unfold gOf; simp <;> omega)

set_option maxHeartbeats 1600000 in
/-- Every entry of the result block is the target's. -/
theorem outAt_eq (c : Dev nD) : outAt m c = Tgt X DY c := by
  funext i
  unfold outAt outW
  refine write_hit (oM.access (rOut c 6) : View sig .tc _ _ _) _ _ (Tgt X DY c) (hw6 m X DY hag c _) i fun h6 => ?_
  refine write_hit (oM.access (rOut c 5) : View sig .tc _ _ _) _ _ (Tgt X DY c) (hw5 m X DY hag c _) i fun h5 => ?_
  refine write_hit (oM.access (rOut c 4) : View sig .tc _ _ _) _ _ (Tgt X DY c) (hw4 m X DY hag c _) i fun h4 => ?_
  refine write_hit (oM.access (rOut c 3) : View sig .tc _ _ _) _ _ (Tgt X DY c) (hw3 m X DY hag c _) i fun h3 => ?_
  refine write_hit (oM.access (rOut c 2) : View sig .tc _ _ _) _ _ (Tgt X DY c) (hw2 m X DY hag c _) i fun h2 => ?_
  refine write_hit (oM.access (rOut c 1) : View sig .tc _ _ _) _ _ (Tgt X DY c) (hw1 m X DY hag c _) i fun h1 => ?_
  refine write_hit (oM.access (rOut c 0) : View sig .tc _ _ _) _ _ (Tgt X DY c) (hw0 m X DY hag c _) i fun h0 => ?_
  refine write_hit (oM.access (rOutOwn c) : View sig .tc _ _ _) _ _ (Tgt X DY c) (hwOwn m X DY hag c _) i fun ho => ?_
  exfalso
  rw [mem_out c 6 i] at h6; rw [mem_out c 5 i] at h5; rw [mem_out c 4 i] at h4; rw [mem_out c 3 i] at h3
  rw [mem_out c 2 i] at h2; rw [mem_out c 1 i] at h1; rw [mem_out c 0 i] at h0; rw [mem_outOwn c i] at ho
  have hi1 := (i 1).isLt
  have h2048 : (cc0_stg2_0 : Ref sig .tc).ty.shape.size 1 = 2048 := rfl
  simp only [Fin.val_zero, Fin.val_one, Fin.val_two, show ((3 : Fin 7).val) = 3 from rfl, show ((4 : Fin 7).val) = 4 from rfl, show ((5 : Fin 7).val) = 5 from rfl, show ((6 : Fin 7).val) = 6 from rfl] at h0 h1 h2 h3 h4 h5 h6
  have hg : 2 * (c.val % 4) + c.val / 16 ≤ 7 := by have hc := c.isLt; have hnD : nD = 32 := rfl; omega
  generalize 2 * (c.val % 4) + c.val / 16 = g at h0 h1 h2 h3 h4 h5 h6 ho hg
  omega

/-- Device c's result block is block y(c) (of four, by rows) of the reference's result. -/
theorem out_block (c : Dev nD) :
    outAt m c = Layout.blockN ⟨2, ![128, 2048]⟩ ⟨2, ![512, 2048]⟩ (Layout.meshBlock [2, 4, 4] ![[1], []] c)
      (Cert.ReferenceIdeal.Read.val_main_v1 (F := Ideal) X DY) := by
  rw [outAt_eq m X DY hag c]
  funext i
  rw [Layout.blockN_apply, ref_apply]
  unfold Tgt
  refine Rf_congr X DY _ _ _ _ (by rw [Layout.TilesN.idx_val]; simp [ml1]; omega) (by rw [Layout.TilesN.idx_val]; simp [ml0])

end Result

end Cert.KernelIdealProof.Val

end
-- ==== Proof.lean ====
/-
  The certificate of the 32-device kernel against its one-device reference xᵀ · dy.

  Frames: each program runs on every device to the end, faulting nowhere, its argument arrays unchanged — for the kernel
  (at the word-level instance and at the ideal one) this is the run of the launch under the protocol of rounds: ten entry
  signals and a barrier wait per device, three reduce-scatter copies and seven gather copies, each paid into the
  receiver's arrival cell and the sender's departure cell; the reference's is its generated run with the result dropped.
  The idealization rewrote no operation. At the ideal instance device c's result block is rows 128·y(c) … of xᵀ · dy
  (the contraction over the 2048 rows is the sum of the four devices' 512-row partial products, and the gather places the
  eight column blocks), which is block y(c) of the reference's result.
-/
import proofs.«900392_g7700000000000393_dist_rsdw_v7x_xyz2x4x4_y_m512_d512_f2048_bf16_1_alg».proof.Defs
import proofs.«900392_g7700000000000393_dist_rsdw_v7x_xyz2x4x4_y_m512_d512_f2048_bf16_1_alg».proof.Proof.Gen.Kernel
import proofs.«900392_g7700000000000393_dist_rsdw_v7x_xyz2x4x4_y_m512_d512_f2048_bf16_1_alg».proof.Proof.Gen.KernelIdeal
import proofs.«900392_g7700000000000393_dist_rsdw_v7x_xyz2x4x4_y_m512_d512_f2048_bf16_1_alg».proof.Proof.Gen.ReferenceIdeal
import proofs.«900392_g7700000000000393_dist_rsdw_v7x_xyz2x4x4_y_m512_d512_f2048_bf16_1_alg».proof.Proof.Gen.Pre_finite_inputs_Kernel
import proofs.«900392_g7700000000000393_dist_rsdw_v7x_xyz2x4x4_y_m512_d512_f2048_bf16_1_alg».proof.Proof.Gen.Pre_finite_inputs_ReferenceIdeal
import proofs.«900392_g7700000000000393_dist_rsdw_v7x_xyz2x4x4_y_m512_d512_f2048_bf16_1_alg».proof.Proof.Gen.ReferenceIdeal.Run
import proofs.«900392_g7700000000000393_dist_rsdw_v7x_xyz2x4x4_y_m512_d512_f2048_bf16_1_alg».proof.Proof.Gen.ReferenceIdeal.Read
import proofs.«900392_g7700000000000393_dist_rsdw_v7x_xyz2x4x4_y_m512_d512_f2048_bf16_1_alg».proof.Proof.KernelLaunch
import proofs.«900392_g7700000000000393_dist_rsdw_v7x_xyz2x4x4_y_m512_d512_f2048_bf16_1_alg».proof.Proof.KernelIdealLaunch
import proofs.«900392_g7700000000000393_dist_rsdw_v7x_xyz2x4x4_y_m512_d512_f2048_bf16_1_alg».proof.Proof.KernelIdealValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.KernelProof.run_frame (F := Bits) m ρ)

theorem frame_ki : Cert.frame_KernelIdeal := fun m ρ _ =>
  (θ_run Cert.KernelIdeal.defs _ _).mono (fun _ h c => (h c).2) (Cert.KernelIdealProof.run_frame (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end, the reference's result an array of which each device's result buffer holds its block
    of rows. -/
theorem algebraic : Cert.algebraic_KernelIdeal_ReferenceIdeal := by
  intro m ρ m' ρ' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩)
      (Cert.KernelIdealProof.run_frame (F := Ideal) m ρ)
    exact Cert.KernelIdealProof.Val.out_block m _ _ hagree c
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v1_eq _ _

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
